-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S32x32 : Shape := ⟨2, ![32, 32]⟩
abbrev S10000x32 : Shape := ⟨2, ![10000, 32]⟩
abbrev S400x10000 : Shape := ⟨2, ![400, 10000]⟩
abbrev S400x32 : Shape := ⟨2, ![400, 32]⟩
abbrev S2400x16 : Shape := ⟨2, ![2400, 16]⟩
abbrev S400x2432 : Shape := ⟨2, ![400, 2432]⟩
abbrev S2432x32 : Shape := ⟨2, ![2432, 32]⟩
abbrev S400x16 : Shape := ⟨2, ![400, 16]⟩
abbrev S400x4864 : Shape := ⟨2, ![400, 4864]⟩
abbrev S4864x32 : Shape := ⟨2, ![4864, 32]⟩
abbrev S400x7296 : Shape := ⟨2, ![400, 7296]⟩
abbrev S7296x32 : Shape := ⟨2, ![7296, 32]⟩
abbrev S2800x16 : Shape := ⟨2, ![2800, 16]⟩
abbrev S10000x16 : Shape := ⟨2, ![10000, 16]⟩
abbrev S16x10000 : Shape := ⟨2, ![16, 10000]⟩

abbrev nBuf : Space → Nat
  | .hbm => 20
  | .vmem => 52
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S32x32, .f32⟩
  | .hbm, ⟨6, _⟩ => ⟨S10000x32, .f32⟩
  | .hbm, ⟨7, _⟩ => ⟨S10000x32, .f32⟩
  | .hbm, ⟨8, _⟩ => ⟨S2400x16, .f32⟩
  | .hbm, ⟨9, _⟩ => ⟨S2400x16, .f32⟩
  | .hbm, ⟨10, _⟩ => ⟨S2400x16, .f32⟩
  | .hbm, ⟨11, _⟩ => ⟨S2400x16, .f32⟩
  | .hbm, ⟨12, _⟩ => ⟨S2400x16, .f32⟩
  | .hbm, ⟨13, _⟩ => ⟨S2400x16, .f32⟩
  | .hbm, ⟨14, _⟩ => ⟨S2800x16, .f32⟩
  | .hbm, ⟨15, _⟩ => ⟨S2800x16, .f32⟩
  | .hbm, ⟨16, _⟩ => ⟨S10000x16, .f32⟩
  | .hbm, ⟨17, _⟩ => ⟨S10000x16, .f32⟩
  | .hbm, ⟨18, _⟩ => ⟨S16x10000, .f32⟩
  | .hbm, ⟨19, _⟩ => ⟨S10000x10000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x32, .f32⟩
  | .local _ .vmem, ⟨4, _⟩ => ⟨S32x32, .f32⟩
  | .local _ .vmem, ⟨5, _⟩ => ⟨S400x32, .f32⟩
  | .local _ .vmem, ⟨6, _⟩ => ⟨S400x32, .f32⟩
  | .local _ .vmem, ⟨7, _⟩ => ⟨S400x32, .f32⟩
  | .local _ .vmem, ⟨8, _⟩ => ⟨S400x32, .f32⟩
  | .local _ .vmem, ⟨9, _⟩ => ⟨S10000x32, .f32⟩
  | .local _ .vmem, ⟨10, _⟩ => ⟨S10000x32, .f32⟩
  | .local _ .vmem, ⟨11, _⟩ => ⟨S400x2432, .f32⟩
  | .local _ .vmem, ⟨12, _⟩ => ⟨S400x2432, .f32⟩
  | .local _ .vmem, ⟨13, _⟩ => ⟨S2432x32, .f32⟩
  | .local _ .vmem, ⟨14, _⟩ => ⟨S400x32, .f32⟩
  | .local _ .vmem, ⟨15, _⟩ => ⟨S400x32, .f32⟩
  | .local _ .vmem, ⟨16, _⟩ => ⟨S400x16, .f32⟩
  | .local _ .vmem, ⟨17, _⟩ => ⟨S400x16, .f32⟩
  | .local _ .vmem, ⟨18, _⟩ => ⟨S400x16, .f32⟩
  | .local _ .vmem, ⟨19, _⟩ => ⟨S400x16, .f32⟩
  | .local _ .vmem, ⟨20, _⟩ => ⟨S400x4864, .f32⟩
  | .local _ .vmem, ⟨21, _⟩ => ⟨S400x4864, .f32⟩
  | .local _ .vmem, ⟨22, _⟩ => ⟨S4864x32, .f32⟩
  | .local _ .vmem, ⟨23, _⟩ => ⟨S400x32, .f32⟩
  | .local _ .vmem, ⟨24, _⟩ => ⟨S400x32, .f32⟩
  | .local _ .vmem, ⟨25, _⟩ => ⟨S400x16, .f32⟩
  | .local _ .vmem, ⟨26, _⟩ => ⟨S400x16, .f32⟩
  | .local _ .vmem, ⟨27, _⟩ => ⟨S400x16, .f32⟩
  | .local _ .vmem, ⟨28, _⟩ => ⟨S400x16, .f32⟩
  | .local _ .vmem, ⟨29, _⟩ => ⟨S400x7296, .f32⟩
  | .local _ .vmem, ⟨30, _⟩ => ⟨S400x7296, .f32⟩
  | .local _ .vmem, ⟨31, _⟩ => ⟨S7296x32, .f32⟩
  | .local _ .vmem, ⟨32, _⟩ => ⟨S400x32, .f32⟩
  | .local _ .vmem, ⟨33, _⟩ => ⟨S400x32, .f32⟩
  | .local _ .vmem, ⟨34, _⟩ => ⟨S400x16, .f32⟩
  | .local _ .vmem, ⟨35, _⟩ => ⟨S400x16, .f32⟩
  | .local _ .vmem, ⟨36, _⟩ => ⟨S400x16, .f32⟩
  | .local _ .vmem, ⟨37, _⟩ => ⟨S400x16, .f32⟩
  | .local _ .vmem, ⟨38, _⟩ => ⟨S400x10000, .f32⟩
  | .local _ .vmem, ⟨39, _⟩ => ⟨S400x10000, .f32⟩
  | .local _ .vmem, ⟨40, _⟩ => ⟨S10000x32, .f32⟩
  | .local _ .vmem, ⟨41, _⟩ => ⟨S400x32, .f32⟩
  | .local _ .vmem, ⟨42, _⟩ => ⟨S400x32, .f32⟩
  | .local _ .vmem, ⟨43, _⟩ => ⟨S400x16, .f32⟩
  | .local _ .vmem, ⟨44, _⟩ => ⟨S400x16, .f32⟩
  | .local _ .vmem, ⟨45, _⟩ => ⟨S400x16, .f32⟩
  | .local _ .vmem, ⟨46, _⟩ => ⟨S400x16, .f32⟩
  | .local _ .vmem, ⟨47, _⟩ => ⟨S400x16, .f32⟩
  | .local _ .vmem, ⟨48, _⟩ => ⟨S400x16, .f32⟩
  | .local _ .vmem, ⟨49, _⟩ => ⟨S16x10000, .f32⟩
  | .local _ .vmem, ⟨50, _⟩ => ⟨S400x10000, .f32⟩
  | .local _ .vmem, ⟨51, _⟩ => ⟨S400x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_v4_0 : Ref sig .tc := ⟨.hbm, 12, rfl⟩
abbrev main_v4_1 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc4_stg3_0 : Ref sig .tc := ⟨.vmem, 43, rfl⟩
abbrev cc4_stg3_1 : Ref sig .tc := ⟨.vmem, 44, rfl⟩
abbrev cc4_stg4_0 : Ref sig .tc := ⟨.vmem, 45, rfl⟩
abbrev cc4_stg4_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem2_1 : DmaSem sig := 49

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let c24_i32 : BitVec 32 := 24#32
  let arg0 : BitVec 32 := BitVec.ofNat 32 (i 0).val
  let v0 : BitVec 32 := Scalar.subi c24_i32 arg0
  let c400_i32 : BitVec 32 := 400#32
  let v16 : BitVec 32 := Scalar.muli v0 c400_i32
  let v17 : Index := Scalar.indexCast v16
  let c0_15 : Index := 0#32
  ![v17.toNat, 0]
def cc0_transform_0 (i : grid0.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![6], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x2432 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2432x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![6], ![false]⟩

def cc2_transform_0 (i : grid2.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x4864 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4864x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![6], ![false]⟩

def cc3_transform_0 (i : grid3.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x7296 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S7296x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S400x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![7], ![false]⟩

def cc4_transform_0 (i : grid4.Coords) : Fin 2 → Nat :=
  let arg0 : BitVec 32 := BitVec.ofNat 32 (i 0).val
  let c18_i32 : BitVec 32 := 18#32
  let v0 : BitVec 32 := Scalar.addi arg0 c18_i32
  let c0_i32 : BitVec 32 := 0#32
  let c0_i32_0 : BitVec 32 := 0#32
  ![v0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c18_i32 : BitVec 32 := 18#32
  let v0 : BitVec 32 := Scalar.addi arg0 c18_i32
  let c0_i32 : BitVec 32 := 0#32
  let c0_i32_0 : BitVec 32 := 0#32
  ![v0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S400x10000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10000x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S400x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S400x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S400x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S400x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S16x10000 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S400x10000 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  concatenates_S32x16_S32x16_S32x32_d1 : Shape.Concatenates [S32x16, S32x16] S32x32 1
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S400x10000_S400x10000_0_0 : ∀ a, (![0, 0] : Fin 2 → Nat) a + S400x10000.size a ≤ S400x10000.size a
  h_S400x10000 : 0 < S400x10000.numel
  inb_S400x32_S400x32_0_0 : ∀ a, (![0, 0] : Fin 2 → Nat) a + S400x32.size a ≤ S400x32.size a
  h_S400x32 : 0 < S400x32.numel
  inb_S32x32_S32x32_0_0 : ∀ a, (![0, 0] : Fin 2 → Nat) a + S32x32.size a ≤ S32x32.size a
  h_S32x32 : 0 < S32x32.numel
  shapeCasts_S32x32_S32x32 : S32x32.ShapeCasts S32x32
  shapeCasts_S400x32_S400x32 : S400x32.ShapeCasts S400x32
  iota_S2432x32_d0_w32 : S2432x32.Iotas .tc 32 [0]
  inb_S2432x32_S2432x32_0_0 : ∀ a, (![0, 0] : Fin 2 → Nat) a + S2432x32.size a ≤ S2432x32.size a
  h_S2432x32 : 0 < S2432x32.numel
  shapeCasts_S2432x32_S2432x32 : S2432x32.ShapeCasts S2432x32
  inb_S400x2432_S400x2432_0_0 : ∀ a, (![0, 0] : Fin 2 → Nat) a + S400x2432.size a ≤ S400x2432.size a
  h_S400x2432 : 0 < S400x2432.numel
  slices_S400x32_o0_0_S400x16 : S400x32.Slices ![0, 0] S400x16
  inb_S400x16_S400x16_0_0 : ∀ a, (![0, 0] : Fin 2 → Nat) a + S400x16.size a ≤ S400x16.size a
  h_S400x16 : 0 < S400x16.numel
  slices_S400x32_o0_16_S400x16 : S400x32.Slices ![0, 16] S400x16
  iota_S4864x32_d0_w32 : S4864x32.Iotas .tc 32 [0]
  inb_S4864x32_S4864x32_0_0 : ∀ a, (![0, 0] : Fin 2 → Nat) a + S4864x32.size a ≤ S4864x32.size a
  h_S4864x32 : 0 < S4864x32.numel
  shapeCasts_S4864x32_S4864x32 : S4864x32.ShapeCasts S4864x32
  inb_S400x4864_S400x4864_0_0 : ∀ a, (![0, 0] : Fin 2 → Nat) a + S400x4864.size a ≤ S400x4864.size a
  h_S400x4864 : 0 < S400x4864.numel
  iota_S7296x32_d0_w32 : S7296x32.Iotas .tc 32 [0]
  inb_S7296x32_S7296x32_0_0 : ∀ a, (![0, 0] : Fin 2 → Nat) a + S7296x32.size a ≤ S7296x32.size a
  h_S7296x32 : 0 < S7296x32.numel
  shapeCasts_S7296x32_S7296x32 : S7296x32.ShapeCasts S7296x32
  inb_S400x7296_S400x7296_0_0 : ∀ a, (![0, 0] : Fin 2 → Nat) a + S400x7296.size a ≤ S400x7296.size a
  h_S400x7296 : 0 < S400x7296.numel
  iota_S10000x32_d0_w32 : S10000x32.Iotas .tc 32 [0]
  concatenates_S2400x16_S2400x16_S2400x16_S2800x16_S10000x16_d0 : Shape.Concatenates [S2400x16, S2400x16, S2400x16, S2800x16] S10000x16 0
  transposes_S10000x16_S16x10000_1_0 : S10000x16.Transposes [1, 0] S16x10000
  shapeCasts_S400x16_S400x16 : S400x16.ShapeCasts S400x16
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  dot_S400x2432_S2432x32_S400x32_1_0_0_1_n_n_wf : DotDims.WF S400x2432 S2432x32 S400x32 [1] [0] [0] [1] [] []
  dot_S400x4864_S4864x32_S400x32_1_0_0_1_n_n_wf : DotDims.WF S400x4864 S4864x32 S400x32 [1] [0] [0] [1] [] []
  dot_S400x7296_S7296x32_S400x32_1_0_0_1_n_n_wf : DotDims.WF S400x7296 S7296x32 S400x32 [1] [0] [0] [1] [] []
  dot_S400x16_S16x10000_S400x10000_1_0_0_1_n_n_wf : DotDims.WF S400x16 S16x10000 S400x10000 [1] [0] [0] [1] [] []
  hrank0 : 0 < grid0.rank
  k0_off1_inb : ∀ i : grid0.Coords, ∀ a, (k0_off1 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x32.size a ≤ S10000x32.size a
  hwx0_4 : ∀ i : grid0.Coords, EltTy.bits .f32 = 32 ∨ (Rect.block (s := S10000x32) S400x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x32.size a ≤ S10000x32.size a
  hwx0_5 : ∀ i : grid0.Coords, EltTy.bits .f32 = 32 ∨ (Rect.block (s := S10000x32) S400x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S400x2432.size a < S10000x10000.size a
  hwx1_0 : ∀ i : grid1.Coords, EltTy.bits .f32 = 32 ∨ (Rect.unit (s := S10000x10000) (fun a => cc1_transform_0 i a * S400x2432.size a) (fun a => (Pipeline.Clip.of (cc1_transform_0 i a) (S400x2432.size a) (S10000x10000.size a)).extent (S400x2432.size a)) fun a => Pipeline.Clip.inb (Pipeline.Clip.ok_of (hstart1_0 i a))).WholeWords (EltTy.packing .f32)
  hwxs1_0 : ∀ i : grid1.Coords, EltTy.bits .f32 = 32 ∨ (Rect.unit (s := S400x2432) (fun _ => 0) (fun a => (Pipeline.Clip.of (cc1_transform_0 i a) (S400x2432.size a) (S10000x10000.size a)).extent (S400x2432.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hstart1_1 : ∀ (i : grid1.Coords) a, cc1_transform_1 i a * S2432x32.size a < S10000x32.size a
  hwx1_1 : ∀ i : grid1.Coords, EltTy.bits .f32 = 32 ∨ (Rect.unit (s := S10000x32) (fun a => cc1_transform_1 i a * S2432x32.size a) (fun a => (Pipeline.Clip.of (cc1_transform_1 i a) (S2432x32.size a) (S10000x32.size a)).extent (S2432x32.size a)) fun a => Pipeline.Clip.inb (Pipeline.Clip.ok_of (hstart1_1 i a))).WholeWords (EltTy.packing .f32)
  hwxs1_1 : ∀ i : grid1.Coords, EltTy.bits .f32 = 32 ∨ (Rect.unit (s := S2432x32) (fun _ => 0) (fun a => (Pipeline.Clip.of (cc1_transform_1 i a) (S2432x32.size a) (S10000x32.size a)).extent (S2432x32.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x32.size a ≤ S10000x32.size a
  hwx1_2 : ∀ i : grid1.Coords, EltTy.bits .f32 = 32 ∨ (Rect.block (s := S10000x32) S400x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x16.size a ≤ S2400x16.size a
  hwx1_3 : ∀ i : grid1.Coords, EltTy.bits .f32 = 32 ∨ (Rect.block (s := S2400x16) S400x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x16.size a ≤ S2400x16.size a
  hwx1_4 : ∀ i : grid1.Coords, EltTy.bits .f32 = 32 ∨ (Rect.block (s := S2400x16) S400x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S400x4864.size a < S10000x10000.size a
  hwx2_0 : ∀ i : grid2.Coords, EltTy.bits .f32 = 32 ∨ (Rect.unit (s := S10000x10000) (fun a => cc2_transform_0 i a * S400x4864.size a) (fun a => (Pipeline.Clip.of (cc2_transform_0 i a) (S400x4864.size a) (S10000x10000.size a)).extent (S400x4864.size a)) fun a => Pipeline.Clip.inb (Pipeline.Clip.ok_of (hstart2_0 i a))).WholeWords (EltTy.packing .f32)
  hwxs2_0 : ∀ i : grid2.Coords, EltTy.bits .f32 = 32 ∨ (Rect.unit (s := S400x4864) (fun _ => 0) (fun a => (Pipeline.Clip.of (cc2_transform_0 i a) (S400x4864.size a) (S10000x10000.size a)).extent (S400x4864.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hstart2_1 : ∀ (i : grid2.Coords) a, cc2_transform_1 i a * S4864x32.size a < S10000x32.size a
  hwx2_1 : ∀ i : grid2.Coords, EltTy.bits .f32 = 32 ∨ (Rect.unit (s := S10000x32) (fun a => cc2_transform_1 i a * S4864x32.size a) (fun a => (Pipeline.Clip.of (cc2_transform_1 i a) (S4864x32.size a) (S10000x32.size a)).extent (S4864x32.size a)) fun a => Pipeline.Clip.inb (Pipeline.Clip.ok_of (hstart2_1 i a))).WholeWords (EltTy.packing .f32)
  hwxs2_1 : ∀ i : grid2.Coords, EltTy.bits .f32 = 32 ∨ (Rect.unit (s := S4864x32) (fun _ => 0) (fun a => (Pipeline.Clip.of (cc2_transform_1 i a) (S4864x32.size a) (S10000x32.size a)).extent (S4864x32.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x32.size a ≤ S10000x32.size a
  hwx2_2 : ∀ i : grid2.Coords, EltTy.bits .f32 = 32 ∨ (Rect.block (s := S10000x32) S400x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x16.size a ≤ S2400x16.size a
  hwx2_3 : ∀ i : grid2.Coords, EltTy.bits .f32 = 32 ∨ (Rect.block (s := S2400x16) S400x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S2400x16.size a
  hwx2_4 : ∀ i : grid2.Coords, EltTy.bits .f32 = 32 ∨ (Rect.block (s := S2400x16) S400x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S400x7296.size a < S10000x10000.size a
  hwx3_0 : ∀ i : grid3.Coords, EltTy.bits .f32 = 32 ∨ (Rect.unit (s := S10000x10000) (fun a => cc3_transform_0 i a * S400x7296.size a) (fun a => (Pipeline.Clip.of (cc3_transform_0 i a) (S400x7296.size a) (S10000x10000.size a)).extent (S400x7296.size a)) fun a => Pipeline.Clip.inb (Pipeline.Clip.ok_of (hstart3_0 i a))).WholeWords (EltTy.packing .f32)
  hwxs3_0 : ∀ i : grid3.Coords, EltTy.bits .f32 = 32 ∨ (Rect.unit (s := S400x7296) (fun _ => 0) (fun a => (Pipeline.Clip.of (cc3_transform_0 i a) (S400x7296.size a) (S10000x10000.size a)).extent (S400x7296.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hstart3_1 : ∀ (i : grid3.Coords) a, cc3_transform_1 i a * S7296x32.size a < S10000x32.size a
  hwx3_1 : ∀ i : grid3.Coords, EltTy.bits .f32 = 32 ∨ (Rect.unit (s := S10000x32) (fun a => cc3_transform_1 i a * S7296x32.size a) (fun a => (Pipeline.Clip.of (cc3_transform_1 i a) (S7296x32.size a) (S10000x32.size a)).extent (S7296x32.size a)) fun a => Pipeline.Clip.inb (Pipeline.Clip.ok_of (hstart3_1 i a))).WholeWords (EltTy.packing .f32)
  hwxs3_1 : ∀ i : grid3.Coords, EltTy.bits .f32 = 32 ∨ (Rect.unit (s := S7296x32) (fun _ => 0) (fun a => (Pipeline.Clip.of (cc3_transform_1 i a) (S7296x32.size a) (S10000x32.size a)).extent (S7296x32.size a)) fun a => (Nat.zero_add _).trans_le (Pipeline.Clip.extent_le (Pipeline.Clip.ok_of (hstart3_1 i a)))).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x32.size a ≤ S10000x32.size a
  hwx3_2 : ∀ i : grid3.Coords, EltTy.bits .f32 = 32 ∨ (Rect.block (s := S10000x32) S400x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S2400x16.size a
  hwx3_3 : ∀ i : grid3.Coords, EltTy.bits .f32 = 32 ∨ (Rect.block (s := S2400x16) S400x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S400x16.size a ≤ S2400x16.size a
  hwx3_4 : ∀ i : grid3.Coords, EltTy.bits .f32 = 32 ∨ (Rect.block (s := S2400x16) S400x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S400x10000.size a ≤ S10000x10000.size a
  hwx4_0 : ∀ i : grid4.Coords, EltTy.bits .f32 = 32 ∨ (Rect.block (s := S10000x10000) S400x10000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10000x32.size a ≤ S10000x32.size a
  hwx4_1 : ∀ i : grid4.Coords, EltTy.bits .f32 = 32 ∨ (Rect.block (s := S10000x32) S10000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S400x32.size a ≤ S10000x32.size a
  hwx4_2 : ∀ i : grid4.Coords, EltTy.bits .f32 = 32 ∨ (Rect.block (s := S10000x32) S400x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S400x16.size a ≤ S2800x16.size a
  hwx4_3 : ∀ i : grid4.Coords, EltTy.bits .f32 = 32 ∨ (Rect.block (s := S2800x16) S400x16.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S400x16.size a ≤ S2800x16.size a
  hwx4_4 : ∀ i : grid4.Coords, EltTy.bits .f32 = 32 ∨ (Rect.block (s := S2800x16) S400x16.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S400x16.size a ≤ S10000x16.size a
  hwx5_0 : ∀ i : grid5.Coords, EltTy.bits .f32 = 32 ∨ (Rect.block (s := S10000x16) S400x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S16x10000.size a ≤ S16x10000.size a
  hwx5_1 : ∀ i : grid5.Coords, EltTy.bits .f32 = 32 ∨ (Rect.block (s := S16x10000) S16x10000.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S400x10000.size a ≤ S10000x10000.size a
  hwx5_2 : ∀ i : grid5.Coords, EltTy.bits .f32 = 32 ∨ (Rect.block (s := S10000x10000) S400x10000.size (cc5_transform_2 i) (hinb5_2 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf
def dot_S400x2432_S2432x32_S400x32_1_0_0_1_n_n : DotDims S400x2432 S2432x32 S400x32 where
  lhsContracting := [1]
  rhsContracting := [0]
  lhsNonContracting := [0]
  rhsNonContracting := [1]
  lhsBatch := []
  rhsBatch := []
  wf := dot_S400x2432_S2432x32_S400x32_1_0_0_1_n_n_wf
def dot_S400x4864_S4864x32_S400x32_1_0_0_1_n_n : DotDims S400x4864 S4864x32 S400x32 where
  lhsContracting := [1]
  rhsContracting := [0]
  lhsNonContracting := [0]
  rhsNonContracting := [1]
  lhsBatch := []
  rhsBatch := []
  wf := dot_S400x4864_S4864x32_S400x32_1_0_0_1_n_n_wf
def dot_S400x7296_S7296x32_S400x32_1_0_0_1_n_n : DotDims S400x7296 S7296x32 S400x32 where
  lhsContracting := [1]
  rhsContracting := [0]
  lhsNonContracting := [0]
  rhsNonContracting := [1]
  lhsBatch := []
  rhsBatch := []
  wf := dot_S400x7296_S7296x32_S400x32_1_0_0_1_n_n_wf
def dot_S400x16_S16x10000_S400x10000_1_0_0_1_n_n : DotDims S400x16 S16x10000 S400x10000 where
  lhsContracting := [1]
  rhsContracting := [0]
  lhsNonContracting := [0]
  rhsNonContracting := [1]
  lhsBatch := []
  rhsBatch := []
  wf := dot_S400x16_S16x10000_S400x10000_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S400x32.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S400x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpecClip (Memref.whole main_arg1) S400x2432.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1_0) S2432x32.size cc1_transform_1 reads1_1 false false 1 stage1_1 sem1_1
    hrank1 hreads1_1 hstart1_1 nbuf1_1 (Memref.isWhole_whole _) hwx1_1 hwxs1_1 hstage1_1

abbrev win1_2 : Pipeline.Window sig grid1 :=
  Pipeline.Window.ofSpec (Memref.whole main_v1_1) S400x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_0) S400x16.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_1) S400x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpecClip (Memref.whole main_arg1) S400x4864.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v1_0) S4864x32.size cc2_transform_1 reads2_1 false false 1 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v1_1) S400x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3_0) S400x16.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3_1) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpecClip (Memref.whole main_arg1) S400x7296.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpecClip (Memref.whole main_v1_0) S7296x32.size cc3_transform_1 reads3_1 false false 1 stage3_1 sem3_1
    hrank3 hreads3_1 hstart3_1 nbuf3_1 (Memref.isWhole_whole _) hwx3_1 hwxs3_1 hstage3_1

abbrev win3_2 : Pipeline.Window sig grid3 :=
  Pipeline.Window.ofSpec (Memref.whole main_v1_1) S400x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v4_0) S400x16.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v4_1) S400x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_arg1) S400x10000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1_0) S10000x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v1_1) S400x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v5_0) S400x16.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v5_1) S400x16.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v6) S400x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v8) S16x10000.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v9) S400x10000.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩
abbrev S16x10000 : Shape := ⟨2, ![16, 10000]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S10000x32, .f32⟩
  | .hbm, ⟨7, _⟩ => ⟨S_, .f32⟩
  | .hbm, ⟨8, _⟩ => ⟨S10000x32, .f32⟩
  | .hbm, ⟨9, _⟩ => ⟨S10000x32, .f32⟩
  | .hbm, ⟨10, _⟩ => ⟨S10000x16, .f32⟩
  | .hbm, ⟨11, _⟩ => ⟨S10000x16, .f32⟩
  | .hbm, ⟨12, _⟩ => ⟨S10000x16, .f32⟩
  | .hbm, ⟨13, _⟩ => ⟨S10000x16, .f32⟩
  | .hbm, ⟨14, _⟩ => ⟨S16x10000, .f32⟩
  | .hbm, ⟨15, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  transposes_S10000x16_S16x10000_1_0 : S10000x16.Transposes [1, 0] S16x10000
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []
  dot_S10000x16_S16x10000_S10000x10000_1_0_0_1_n_n_wf : DotDims.WF S10000x16 S16x10000 S10000x10000 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x10000_S10000x10000_1_0_0_1_n_n : DotDims S10000x16 S16x10000 S10000x10000 where
  lhsContracting := [1]
  rhsContracting := [0]
  lhsNonContracting := [0]
  rhsNonContracting := [1]
  lhsBatch := []
  rhsBatch := []
  wf := dot_S10000x16_S16x10000_S10000x10000_1_0_0_1_n_n_wf

class Facts : Prop extends Facts₀ where

variable [Facts]
-- ==== Proof.K.Run.lean ====
/-
  The run of the whole program: its main function is a host stretch (the two weight matrices side by side), five kernel
  regions (the sweep and the four prefix-panel calls), a second host stretch (the four row ranges of the mean and of the
  log-variance stacked, and the mean transposed), and the decoder region. The contents of every unscoped buffer at each
  boundary are a fold from the launch memory: a host stretch applies its operations; a region replaces its windows' arrays
  by what its write-backs leave and keeps every other buffer. Each region is entered from the buffers at the boundary
  before it and left at the boundary after it, and at the end every unscoped buffer holds the last boundary's contents.
  Everything here holds at every float instance and is stated over one record per region (`Half`): the region's proof data
  at given entry contents, with its arrays read off those contents, full shares, nothing owed, the body obligation, and the
  region invariant entered from and returned to the scoped rest with the generator register.
-/
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One region's half of the run: its proof data as a function of the entry contents, and what the launch needs of it. -/
structure Half (cfg : Pipeline.Cfg sig Λ₀) where
  D : ((c : Dev nD) → (b : Ref sig .tc) → Buf (Elt F) ((c : Thread nD τ).loc b)) → (c : Dev nD) → Dat τ (Elt F) Unit ℕ (UR sig nD τ) ℕ cfg c
  hA : ∀ V c w, (D V c).A w = V c (Pipeline.arrRef cfg.spec w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V c, (Pipeline.ΦA cfg.spec c : sProp 𝕄) ⊢ (D V c).Φ 0
  hout : ∀ V c, (D V c).Φ (Fin.last cfg.N) ⊢ (Pipeline.ΦA cfg.spec c : sProp 𝕄)

variable (H0 : Half (F := F) cfg0) (H1 : Half (F := F) cfg1) (H2 : Half (F := F) cfg2) (H3 : Half (F := F) cfg3)
  (H4 : Half (F := F) cfg4) (H5 : Half (F := F) cfg5)
variable (m : (ℓ : Loc nD τ sig) → Buf (Elt F) ℓ)

/-! ## The buffers' contents at each boundary -/

/-- At launch. -/
abbrev W0 : Dev nD → Valuation τ sig (Elt F) := fun c b => m (c, b)
/-- After the first host stretch (the sweep's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the sweep. -/
def W2 (c : Dev nD) : Valuation τ sig (Elt F) :=
  Pipeline.withArrays spec0 c (W1 m c) fun w => (H0.D (V1 m) c).arrAt w cfg0.N
abbrev V2 : (c : Dev nD) → (b : Ref sig .tc) → Buf (Elt F) ((c : Thread nD τ).loc b) := fun c b => W2 H0 m c b
/-- After the first prefix-panel call. -/
def W3 (c : Dev nD) : Valuation τ sig (Elt F) :=
  Pipeline.withArrays spec1 c (W2 H0 m c) fun w => (H1.D (V2 H0 m) c).arrAt w cfg1.N
abbrev V3 : (c : Dev nD) → (b : Ref sig .tc) → Buf (Elt F) ((c : Thread nD τ).loc b) := fun c b => W3 H0 H1 m c b
/-- After the second. -/
def W4 (c : Dev nD) : Valuation τ sig (Elt F) :=
  Pipeline.withArrays spec2 c (W3 H0 H1 m c) fun w => (H2.D (V3 H0 H1 m) c).arrAt w cfg2.N
abbrev V4 : (c : Dev nD) → (b : Ref sig .tc) → Buf (Elt F) ((c : Thread nD τ).loc b) := fun c b => W4 H0 H1 H2 m c b
/-- After the third. -/
def W5 (c : Dev nD) : Valuation τ sig (Elt F) :=
  Pipeline.withArrays spec3 c (W4 H0 H1 H2 m c) fun w => (H3.D (V4 H0 H1 H2 m) c).arrAt w cfg3.N
abbrev V5 : (c : Dev nD) → (b : Ref sig .tc) → Buf (Elt F) ((c : Thread nD τ).loc b) := fun c b => W5 H0 H1 H2 H3 m c b
/-- After the fourth. -/
def W6 (c : Dev nD) : Valuation τ sig (Elt F) :=
  Pipeline.withArrays spec4 c (W5 H0 H1 H2 H3 m c) fun w => (H4.D (V5 H0 H1 H2 H3 m) c).arrAt w cfg4.N
/-- After the second host stretch (the decoder's entry). -/
abbrev W7 : Dev nD → Valuation τ sig (Elt F) := fun c => StableHlo.after hostOps5 (W6 H0 H1 H2 H3 H4 m c)
abbrev V7 : (c : Dev nD) → (b : Ref sig .tc) → Buf (Elt F) ((c : Thread nD τ).loc b) := fun c b => W7 H0 H1 H2 H3 H4 m c b
/-- After the decoder: the end. -/
def W8 (c : Dev nD) : Valuation τ sig (Elt F) :=
  Pipeline.withArrays spec5 c (W7 H0 H1 H2 H3 H4 m c) fun w => (H5.D (V7 H0 H1 H2 H3 H4 m) c).arrAt w cfg5.N

theorem W2_arr (c : Dev nD) (w : Fin cfg0.W) :
    W2 H0 m c (Proc.devRef .tc (Pipeline.arrRef spec0 w)) = (H0.D (V1  m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H0 m c (Proc.devRef .tc b) = W1  m c (Proc.devRef .tc b) := by
  unfold W2; exact Pipeline.withArrays_of_ne spec0 c _ _ b hb

theorem W3_arr (c : Dev nD) (w : Fin cfg1.W) :
    W3 H0 H1 m c (Proc.devRef .tc (Pipeline.arrRef spec1 w)) = (H1.D (V2 H0 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 H0 H1 m c (Proc.devRef .tc b) = W2 H0 m c (Proc.devRef .tc b) := by
  unfold W3; exact Pipeline.withArrays_of_ne spec1 c _ _ b hb

theorem W4_arr (c : Dev nD) (w : Fin cfg2.W) :
    W4 H0 H1 H2 m c (Proc.devRef .tc (Pipeline.arrRef spec2 w)) = (H2.D (V3 H0 H1 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 H0 H1 H2 m c (Proc.devRef .tc b) = W3 H0 H1 m c (Proc.devRef .tc b) := by
  unfold W4; exact Pipeline.withArrays_of_ne spec2 c _ _ b hb

theorem W5_arr (c : Dev nD) (w : Fin cfg3.W) :
    W5 H0 H1 H2 H3 m c (Proc.devRef .tc (Pipeline.arrRef spec3 w)) = (H3.D (V4 H0 H1 H2 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 H0 H1 H2 H3 m c (Proc.devRef .tc b) = W4 H0 H1 H2 m c (Proc.devRef .tc b) := by
  unfold W5; exact Pipeline.withArrays_of_ne spec3 c _ _ b hb

theorem W6_arr (c : Dev nD) (w : Fin cfg4.W) :
    W6 H0 H1 H2 H3 H4 m c (Proc.devRef .tc (Pipeline.arrRef spec4 w)) = (H4.D (V5 H0 H1 H2 H3 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 H0 H1 H2 H3 H4 m c (Proc.devRef .tc b) = W5 H0 H1 H2 H3 m c (Proc.devRef .tc b) := by
  unfold W6; exact Pipeline.withArrays_of_ne spec4 c _ _ b hb

theorem W8_arr (c : Dev nD) (w : Fin cfg5.W) :
    W8 H0 H1 H2 H3 H4 H5 m c (Proc.devRef .tc (Pipeline.arrRef spec5 w)) = (H5.D (V7 H0 H1 H2 H3 H4 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 H0 H1 H2 H3 H4 H5 m c (Proc.devRef .tc b) = W7 H0 H1 H2 H3 H4 m c (Proc.devRef .tc b) := by
  unfold W8; exact Pipeline.withArrays_of_ne spec5 c _ _ b hb

/-! ## The proof data family and the thread states -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => H0.D (V1 m) c
  | ⟨1, _⟩ => fun c => H1.D (V2 H0 m) c
  | ⟨2, _⟩ => fun c => H2.D (V3 H0 H1 m) c
  | ⟨3, _⟩ => fun c => H3.D (V4 H0 H1 H2 m) c
  | ⟨4, _⟩ => fun c => H4.D (V5 H0 H1 H2 H3 m) c
  | ⟨5, _⟩ => fun c => H5.D (V7 H0 H1 H2 H3 H4 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W8 H0 H1 H2 H3 H4 H5 m c) ∗ ∃ r, prngReg c r)

/-! ## The regions as segments -/

set_option backward.isDefEq.respectTransparency.types false in
/-- Region 0 as a segment: entered with every unscoped buffer at `W1`, left with them at `W2`. Its arrays are
    split out of the unscoped buffers on entry and put back at their final contents on exit; the generator register goes
    into the region's invariant and comes back; nothing is owed; the kernel has no semaphore of its own. -/
def reg0 : Pipeline.RegionSeg (pcfgs (F := F)) adm (pdats H0 H1 H2 H3 H4 H5 m) () defs₀ 𝒱₀ L lv 0 where
  win := launch0.win.to₀
  block_pos := launch0.block_pos
  stage_whole := launch0.stage_whole
  K := PEmpty
  osem k := k.elim
  ho := Pipeline.OwnSemFacts.none _
  hbody c := (H0.hbody (V1 m) c).loose
  hwaits := Pipeline.hwaits_of_owed_zero _ _ _ _ L lv 0 fun c t => H0.howed (V1 m) c t
  pre c := iprop(StableHlo.held (c : Thread nD τ) (Pipeline.ucRefs τ sig) (W1 m c) ∗ R c)
  post c := iprop(StableHlo.held (c : Thread nD τ) (Pipeline.ucRefs τ sig) (W2 H0 m c) ∗ R c)
  X c := iprop(∃ r, prngReg c r)
  Y c := iprop(∃ r, prngReg c r)
  Z c := Pipeline.unscopedRest (Ix := Unit) (Name := ℕ) (U := UR sig nD τ) (Lvl := ℕ) spec0 c ((V1 m) c)
  hentry c := by
    rw [Pipeline.ownSems0_none]
    have hsplit := Pipeline.arrays_of_unscopedBufs (p := 0) (pcfgs (F := F)) adm (pdats H0 H1 H2 H3 H4 H5 m) launch0.win launch0.arr_whole c
      (((pdats H0 H1 H2 H3 H4 H5 m) 0 c).share_full fun w => H0.hq (V1 m) c w) ((V1 m) c) fun w => H0.hA (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 0 c).recorded 0 = Set.univ from H0.hrec (V1 m) c 0]; exact Set.mem_univ x)
      rw [show ((pdats H0 H1 H2 H3 H4 H5 m) 0 c).owed 0 = 0 from H0.howed (V1 m) c 0]
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (H0.hin (V1 m) c)
  hout c := by
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    rw [Pipeline.ownSems0_none]
    exact (H0.hout (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 H3 H4 H5 m) (((pdats H0 H1 H2 H3 H4 H5 m) 0 c).share_full fun w => H0.hq (V1 m) c w)
      ((V1 m) c) (fun b => W2 H0 m c b) (((pdats H0 H1 H2 H3 H4 H5 m) 0 c).arrAt · cfg0.N)
      (fun w => (W2_arr H0 m c w).symm)
      (fun b hb => W2_of_ne H0 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 0 c).owed (Fin.last _) = 0 from H0.howed (V1 m) c _]
    iexact HO

set_option backward.isDefEq.respectTransparency.types false in
/-- Region 1 as a segment: entered with every unscoped buffer at `W2`, left with them at `W3`. Its arrays are
    split out of the unscoped buffers on entry and put back at their final contents on exit; the generator register goes
    into the region's invariant and comes back; nothing is owed; the kernel has no semaphore of its own. -/
def reg1 : Pipeline.RegionSeg (pcfgs (F := F)) adm (pdats H0 H1 H2 H3 H4 H5 m) () defs₀ 𝒱₀ L lv 1 where
  win := launch1.win.to₀
  block_pos := launch1.block_pos
  stage_whole := launch1.stage_whole
  K := PEmpty
  osem k := k.elim
  ho := Pipeline.OwnSemFacts.none _
  hbody c := (H1.hbody (V2 H0 m) c).loose
  hwaits := Pipeline.hwaits_of_owed_zero _ _ _ _ L lv 1 fun c t => H1.howed (V2 H0 m) c t
  pre c := iprop(StableHlo.held (c : Thread nD τ) (Pipeline.ucRefs τ sig) (W2 H0 m c) ∗ R c)
  post c := iprop(StableHlo.held (c : Thread nD τ) (Pipeline.ucRefs τ sig) (W3 H0 H1 m c) ∗ R c)
  X c := iprop(∃ r, prngReg c r)
  Y c := iprop(∃ r, prngReg c r)
  Z c := Pipeline.unscopedRest (Ix := Unit) (Name := ℕ) (U := UR sig nD τ) (Lvl := ℕ) spec1 c ((V2 H0 m) c)
  hentry c := by
    rw [Pipeline.ownSems0_none]
    have hsplit := Pipeline.arrays_of_unscopedBufs (p := 1) (pcfgs (F := F)) adm (pdats H0 H1 H2 H3 H4 H5 m) launch1.win launch1.arr_whole c
      (((pdats H0 H1 H2 H3 H4 H5 m) 1 c).share_full fun w => H1.hq (V2 H0 m) c w) ((V2 H0 m) c) fun w => H1.hA (V2 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 1 c).recorded 0 = Set.univ from H1.hrec (V2 H0 m) c 0]; exact Set.mem_univ x)
      rw [show ((pdats H0 H1 H2 H3 H4 H5 m) 1 c).owed 0 = 0 from H1.howed (V2 H0 m) c 0]
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (H1.hin (V2 H0 m) c)
  hout c := by
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    rw [Pipeline.ownSems0_none]
    exact (H1.hout (V2 H0 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 H3 H4 H5 m) (((pdats H0 H1 H2 H3 H4 H5 m) 1 c).share_full fun w => H1.hq (V2 H0 m) c w)
      ((V2 H0 m) c) (fun b => W3 H0 H1 m c b) (((pdats H0 H1 H2 H3 H4 H5 m) 1 c).arrAt · cfg1.N)
      (fun w => (W3_arr H0 H1 m c w).symm)
      (fun b hb => W3_of_ne H0 H1 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 1 c).owed (Fin.last _) = 0 from H1.howed (V2 H0 m) c _]
    iexact HO

set_option backward.isDefEq.respectTransparency.types false in
/-- Region 2 as a segment: entered with every unscoped buffer at `W3`, left with them at `W4`. Its arrays are
    split out of the unscoped buffers on entry and put back at their final contents on exit; the generator register goes
    into the region's invariant and comes back; nothing is owed; the kernel has no semaphore of its own. -/
def reg2 : Pipeline.RegionSeg (pcfgs (F := F)) adm (pdats H0 H1 H2 H3 H4 H5 m) () defs₀ 𝒱₀ L lv 2 where
  win := launch2.win.to₀
  block_pos := launch2.block_pos
  stage_whole := launch2.stage_whole
  K := PEmpty
  osem k := k.elim
  ho := Pipeline.OwnSemFacts.none _
  hbody c := (H2.hbody (V3 H0 H1 m) c).loose
  hwaits := Pipeline.hwaits_of_owed_zero _ _ _ _ L lv 2 fun c t => H2.howed (V3 H0 H1 m) c t
  pre c := iprop(StableHlo.held (c : Thread nD τ) (Pipeline.ucRefs τ sig) (W3 H0 H1 m c) ∗ R c)
  post c := iprop(StableHlo.held (c : Thread nD τ) (Pipeline.ucRefs τ sig) (W4 H0 H1 H2 m c) ∗ R c)
  X c := iprop(∃ r, prngReg c r)
  Y c := iprop(∃ r, prngReg c r)
  Z c := Pipeline.unscopedRest (Ix := Unit) (Name := ℕ) (U := UR sig nD τ) (Lvl := ℕ) spec2 c ((V3 H0 H1 m) c)
  hentry c := by
    rw [Pipeline.ownSems0_none]
    have hsplit := Pipeline.arrays_of_unscopedBufs (p := 2) (pcfgs (F := F)) adm (pdats H0 H1 H2 H3 H4 H5 m) launch2.win launch2.arr_whole c
      (((pdats H0 H1 H2 H3 H4 H5 m) 2 c).share_full fun w => H2.hq (V3 H0 H1 m) c w) ((V3 H0 H1 m) c) fun w => H2.hA (V3 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 2 c).recorded 0 = Set.univ from H2.hrec (V3 H0 H1 m) c 0]; exact Set.mem_univ x)
      rw [show ((pdats H0 H1 H2 H3 H4 H5 m) 2 c).owed 0 = 0 from H2.howed (V3 H0 H1 m) c 0]
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (H2.hin (V3 H0 H1 m) c)
  hout c := by
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    rw [Pipeline.ownSems0_none]
    exact (H2.hout (V3 H0 H1 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 H3 H4 H5 m) (((pdats H0 H1 H2 H3 H4 H5 m) 2 c).share_full fun w => H2.hq (V3 H0 H1 m) c w)
      ((V3 H0 H1 m) c) (fun b => W4 H0 H1 H2 m c b) (((pdats H0 H1 H2 H3 H4 H5 m) 2 c).arrAt · cfg2.N)
      (fun w => (W4_arr H0 H1 H2 m c w).symm)
      (fun b hb => W4_of_ne H0 H1 H2 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 2 c).owed (Fin.last _) = 0 from H2.howed (V3 H0 H1 m) c _]
    iexact HO

set_option backward.isDefEq.respectTransparency.types false in
/-- Region 3 as a segment: entered with every unscoped buffer at `W4`, left with them at `W5`. Its arrays are
    split out of the unscoped buffers on entry and put back at their final contents on exit; the generator register goes
    into the region's invariant and comes back; nothing is owed; the kernel has no semaphore of its own. -/
def reg3 : Pipeline.RegionSeg (pcfgs (F := F)) adm (pdats H0 H1 H2 H3 H4 H5 m) () defs₀ 𝒱₀ L lv 3 where
  win := launch3.win.to₀
  block_pos := launch3.block_pos
  stage_whole := launch3.stage_whole
  K := PEmpty
  osem k := k.elim
  ho := Pipeline.OwnSemFacts.none _
  hbody c := (H3.hbody (V4 H0 H1 H2 m) c).loose
  hwaits := Pipeline.hwaits_of_owed_zero _ _ _ _ L lv 3 fun c t => H3.howed (V4 H0 H1 H2 m) c t
  pre c := iprop(StableHlo.held (c : Thread nD τ) (Pipeline.ucRefs τ sig) (W4 H0 H1 H2 m c) ∗ R c)
  post c := iprop(StableHlo.held (c : Thread nD τ) (Pipeline.ucRefs τ sig) (W5 H0 H1 H2 H3 m c) ∗ R c)
  X c := iprop(∃ r, prngReg c r)
  Y c := iprop(∃ r, prngReg c r)
  Z c := Pipeline.unscopedRest (Ix := Unit) (Name := ℕ) (U := UR sig nD τ) (Lvl := ℕ) spec3 c ((V4 H0 H1 H2 m) c)
  hentry c := by
    rw [Pipeline.ownSems0_none]
    have hsplit := Pipeline.arrays_of_unscopedBufs (p := 3) (pcfgs (F := F)) adm (pdats H0 H1 H2 H3 H4 H5 m) launch3.win launch3.arr_whole c
      (((pdats H0 H1 H2 H3 H4 H5 m) 3 c).share_full fun w => H3.hq (V4 H0 H1 H2 m) c w) ((V4 H0 H1 H2 m) c) fun w => H3.hA (V4 H0 H1 H2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 3 c).recorded 0 = Set.univ from H3.hrec (V4 H0 H1 H2 m) c 0]; exact Set.mem_univ x)
      rw [show ((pdats H0 H1 H2 H3 H4 H5 m) 3 c).owed 0 = 0 from H3.howed (V4 H0 H1 H2 m) c 0]
      iexact HO
    isplitl [Hp]; · iexact Hp
    iexact Hrest
  hin c := by
    have h : (iprop((∃ r, prngReg c r) ∗ Pipeline.prefHeld (pcfgs (F := F) 3).pre c (fun _ => fullShare) (adm (F := F) 3).1
        ∗ Pipeline.scopedRest spec3 c) : sProp 𝕄) ⊢ Pipeline.ΦA spec3 c := by
      unfold Pipeline.ΦA
      iintro ⟨Hp, -, Hr⟩
      isplitl [Hr]; · iexact Hr
      iexact Hp
    exact h.trans (H3.hin (V4 H0 H1 H2 m) c)
  hout c := by
    have h : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    rw [Pipeline.ownSems0_none]
    exact (H3.hout (V4 H0 H1 H2 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats H0 H1 H2 H3 H4 H5 m) (((pdats H0 H1 H2 H3 H4 H5 m) 3 c).share_full fun w => H3.hq (V4 H0 H1 H2 m) c w)
      ((V4 H0 H1 H2 m) c) (fun b => W5 H0 H1 H2 H3 m c b) (((pdats H0 H1 H2 H3 H4 H5 m) 3 c).arrAt · cfg3.N)
      (fun w => (W5_arr H0 H1 H2 H3 m c w).symm)
      (fun b hb => W5_of_ne H0 H1 H2 H3 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 3 c).owed (Fin.last _) = 0 from H3.howed (V4 H0 H1 H2 m) c _]
    iexact HO

set_option backward.isDefEq.respectTransparency.types false in
/-- Region 4 as a segment: entered with every unscoped buffer at `W5`, left with them at `W6`. Its arrays are
    split out of the unscoped buffers on entry and put back at their final contents on exit; the generator register goes
    into the region's invariant and comes back; nothing is owed; the kernel has no semaphore of its own. -/
def reg4 : Pipeline.RegionSeg (pcfgs (F := F)) adm (pdats H0 H1 H2 H3 H4 H5 m) () defs₀ 𝒱₀ L lv 4 where
  win := launch4.win.to₀
  block_pos := launch4.block_pos
  stage_whole := launch4.stage_whole
  K := PEmpty
  osem k := k.elim
  ho := Pipeline.OwnSemFacts.none _
  hbody c := (H4.hbody (V5 H0 H1 H2 H3 m) c).loose
  hwaits := Pipeline.hwaits_of_owed_zero _ _ _ _ L lv 4 fun c t => H4.howed (V5 H0 H1 H2 H3 m) c t
  pre c := iprop(StableHlo.held (c : Thread nD τ) (Pipeline.ucRefs τ sig) (W5 H0 H1 H2 H3 m c) ∗ R c)
  post c := iprop(StableHlo.held (c : Thread nD τ) (Pipeline.ucRefs τ sig) (W6 H0 H1 H2 H3 H4 m c) ∗ R c)
  X c := iprop(∃ r, prngReg c r)
  Y c := iprop(∃ r, prngReg c r)
  Z c := Pipeline.unscopedRest (Ix := Unit) (Name := ℕ) (U := UR sig nD τ) (Lvl := ℕ) spec4 c ((V5 H0 H1 H2 H3 m) c)
  hentry c := by
    rw [Pipeline.ownSems0_none]
    have hsplit := Pipeline.arrays_of_unscopedBufs (p := 4) (pcfgs (F := F)) adm (pdats H0 H1 H2 H3 H4 H5 m) launch4.win launch4.arr_whole c
      (((pdats H0 H1 H2 H3 H4 H5 m) 4 c).share_full fun w => H4.hq (V5 H0 H1 H2 H3 m) c w) ((V5 H0 H1 H2 H3 m) c) fun w => H4.hA (V5 H0 H1 H2 H3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 4 c).recorded 0 = Set.univ from H4.hrec (V5 H0 H1 H2 H3 m) c 0]; exact Set.mem_univ x)
      rw [show ((pdats H0 H1 H2 H3 H4 H5 m) 4 c).owed 0 = 0 from H4.howed (V5 H0 H1 H2 H3 m) c 0]
      iexact HO
    isplitl [Hp]; · iexact Hp
    iexact Hrest
  hin c := by
    have h : (iprop((∃ r, prngReg c r) ∗ Pipeline.prefHeld (pcfgs (F := F) 4).pre c (fun _ => fullShare) (adm (F := F) 4).1
        ∗ Pipeline.scopedRest spec4 c) : sProp 𝕄) ⊢ Pipeline.ΦA spec4 c := by
      unfold Pipeline.ΦA
      iintro ⟨Hp, -, Hr⟩
      isplitl [Hr]; · iexact Hr
      iexact Hp
    exact h.trans (H4.hin (V5 H0 H1 H2 H3 m) c)
  hout c := by
    have h : (Pipeline.ΦA spec4 c : sProp 𝕄) ⊢ iprop((∃ r, prngReg c r) ∗ BI.emp ∗ Pipeline.scopedRest spec4 c) := by
      unfold Pipeline.ΦA
      iintro ⟨Hr, Hp⟩
      isplitl [Hp]; · iexact Hp
      isplitr; · iempintro
      iexact Hr
    rw [Pipeline.ownSems0_none]
    exact (H4.hout (V5 H0 H1 H2 H3 m) c).trans h
  hexit c := by
    have hjoin := Pipeline.unscopedBufs_of_arrays (p := 4) (pcfgs (F := F)) adm (Ix := Unit) (Name := ℕ) (U := UR sig nD τ) (Lvl := ℕ)
      launch4.win launch4.arr_whole c (pdats H0 H1 H2 H3 H4 H5 m) (((pdats H0 H1 H2 H3 H4 H5 m) 4 c).share_full fun w => H4.hq (V5 H0 H1 H2 H3 m) c w)
      ((V5 H0 H1 H2 H3 m) c) (fun b => W6 H0 H1 H2 H3 H4 m c b) (((pdats H0 H1 H2 H3 H4 H5 m) 4 c).arrAt · cfg4.N)
      (fun w => (W6_arr H0 H1 H2 H3 H4 m c w).symm)
      (fun b hb => W6_of_ne H0 H1 H2 H3 H4 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 4 c).owed (Fin.last _) = 0 from H4.howed (V5 H0 H1 H2 H3 m) c _]
    iexact HO

set_option backward.isDefEq.respectTransparency.types false in
/-- Region 5 as a segment: entered with every unscoped buffer at `W7`, left with them at `W8`. Its arrays are
    split out of the unscoped buffers on entry and put back at their final contents on exit; the generator register goes
    into the region's invariant and comes back; nothing is owed; the kernel has no semaphore of its own. -/
def reg5 : Pipeline.RegionSeg (pcfgs (F := F)) adm (pdats H0 H1 H2 H3 H4 H5 m) () defs₀ 𝒱₀ L lv 5 where
  win := launch5.win.to₀
  block_pos := launch5.block_pos
  stage_whole := launch5.stage_whole
  K := PEmpty
  osem k := k.elim
  ho := Pipeline.OwnSemFacts.none _
  hbody c := (H5.hbody (V7 H0 H1 H2 H3 H4 m) c).loose
  hwaits := Pipeline.hwaits_of_owed_zero _ _ _ _ L lv 5 fun c t => H5.howed (V7 H0 H1 H2 H3 H4 m) c t
  pre c := iprop(StableHlo.held (c : Thread nD τ) (Pipeline.ucRefs τ sig) (W7 H0 H1 H2 H3 H4 m c) ∗ R c)
  post c := iprop(Tₙ H0 H1 H2 H3 H4 H5 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c ((V7 H0 H1 H2 H3 H4 m) c)
  hentry c := by
    rw [Pipeline.ownSems0_none]
    have hsplit := Pipeline.arrays_of_unscopedBufs (p := 5) (pcfgs (F := F)) adm (pdats H0 H1 H2 H3 H4 H5 m) launch5.win launch5.arr_whole c
      (((pdats H0 H1 H2 H3 H4 H5 m) 5 c).share_full fun w => H5.hq (V7 H0 H1 H2 H3 H4 m) c w) ((V7 H0 H1 H2 H3 H4 m) c) fun w => H5.hA (V7 H0 H1 H2 H3 H4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 5 c).recorded 0 = Set.univ from H5.hrec (V7 H0 H1 H2 H3 H4 m) c 0]; exact Set.mem_univ x)
      rw [show ((pdats H0 H1 H2 H3 H4 H5 m) 5 c).owed 0 = 0 from H5.howed (V7 H0 H1 H2 H3 H4 m) c 0]
      iexact HO
    isplitl [Hp]; · iexact Hp
    iexact Hrest
  hin c := by
    have h : (iprop((∃ r, prngReg c r) ∗ Pipeline.prefHeld (pcfgs (F := F) 5).pre c (fun _ => fullShare) (adm (F := F) 5).1
        ∗ Pipeline.scopedRest spec5 c) : sProp 𝕄) ⊢ Pipeline.ΦA spec5 c := by
      unfold Pipeline.ΦA
      iintro ⟨Hp, -, Hr⟩
      isplitl [Hr]; · iexact Hr
      iexact Hp
    exact h.trans (H5.hin (V7 H0 H1 H2 H3 H4 m) c)
  hout c := by
    have h : (Pipeline.ΦA spec5 c : sProp 𝕄) ⊢ iprop((∃ r, prngReg c r) ∗ BI.emp ∗ Pipeline.scopedRest spec5 c) := by
      unfold Pipeline.ΦA
      iintro ⟨Hr, Hp⟩
      isplitl [Hp]; · iexact Hp
      isplitr; · iempintro
      iexact Hr
    rw [Pipeline.ownSems0_none]
    exact (H5.hout (V7 H0 H1 H2 H3 H4 m) c).trans h
  hexit c := by
    have hjoin := Pipeline.unscopedBufs_of_arrays (p := 5) (pcfgs (F := F)) adm (Ix := Unit) (Name := ℕ) (U := UR sig nD τ) (Lvl := ℕ)
      launch5.win launch5.arr_whole c (pdats H0 H1 H2 H3 H4 H5 m) (((pdats H0 H1 H2 H3 H4 H5 m) 5 c).share_full fun w => H5.hq (V7 H0 H1 H2 H3 H4 m) c w)
      ((V7 H0 H1 H2 H3 H4 m) c) (fun b => W8 H0 H1 H2 H3 H4 H5 m c b) (((pdats H0 H1 H2 H3 H4 H5 m) 5 c).arrAt · cfg5.N)
      (fun w => (W8_arr H0 H1 H2 H3 H4 H5 m c w).symm)
      (fun b hb => W8_of_ne H0 H1 H2 H3 H4 H5 m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show ((pdats H0 H1 H2 H3 H4 H5 m) 5 c).owed (Fin.last _) = 0 from H5.howed (V7 H0 H1 H2 H3 H4 m) c _]
    iexact HO

/-! ## The main function as segments, and the launch -/

abbrev segs : List (Pipeline.Seg (pcfgs (F := F)) adm (pdats H0 H1 H2 H3 H4 H5 m) () defs₀ 𝒱₀ L lv) :=
  [ .host (hseg hostOps0 hostOps0_sub hostOps0_fresh (W0 m)),
    .region (reg0 H0 H1 H2 H3 H4 H5 m),
    .region (reg1 H0 H1 H2 H3 H4 H5 m),
    .region (reg2 H0 H1 H2 H3 H4 H5 m),
    .region (reg3 H0 H1 H2 H3 H4 H5 m),
    .region (reg4 H0 H1 H2 H3 H4 H5 m),
    .host (hseg hostOps5 hostOps5_sub hostOps5_fresh (W6 H0 H1 H2 H3 H4 m)),
    .region (reg5 H0 H1 H2 H3 H4 H5 m) ]

theorem main_run (c : Dev nD) : main (F := F) c = Pipeline.Seg.run (segs H0 H1 H2 H3 H4 H5 m) := (main_chain c).trans (by chain_rfl)

set_option backward.isDefEq.respectTransparency.types false in
/-- THE RUN. From any memory with zero counters every weakly fair execution of the main function terminates, nothing
    faulting, and in every final memory each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 H0 H1 H2 H3 H4 H5 m c b) :=
  Pipeline.θ_run_regions_kit (pcfgs (F := F)) adm (pdats H0 H1 H2 H3 H4 H5 m) () cellOf_inj emb₁ defs₀ 𝒱₀ L lv m ρ main (segs H0 H1 H2 H3 H4 H5 m)
    (fun c Q => by rw [main_run H0 H1 H2 H3 H4 H5 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ H0 H1 H2 H3 H4 H5 m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 H0 H1 H2 H3 H4 H5 m c b)
    (hfin := fun c s' => by
      iintro ⟨⟨Hh, -⟩, HSI⟩
      unfold StableHlo.held
      imodintro
      iapply (pointsTo_read_all (Pipeline.ucRefs τ sig) (fun b => (((c : Thread nD τ)).1, b)) (W8 H0 H1 H2 H3 H4 H5 m c) s')
      isplitl [Hh] <;> iassumption)
    (hQ := fun s h c => h c)

end Cert.Kernel.Run

end
-- ==== Proof.K.Sweep.lean ====
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The reverse sweep over the row blocks: what each point finds and leaves

The sweep visits the 25 row blocks of the adjacency matrix from the last to the first. It keeps two
buffers between points: the product `x · W1` (computed once, at the first point) and the rows of
`relu (adj · (x · W1)) · [W2 | W3]` finished so far (zero elsewhere). At each point it first multiplies its
adjacency rows by the rows finished so far, then finishes its own rows and adds them to the second buffer. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point of the sweep. -/
def t0 : Fin cfg0.N := ⟨0, by rw [show cfg0.N = 25 from N_0]; decide⟩

/-- The product `x · W1`, as the first point computes it from the whole-array blocks of `x` and `W1`. -/
def xw1 (c : Dev nD) : Vec F S10000x32 .f32 := k0_pay1 (iblk0 V c 1 t0) (iblk0 V c 2 t0)

/-- The rows of the carried buffer that point `t` writes: 400 rows from row `(24 - t) * 400`, all 32 columns. -/
abbrev rowRect (i : grid0.Coords) : Rect S10000x32 :=
  Rect.unit (s := S10000x32) (k0_off1 i) S400x32.size (k0_off1_inb i)

/-- The rows point `t` finishes: `relu (adj rows · (x · W1)) · [W2 | W3]`. -/
def twBlock (c : Dev nD) (t : Fin cfg0.N) : Vec F S400x32 .f32 :=
  k0_pay4 (iblk0 V c 0 t) (xw1 V c) (iblk0 V c 3 t)

/-- The carried buffer of finished rows as point `n` finds it after the first point's zero fill: all zero at the
    first point, and after each point that point's rows written over what it found. -/
def rowsAt (c : Dev nD) : (n : ℕ) → Vec F S10000x32 .f32
  | 0 => k0_pay2
  | n + 1 =>
    if h : n < cfg0.N then
      (rowRect (grid0.coords ⟨n, h⟩)).overlay (rowsAt c n) (k0_pay5 (iblk0 V c 0 ⟨n, h⟩) (xw1 V c) (iblk0 V c 3 ⟨n, h⟩))
    else rowsAt c n

theorem rowsAt_succ (c : Dev nD) (t : Fin cfg0.N) :
    rowsAt V c (t.val + 1) = (rowRect (grid0.coords t)).overlay (rowsAt V c t.val) (k0_pay5 (iblk0 V c 0 t) (xw1 V c) (iblk0 V c 3 t)) := by
  obtain ⟨n, hn⟩ := t
  exact dif_pos hn

/-- The two carried buffers as memrefs. -/
abbrev scM0 : Memref sig .tc .vmem S10000x32 .f32 := Memref.whole cc0_scratch0
abbrev scM1 : Memref sig .tc .vmem S10000x32 .f32 := Memref.whole cc0_scratch1

/-- The region invariant before point `n`: before the first point the plain one (every scoped buffer at anything, the generator register at some state);
    afterwards the first carried buffer at `x · W1`, the second at the finished rows, the other scoped buffers
    at anything, and the generator register at some state. -/
def PhiS (c : Dev nD) : (n : ℕ) → sProp 𝕄
  | 0 => Pipeline.ΦA spec0 c
  | n + 1 => iprop((owns (c : Thread nD τ) scM0 fullShare (xw1 V c) ∗ owns (c : Thread nD τ) scM1 fullShare (rowsAt V c (n + 1)))
      ∗ Pipeline.scopedRestBut (Ix := Unit) (Name := ℕ) (U := UR sig nD τ) (Lvl := ℕ) (Val := Elt F) spec0 c [cc0_scratch0, cc0_scratch1]
      ∗ (∃ r, prngReg c r))

theorem PhiS_zero (c : Dev nD) : PhiS V c 0 = Pipeline.ΦA spec0 c := rfl
theorem PhiS_succ (c : Dev nD) (n : ℕ) :
    PhiS V c (n + 1) = iprop((owns (c : Thread nD τ) scM0 fullShare (xw1 V c) ∗ owns (c : Thread nD τ) scM1 fullShare (rowsAt V c (n + 1)))
      ∗ Pipeline.scopedRestBut (Ix := Unit) (Name := ℕ) (U := UR sig nD τ) (Lvl := ℕ) (Val := Elt F) spec0 c [cc0_scratch0, cc0_scratch1]
      ∗ (∃ r, prngReg c r)) := rfl

/-- The proof data of the sweep on core `c`: the arrays as the region finds them; after the body at point `t`
    each input's buffer at its block, the finished-rows output at the point's rows, the partial-product output at
    the adjacency rows times the rows finished before the point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => twBlock V c t
    | ⟨5, _⟩ => k0_pay3 (iblk0 V c 0 t) (rowsAt V c t.val)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = twBlock V c t := by dsimp only [dat0]
theorem after0_5 (c : Dev nD) (t : Fin cfg0.N) :
    (dat0 V c).after 5 t = k0_pay3 (iblk0 V c 0 t) (rowsAt V c t.val) := by dsimp only [dat0]

theorem Phi_eq0 (c : Dev nD) (t : Fin (cfg0.N + 1)) : (dat0 V c).Φ t = PhiS V c t.val := by dsimp only [dat0]

end Cert.Kernel.Sweep

end
-- ==== Proof.K.SweepBody.lean ====
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import proofs.«162566_g43224550868076_cont_8to1_b_1602_24_alg».proof.Proof.K.Sweep
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The sweep's body, run on whole staging memrefs in its two cases -/

/-- The condition of the body's branch: the first grid coordinate is zero. -/
abbrev cond0 (i : grid0.Coords) : Prop :=
  (Scalar.cmpi .ne (Scalar.extui (Scalar.cmpi .eq (BitVec.ofNat 32 (i 0).val) 0#32)) 0#32) = 1#1

/-- It holds at the first point only — decided over the grid. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → ℕ) = fun _ => 0 := by funext a; fin_cases a <;> rfl

section Reads

variable {sg : RefSig} {κ : Kind} {sp : Space} {S : Shape} {e : EltTy} {Val : EltTy → Type} [∀ e, Nonempty (Val e)]

/-- A store through the whole-shape rectangle, LAST, leaves its payload whatever came before. -/
theorem read_writes_cons_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the contents. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb _

/-- One store through a rectangle leaves the earlier contents with the rectangle's part replaced by the payload. -/
theorem read_writes_cons_overlay (v : View sg κ sp S e) (f : v.ty.Contents Val) (r : Rect S) (w : r.shape.Idx → Val e)
    (L : List (View.Piece Val S e)) :
    v.read Val (v.writes Val f ((⟨r, w⟩ : View.Piece Val S e) :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

theorem readAt_S400x10000 (v : View sg κ sp S400x10000 e) (f : v.ty.Contents Val) :
    v.readAt Val (Rect.unit (s := S400x10000) ![0, 0] S400x10000.size inb_S400x10000_S400x10000_0_0).toLoadRect f = v.read Val f :=
  readAt_whole (S := S400x10000) v f hz2 _
theorem read_writes_cons_S400x10000 (v : View sg κ sp S400x10000 e) (f : v.ty.Contents Val) (w : S400x10000.Idx → Val e) (L : List (View.Piece Val S400x10000 e)) :
    v.read Val (v.writes Val f ((⟨Rect.unit (s := S400x10000) ![0, 0] S400x10000.size inb_S400x10000_S400x10000_0_0, w⟩ : View.Piece Val S400x10000 e) :: L)) = w :=
  read_writes_cons_whole (S := S400x10000) v f hz2 _ w L
theorem readAt_S10000x128 (v : View sg κ sp S10000x128 e) (f : v.ty.Contents Val) :
    v.readAt Val (Rect.unit (s := S10000x128) ![0, 0] S10000x128.size inb_S10000x128_S10000x128_0_0).toLoadRect f = v.read Val f :=
  readAt_whole (S := S10000x128) v f hz2 _
theorem read_writes_cons_S10000x128 (v : View sg κ sp S10000x128 e) (f : v.ty.Contents Val) (w : S10000x128.Idx → Val e) (L : List (View.Piece Val S10000x128 e)) :
    v.read Val (v.writes Val f ((⟨Rect.unit (s := S10000x128) ![0, 0] S10000x128.size inb_S10000x128_S10000x128_0_0, w⟩ : View.Piece Val S10000x128 e) :: L)) = w :=
  read_writes_cons_whole (S := S10000x128) v f hz2 _ w L
theorem readAt_S128x32 (v : View sg κ sp S128x32 e) (f : v.ty.Contents Val) :
    v.readAt Val (Rect.unit (s := S128x32) ![0, 0] S128x32.size inb_S128x32_S128x32_0_0).toLoadRect f = v.read Val f :=
  readAt_whole (S := S128x32) v f hz2 _
theorem read_writes_cons_S128x32 (v : View sg κ sp S128x32 e) (f : v.ty.Contents Val) (w : S128x32.Idx → Val e) (L : List (View.Piece Val S128x32 e)) :
    v.read Val (v.writes Val f ((⟨Rect.unit (s := S128x32) ![0, 0] S128x32.size inb_S128x32_S128x32_0_0, w⟩ : View.Piece Val S128x32 e) :: L)) = w :=
  read_writes_cons_whole (S := S128x32) v f hz2 _ w L
theorem readAt_S32x32 (v : View sg κ sp S32x32 e) (f : v.ty.Contents Val) :
    v.readAt Val (Rect.unit (s := S32x32) ![0, 0] S32x32.size inb_S32x32_S32x32_0_0).toLoadRect f = v.read Val f :=
  readAt_whole (S := S32x32) v f hz2 _
theorem read_writes_cons_S32x32 (v : View sg κ sp S32x32 e) (f : v.ty.Contents Val) (w : S32x32.Idx → Val e) (L : List (View.Piece Val S32x32 e)) :
    v.read Val (v.writes Val f ((⟨Rect.unit (s := S32x32) ![0, 0] S32x32.size inb_S32x32_S32x32_0_0, w⟩ : View.Piece Val S32x32 e) :: L)) = w :=
  read_writes_cons_whole (S := S32x32) v f hz2 _ w L
theorem readAt_S400x32 (v : View sg κ sp S400x32 e) (f : v.ty.Contents Val) :
    v.readAt Val (Rect.unit (s := S400x32) ![0, 0] S400x32.size inb_S400x32_S400x32_0_0).toLoadRect f = v.read Val f :=
  readAt_whole (S := S400x32) v f hz2 _
theorem read_writes_cons_S400x32 (v : View sg κ sp S400x32 e) (f : v.ty.Contents Val) (w : S400x32.Idx → Val e) (L : List (View.Piece Val S400x32 e)) :
    v.read Val (v.writes Val f ((⟨Rect.unit (s := S400x32) ![0, 0] S400x32.size inb_S400x32_S400x32_0_0, w⟩ : View.Piece Val S400x32 e) :: L)) = w :=
  read_writes_cons_whole (S := S400x32) v f hz2 _ w L
theorem readAt_S10000x32 (v : View sg κ sp S10000x32 e) (f : v.ty.Contents Val) :
    v.readAt Val (Rect.unit (s := S10000x32) ![0, 0] S10000x32.size inb_S10000x32_S10000x32_0_0).toLoadRect f = v.read Val f :=
  readAt_whole (S := S10000x32) v f hz2 _
theorem read_writes_cons_S10000x32 (v : View sg κ sp S10000x32 e) (f : v.ty.Contents Val) (w : S10000x32.Idx → Val e) (L : List (View.Piece Val S10000x32 e)) :
    v.read Val (v.writes Val f ((⟨Rect.unit (s := S10000x32) ![0, 0] S10000x32.size inb_S10000x32_S10000x32_0_0, w⟩ : View.Piece Val S10000x32 e) :: L)) = w :=
  read_writes_cons_whole (S := S10000x32) v f hz2 _ w L

end Reads

set_option maxHeartbeats 4000000 in
/-- The body at a point after the first, on whole staging memrefs at read contents: the carried buffers come in at
    `xs0` (the product `x · W1`) and `xs1` (the rows finished so far); the partial-product output leaves at the
    adjacency rows times `xs1`, the finished-rows output at the point's rows, and the second carried buffer with
    those rows written over `xs1`. -/
theorem sound_later (c : Dev nD) (E : Set ℕ) (i : grid0.Coords) (hc : ¬ cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S400x32 .f32) (harg6 : arg6.IsWhole)
    (arg7 : Memref sig .tc .vmem S10000x32 .f32) (harg7 : arg7.IsWhole) (arg8 : Memref sig .tc .vmem S10000x32 .f32) (harg8 : arg8.IsWhole)
    (x0 : Vec F S400x10000 .f32) (x1 : Vec F S10000x128 .f32) (x2 : Vec F S128x32 .f32) (x3 : Vec F S32x32 .f32)
    (xs0 : Vec F S10000x32 .f32) (xs1 : Vec F S10000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay4 x0 xs0 x3)
            ∗ owns (c : Thread nD τ) arg6 fullShare (k0_pay3 x0 xs1)
            ∗ owns (c : Thread nD τ) arg7 fullShare xs0
            ∗ owns (c : Thread nD τ) arg8 fullShare ((rowRect i).overlay xs1 (k0_pay5 x0 xs0 x3))) -∗ K ⟨⟩))
      ⊢ wp frame (wpE (defs₀ (F := F)) Variants.none c none) E
          (cc0__sweep1_kernel i arg1 harg1 arg2 harg2 arg3 harg3 arg4 harg4 arg5 harg5 arg6 harg6 arg7 harg7 arg8 harg8) K := by
  simp only [cc0__sweep1_kernel_eq_skeleton]; unfold cc0__sweep1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0 hf1 hf2 hf3 hfs0 hfs1
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [read_writes_cons_S400x32, readAt_S400x10000, readAt_S10000x32, readAt_S32x32]
  isplitl [H5]
  · iexists _; isplitr
    swap; · iexact H5
    ipureintro
    rw [read_writes_cons_S400x32, readAt_S400x10000, readAt_S10000x32]
  isplitl [HS0]; · iexists fs0; isplitr; · ipureintro; rfl
                   iexact HS0
  iexists _; isplitr
  swap; · iexact HS1
  ipureintro
  rw [read_writes_cons_overlay, View.writes_nil, readAt_S400x10000, readAt_S10000x32, readAt_S32x32]

set_option maxHeartbeats 4000000 in
/-- The body at the first point: the carried buffers come in at anything; the branch fills the first with `x · W1`
    and the second with zeros, so the partial-product output leaves at the adjacency rows times zeros, the
    finished-rows output at the point's rows, and the second carried buffer with those rows written over zeros. -/
theorem sound_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S400x32 .f32) (harg6 : arg6.IsWhole)
    (arg7 : Memref sig .tc .vmem S10000x32 .f32) (harg7 : arg7.IsWhole) (arg8 : Memref sig .tc .vmem S10000x32 .f32) (harg8 : arg8.IsWhole)
    (x0 : Vec F S400x10000 .f32) (x1 : Vec F S10000x128 .f32) (x2 : Vec F S128x32 .f32) (x3 : Vec F S32x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay4 x0 (k0_pay1 x1 x2) x3)
            ∗ owns (c : Thread nD τ) arg6 fullShare (k0_pay3 x0 k0_pay2)
            ∗ owns (c : Thread nD τ) arg7 fullShare (k0_pay1 x1 x2)
            ∗ owns (c : Thread nD τ) arg8 fullShare ((rowRect i).overlay k0_pay2 (k0_pay5 x0 (k0_pay1 x1 x2) x3))) -∗ K ⟨⟩))
      ⊢ wp frame (wpE (defs₀ (F := F)) Variants.none c none) E
          (cc0__sweep1_kernel i arg1 harg1 arg2 harg2 arg3 harg3 arg4 harg4 arg5 harg5 arg6 harg6 arg7 harg7 arg8 harg8) K := by
  simp only [cc0__sweep1_kernel_eq_skeleton]; unfold cc0__sweep1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  subst hf0 hf1 hf2 hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_run_names
    rw [read_writes_cons_S400x32, View.readCov_cons_toLoadRect, readAt_S400x10000, readAt_S10000x128, readAt_S128x32, readAt_S32x32]
  isplitl [H5]
  · iexists _; isplitr
    swap; · iexact H5
    ipureintro
    sl_unfold_run_names
    rw [read_writes_cons_S400x32, View.readCov_cons_toLoadRect, readAt_S400x10000]
  isplitl [HS0]
  · iexists _; isplitr
    swap; · iexact HS0
    ipureintro
    sl_unfold_run_names
    rw [read_writes_cons_S10000x32, readAt_S10000x128, readAt_S128x32]
  iexists _; isplitr
  swap; · iexact HS1
  ipureintro
  sl_unfold_run_names
  rw [read_writes_cons_overlay, read_writes_cons_S10000x32, View.readCov_cons_toLoadRect, readAt_S400x10000, readAt_S10000x128, readAt_S128x32, readAt_S32x32]

end Cert.Kernel.Sweep

end
-- ==== Proof.K.SweepFrame.lean ====
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import proofs.«162566_g43224550868076_cont_8to1_b_1602_24_alg».proof.Proof.K.SweepBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Sweep

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Each input's current staging buffer holds its block at every point, fetched there or not (unfetched, the block
    index has not moved). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The invariant, opened at the two carried buffers -/

/-- The plain invariant (every scoped buffer at anything) with the two carried buffers as memrefs owned at some contents. -/
theorem PhiA0_eq (c : Dev nD) :
    (Pipeline.ΦA spec0 c : sProp 𝕄)
      = iprop((((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0, scM1, owns_whole]; try rfl

/-- Before a point that is not the first: the carried buffers at what the points before left. -/
theorem PhiS_pos (c : Dev nD) (n : ℕ) (hn : n ≠ 0) :
    PhiS V c n = iprop((owns (c : Thread nD τ) scM0 fullShare (xw1 V c) ∗ owns (c : Thread nD τ) scM1 fullShare (rowsAt V c n))
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hn
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' memrefs hold their blocks; at the first point the invariant hands the carried
    buffers over at anything and takes them back at `x · W1` and the first finished rows over zeros; afterwards it
    hands them over at what the points before left and takes the second back with this point's rows written. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, Phi_eq0, Phi_eq0,
    show (t.succ : Fin (cfg0.N + 1)).val = t.val + 1 from rfl, show (t.castSucc : Fin (cfg0.N + 1)).val = t.val from rfl,
    PhiS_succ, rowsAt_succ]
  by_cases hz : t.val = 0
  · have hc : cond0 (grid0.coords t) := (hcond0 t).mpr hz
    obtain rfl : t = t0 := Fin.ext hz
    rw [show (t0 : Fin cfg0.N).val = 0 from rfl, PhiS_zero, PhiA0_eq]
    unfold twBlock
    rw [show rowsAt V c 0 = k0_pay2 from rfl]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply (sound_first c Set.univ (grid0.coords t0) hc _ _ _ _ _ _ _ _ _ _ _ _ _ _ _ _
      (iblk0 V c 0 t0) (iblk0 V c 1 t0) (iblk0 V c 2 t0) (iblk0 V c 3 t0) _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬ cond0 (grid0.coords t) := fun h => hz ((hcond0 t).mp h)
    rw [PhiS_pos V c _ hz]
    unfold twBlock
    iintro ⟨⟨⟨HS0, HS1⟩, Hr, Hg⟩, Ho, ⟨%d0, H0⟩, ⟨%d1, H1⟩, ⟨%d2, H2⟩, ⟨%d3, H3⟩, ⟨%d4, H4⟩, ⟨%d5, H5⟩⟩
    iapply (sound_later c Set.univ (grid0.coords t) hc _ _ _ _ _ _ _ _ _ _ _ _ _ _ _ _
      (iblk0 V c 0 t) (iblk0 V c 1 t) (iblk0 V c 2 t) (iblk0 V c 3 t) (xw1 V c) (rowsAt V c t.val) _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [Phi_eq0]
  exact Idealize.SL.BI.Entails.refl _

/-- After the last point the invariant gives the plain one back: the carried buffers' named contents are forgotten. -/
theorem hout0 (c : Dev nD) : (dat0 V c).Φ (Fin.last cfg0.N) ⊢ Pipeline.ΦA spec0 c := by
  rw [Phi_eq0, Fin.val_last, show cfg0.N = 24 + 1 from N_0, PhiS_succ]
  unfold Pipeline.ΦA; rw [scopedRest0_split]
  simp only [scM0, scM1, owns_whole]
  iintro ⟨⟨H0, H1⟩, Hr, Hg⟩
  isplitr [Hg]
  · isplitl [H0 H1]
    · isplitl [H0]
      · iexists _; iexact H0
      · iexists _; iexact H1
    · iexact Hr
  · iexact Hg

end Cert.Kernel.Sweep

end
-- ==== Proof.K.Class1.lean ====
/-
  Region 1 of the forward pass, the class kernel for row blocks 0 to 5: what its body finds and leaves at every
  grid point, at any float instance. At grid point t the body reads three rectangles — the block of 400 rows of the adjacency matrix
  restricted to its first 2432 columns (row block t + 0), the first 2432 rows of the 32-column matrix tw of
  projected hidden features (the same rectangle at every point), and the block of 400 rows of the partial product
  mv — and stores two 400 x 16 rectangles: the left and the right half of

      mv_block + adj_block · (tw with the rows from (t + 0 + 1) · 400 on replaced by zero).

  The stored value depends on the grid point through that row limit, so the two outputs are functions of the
  grid coordinates as well as of the three blocks read.

  The two prefix rectangles (2432 does not divide 10000) are described by windows that would cut a block
  overhanging the array's end. None of the 6 blocks here overhangs (2432 ≤ 10000 and the row blocks end at row
  2400), which is decided once over the grid (`nocut1_0`, `nocut1_1`); hence a fetch fills the whole
  staging buffer and what the body finds there does not depend on what the buffer held before (`fill_indep`).
-/
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Class1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): the part of the block that
    lies inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- When the part a transfer moves is the whole block, the buffer after a fetch does not depend on what it held. -/
theorem fill_indep {G : Pipeline.Grid} (w : Pipeline.Window sig G) {α : Type} (i : G.Coords)
    (h : ∀ a, w.xsize i a = w.size a) (d d' : w.block.Idx → α) (g : (w.xblock i).Idx → α) :
    w.fill i d g = w.fill i d' g := by
  funext j
  have hm : w.moved i j = true := (w.moved_iff i j).mpr fun a => by rw [h a]; exact (j a).isLt
  unfold Pipeline.Window.fill; rw [dif_pos hm, dif_pos hm]

/-- No block of the adjacency prefix overhangs the array: 400 rows from row (t + 0) · 400 end by row 2400 ≤ 10000,
    and 2432 columns from column 0 end inside 10000. -/
theorem nocut1_0 : ∀ (t : Fin cfg1.N) (a : Fin 2), (cfg1.win 0).xsize (cfg1.grid.coords t) a = (cfg1.win 0).size a :=
  (by decide +kernel : ∀ (t : Fin grid1.N) (a : Fin 2), win1_0.xsize (grid1.coords t) a = S400x2432.size a)
/-- Nor does the one block of the prefix of tw: 2432 rows from row 0, 32 columns from column 0. -/
theorem nocut1_1 : ∀ (t : Fin cfg1.N) (a : Fin 2), (cfg1.win 1).xsize (cfg1.grid.coords t) a = (cfg1.win 1).size a :=
  (by decide +kernel : ∀ (t : Fin grid1.N) (a : Fin 2), win1_1.xsize (grid1.coords t) a = S2432x32.size a)

/-- The adjacency block at point `t` as a full 400 x 2432 buffer (the filler word is never seen: nothing is cut). -/
def ablk1 (c : Dev nD) (t : Fin cfg1.N) : (cfg1.win 0).block.Idx → Elt F (cfg1.win 0).elt :=
  (cfg1.win 0).fill (cfg1.grid.coords t) (fun _ => Scalar.ofBits .f32 0#32) (iblk1 V c 0 t)
/-- The prefix of tw as a full 2432 x 32 buffer. -/
def tblk1 (c : Dev nD) (t : Fin cfg1.N) : (cfg1.win 1).block.Idx → Elt F (cfg1.win 1).elt :=
  (cfg1.win 1).fill (cfg1.grid.coords t) (fun _ => Scalar.ofBits .f32 0#32) (iblk1 V c 1 t)

/-- The adjacency window's staging buffer holds its full block at every point, whatever it held before, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = ablk1 V c t) (t : Fin cfg1.N) (d) : dat.before 0 t d = ablk1 V c t :=
  (dat.before_in_eq_fetched 0 rfl (fun _ => rfl)
    (fun t t' h => funext fun a => by
      show Pipeline.Clip.of ((cfg1.win 0).index t a) _ _ = Pipeline.Clip.of ((cfg1.win 0).index t' a) _ _
      rw [h])
    (fun t => by rw [hafter]; unfold ablk1; rw [Pipeline.Window.cut_fill]; unfold Dat.blockOf iblk1; rw [hA]) t d).trans
    (by unfold Dat.fetched Dat.blockOf ablk1 iblk1; rw [hA]; exact fill_indep _ _ (nocut1_0 t) _ _ _)

/-- The same for the prefix of tw, fetched at the first point only: later points find what the first fetch left. -/
theorem before1_1_of {c : Dev nD} (dat : Dat τ (Elt F) Unit ℕ (UR sig nD τ) ℕ cfg1 c) (hA : dat.A 1 = V c (Pipeline.arrRef spec1 1))
    (hafter : ∀ t, dat.after 1 t = tblk1 V c t) (t : Fin cfg1.N) (d) : dat.before 1 t d = tblk1 V c t :=
  (dat.before_in_eq_fetched 1 rfl (fun _ => rfl)
    (fun t t' h => funext fun a => by
      show Pipeline.Clip.of ((cfg1.win 1).index t a) _ _ = Pipeline.Clip.of ((cfg1.win 1).index t' a) _ _
      rw [h])
    (fun t => by rw [hafter]; unfold tblk1; rw [Pipeline.Window.cut_fill]; unfold Dat.blockOf iblk1; rw [hA]) t d).trans
    (by unfold Dat.fetched Dat.blockOf tblk1 iblk1; rw [hA]; exact fill_indep _ _ (nocut1_1 t) _ _ _)

/-- The block of mv (400 x 32 blocks tile its 10000 rows: nothing is cut by construction). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S400x2432 := Rect.unit (s := S400x2432) ![0, 0] S400x2432.size inb_S400x2432_S400x2432_0_0
abbrev r1_1 : Rect S2432x32 := Rect.unit (s := S2432x32) ![0, 0] S2432x32.size inb_S2432x32_S2432x32_0_0
abbrev r1_2 : Rect S400x32 := Rect.unit (s := S400x32) ![0, 0] S400x32.size inb_S400x32_S400x32_0_0
abbrev r1_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` the prefix of tw, `x2` the block of mv): one store of the whole buffer, columns 0 to 15
    of mv + adj · (tw masked below the row limit). -/
def out1_3 (i : grid1.Coords) (x0 : Vec F S400x2432 .f32) (x1 : Vec F S2432x32 .f32) (x2 : Vec F S400x32 .f32) : Vec F S400x16 .f32 :=
  View.canon [⟨r1_3, k1_pay2 i (View.ld x1 r1_1) (View.ld x2 r1_2) (View.ld x0 r1_0)⟩]
/-- The log-variance part's likewise: columns 16 to 31 of the same sum. -/
def out1_4 (i : grid1.Coords) (x0 : Vec F S400x2432 .f32) (x1 : Vec F S2432x32 .f32) (x2 : Vec F S400x32 .f32) : Vec F S400x16 .f32 :=
  View.canon [⟨r1_3, k1_pay3 i (View.ld x1 r1_1) (View.ld x2 r1_2) (View.ld x0 r1_0)⟩]

/-- One store of the whole 400 x 16 rectangle covers the buffer. -/
theorem cover1_3 (p0 : Vec F S400x16 .f32) (y : S400x16.Idx) :
    ∃ pc ∈ ([⟨r1_3, p0⟩] : List (View.Piece (Elt F) S400x16 .f32)), y ∈ pc.1.set :=
  View.cover_of_tiled [⟨r1_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out1_3`, `out1_4` of the inputs'. -/
theorem sound_kernel1 (c : Dev nD) (E : Set ℕ) (i : grid1.Coords)
    (arg1 : Memref sig .tc .vmem S400x2432 .f32) (harg1 : arg1.IsWhole)
    (arg2 : Memref sig .tc .vmem S2432x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x2432 .f32) (x1 : Vec F S2432x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 i x0 x1 x2) ∗ owns (c : Thread nD τ) arg5 fullShare (out1_4 i x0 x1 x2)) -∗ K ⟨⟩))
      ⊢ wp frame (wpE (defs₀ (F := F)) Variants.none c none) E (cc1__class_kernel i arg1 harg1 arg2 harg2 arg3 harg3 arg4 harg4 arg5 harg5) K := by
  simp only [cc1__class_kernel_eq_skeleton]; unfold cc1__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_3 _)

/-! ## The pipeline's proof data -/

/-- The proof data of this region on core `c`: the arrays as the region finds them (`V`); after the body at point
    `t` each input's buffer at its full block and each output's at `out1_W` of the input blocks at the point's
    coordinates; the invariant that of a body touching nothing else; nothing owed; full shares. -/
def dat1 (c : Dev nD) : Dat τ (Elt F) Unit ℕ (UR sig nD τ) ℕ cfg1 c where
  A w := V c (Pipeline.arrRef spec1 w)
  after w t := match w with
    | ⟨0, _⟩ => ablk1 V c t
    | ⟨1, _⟩ => tblk1 V c t
    | ⟨2, _⟩ => iblk1 V c 2 t
    | ⟨3, _⟩ => out1_3 (grid1.coords t) (ablk1 V c t) (tblk1 V c t) (iblk1 V c 2 t)
    | ⟨4, _⟩ => out1_4 (grid1.coords t) (ablk1 V c t) (tblk1 V c t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = ablk1 V c t := by dsimp only [dat1]
theorem after1_1 (c : Dev nD) (t : Fin cfg1.N) : (dat1 V c).after 1 t = tblk1 V c t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (ablk1 V c t) (tblk1 V c t) (iblk1 V c 2 t) := by dsimp only [dat1]
theorem after1_4 (c : Dev nD) (t : Fin cfg1.N) :
    (dat1 V c).after 4 t = out1_4 (grid1.coords t) (ablk1 V c t) (tblk1 V c t) (iblk1 V c 2 t) := by dsimp only [dat1]

/-- Each input's current staging buffer holds its full block at every point, fetched there or not. -/
theorem before1_0 (c : Dev nD) (t : Fin cfg1.N) (d) : (dat1 V c).before 0 t d = ablk1 V c t :=
  before1_0_of V (dat1 V c) (A_eq1 V c 0) (after1_0 V c) t d
theorem before1_1 (c : Dev nD) (t : Fin cfg1.N) (d) : (dat1 V c).before 1 t d = tblk1 V c t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies at the
    point's coordinates; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (ablk1 V c t) (tblk1 V c t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation1 (c : Dev nD) : BodyObligation (dat1 (F := F) V c) (defs₀ (F := F)) Variants.none () Set.univ := fun t => by
  rw [bigSep_W1, bigSep_W1]
  exact sound_body1 V c t

end Cert.Kernel.Class1

end
-- ==== Proof.K.Class2.lean ====
/-
  Region 2 of the forward pass, the class kernel for row blocks 6 to 11: what its body finds and leaves at every
  grid point, at any float instance. At grid point t the body reads three rectangles — the block of 400 rows of the adjacency matrix
  restricted to its first 4864 columns (row block t + 6), the first 4864 rows of the 32-column matrix tw of
  projected hidden features (the same rectangle at every point), and the block of 400 rows of the partial product
  mv — and stores two 400 x 16 rectangles: the left and the right half of

      mv_block + adj_block · (tw with the rows from (t + 6 + 1) · 400 on replaced by zero).

  The stored value depends on the grid point through that row limit, so the two outputs are functions of the
  grid coordinates as well as of the three blocks read.

  The two prefix rectangles (4864 does not divide 10000) are described by windows that would cut a block
  overhanging the array's end. None of the 6 blocks here overhangs (4864 ≤ 10000 and the row blocks end at row
  4800), which is decided once over the grid (`nocut2_0`, `nocut2_1`); hence a fetch fills the whole
  staging buffer and what the body finds there does not depend on what the buffer held before (`fill_indep`).
-/
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Class2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): the part of the block that
    lies inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- When the part a transfer moves is the whole block, the buffer after a fetch does not depend on what it held. -/
theorem fill_indep {G : Pipeline.Grid} (w : Pipeline.Window sig G) {α : Type} (i : G.Coords)
    (h : ∀ a, w.xsize i a = w.size a) (d d' : w.block.Idx → α) (g : (w.xblock i).Idx → α) :
    w.fill i d g = w.fill i d' g := by
  funext j
  have hm : w.moved i j = true := (w.moved_iff i j).mpr fun a => by rw [h a]; exact (j a).isLt
  unfold Pipeline.Window.fill; rw [dif_pos hm, dif_pos hm]

/-- No block of the adjacency prefix overhangs the array: 400 rows from row (t + 6) · 400 end by row 4800 ≤ 10000,
    and 4864 columns from column 0 end inside 10000. -/
theorem nocut2_0 : ∀ (t : Fin cfg2.N) (a : Fin 2), (cfg2.win 0).xsize (cfg2.grid.coords t) a = (cfg2.win 0).size a :=
  (by decide +kernel : ∀ (t : Fin grid2.N) (a : Fin 2), win2_0.xsize (grid2.coords t) a = S400x4864.size a)
/-- Nor does the one block of the prefix of tw: 4864 rows from row 0, 32 columns from column 0. -/
theorem nocut2_1 : ∀ (t : Fin cfg2.N) (a : Fin 2), (cfg2.win 1).xsize (cfg2.grid.coords t) a = (cfg2.win 1).size a :=
  (by decide +kernel : ∀ (t : Fin grid2.N) (a : Fin 2), win2_1.xsize (grid2.coords t) a = S4864x32.size a)

/-- The adjacency block at point `t` as a full 400 x 4864 buffer (the filler word is never seen: nothing is cut). -/
def ablk2 (c : Dev nD) (t : Fin cfg2.N) : (cfg2.win 0).block.Idx → Elt F (cfg2.win 0).elt :=
  (cfg2.win 0).fill (cfg2.grid.coords t) (fun _ => Scalar.ofBits .f32 0#32) (iblk2 V c 0 t)
/-- The prefix of tw as a full 4864 x 32 buffer. -/
def tblk2 (c : Dev nD) (t : Fin cfg2.N) : (cfg2.win 1).block.Idx → Elt F (cfg2.win 1).elt :=
  (cfg2.win 1).fill (cfg2.grid.coords t) (fun _ => Scalar.ofBits .f32 0#32) (iblk2 V c 1 t)

/-- The adjacency window's staging buffer holds its full block at every point, whatever it held before, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = ablk2 V c t) (t : Fin cfg2.N) (d) : dat.before 0 t d = ablk2 V c t :=
  (dat.before_in_eq_fetched 0 rfl (fun _ => rfl)
    (fun t t' h => funext fun a => by
      show Pipeline.Clip.of ((cfg2.win 0).index t a) _ _ = Pipeline.Clip.of ((cfg2.win 0).index t' a) _ _
      rw [h])
    (fun t => by rw [hafter]; unfold ablk2; rw [Pipeline.Window.cut_fill]; unfold Dat.blockOf iblk2; rw [hA]) t d).trans
    (by unfold Dat.fetched Dat.blockOf ablk2 iblk2; rw [hA]; exact fill_indep _ _ (nocut2_0 t) _ _ _)

/-- The same for the prefix of tw, fetched at the first point only: later points find what the first fetch left. -/
theorem before2_1_of {c : Dev nD} (dat : Dat τ (Elt F) Unit ℕ (UR sig nD τ) ℕ cfg2 c) (hA : dat.A 1 = V c (Pipeline.arrRef spec2 1))
    (hafter : ∀ t, dat.after 1 t = tblk2 V c t) (t : Fin cfg2.N) (d) : dat.before 1 t d = tblk2 V c t :=
  (dat.before_in_eq_fetched 1 rfl (fun _ => rfl)
    (fun t t' h => funext fun a => by
      show Pipeline.Clip.of ((cfg2.win 1).index t a) _ _ = Pipeline.Clip.of ((cfg2.win 1).index t' a) _ _
      rw [h])
    (fun t => by rw [hafter]; unfold tblk2; rw [Pipeline.Window.cut_fill]; unfold Dat.blockOf iblk2; rw [hA]) t d).trans
    (by unfold Dat.fetched Dat.blockOf tblk2 iblk2; rw [hA]; exact fill_indep _ _ (nocut2_1 t) _ _ _)

/-- The block of mv (400 x 32 blocks tile its 10000 rows: nothing is cut by construction). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its staging buffer -/

abbrev r2_0 : Rect S400x4864 := Rect.unit (s := S400x4864) ![0, 0] S400x4864.size inb_S400x4864_S400x4864_0_0
abbrev r2_1 : Rect S4864x32 := Rect.unit (s := S4864x32) ![0, 0] S4864x32.size inb_S4864x32_S4864x32_0_0
abbrev r2_2 : Rect S400x32 := Rect.unit (s := S400x32) ![0, 0] S400x32.size inb_S400x32_S400x32_0_0
abbrev r2_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` the prefix of tw, `x2` the block of mv): one store of the whole buffer, columns 0 to 15
    of mv + adj · (tw masked below the row limit). -/
def out2_3 (i : grid2.Coords) (x0 : Vec F S400x4864 .f32) (x1 : Vec F S4864x32 .f32) (x2 : Vec F S400x32 .f32) : Vec F S400x16 .f32 :=
  View.canon [⟨r2_3, k2_pay2 i (View.ld x1 r2_1) (View.ld x2 r2_2) (View.ld x0 r2_0)⟩]
/-- The log-variance part's likewise: columns 16 to 31 of the same sum. -/
def out2_4 (i : grid2.Coords) (x0 : Vec F S400x4864 .f32) (x1 : Vec F S4864x32 .f32) (x2 : Vec F S400x32 .f32) : Vec F S400x16 .f32 :=
  View.canon [⟨r2_3, k2_pay3 i (View.ld x1 r2_1) (View.ld x2 r2_2) (View.ld x0 r2_0)⟩]

/-- One store of the whole 400 x 16 rectangle covers the buffer. -/
theorem cover2_3 (p0 : Vec F S400x16 .f32) (y : S400x16.Idx) :
    ∃ pc ∈ ([⟨r2_3, p0⟩] : List (View.Piece (Elt F) S400x16 .f32)), y ∈ pc.1.set :=
  View.cover_of_tiled [⟨r2_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out2_3`, `out2_4` of the inputs'. -/
theorem sound_kernel2 (c : Dev nD) (E : Set ℕ) (i : grid2.Coords)
    (arg1 : Memref sig .tc .vmem S400x4864 .f32) (harg1 : arg1.IsWhole)
    (arg2 : Memref sig .tc .vmem S4864x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x4864 .f32) (x1 : Vec F S4864x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 i x0 x1 x2) ∗ owns (c : Thread nD τ) arg5 fullShare (out2_4 i x0 x1 x2)) -∗ K ⟨⟩))
      ⊢ wp frame (wpE (defs₀ (F := F)) Variants.none c none) E (cc2__class_kernel i arg1 harg1 arg2 harg2 arg3 harg3 arg4 harg4 arg5 harg5) K := by
  simp only [cc2__class_kernel_eq_skeleton]; unfold cc2__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_3 _)

/-! ## The pipeline's proof data -/

/-- The proof data of this region on core `c`: the arrays as the region finds them (`V`); after the body at point
    `t` each input's buffer at its full block and each output's at `out2_W` of the input blocks at the point's
    coordinates; the invariant that of a body touching nothing else; nothing owed; full shares. -/
def dat2 (c : Dev nD) : Dat τ (Elt F) Unit ℕ (UR sig nD τ) ℕ cfg2 c where
  A w := V c (Pipeline.arrRef spec2 w)
  after w t := match w with
    | ⟨0, _⟩ => ablk2 V c t
    | ⟨1, _⟩ => tblk2 V c t
    | ⟨2, _⟩ => iblk2 V c 2 t
    | ⟨3, _⟩ => out2_3 (grid2.coords t) (ablk2 V c t) (tblk2 V c t) (iblk2 V c 2 t)
    | ⟨4, _⟩ => out2_4 (grid2.coords t) (ablk2 V c t) (tblk2 V c t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = ablk2 V c t := by dsimp only [dat2]
theorem after2_1 (c : Dev nD) (t : Fin cfg2.N) : (dat2 V c).after 1 t = tblk2 V c t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (grid2.coords t) (ablk2 V c t) (tblk2 V c t) (iblk2 V c 2 t) := by dsimp only [dat2]
theorem after2_4 (c : Dev nD) (t : Fin cfg2.N) :
    (dat2 V c).after 4 t = out2_4 (grid2.coords t) (ablk2 V c t) (tblk2 V c t) (iblk2 V c 2 t) := by dsimp only [dat2]

/-- Each input's current staging buffer holds its full block at every point, fetched there or not. -/
theorem before2_0 (c : Dev nD) (t : Fin cfg2.N) (d) : (dat2 V c).before 0 t d = ablk2 V c t :=
  before2_0_of V (dat2 V c) (A_eq2 V c 0) (after2_0 V c) t d
theorem before2_1 (c : Dev nD) (t : Fin cfg2.N) (d) : (dat2 V c).before 1 t d = tblk2 V c t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies at the
    point's coordinates; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (ablk2 V c t) (tblk2 V c t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation2 (c : Dev nD) : BodyObligation (dat2 (F := F) V c) (defs₀ (F := F)) Variants.none () Set.univ := fun t => by
  rw [bigSep_W2, bigSep_W2]
  exact sound_body2 V c t

end Cert.Kernel.Class2

end
-- ==== Proof.K.Class3.lean ====
/-
  Region 3 of the forward pass, the class kernel for row blocks 12 to 17: what its body finds and leaves at every
  grid point, at any float instance. At grid point t the body reads three rectangles — the block of 400 rows of the adjacency matrix
  restricted to its first 7296 columns (row block t + 12), the first 7296 rows of the 32-column matrix tw of
  projected hidden features (the same rectangle at every point), and the block of 400 rows of the partial product
  mv — and stores two 400 x 16 rectangles: the left and the right half of

      mv_block + adj_block · (tw with the rows from (t + 12 + 1) · 400 on replaced by zero).

  The stored value depends on the grid point through that row limit, so the two outputs are functions of the
  grid coordinates as well as of the three blocks read.

  The two prefix rectangles (7296 does not divide 10000) are described by windows that would cut a block
  overhanging the array's end. None of the 6 blocks here overhangs (7296 ≤ 10000 and the row blocks end at row
  7200), which is decided once over the grid (`nocut3_0`, `nocut3_1`); hence a fetch fills the whole
  staging buffer and what the body finds there does not depend on what the buffer held before (`fill_indep`).
-/
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Class3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): the part of the block that
    lies inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- When the part a transfer moves is the whole block, the buffer after a fetch does not depend on what it held. -/
theorem fill_indep {G : Pipeline.Grid} (w : Pipeline.Window sig G) {α : Type} (i : G.Coords)
    (h : ∀ a, w.xsize i a = w.size a) (d d' : w.block.Idx → α) (g : (w.xblock i).Idx → α) :
    w.fill i d g = w.fill i d' g := by
  funext j
  have hm : w.moved i j = true := (w.moved_iff i j).mpr fun a => by rw [h a]; exact (j a).isLt
  unfold Pipeline.Window.fill; rw [dif_pos hm, dif_pos hm]

/-- No block of the adjacency prefix overhangs the array: 400 rows from row (t + 12) · 400 end by row 7200 ≤ 10000,
    and 7296 columns from column 0 end inside 10000. -/
theorem nocut3_0 : ∀ (t : Fin cfg3.N) (a : Fin 2), (cfg3.win 0).xsize (cfg3.grid.coords t) a = (cfg3.win 0).size a :=
  (by decide +kernel : ∀ (t : Fin grid3.N) (a : Fin 2), win3_0.xsize (grid3.coords t) a = S400x7296.size a)
/-- Nor does the one block of the prefix of tw: 7296 rows from row 0, 32 columns from column 0. -/
theorem nocut3_1 : ∀ (t : Fin cfg3.N) (a : Fin 2), (cfg3.win 1).xsize (cfg3.grid.coords t) a = (cfg3.win 1).size a :=
  (by decide +kernel : ∀ (t : Fin grid3.N) (a : Fin 2), win3_1.xsize (grid3.coords t) a = S7296x32.size a)

/-- The adjacency block at point `t` as a full 400 x 7296 buffer (the filler word is never seen: nothing is cut). -/
def ablk3 (c : Dev nD) (t : Fin cfg3.N) : (cfg3.win 0).block.Idx → Elt F (cfg3.win 0).elt :=
  (cfg3.win 0).fill (cfg3.grid.coords t) (fun _ => Scalar.ofBits .f32 0#32) (iblk3 V c 0 t)
/-- The prefix of tw as a full 7296 x 32 buffer. -/
def tblk3 (c : Dev nD) (t : Fin cfg3.N) : (cfg3.win 1).block.Idx → Elt F (cfg3.win 1).elt :=
  (cfg3.win 1).fill (cfg3.grid.coords t) (fun _ => Scalar.ofBits .f32 0#32) (iblk3 V c 1 t)

/-- The adjacency window's staging buffer holds its full block at every point, whatever it held before, for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = ablk3 V c t) (t : Fin cfg3.N) (d) : dat.before 0 t d = ablk3 V c t :=
  (dat.before_in_eq_fetched 0 rfl (fun _ => rfl)
    (fun t t' h => funext fun a => by
      show Pipeline.Clip.of ((cfg3.win 0).index t a) _ _ = Pipeline.Clip.of ((cfg3.win 0).index t' a) _ _
      rw [h])
    (fun t => by rw [hafter]; unfold ablk3; rw [Pipeline.Window.cut_fill]; unfold Dat.blockOf iblk3; rw [hA]) t d).trans
    (by unfold Dat.fetched Dat.blockOf ablk3 iblk3; rw [hA]; exact fill_indep _ _ (nocut3_0 t) _ _ _)

/-- The same for the prefix of tw, fetched at the first point only: later points find what the first fetch left. -/
theorem before3_1_of {c : Dev nD} (dat : Dat τ (Elt F) Unit ℕ (UR sig nD τ) ℕ cfg3 c) (hA : dat.A 1 = V c (Pipeline.arrRef spec3 1))
    (hafter : ∀ t, dat.after 1 t = tblk3 V c t) (t : Fin cfg3.N) (d) : dat.before 1 t d = tblk3 V c t :=
  (dat.before_in_eq_fetched 1 rfl (fun _ => rfl)
    (fun t t' h => funext fun a => by
      show Pipeline.Clip.of ((cfg3.win 1).index t a) _ _ = Pipeline.Clip.of ((cfg3.win 1).index t' a) _ _
      rw [h])
    (fun t => by rw [hafter]; unfold tblk3; rw [Pipeline.Window.cut_fill]; unfold Dat.blockOf iblk3; rw [hA]) t d).trans
    (by unfold Dat.fetched Dat.blockOf tblk3 iblk3; rw [hA]; exact fill_indep _ _ (nocut3_1 t) _ _ _)

/-- The block of mv (400 x 32 blocks tile its 10000 rows: nothing is cut by construction). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its staging buffer -/

abbrev r3_0 : Rect S400x7296 := Rect.unit (s := S400x7296) ![0, 0] S400x7296.size inb_S400x7296_S400x7296_0_0
abbrev r3_1 : Rect S7296x32 := Rect.unit (s := S7296x32) ![0, 0] S7296x32.size inb_S7296x32_S7296x32_0_0
abbrev r3_2 : Rect S400x32 := Rect.unit (s := S400x32) ![0, 0] S400x32.size inb_S400x32_S400x32_0_0
abbrev r3_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` the prefix of tw, `x2` the block of mv): one store of the whole buffer, columns 0 to 15
    of mv + adj · (tw masked below the row limit). -/
def out3_3 (i : grid3.Coords) (x0 : Vec F S400x7296 .f32) (x1 : Vec F S7296x32 .f32) (x2 : Vec F S400x32 .f32) : Vec F S400x16 .f32 :=
  View.canon [⟨r3_3, k3_pay2 i (View.ld x1 r3_1) (View.ld x2 r3_2) (View.ld x0 r3_0)⟩]
/-- The log-variance part's likewise: columns 16 to 31 of the same sum. -/
def out3_4 (i : grid3.Coords) (x0 : Vec F S400x7296 .f32) (x1 : Vec F S7296x32 .f32) (x2 : Vec F S400x32 .f32) : Vec F S400x16 .f32 :=
  View.canon [⟨r3_3, k3_pay3 i (View.ld x1 r3_1) (View.ld x2 r3_2) (View.ld x0 r3_0)⟩]

/-- One store of the whole 400 x 16 rectangle covers the buffer. -/
theorem cover3_3 (p0 : Vec F S400x16 .f32) (y : S400x16.Idx) :
    ∃ pc ∈ ([⟨r3_3, p0⟩] : List (View.Piece (Elt F) S400x16 .f32)), y ∈ pc.1.set :=
  View.cover_of_tiled [⟨r3_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out3_3`, `out3_4` of the inputs'. -/
theorem sound_kernel3 (c : Dev nD) (E : Set ℕ) (i : grid3.Coords)
    (arg1 : Memref sig .tc .vmem S400x7296 .f32) (harg1 : arg1.IsWhole)
    (arg2 : Memref sig .tc .vmem S7296x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x7296 .f32) (x1 : Vec F S7296x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 i x0 x1 x2) ∗ owns (c : Thread nD τ) arg5 fullShare (out3_4 i x0 x1 x2)) -∗ K ⟨⟩))
      ⊢ wp frame (wpE (defs₀ (F := F)) Variants.none c none) E (cc3__class_kernel i arg1 harg1 arg2 harg2 arg3 harg3 arg4 harg4 arg5 harg5) K := by
  simp only [cc3__class_kernel_eq_skeleton]; unfold cc3__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_3 _)

/-! ## The pipeline's proof data -/

/-- The proof data of this region on core `c`: the arrays as the region finds them (`V`); after the body at point
    `t` each input's buffer at its full block and each output's at `out3_W` of the input blocks at the point's
    coordinates; the invariant that of a body touching nothing else; nothing owed; full shares. -/
def dat3 (c : Dev nD) : Dat τ (Elt F) Unit ℕ (UR sig nD τ) ℕ cfg3 c where
  A w := V c (Pipeline.arrRef spec3 w)
  after w t := match w with
    | ⟨0, _⟩ => ablk3 V c t
    | ⟨1, _⟩ => tblk3 V c t
    | ⟨2, _⟩ => iblk3 V c 2 t
    | ⟨3, _⟩ => out3_3 (grid3.coords t) (ablk3 V c t) (tblk3 V c t) (iblk3 V c 2 t)
    | ⟨4, _⟩ => out3_4 (grid3.coords t) (ablk3 V c t) (tblk3 V c t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = ablk3 V c t := by dsimp only [dat3]
theorem after3_1 (c : Dev nD) (t : Fin cfg3.N) : (dat3 V c).after 1 t = tblk3 V c t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (grid3.coords t) (ablk3 V c t) (tblk3 V c t) (iblk3 V c 2 t) := by dsimp only [dat3]
theorem after3_4 (c : Dev nD) (t : Fin cfg3.N) :
    (dat3 V c).after 4 t = out3_4 (grid3.coords t) (ablk3 V c t) (tblk3 V c t) (iblk3 V c 2 t) := by dsimp only [dat3]

/-- Each input's current staging buffer holds its full block at every point, fetched there or not. -/
theorem before3_0 (c : Dev nD) (t : Fin cfg3.N) (d) : (dat3 V c).before 0 t d = ablk3 V c t :=
  before3_0_of V (dat3 V c) (A_eq3 V c 0) (after3_0 V c) t d
theorem before3_1 (c : Dev nD) (t : Fin cfg3.N) (d) : (dat3 V c).before 1 t d = tblk3 V c t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies at the
    point's coordinates; the invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (ablk3 V c t) (tblk3 V c t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation3 (c : Dev nD) : BodyObligation (dat3 (F := F) V c) (defs₀ (F := F)) Variants.none () Set.univ := fun t => by
  rw [bigSep_W3, bigSep_W3]
  exact sound_body3 V c t

end Cert.Kernel.Class3

end
-- ==== Proof.K.Class4.lean ====
/-
  Region 4 of the forward pass, the class kernel for row blocks 18 to 24: what its body finds and leaves at every
  grid point, at any float instance. At grid point t the body reads three rectangles — the block of 400 rows of the adjacency matrix, all
  10000 columns (row block t + 18), the whole 32-column matrix tw of projected hidden features (the same rectangle
  at every point), and the block of 400 rows of the partial product mv — and stores two 400 x 16 rectangles: the
  left and the right half of

      mv_block + adj_block · (tw with the rows from (t + 18 + 1) · 400 on replaced by zero).

  The stored value depends on the grid point through that row limit, so the two outputs are functions of the
  grid coordinates as well as of the three blocks read. Every block here tiles its array, so a staging buffer
  after a fetch is the block itself.
-/
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Class4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The adjacency window's staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for tw, fetched at the first point only: later points find what the first fetch left. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- And for the block of mv. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its staging buffer -/

abbrev r4_0 : Rect S400x10000 := Rect.unit (s := S400x10000) ![0, 0] S400x10000.size inb_S400x10000_S400x10000_0_0
abbrev r4_1 : Rect S10000x32 := Rect.unit (s := S10000x32) ![0, 0] S10000x32.size inb_S10000x32_S10000x32_0_0
abbrev r4_2 : Rect S400x32 := Rect.unit (s := S400x32) ![0, 0] S400x32.size inb_S400x32_S400x32_0_0
abbrev r4_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` tw, `x2` the block of mv): one store of the whole buffer, columns 0 to 15 of
    mv + adj · (tw masked below the row limit). -/
def out4_3 (i : grid4.Coords) (x0 : Vec F S400x10000 .f32) (x1 : Vec F S10000x32 .f32) (x2 : Vec F S400x32 .f32) : Vec F S400x16 .f32 :=
  View.canon [⟨r4_3, k4_pay2 i (View.ld x1 r4_1) (View.ld x2 r4_2) (View.ld x0 r4_0)⟩]
/-- The log-variance part's likewise: columns 16 to 31 of the same sum. -/
def out4_4 (i : grid4.Coords) (x0 : Vec F S400x10000 .f32) (x1 : Vec F S10000x32 .f32) (x2 : Vec F S400x32 .f32) : Vec F S400x16 .f32 :=
  View.canon [⟨r4_3, k4_pay3 i (View.ld x1 r4_1) (View.ld x2 r4_2) (View.ld x0 r4_0)⟩]

/-- One store of the whole 400 x 16 rectangle covers the buffer. -/
theorem cover4_3 (p0 : Vec F S400x16 .f32) (y : S400x16.Idx) :
    ∃ pc ∈ ([⟨r4_3, p0⟩] : List (View.Piece (Elt F) S400x16 .f32)), y ∈ pc.1.set :=
  View.cover_of_tiled [⟨r4_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out4_3`, `out4_4` of the inputs'. -/
theorem sound_kernel4 (c : Dev nD) (E : Set ℕ) (i : grid4.Coords)
    (arg1 : Memref sig .tc .vmem S400x10000 .f32) (harg1 : arg1.IsWhole)
    (arg2 : Memref sig .tc .vmem S10000x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x10000 .f32) (x1 : Vec F S10000x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 i x0 x1 x2) ∗ owns (c : Thread nD τ) arg5 fullShare (out4_4 i x0 x1 x2)) -∗ K ⟨⟩))
      ⊢ wp frame (wpE (defs₀ (F := F)) Variants.none c none) E (cc4__class_kernel i arg1 harg1 arg2 harg2 arg3 harg3 arg4 harg4 arg5 harg5) K := by
  simp only [cc4__class_kernel_eq_skeleton]; unfold cc4__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_3 _)

/-! ## The pipeline's proof data -/

/-- The proof data of this region on core `c`: the arrays as the region finds them (`V`); after the body at point
    `t` each input's buffer at its block and each output's at `out4_W` of the input blocks at the point's
    coordinates; the invariant that of a body touching nothing else; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (grid4.coords t) (iblk4 V c 0 t) (iblk4 V c 1 t) (iblk4 V c 2 t)
    | ⟨4, _⟩ => out4_4 (grid4.coords t) (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (grid4.coords t) (iblk4 V c 0 t) (iblk4 V c 1 t) (iblk4 V c 2 t) := by dsimp only [dat4]
theorem after4_4 (c : Dev nD) (t : Fin cfg4.N) :
    (dat4 V c).after 4 t = out4_4 (grid4.coords t) (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies at the
    point's coordinates; the invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation4 (c : Dev nD) : BodyObligation (dat4 (F := F) V c) (defs₀ (F := F)) Variants.none () Set.univ := fun t => by
  rw [bigSep_W4, bigSep_W4]
  exact sound_body4 V c t

end Cert.Kernel.Class4

end
-- ==== Proof.K.Decoder.lean ====
/-
  The decoder region: at grid point `t` the body multiplies the 400 rows of block `t` of the mean (a 400 × 16
  block) by the whole transposed mean (16 × 10000) and stores the 400 × 10000 product into the output's block. It keeps
  nothing between points, so the region's invariant is the scoped rest and the generator register, untouched. What is
  proved here holds at every float instance: after the body each input's buffer still holds its block and the output's
  buffer holds the product of the two input blocks.
-/
import proofs.«162566_g43224550868076_cont_8to1_b_1602_24_alg».proof.Proof.Gen.Kernel.Launch
import proofs.«162566_g43224550868076_cont_8to1_b_1602_24_alg».proof.Proof.Gen.Kernel.Skeleton
import proofs.«162566_g43224550868076_cont_8to1_b_1602_24_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Decoder

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or the block index did
    not move since the fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The one rectangle the body stores through: the whole 400 × 10000 buffer. -/
abbrev whole5 : Rect S400x10000 := Rect.unit (s := S400x10000) ![0, 0] S400x10000.size inb_S400x10000_S400x10000_0_0

/-- The rectangles the body loads through: each input buffer whole. -/
abbrev wholeL5 : Rect S400x16 := Rect.unit (s := S400x16) ![0, 0] S400x16.size inb_S400x16_S400x16_0_0
abbrev wholeR5 : Rect S16x10000 := Rect.unit (s := S16x10000) ![0, 0] S16x10000.size inb_S16x10000_S16x10000_0_0

/-- What the body leaves in the output's buffer: the product of the mean's block and the transposed mean, each loaded
    whole. -/
def out5_2 (x0 : Vec F S400x16 .f32) (x1 : Vec F S16x10000 .f32) : Vec F S400x10000 .f32 :=
  View.canon [⟨whole5, k5_pay1 (View.ld x0 wholeL5) (View.ld x1 wholeR5)⟩]

/-- The single store covers the buffer. -/
theorem cover5_2 (p0 : Vec F S400x10000 .f32) (y : S400x10000.Idx) :
    ∃ pc ∈ ([⟨whole5, p0⟩] : List (View.Piece (Elt F) S400x10000 .f32)), y ∈ pc.1.set :=
  View.cover_of_tiled [⟨whole5, p0⟩] S400x10000.size (by rfl) y

set_option maxHeartbeats 1000000 in
/-- The body on whole staging buffers: the inputs are read and left as they were; the output ends at `out5_2`. -/
theorem sound_kernel5 (c : Dev nD) (E : Set ℕ) (i : grid5.Coords) (arg1 : Memref sig .tc .vmem S400x16 .f32) (harg1 : arg1.IsWhole)
    (arg2 : Memref sig .tc .vmem S16x10000 .f32) (harg2 : arg2.IsWhole) (arg3 : Memref sig .tc .vmem S400x10000 .f32) (harg3 : arg3.IsWhole)
    (x0 : Vec F S400x16 .f32) (x1 : Vec F S16x10000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__decoder_kernel i arg1 harg1 arg2 harg2 arg3 harg3) K := by
  simp only [cc5__decoder_kernel_eq_skeleton]; unfold cc5__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data on core `c`: the arrays as the region finds them; after the body each input's buffer at its
    block and the output's at the product; nothing kept between points; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation5 (c : Dev nD) : BodyObligation (dat5 (F := F) V c) (defs₀ (F := F)) Variants.none () Set.univ := fun t => by
  rw [bigSep_W5, bigSep_W5]
  exact sound_body5 V c t

end Cert.Kernel.Decoder

end
-- ==== Proof.K.Whole.lean ====
/-
  The six regions' halves of the run, and with them the program's frame: every weakly fair execution of the main function
  terminates without a fault and leaves each argument array as launched. No host operation writes an argument and no
  region has one among its output windows, so reading an argument's buffer at the last boundary walks back through the fold
  to the launch memory: a region keeps the arrays of its input windows and every buffer that is none of its arrays.
-/
import proofs.«162566_g43224550868076_cont_8to1_b_1602_24_alg».proof.Proof.K.Run
import proofs.«162566_g43224550868076_cont_8to1_b_1602_24_alg».proof.Proof.K.SweepFrame
import proofs.«162566_g43224550868076_cont_8to1_b_1602_24_alg».proof.Proof.K.Class1
import proofs.«162566_g43224550868076_cont_8to1_b_1602_24_alg».proof.Proof.K.Class2
import proofs.«162566_g43224550868076_cont_8to1_b_1602_24_alg».proof.Proof.K.Class3
import proofs.«162566_g43224550868076_cont_8to1_b_1602_24_alg».proof.Proof.K.Class4
import proofs.«162566_g43224550868076_cont_8to1_b_1602_24_alg».proof.Proof.K.Decoder
import proofs.«162566_g43224550868076_cont_8to1_b_1602_24_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sweep's half: its invariant names the two carried scratch buffers after the first point. -/
def half0 : Run.Half (F := F) cfg0 where
  D := Sweep.dat0
  hA := Sweep.A_eq0
  hq := fun _ _ _ => rfl
  howed := fun _ _ _ => rfl
  hrec := fun _ _ _ => rfl
  hbody := Sweep.body_obligation0
  hin := Sweep.hin0
  hout := Sweep.hout0

/-- Region 1's half: it keeps nothing between points, so its invariant is the scoped rest with the generator register
    throughout. -/
def half1 : Run.Half (F := F) cfg1 where
  D := Class1.dat1
  hA := Class1.A_eq1
  hq := fun _ _ _ => rfl
  howed := fun _ _ _ => rfl
  hrec := fun _ _ _ => rfl
  hbody := Class1.body_obligation1
  hin := fun _ _ => .rfl
  hout := fun _ _ => .rfl

/-- Region 2's half: it keeps nothing between points, so its invariant is the scoped rest with the generator register
    throughout. -/
def half2 : Run.Half (F := F) cfg2 where
  D := Class2.dat2
  hA := Class2.A_eq2
  hq := fun _ _ _ => rfl
  howed := fun _ _ _ => rfl
  hrec := fun _ _ _ => rfl
  hbody := Class2.body_obligation2
  hin := fun _ _ => .rfl
  hout := fun _ _ => .rfl

/-- Region 3's half: it keeps nothing between points, so its invariant is the scoped rest with the generator register
    throughout. -/
def half3 : Run.Half (F := F) cfg3 where
  D := Class3.dat3
  hA := Class3.A_eq3
  hq := fun _ _ _ => rfl
  howed := fun _ _ _ => rfl
  hrec := fun _ _ _ => rfl
  hbody := Class3.body_obligation3
  hin := fun _ _ => .rfl
  hout := fun _ _ => .rfl

/-- Region 4's half: it keeps nothing between points, so its invariant is the scoped rest with the generator register
    throughout. -/
def half4 : Run.Half (F := F) cfg4 where
  D := Class4.dat4
  hA := Class4.A_eq4
  hq := fun _ _ _ => rfl
  howed := fun _ _ _ => rfl
  hrec := fun _ _ _ => rfl
  hbody := Class4.body_obligation4
  hin := fun _ _ => .rfl
  hout := fun _ _ => .rfl

/-- Region 5's half: it keeps nothing between points, so its invariant is the scoped rest with the generator register
    throughout. -/
def half5 : Run.Half (F := F) cfg5 where
  D := Decoder.dat5
  hA := Decoder.A_eq5
  hq := fun _ _ _ => rfl
  howed := fun _ _ _ => rfl
  hrec := fun _ _ _ => rfl
  hbody := Decoder.body_obligation5
  hin := fun _ _ => .rfl
  hout := fun _ _ => .rfl

variable (m : (ℓ : Loc nD τ sig) → Buf (Elt F) ℓ)

/-- The buffers' contents at each boundary, for this program's six regions. -/
abbrev B1 : Dev nD → Valuation τ sig (Elt F) := Run.W1 m
abbrev B2 : Dev nD → Valuation τ sig (Elt F) := Run.W2 half0 m
abbrev B3 : Dev nD → Valuation τ sig (Elt F) := Run.W3 half0 half1 m
abbrev B4 : Dev nD → Valuation τ sig (Elt F) := Run.W4 half0 half1 half2 m
abbrev B5 : Dev nD → Valuation τ sig (Elt F) := Run.W5 half0 half1 half2 half3 m
abbrev B6 : Dev nD → Valuation τ sig (Elt F) := Run.W6 half0 half1 half2 half3 half4 m
abbrev B7 : Dev nD → Valuation τ sig (Elt F) := Run.W7 half0 half1 half2 half3 half4 m
abbrev B8 : Dev nD → Valuation τ sig (Elt F) := Run.W8 half0 half1 half2 half3 half4 half5 m

/-! ## What each region and each host stretch keeps -/
theorem keep0_main_arg0 (c : Dev nD) : B2 m c (Proc.devRef .tc main_arg0) = B1 m c (Proc.devRef .tc main_arg0) :=
  (Run.W2_arr half0 m c 1).trans (((Sweep.dat0 (Run.V1 m) c).arrAt_in 1 rfl _).trans (Sweep.A_eq0 (Run.V1 m) c 1))
theorem keep1_main_arg0 (c : Dev nD) : B3 m c (Proc.devRef .tc main_arg0) = B2 m c (Proc.devRef .tc main_arg0) :=
  Run.W3_of_ne half0 half1 m c main_arg0 (by decide)
theorem keep2_main_arg0 (c : Dev nD) : B4 m c (Proc.devRef .tc main_arg0) = B3 m c (Proc.devRef .tc main_arg0) :=
  Run.W4_of_ne half0 half1 half2 m c main_arg0 (by decide)
theorem keep3_main_arg0 (c : Dev nD) : B5 m c (Proc.devRef .tc main_arg0) = B4 m c (Proc.devRef .tc main_arg0) :=
  Run.W5_of_ne half0 half1 half2 half3 m c main_arg0 (by decide)
theorem keep4_main_arg0 (c : Dev nD) : B6 m c (Proc.devRef .tc main_arg0) = B5 m c (Proc.devRef .tc main_arg0) :=
  Run.W6_of_ne half0 half1 half2 half3 half4 m c main_arg0 (by decide)
theorem keep5_main_arg0 (c : Dev nD) : B8 m c (Proc.devRef .tc main_arg0) = B7 m c (Proc.devRef .tc main_arg0) :=
  Run.W8_of_ne half0 half1 half2 half3 half4 half5 m c main_arg0 (by decide)
theorem keep0_main_arg1 (c : Dev nD) : B2 m c (Proc.devRef .tc main_arg1) = B1 m c (Proc.devRef .tc main_arg1) :=
  (Run.W2_arr half0 m c 0).trans (((Sweep.dat0 (Run.V1 m) c).arrAt_in 0 rfl _).trans (Sweep.A_eq0 (Run.V1 m) c 0))
theorem keep1_main_arg1 (c : Dev nD) : B3 m c (Proc.devRef .tc main_arg1) = B2 m c (Proc.devRef .tc main_arg1) :=
  (Run.W3_arr half0 half1 m c 0).trans (((Class1.dat1 (Run.V2 half0 m) c).arrAt_in 0 rfl _).trans (Class1.A_eq1 (Run.V2 half0 m) c 0))
theorem keep2_main_arg1 (c : Dev nD) : B4 m c (Proc.devRef .tc main_arg1) = B3 m c (Proc.devRef .tc main_arg1) :=
  (Run.W4_arr half0 half1 half2 m c 0).trans (((Class2.dat2 (Run.V3 half0 half1 m) c).arrAt_in 0 rfl _).trans (Class2.A_eq2 (Run.V3 half0 half1 m) c 0))
theorem keep3_main_arg1 (c : Dev nD) : B5 m c (Proc.devRef .tc main_arg1) = B4 m c (Proc.devRef .tc main_arg1) :=
  (Run.W5_arr half0 half1 half2 half3 m c 0).trans (((Class3.dat3 (Run.V4 half0 half1 half2 m) c).arrAt_in 0 rfl _).trans (Class3.A_eq3 (Run.V4 half0 half1 half2 m) c 0))
theorem keep4_main_arg1 (c : Dev nD) : B6 m c (Proc.devRef .tc main_arg1) = B5 m c (Proc.devRef .tc main_arg1) :=
  (Run.W6_arr half0 half1 half2 half3 half4 m c 0).trans (((Class4.dat4 (Run.V5 half0 half1 half2 half3 m) c).arrAt_in 0 rfl _).trans (Class4.A_eq4 (Run.V5 half0 half1 half2 half3 m) c 0))
theorem keep5_main_arg1 (c : Dev nD) : B8 m c (Proc.devRef .tc main_arg1) = B7 m c (Proc.devRef .tc main_arg1) :=
  Run.W8_of_ne half0 half1 half2 half3 half4 half5 m c main_arg1 (by decide)
theorem keep0_main_arg2 (c : Dev nD) : B2 m c (Proc.devRef .tc main_arg2) = B1 m c (Proc.devRef .tc main_arg2) :=
  (Run.W2_arr half0 m c 2).trans (((Sweep.dat0 (Run.V1 m) c).arrAt_in 2 rfl _).trans (Sweep.A_eq0 (Run.V1 m) c 2))
theorem keep1_main_arg2 (c : Dev nD) : B3 m c (Proc.devRef .tc main_arg2) = B2 m c (Proc.devRef .tc main_arg2) :=
  Run.W3_of_ne half0 half1 m c main_arg2 (by decide)
theorem keep2_main_arg2 (c : Dev nD) : B4 m c (Proc.devRef .tc main_arg2) = B3 m c (Proc.devRef .tc main_arg2) :=
  Run.W4_of_ne half0 half1 half2 m c main_arg2 (by decide)
theorem keep3_main_arg2 (c : Dev nD) : B5 m c (Proc.devRef .tc main_arg2) = B4 m c (Proc.devRef .tc main_arg2) :=
  Run.W5_of_ne half0 half1 half2 half3 m c main_arg2 (by decide)
theorem keep4_main_arg2 (c : Dev nD) : B6 m c (Proc.devRef .tc main_arg2) = B5 m c (Proc.devRef .tc main_arg2) :=
  Run.W6_of_ne half0 half1 half2 half3 half4 m c main_arg2 (by decide)
theorem keep5_main_arg2 (c : Dev nD) : B8 m c (Proc.devRef .tc main_arg2) = B7 m c (Proc.devRef .tc main_arg2) :=
  Run.W8_of_ne half0 half1 half2 half3 half4 half5 m c main_arg2 (by decide)
theorem keep0_main_arg3 (c : Dev nD) : B2 m c (Proc.devRef .tc main_arg3) = B1 m c (Proc.devRef .tc main_arg3) :=
  Run.W2_of_ne half0 m c main_arg3 (by decide)
theorem keep1_main_arg3 (c : Dev nD) : B3 m c (Proc.devRef .tc main_arg3) = B2 m c (Proc.devRef .tc main_arg3) :=
  Run.W3_of_ne half0 half1 m c main_arg3 (by decide)
theorem keep2_main_arg3 (c : Dev nD) : B4 m c (Proc.devRef .tc main_arg3) = B3 m c (Proc.devRef .tc main_arg3) :=
  Run.W4_of_ne half0 half1 half2 m c main_arg3 (by decide)
theorem keep3_main_arg3 (c : Dev nD) : B5 m c (Proc.devRef .tc main_arg3) = B4 m c (Proc.devRef .tc main_arg3) :=
  Run.W5_of_ne half0 half1 half2 half3 m c main_arg3 (by decide)
theorem keep4_main_arg3 (c : Dev nD) : B6 m c (Proc.devRef .tc main_arg3) = B5 m c (Proc.devRef .tc main_arg3) :=
  Run.W6_of_ne half0 half1 half2 half3 half4 m c main_arg3 (by decide)
theorem keep5_main_arg3 (c : Dev nD) : B8 m c (Proc.devRef .tc main_arg3) = B7 m c (Proc.devRef .tc main_arg3) :=
  Run.W8_of_ne half0 half1 half2 half3 half4 half5 m c main_arg3 (by decide)
theorem keep0_main_arg4 (c : Dev nD) : B2 m c (Proc.devRef .tc main_arg4) = B1 m c (Proc.devRef .tc main_arg4) :=
  Run.W2_of_ne half0 m c main_arg4 (by decide)
theorem keep1_main_arg4 (c : Dev nD) : B3 m c (Proc.devRef .tc main_arg4) = B2 m c (Proc.devRef .tc main_arg4) :=
  Run.W3_of_ne half0 half1 m c main_arg4 (by decide)
theorem keep2_main_arg4 (c : Dev nD) : B4 m c (Proc.devRef .tc main_arg4) = B3 m c (Proc.devRef .tc main_arg4) :=
  Run.W4_of_ne half0 half1 half2 m c main_arg4 (by decide)
theorem keep3_main_arg4 (c : Dev nD) : B5 m c (Proc.devRef .tc main_arg4) = B4 m c (Proc.devRef .tc main_arg4) :=
  Run.W5_of_ne half0 half1 half2 half3 m c main_arg4 (by decide)
theorem keep4_main_arg4 (c : Dev nD) : B6 m c (Proc.devRef .tc main_arg4) = B5 m c (Proc.devRef .tc main_arg4) :=
  Run.W6_of_ne half0 half1 half2 half3 half4 m c main_arg4 (by decide)
theorem keep5_main_arg4 (c : Dev nD) : B8 m c (Proc.devRef .tc main_arg4) = B7 m c (Proc.devRef .tc main_arg4) :=
  Run.W8_of_ne half0 half1 half2 half3 half4 half5 m c main_arg4 (by decide)
theorem keep1_main_v1_0 (c : Dev nD) : B3 m c (Proc.devRef .tc main_v1_0) = B2 m c (Proc.devRef .tc main_v1_0) :=
  (Run.W3_arr half0 half1 m c 1).trans (((Class1.dat1 (Run.V2 half0 m) c).arrAt_in 1 rfl _).trans (Class1.A_eq1 (Run.V2 half0 m) c 1))
theorem keep1_main_v1_1 (c : Dev nD) : B3 m c (Proc.devRef .tc main_v1_1) = B2 m c (Proc.devRef .tc main_v1_1) :=
  (Run.W3_arr half0 half1 m c 2).trans (((Class1.dat1 (Run.V2 half0 m) c).arrAt_in 2 rfl _).trans (Class1.A_eq1 (Run.V2 half0 m) c 2))
theorem keep2_main_v1_0 (c : Dev nD) : B4 m c (Proc.devRef .tc main_v1_0) = B3 m c (Proc.devRef .tc main_v1_0) :=
  (Run.W4_arr half0 half1 half2 m c 1).trans (((Class2.dat2 (Run.V3 half0 half1 m) c).arrAt_in 1 rfl _).trans (Class2.A_eq2 (Run.V3 half0 half1 m) c 1))
theorem keep2_main_v1_1 (c : Dev nD) : B4 m c (Proc.devRef .tc main_v1_1) = B3 m c (Proc.devRef .tc main_v1_1) :=
  (Run.W4_arr half0 half1 half2 m c 2).trans (((Class2.dat2 (Run.V3 half0 half1 m) c).arrAt_in 2 rfl _).trans (Class2.A_eq2 (Run.V3 half0 half1 m) c 2))
theorem keep3_main_v1_0 (c : Dev nD) : B5 m c (Proc.devRef .tc main_v1_0) = B4 m c (Proc.devRef .tc main_v1_0) :=
  (Run.W5_arr half0 half1 half2 half3 m c 1).trans (((Class3.dat3 (Run.V4 half0 half1 half2 m) c).arrAt_in 1 rfl _).trans (Class3.A_eq3 (Run.V4 half0 half1 half2 m) c 1))
theorem keep3_main_v1_1 (c : Dev nD) : B5 m c (Proc.devRef .tc main_v1_1) = B4 m c (Proc.devRef .tc main_v1_1) :=
  (Run.W5_arr half0 half1 half2 half3 m c 2).trans (((Class3.dat3 (Run.V4 half0 half1 half2 m) c).arrAt_in 2 rfl _).trans (Class3.A_eq3 (Run.V4 half0 half1 half2 m) c 2))
theorem keep4_main_v1_0 (c : Dev nD) : B6 m c (Proc.devRef .tc main_v1_0) = B5 m c (Proc.devRef .tc main_v1_0) :=
  (Run.W6_arr half0 half1 half2 half3 half4 m c 1).trans (((Class4.dat4 (Run.V5 half0 half1 half2 half3 m) c).arrAt_in 1 rfl _).trans (Class4.A_eq4 (Run.V5 half0 half1 half2 half3 m) c 1))
theorem keep4_main_v1_1 (c : Dev nD) : B6 m c (Proc.devRef .tc main_v1_1) = B5 m c (Proc.devRef .tc main_v1_1) :=
  (Run.W6_arr half0 half1 half2 half3 half4 m c 2).trans (((Class4.dat4 (Run.V5 half0 half1 half2 half3 m) c).arrAt_in 2 rfl _).trans (Class4.A_eq4 (Run.V5 half0 half1 half2 half3 m) c 2))
theorem keep2_main_v2_0 (c : Dev nD) : B4 m c (Proc.devRef .tc main_v2_0) = B3 m c (Proc.devRef .tc main_v2_0) :=
  Run.W4_of_ne half0 half1 half2 m c main_v2_0 (by decide)
theorem keep2_main_v2_1 (c : Dev nD) : B4 m c (Proc.devRef .tc main_v2_1) = B3 m c (Proc.devRef .tc main_v2_1) :=
  Run.W4_of_ne half0 half1 half2 m c main_v2_1 (by decide)
theorem keep3_main_v2_0 (c : Dev nD) : B5 m c (Proc.devRef .tc main_v2_0) = B4 m c (Proc.devRef .tc main_v2_0) :=
  Run.W5_of_ne half0 half1 half2 half3 m c main_v2_0 (by decide)
theorem keep3_main_v2_1 (c : Dev nD) : B5 m c (Proc.devRef .tc main_v2_1) = B4 m c (Proc.devRef .tc main_v2_1) :=
  Run.W5_of_ne half0 half1 half2 half3 m c main_v2_1 (by decide)
theorem keep4_main_v2_0 (c : Dev nD) : B6 m c (Proc.devRef .tc main_v2_0) = B5 m c (Proc.devRef .tc main_v2_0) :=
  Run.W6_of_ne half0 half1 half2 half3 half4 m c main_v2_0 (by decide)
theorem keep4_main_v2_1 (c : Dev nD) : B6 m c (Proc.devRef .tc main_v2_1) = B5 m c (Proc.devRef .tc main_v2_1) :=
  Run.W6_of_ne half0 half1 half2 half3 half4 m c main_v2_1 (by decide)
theorem keep3_main_v3_0 (c : Dev nD) : B5 m c (Proc.devRef .tc main_v3_0) = B4 m c (Proc.devRef .tc main_v3_0) :=
  Run.W5_of_ne half0 half1 half2 half3 m c main_v3_0 (by decide)
theorem keep3_main_v3_1 (c : Dev nD) : B5 m c (Proc.devRef .tc main_v3_1) = B4 m c (Proc.devRef .tc main_v3_1) :=
  Run.W5_of_ne half0 half1 half2 half3 m c main_v3_1 (by decide)
theorem keep4_main_v3_0 (c : Dev nD) : B6 m c (Proc.devRef .tc main_v3_0) = B5 m c (Proc.devRef .tc main_v3_0) :=
  Run.W6_of_ne half0 half1 half2 half3 half4 m c main_v3_0 (by decide)
theorem keep4_main_v3_1 (c : Dev nD) : B6 m c (Proc.devRef .tc main_v3_1) = B5 m c (Proc.devRef .tc main_v3_1) :=
  Run.W6_of_ne half0 half1 half2 half3 half4 m c main_v3_1 (by decide)
theorem keep4_main_v4_0 (c : Dev nD) : B6 m c (Proc.devRef .tc main_v4_0) = B5 m c (Proc.devRef .tc main_v4_0) :=
  Run.W6_of_ne half0 half1 half2 half3 half4 m c main_v4_0 (by decide)
theorem keep4_main_v4_1 (c : Dev nD) : B6 m c (Proc.devRef .tc main_v4_1) = B5 m c (Proc.devRef .tc main_v4_1) :=
  Run.W6_of_ne half0 half1 half2 half3 half4 m c main_v4_1 (by decide)
theorem keep5_main_v6 (c : Dev nD) : B8 m c (Proc.devRef .tc main_v6) = B7 m c (Proc.devRef .tc main_v6) :=
  (Run.W8_arr half0 half1 half2 half3 half4 half5 m c 0).trans (((Decoder.dat5 (Run.V7 half0 half1 half2 half3 half4 m) c).arrAt_in 0 rfl _).trans (Decoder.A_eq5 (Run.V7 half0 half1 half2 half3 half4 m) c 0))
theorem keep5_main_v7 (c : Dev nD) : B8 m c (Proc.devRef .tc main_v7) = B7 m c (Proc.devRef .tc main_v7) :=
  Run.W8_of_ne half0 half1 half2 half3 half4 half5 m c main_v7 (by decide)
theorem host1_main_arg0 (c : Dev nD) : B1 m c (Proc.devRef .tc main_arg0) = m ((c : Thread nD τ).loc main_arg0) :=
  StableHlo.after_of_writes_sub hostOps0 _ hostOps0_writes (by decide : main_arg0 ∉ hostOps0_W)
theorem host7_main_arg0 (c : Dev nD) : B7 m c (Proc.devRef .tc main_arg0) = B6 m c (Proc.devRef .tc main_arg0) :=
  StableHlo.after_of_writes_sub hostOps5 _ hostOps5_writes (by decide : main_arg0 ∉ hostOps5_W)
theorem host1_main_arg1 (c : Dev nD) : B1 m c (Proc.devRef .tc main_arg1) = m ((c : Thread nD τ).loc main_arg1) :=
  StableHlo.after_of_writes_sub hostOps0 _ hostOps0_writes (by decide : main_arg1 ∉ hostOps0_W)
theorem host7_main_arg1 (c : Dev nD) : B7 m c (Proc.devRef .tc main_arg1) = B6 m c (Proc.devRef .tc main_arg1) :=
  StableHlo.after_of_writes_sub hostOps5 _ hostOps5_writes (by decide : main_arg1 ∉ hostOps5_W)
theorem host1_main_arg2 (c : Dev nD) : B1 m c (Proc.devRef .tc main_arg2) = m ((c : Thread nD τ).loc main_arg2) :=
  StableHlo.after_of_writes_sub hostOps0 _ hostOps0_writes (by decide : main_arg2 ∉ hostOps0_W)
theorem host7_main_arg2 (c : Dev nD) : B7 m c (Proc.devRef .tc main_arg2) = B6 m c (Proc.devRef .tc main_arg2) :=
  StableHlo.after_of_writes_sub hostOps5 _ hostOps5_writes (by decide : main_arg2 ∉ hostOps5_W)
theorem host1_main_arg3 (c : Dev nD) : B1 m c (Proc.devRef .tc main_arg3) = m ((c : Thread nD τ).loc main_arg3) :=
  StableHlo.after_of_writes_sub hostOps0 _ hostOps0_writes (by decide : main_arg3 ∉ hostOps0_W)
theorem host7_main_arg3 (c : Dev nD) : B7 m c (Proc.devRef .tc main_arg3) = B6 m c (Proc.devRef .tc main_arg3) :=
  StableHlo.after_of_writes_sub hostOps5 _ hostOps5_writes (by decide : main_arg3 ∉ hostOps5_W)
theorem host1_main_arg4 (c : Dev nD) : B1 m c (Proc.devRef .tc main_arg4) = m ((c : Thread nD τ).loc main_arg4) :=
  StableHlo.after_of_writes_sub hostOps0 _ hostOps0_writes (by decide : main_arg4 ∉ hostOps0_W)
theorem host7_main_arg4 (c : Dev nD) : B7 m c (Proc.devRef .tc main_arg4) = B6 m c (Proc.devRef .tc main_arg4) :=
  StableHlo.after_of_writes_sub hostOps5 _ hostOps5_writes (by decide : main_arg4 ∉ hostOps5_W)
theorem host7_main_v2_0 (c : Dev nD) : B7 m c (Proc.devRef .tc main_v2_0) = B6 m c (Proc.devRef .tc main_v2_0) :=
  StableHlo.after_of_writes_sub hostOps5 _ hostOps5_writes (by decide : main_v2_0 ∉ hostOps5_W)
theorem host7_main_v3_0 (c : Dev nD) : B7 m c (Proc.devRef .tc main_v3_0) = B6 m c (Proc.devRef .tc main_v3_0) :=
  StableHlo.after_of_writes_sub hostOps5 _ hostOps5_writes (by decide : main_v3_0 ∉ hostOps5_W)
theorem host7_main_v4_0 (c : Dev nD) : B7 m c (Proc.devRef .tc main_v4_0) = B6 m c (Proc.devRef .tc main_v4_0) :=
  StableHlo.after_of_writes_sub hostOps5 _ hostOps5_writes (by decide : main_v4_0 ∉ hostOps5_W)
theorem host7_main_v5_0 (c : Dev nD) : B7 m c (Proc.devRef .tc main_v5_0) = B6 m c (Proc.devRef .tc main_v5_0) :=
  StableHlo.after_of_writes_sub hostOps5 _ hostOps5_writes (by decide : main_v5_0 ∉ hostOps5_W)
theorem host7_main_v2_1 (c : Dev nD) : B7 m c (Proc.devRef .tc main_v2_1) = B6 m c (Proc.devRef .tc main_v2_1) :=
  StableHlo.after_of_writes_sub hostOps5 _ hostOps5_writes (by decide : main_v2_1 ∉ hostOps5_W)
theorem host7_main_v3_1 (c : Dev nD) : B7 m c (Proc.devRef .tc main_v3_1) = B6 m c (Proc.devRef .tc main_v3_1) :=
  StableHlo.after_of_writes_sub hostOps5 _ hostOps5_writes (by decide : main_v3_1 ∉ hostOps5_W)
theorem host7_main_v4_1 (c : Dev nD) : B7 m c (Proc.devRef .tc main_v4_1) = B6 m c (Proc.devRef .tc main_v4_1) :=
  StableHlo.after_of_writes_sub hostOps5 _ hostOps5_writes (by decide : main_v4_1 ∉ hostOps5_W)
theorem host7_main_v5_1 (c : Dev nD) : B7 m c (Proc.devRef .tc main_v5_1) = B6 m c (Proc.devRef .tc main_v5_1) :=
  StableHlo.after_of_writes_sub hostOps5 _ hostOps5_writes (by decide : main_v5_1 ∉ hostOps5_W)

/-! ## The arguments at the end -/
theorem end_main_arg0 (c : Dev nD) : B8 m c (Proc.devRef .tc main_arg0) = m ((c : Thread nD τ).loc main_arg0) :=
  (keep5_main_arg0 m c).trans <| (host7_main_arg0 m c).trans <| (keep4_main_arg0 m c).trans <| (keep3_main_arg0 m c).trans <| (keep2_main_arg0 m c).trans <|
    (keep1_main_arg0 m c).trans <| (keep0_main_arg0 m c).trans (host1_main_arg0 m c)
theorem end_main_arg1 (c : Dev nD) : B8 m c (Proc.devRef .tc main_arg1) = m ((c : Thread nD τ).loc main_arg1) :=
  (keep5_main_arg1 m c).trans <| (host7_main_arg1 m c).trans <| (keep4_main_arg1 m c).trans <| (keep3_main_arg1 m c).trans <| (keep2_main_arg1 m c).trans <|
    (keep1_main_arg1 m c).trans <| (keep0_main_arg1 m c).trans (host1_main_arg1 m c)
theorem end_main_arg2 (c : Dev nD) : B8 m c (Proc.devRef .tc main_arg2) = m ((c : Thread nD τ).loc main_arg2) :=
  (keep5_main_arg2 m c).trans <| (host7_main_arg2 m c).trans <| (keep4_main_arg2 m c).trans <| (keep3_main_arg2 m c).trans <| (keep2_main_arg2 m c).trans <|
    (keep1_main_arg2 m c).trans <| (keep0_main_arg2 m c).trans (host1_main_arg2 m c)
theorem end_main_arg3 (c : Dev nD) : B8 m c (Proc.devRef .tc main_arg3) = m ((c : Thread nD τ).loc main_arg3) :=
  (keep5_main_arg3 m c).trans <| (host7_main_arg3 m c).trans <| (keep4_main_arg3 m c).trans <| (keep3_main_arg3 m c).trans <| (keep2_main_arg3 m c).trans <|
    (keep1_main_arg3 m c).trans <| (keep0_main_arg3 m c).trans (host1_main_arg3 m c)
theorem end_main_arg4 (c : Dev nD) : B8 m c (Proc.devRef .tc main_arg4) = m ((c : Thread nD τ).loc main_arg4) :=
  (keep5_main_arg4 m c).trans <| (host7_main_arg4 m c).trans <| (keep4_main_arg4 m c).trans <| (keep3_main_arg4 m c).trans <| (keep2_main_arg4 m c).trans <|
    (keep1_main_arg4 m c).trans <| (keep0_main_arg4 m c).trans (host1_main_arg4 m c)

/-- THE RUN of this program: every weakly fair execution terminates without a fault and every unscoped buffer ends at the
    last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B8 m c b) :=
  Run.run_all half0 half1 half2 half3 half4 half5 m ρ

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (Run.mem_uc main_arg0 (by decide))).trans (end_main_arg0 m c),
     (h c _ (Run.mem_uc main_arg1 (by decide))).trans (end_main_arg1 m c),
     (h c _ (Run.mem_uc main_arg2 (by decide))).trans (end_main_arg2 m c),
     (h c _ (Run.mem_uc main_arg3 (by decide))).trans (end_main_arg3 m c),
     (h c _ (Run.mem_uc main_arg4 (by decide))).trans (end_main_arg4 m c)⟩) (run m ρ)

end Cert.Kernel.Whole

end
-- ==== Proof.KI.Run.lean ====
/-
  The run of the whole program: its main function is a host stretch (the two weight matrices side by side), five kernel
  regions (the sweep and the four prefix-panel calls), a second host stretch (the four row ranges of the mean and of the
  log-variance stacked, and the mean transposed), and the decoder region. The contents of every unscoped buffer at each
  boundary are a fold from the launch memory: a host stretch applies its operations; a region replaces its windows' arrays
  by what its write-backs leave and keeps every other buffer. Each region is entered from the buffers at the boundary
  before it and left at the boundary after it, and at the end every unscoped buffer holds the last boundary's contents.
  Everything here holds at every float instance and is stated over one record per region (`Half`): the region's proof data
  at given entry contents, with its arrays read off those contents, full shares, nothing owed, the body obligation, and the
  region invariant entered from and returned to the scoped rest with the generator register.
-/
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One region's half of the run: its proof data as a function of the entry contents, and what the launch needs of it. -/
structure Half (cfg : Pipeline.Cfg sig Λ₀) where
  D : ((c : Dev nD) → (b : Ref sig .tc) → Buf (Elt F) ((c : Thread nD τ).loc b)) → (c : Dev nD) → Dat τ (Elt F) Unit ℕ (UR sig nD τ) ℕ cfg c
  hA : ∀ V c w, (D V c).A w = V c (Pipeline.arrRef cfg.spec w)
  hq : ∀ V c w, (D V c).q w = fullShare
  howed : ∀ V c t, (D V c).owed t = 0
  hrec : ∀ V c t, (D V c).recorded t = Set.univ
  hbody : ∀ V c, BodyObligation (D V c) (defs₀ (F := F)) Variants.none () Set.univ
  hin : ∀ V c, (Pipeline.ΦA cfg.spec c : sProp 𝕄) ⊢ (D V c).Φ 0
  hout : ∀ V c, (D V c).Φ (Fin.last cfg.N) ⊢ (Pipeline.ΦA cfg.spec c : sProp 𝕄)

variable (H0 : Half (F := F) cfg0) (H1 : Half (F := F) cfg1) (H2 : Half (F := F) cfg2) (H3 : Half (F := F) cfg3)
  (H4 : Half (F := F) cfg4) (H5 : Half (F := F) cfg5)
variable (m : (ℓ : Loc nD τ sig) → Buf (Elt F) ℓ)

/-! ## The buffers' contents at each boundary -/

/-- At launch. -/
abbrev W0 : Dev nD → Valuation τ sig (Elt F) := fun c b => m (c, b)
/-- After the first host stretch (the sweep's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the sweep. -/
def W2 (c : Dev nD) : Valuation τ sig (Elt F) :=
  Pipeline.withArrays spec0 c (W1 m c) fun w => (H0.D (V1 m) c).arrAt w cfg0.N
abbrev V2 : (c : Dev nD) → (b : Ref sig .tc) → Buf (Elt F) ((c : Thread nD τ).loc b) := fun c b => W2 H0 m c b
/-- After the first prefix-panel call. -/
def W3 (c : Dev nD) : Valuation τ sig (Elt F) :=
  Pipeline.withArrays spec1 c (W2 H0 m c) fun w => (H1.D (V2 H0 m) c).arrAt w cfg1.N
abbrev V3 : (c : Dev nD) → (b : Ref sig .tc) → Buf (Elt F) ((c : Thread nD τ).loc b) := fun c b => W3 H0 H1 m c b
/-- After the second. -/
def W4 (c : Dev nD) : Valuation τ sig (Elt F) :=
  Pipeline.withArrays spec2 c (W3 H0 H1 m c) fun w => (H2.D (V3 H0 H1 m) c).arrAt w cfg2.N
abbrev V4 : (c : Dev nD) → (b : Ref sig .tc) → Buf (Elt F) ((c : Thread nD τ).loc b) := fun c b => W4 H0 H1 H2 m c b
/-- After the third. -/
def W5 (c : Dev nD) : Valuation τ sig (Elt F) :=
  Pipeline.withArrays spec3 c (W4 H0 H1 H2 m c) fun w => (H3.D (V4 H0 H1 H2 m) c).arrAt w cfg3.N
abbrev V5 : (c : Dev nD) → (b : Ref sig .tc) → Buf (Elt F) ((c : Thread nD τ).loc b) := fun c b => W5 H0 H1 H2 H3 m c b
/-- After the fourth. -/
def W6 (c : Dev nD) : Valuation τ sig (Elt F) :=
  Pipeline.withArrays spec4 c (W5 H0 H1 H2 H3 m c) fun w => (H4.D (V5 H0 H1 H2 H3 m) c).arrAt w cfg4.N
/-- After the second host stretch (the decoder's entry). -/
abbrev W7 : Dev nD → Valuation τ sig (Elt F) := fun c => StableHlo.after hostOps5 (W6 H0 H1 H2 H3 H4 m c)
abbrev V7 : (c : Dev nD) → (b : Ref sig .tc) → Buf (Elt F) ((c : Thread nD τ).loc b) := fun c b => W7 H0 H1 H2 H3 H4 m c b
/-- After the decoder: the end. -/
def W8 (c : Dev nD) : Valuation τ sig (Elt F) :=
  Pipeline.withArrays spec5 c (W7 H0 H1 H2 H3 H4 m c) fun w => (H5.D (V7 H0 H1 H2 H3 H4 m) c).arrAt w cfg5.N

theorem W2_arr (c : Dev nD) (w : Fin cfg0.W) :
    W2 H0 m c (Proc.devRef .tc (Pipeline.arrRef spec0 w)) = (H0.D (V1  m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 H0 m c (Proc.devRef .tc b) = W1  m c (Proc.devRef .tc b) := by
  unfold W2; exact Pipeline.withArrays_of_ne spec0 c _ _ b hb

theorem W3_arr (c : Dev nD) (w : Fin cfg1.W) :
    W3 H0 H1 m c (Proc.devRef .tc (Pipeline.arrRef spec1 w)) = (H1.D (V2 H0 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 H0 H1 m c (Proc.devRef .tc b) = W2 H0 m c (Proc.devRef .tc b) := by
  unfold W3; exact Pipeline.withArrays_of_ne spec1 c _ _ b hb

theorem W4_arr (c : Dev nD) (w : Fin cfg2.W) :
    W4 H0 H1 H2 m c (Proc.devRef .tc (Pipeline.arrRef spec2 w)) = (H2.D (V3 H0 H1 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 H0 H1 H2 m c (Proc.devRef .tc b) = W3 H0 H1 m c (Proc.devRef .tc b) := by
  unfold W4; exact Pipeline.withArrays_of_ne spec2 c _ _ b hb

theorem W5_arr (c : Dev nD) (w : Fin cfg3.W) :
    W5 H0 H1 H2 H3 m c (Proc.devRef .tc (Pipeline.arrRef spec3 w)) = (H3.D (V4 H0 H1 H2 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 H0 H1 H2 H3 m c (Proc.devRef .tc b) = W4 H0 H1 H2 m c (Proc.devRef .tc b) := by
  unfold W5; exact Pipeline.withArrays_of_ne spec3 c _ _ b hb

theorem W6_arr (c : Dev nD) (w : Fin cfg4.W) :
    W6 H0 H1 H2 H3 H4 m c (Proc.devRef .tc (Pipeline.arrRef spec4 w)) = (H4.D (V5 H0 H1 H2 H3 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 H0 H1 H2 H3 H4 m c (Proc.devRef .tc b) = W5 H0 H1 H2 H3 m c (Proc.devRef .tc b) := by
  unfold W6; exact Pipeline.withArrays_of_ne spec4 c _ _ b hb

theorem W8_arr (c : Dev nD) (w : Fin cfg5.W) :
    W8 H0 H1 H2 H3 H4 H5 m c (Proc.devRef .tc (Pipeline.arrRef spec5 w)) = (H5.D (V7 H0 H1 H2 H3 H4 m) c).arrAt w cfg5.N := by
  unfold W8; exact Pipeline.withArrays_arr spec5 launch5.win.arr_inj c _ _ w
theorem W8_of_ne (c : Dev nD) (b : Ref sig .tc) (hb : ∀ w, Pipeline.arrRef spec5 w ≠ b) :
    W8 H0 H1 H2 H3 H4 H5 m c (Proc.devRef .tc b) = W7 H0 H1 H2 H3 H4 m c (Proc.devRef .tc b) := by
  unfold W8; exact Pipeline.withArrays_of_ne spec5 c _ _ b hb

/-! ## The proof data family and the thread states -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => H0.D (V1 m) c
  | ⟨1, _⟩ => fun c => H1.D (V2 H0 m) c
  | ⟨2, _⟩ => fun c => H2.D (V3 H0 H1 m) c
  | ⟨3, _⟩ => fun c => H3.D (V4 H0 H1 H2 m) c
  | ⟨4, _⟩ => fun c => H4.D (V5 H0 H1 H2 H3 m) c
  | ⟨5, _⟩ => fun c => H5.D (V7 H0 H1 H2 H3 H4 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps5_fresh : (hostOps5 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the generator
    register at some state. -/
abbrev Tₙ (c : Dev nD) : sProp 𝕄 := iprop(StableHlo.held (c : Thread nD τ) (Pipeline.ucRefs τ sig) (W8 H0 H1 H2 H3 H4 H5 m c) ∗ ∃ r, prngReg c r)

/-! ## The regions as segments -/

set_option backward.isDefEq.respectTransparency.types false in
/-- Region 0 as a segment: entered with every unscoped buffer at `W1`, left with them at `W2`. Its arrays are
    split out of the unscoped buffers on entry and put back at their final contents on exit; the generator register goes
    into the region's invariant and comes back; nothing is owed; the kernel has no semaphore of its own. -/
def reg0 : Pipeline.RegionSeg (pcfgs (F := F)) adm (pdats H0 H1 H2 H3 H4 H5 m) () defs₀ 𝒱₀ L lv 0 where
  win := launch0.win.to₀
  block_pos := launch0.block_pos
  stage_whole := launch0.stage_whole
  K := PEmpty
  osem k := k.elim
  ho := Pipeline.OwnSemFacts.none _
  hbody c := (H0.hbody (V1 m) c).loose
  hwaits := Pipeline.hwaits_of_owed_zero _ _ _ _ L lv 0 fun c t => H0.howed (V1 m) c t
  pre c := iprop(StableHlo.held (c : Thread nD τ) (Pipeline.ucRefs τ sig) (W1 m c) ∗ R c)
  post c := iprop(StableHlo.held (c : Thread nD τ) (Pipeline.ucRefs τ sig) (W2 H0 m c) ∗ R c)
  X c := iprop(∃ r, prngReg c r)
  Y c := iprop(∃ r, prngReg c r)
  Z c := Pipeline.unscopedRest (Ix := Unit) (Name := ℕ) (U := UR sig nD τ) (Lvl := ℕ) spec0 c ((V1 m) c)
  hentry c := by
    rw [Pipeline.ownSems0_none]
    have hsplit := Pipeline.arrays_of_unscopedBufs (p := 0) (pcfgs (F := F)) adm (pdats H0 H1 H2 H3 H4 H5 m) launch0.win launch0.arr_whole c
      (((pdats H0 H1 H2 H3 H4 H5 m) 0 c).share_full fun w => H0.hq (V1 m) c w) ((V1 m) c) fun w => H0.hA (V1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 0 c).recorded 0 = Set.univ from H0.hrec (V1 m) c 0]; exact Set.mem_univ x)
      rw [show ((pdats H0 H1 H2 H3 H4 H5 m) 0 c).owed 0 = 0 from H0.howed (V1 m) c 0]
      iexact HO
    isplitl [Hp]; · iexact Hp
    iexact Hrest
  hin c := by
    have h : (iprop((∃ r, prngReg c r) ∗ Pipeline.prefHeld (pcfgs (F := F) 0).pre c (fun _ => fullShare) (adm (F := F) 0).1
        ∗ Pipeline.scopedRest spec0 c) : sProp 𝕄) ⊢ Pipeline.ΦA spec0 c := by
      unfold Pipeline.ΦA
      iintro ⟨Hp, -, Hr⟩
      isplitl [Hr]; · iexact Hr
      iexact Hp
    exact h.trans (H0.hin (V1 m) c)
  hout c := by
    have h : (Pipeline.ΦA spec0 c : sProp 𝕄) ⊢ iprop((∃ r, prngReg c r) ∗ BI.emp ∗ Pipeline.scopedRest spec0 c) := by
      unfold Pipeline.ΦA
      iintro ⟨Hr, Hp⟩
      isplitl [Hp]; · iexact Hp
      isplitr; · iempintro
      iexact Hr
    rw [Pipeline.ownSems0_none]
    exact (H0.hout (V1 m) c).trans h
  hexit c := by
    have hjoin := Pipeline.unscopedBufs_of_arrays (p := 0) (pcfgs (F := F)) adm (Ix := Unit) (Name := ℕ) (U := UR sig nD τ) (Lvl := ℕ)
      launch0.win launch0.arr_whole c (pdats H0 H1 H2 H3 H4 H5 m) (((pdats H0 H1 H2 H3 H4 H5 m) 0 c).share_full fun w => H0.hq (V1 m) c w)
      ((V1 m) c) (fun b => W2 H0 m c b) (((pdats H0 H1 H2 H3 H4 H5 m) 0 c).arrAt · cfg0.N)
      (fun w => (W2_arr H0 m c w).symm)
      (fun b hb => W2_of_ne H0 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 0 c).owed (Fin.last _) = 0 from H0.howed (V1 m) c _]
    iexact HO

set_option backward.isDefEq.respectTransparency.types false in
/-- Region 1 as a segment: entered with every unscoped buffer at `W2`, left with them at `W3`. Its arrays are
    split out of the unscoped buffers on entry and put back at their final contents on exit; the generator register goes
    into the region's invariant and comes back; nothing is owed; the kernel has no semaphore of its own. -/
def reg1 : Pipeline.RegionSeg (pcfgs (F := F)) adm (pdats H0 H1 H2 H3 H4 H5 m) () defs₀ 𝒱₀ L lv 1 where
  win := launch1.win.to₀
  block_pos := launch1.block_pos
  stage_whole := launch1.stage_whole
  K := PEmpty
  osem k := k.elim
  ho := Pipeline.OwnSemFacts.none _
  hbody c := (H1.hbody (V2 H0 m) c).loose
  hwaits := Pipeline.hwaits_of_owed_zero _ _ _ _ L lv 1 fun c t => H1.howed (V2 H0 m) c t
  pre c := iprop(StableHlo.held (c : Thread nD τ) (Pipeline.ucRefs τ sig) (W2 H0 m c) ∗ R c)
  post c := iprop(StableHlo.held (c : Thread nD τ) (Pipeline.ucRefs τ sig) (W3 H0 H1 m c) ∗ R c)
  X c := iprop(∃ r, prngReg c r)
  Y c := iprop(∃ r, prngReg c r)
  Z c := Pipeline.unscopedRest (Ix := Unit) (Name := ℕ) (U := UR sig nD τ) (Lvl := ℕ) spec1 c ((V2 H0 m) c)
  hentry c := by
    rw [Pipeline.ownSems0_none]
    have hsplit := Pipeline.arrays_of_unscopedBufs (p := 1) (pcfgs (F := F)) adm (pdats H0 H1 H2 H3 H4 H5 m) launch1.win launch1.arr_whole c
      (((pdats H0 H1 H2 H3 H4 H5 m) 1 c).share_full fun w => H1.hq (V2 H0 m) c w) ((V2 H0 m) c) fun w => H1.hA (V2 H0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 1 c).recorded 0 = Set.univ from H1.hrec (V2 H0 m) c 0]; exact Set.mem_univ x)
      rw [show ((pdats H0 H1 H2 H3 H4 H5 m) 1 c).owed 0 = 0 from H1.howed (V2 H0 m) c 0]
      iexact HO
    isplitl [Hp]; · iexact Hp
    iexact Hrest
  hin c := by
    have h : (iprop((∃ r, prngReg c r) ∗ Pipeline.prefHeld (pcfgs (F := F) 1).pre c (fun _ => fullShare) (adm (F := F) 1).1
        ∗ Pipeline.scopedRest spec1 c) : sProp 𝕄) ⊢ Pipeline.ΦA spec1 c := by
      unfold Pipeline.ΦA
      iintro ⟨Hp, -, Hr⟩
      isplitl [Hr]; · iexact Hr
      iexact Hp
    exact h.trans (H1.hin (V2 H0 m) c)
  hout c := by
    have h : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    rw [Pipeline.ownSems0_none]
    exact (H1.hout (V2 H0 m) c).trans h
  hexit c := by
    have hjoin := Pipeline.unscopedBufs_of_arrays (p := 1) (pcfgs (F := F)) adm (Ix := Unit) (Name := ℕ) (U := UR sig nD τ) (Lvl := ℕ)
      launch1.win launch1.arr_whole c (pdats H0 H1 H2 H3 H4 H5 m) (((pdats H0 H1 H2 H3 H4 H5 m) 1 c).share_full fun w => H1.hq (V2 H0 m) c w)
      ((V2 H0 m) c) (fun b => W3 H0 H1 m c b) (((pdats H0 H1 H2 H3 H4 H5 m) 1 c).arrAt · cfg1.N)
      (fun w => (W3_arr H0 H1 m c w).symm)
      (fun b hb => W3_of_ne H0 H1 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 1 c).owed (Fin.last _) = 0 from H1.howed (V2 H0 m) c _]
    iexact HO

set_option backward.isDefEq.respectTransparency.types false in
/-- Region 2 as a segment: entered with every unscoped buffer at `W3`, left with them at `W4`. Its arrays are
    split out of the unscoped buffers on entry and put back at their final contents on exit; the generator register goes
    into the region's invariant and comes back; nothing is owed; the kernel has no semaphore of its own. -/
def reg2 : Pipeline.RegionSeg (pcfgs (F := F)) adm (pdats H0 H1 H2 H3 H4 H5 m) () defs₀ 𝒱₀ L lv 2 where
  win := launch2.win.to₀
  block_pos := launch2.block_pos
  stage_whole := launch2.stage_whole
  K := PEmpty
  osem k := k.elim
  ho := Pipeline.OwnSemFacts.none _
  hbody c := (H2.hbody (V3 H0 H1 m) c).loose
  hwaits := Pipeline.hwaits_of_owed_zero _ _ _ _ L lv 2 fun c t => H2.howed (V3 H0 H1 m) c t
  pre c := iprop(StableHlo.held (c : Thread nD τ) (Pipeline.ucRefs τ sig) (W3 H0 H1 m c) ∗ R c)
  post c := iprop(StableHlo.held (c : Thread nD τ) (Pipeline.ucRefs τ sig) (W4 H0 H1 H2 m c) ∗ R c)
  X c := iprop(∃ r, prngReg c r)
  Y c := iprop(∃ r, prngReg c r)
  Z c := Pipeline.unscopedRest (Ix := Unit) (Name := ℕ) (U := UR sig nD τ) (Lvl := ℕ) spec2 c ((V3 H0 H1 m) c)
  hentry c := by
    rw [Pipeline.ownSems0_none]
    have hsplit := Pipeline.arrays_of_unscopedBufs (p := 2) (pcfgs (F := F)) adm (pdats H0 H1 H2 H3 H4 H5 m) launch2.win launch2.arr_whole c
      (((pdats H0 H1 H2 H3 H4 H5 m) 2 c).share_full fun w => H2.hq (V3 H0 H1 m) c w) ((V3 H0 H1 m) c) fun w => H2.hA (V3 H0 H1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 2 c).recorded 0 = Set.univ from H2.hrec (V3 H0 H1 m) c 0]; exact Set.mem_univ x)
      rw [show ((pdats H0 H1 H2 H3 H4 H5 m) 2 c).owed 0 = 0 from H2.howed (V3 H0 H1 m) c 0]
      iexact HO
    isplitl [Hp]; · iexact Hp
    iexact Hrest
  hin c := by
    have h : (iprop((∃ r, prngReg c r) ∗ Pipeline.prefHeld (pcfgs (F := F) 2).pre c (fun _ => fullShare) (adm (F := F) 2).1
        ∗ Pipeline.scopedRest spec2 c) : sProp 𝕄) ⊢ Pipeline.ΦA spec2 c := by
      unfold Pipeline.ΦA
      iintro ⟨Hp, -, Hr⟩
      isplitl [Hr]; · iexact Hr
      iexact Hp
    exact h.trans (H2.hin (V3 H0 H1 m) c)
  hout c := by
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    rw [Pipeline.ownSems0_none]
    exact (H2.hout (V3 H0 H1 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats H0 H1 H2 H3 H4 H5 m) (((pdats H0 H1 H2 H3 H4 H5 m) 2 c).share_full fun w => H2.hq (V3 H0 H1 m) c w)
      ((V3 H0 H1 m) c) (fun b => W4 H0 H1 H2 m c b) (((pdats H0 H1 H2 H3 H4 H5 m) 2 c).arrAt · cfg2.N)
      (fun w => (W4_arr H0 H1 H2 m c w).symm)
      (fun b hb => W4_of_ne H0 H1 H2 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 2 c).owed (Fin.last _) = 0 from H2.howed (V3 H0 H1 m) c _]
    iexact HO

set_option backward.isDefEq.respectTransparency.types false in
/-- Region 3 as a segment: entered with every unscoped buffer at `W4`, left with them at `W5`. Its arrays are
    split out of the unscoped buffers on entry and put back at their final contents on exit; the generator register goes
    into the region's invariant and comes back; nothing is owed; the kernel has no semaphore of its own. -/
def reg3 : Pipeline.RegionSeg (pcfgs (F := F)) adm (pdats H0 H1 H2 H3 H4 H5 m) () defs₀ 𝒱₀ L lv 3 where
  win := launch3.win.to₀
  block_pos := launch3.block_pos
  stage_whole := launch3.stage_whole
  K := PEmpty
  osem k := k.elim
  ho := Pipeline.OwnSemFacts.none _
  hbody c := (H3.hbody (V4 H0 H1 H2 m) c).loose
  hwaits := Pipeline.hwaits_of_owed_zero _ _ _ _ L lv 3 fun c t => H3.howed (V4 H0 H1 H2 m) c t
  pre c := iprop(StableHlo.held (c : Thread nD τ) (Pipeline.ucRefs τ sig) (W4 H0 H1 H2 m c) ∗ R c)
  post c := iprop(StableHlo.held (c : Thread nD τ) (Pipeline.ucRefs τ sig) (W5 H0 H1 H2 H3 m c) ∗ R c)
  X c := iprop(∃ r, prngReg c r)
  Y c := iprop(∃ r, prngReg c r)
  Z c := Pipeline.unscopedRest (Ix := Unit) (Name := ℕ) (U := UR sig nD τ) (Lvl := ℕ) spec3 c ((V4 H0 H1 H2 m) c)
  hentry c := by
    rw [Pipeline.ownSems0_none]
    have hsplit := Pipeline.arrays_of_unscopedBufs (p := 3) (pcfgs (F := F)) adm (pdats H0 H1 H2 H3 H4 H5 m) launch3.win launch3.arr_whole c
      (((pdats H0 H1 H2 H3 H4 H5 m) 3 c).share_full fun w => H3.hq (V4 H0 H1 H2 m) c w) ((V4 H0 H1 H2 m) c) fun w => H3.hA (V4 H0 H1 H2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 3 c).recorded 0 = Set.univ from H3.hrec (V4 H0 H1 H2 m) c 0]; exact Set.mem_univ x)
      rw [show ((pdats H0 H1 H2 H3 H4 H5 m) 3 c).owed 0 = 0 from H3.howed (V4 H0 H1 H2 m) c 0]
      iexact HO
    isplitl [Hp]; · iexact Hp
    iexact Hrest
  hin c := by
    have h : (iprop((∃ r, prngReg c r) ∗ Pipeline.prefHeld (pcfgs (F := F) 3).pre c (fun _ => fullShare) (adm (F := F) 3).1
        ∗ Pipeline.scopedRest spec3 c) : sProp 𝕄) ⊢ Pipeline.ΦA spec3 c := by
      unfold Pipeline.ΦA
      iintro ⟨Hp, -, Hr⟩
      isplitl [Hr]; · iexact Hr
      iexact Hp
    exact h.trans (H3.hin (V4 H0 H1 H2 m) c)
  hout c := by
    have h : (Pipeline.ΦA spec3 c : sProp 𝕄) ⊢ iprop((∃ r, prngReg c r) ∗ BI.emp ∗ Pipeline.scopedRest spec3 c) := by
      unfold Pipeline.ΦA
      iintro ⟨Hr, Hp⟩
      isplitl [Hp]; · iexact Hp
      isplitr; · iempintro
      iexact Hr
    rw [Pipeline.ownSems0_none]
    exact (H3.hout (V4 H0 H1 H2 m) c).trans h
  hexit c := by
    have hjoin := Pipeline.unscopedBufs_of_arrays (p := 3) (pcfgs (F := F)) adm (Ix := Unit) (Name := ℕ) (U := UR sig nD τ) (Lvl := ℕ)
      launch3.win launch3.arr_whole c (pdats H0 H1 H2 H3 H4 H5 m) (((pdats H0 H1 H2 H3 H4 H5 m) 3 c).share_full fun w => H3.hq (V4 H0 H1 H2 m) c w)
      ((V4 H0 H1 H2 m) c) (fun b => W5 H0 H1 H2 H3 m c b) (((pdats H0 H1 H2 H3 H4 H5 m) 3 c).arrAt · cfg3.N)
      (fun w => (W5_arr H0 H1 H2 H3 m c w).symm)
      (fun b hb => W5_of_ne H0 H1 H2 H3 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 3 c).owed (Fin.last _) = 0 from H3.howed (V4 H0 H1 H2 m) c _]
    iexact HO

set_option backward.isDefEq.respectTransparency.types false in
/-- Region 4 as a segment: entered with every unscoped buffer at `W5`, left with them at `W6`. Its arrays are
    split out of the unscoped buffers on entry and put back at their final contents on exit; the generator register goes
    into the region's invariant and comes back; nothing is owed; the kernel has no semaphore of its own. -/
def reg4 : Pipeline.RegionSeg (pcfgs (F := F)) adm (pdats H0 H1 H2 H3 H4 H5 m) () defs₀ 𝒱₀ L lv 4 where
  win := launch4.win.to₀
  block_pos := launch4.block_pos
  stage_whole := launch4.stage_whole
  K := PEmpty
  osem k := k.elim
  ho := Pipeline.OwnSemFacts.none _
  hbody c := (H4.hbody (V5 H0 H1 H2 H3 m) c).loose
  hwaits := Pipeline.hwaits_of_owed_zero _ _ _ _ L lv 4 fun c t => H4.howed (V5 H0 H1 H2 H3 m) c t
  pre c := iprop(StableHlo.held (c : Thread nD τ) (Pipeline.ucRefs τ sig) (W5 H0 H1 H2 H3 m c) ∗ R c)
  post c := iprop(StableHlo.held (c : Thread nD τ) (Pipeline.ucRefs τ sig) (W6 H0 H1 H2 H3 H4 m c) ∗ R c)
  X c := iprop(∃ r, prngReg c r)
  Y c := iprop(∃ r, prngReg c r)
  Z c := Pipeline.unscopedRest (Ix := Unit) (Name := ℕ) (U := UR sig nD τ) (Lvl := ℕ) spec4 c ((V5 H0 H1 H2 H3 m) c)
  hentry c := by
    rw [Pipeline.ownSems0_none]
    have hsplit := Pipeline.arrays_of_unscopedBufs (p := 4) (pcfgs (F := F)) adm (pdats H0 H1 H2 H3 H4 H5 m) launch4.win launch4.arr_whole c
      (((pdats H0 H1 H2 H3 H4 H5 m) 4 c).share_full fun w => H4.hq (V5 H0 H1 H2 H3 m) c w) ((V5 H0 H1 H2 H3 m) c) fun w => H4.hA (V5 H0 H1 H2 H3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 4 c).recorded 0 = Set.univ from H4.hrec (V5 H0 H1 H2 H3 m) c 0]; exact Set.mem_univ x)
      rw [show ((pdats H0 H1 H2 H3 H4 H5 m) 4 c).owed 0 = 0 from H4.howed (V5 H0 H1 H2 H3 m) c 0]
      iexact HO
    isplitl [Hp]; · iexact Hp
    iexact Hrest
  hin c := by
    have h : (iprop((∃ r, prngReg c r) ∗ Pipeline.prefHeld (pcfgs (F := F) 4).pre c (fun _ => fullShare) (adm (F := F) 4).1
        ∗ Pipeline.scopedRest spec4 c) : sProp 𝕄) ⊢ Pipeline.ΦA spec4 c := by
      unfold Pipeline.ΦA
      iintro ⟨Hp, -, Hr⟩
      isplitl [Hr]; · iexact Hr
      iexact Hp
    exact h.trans (H4.hin (V5 H0 H1 H2 H3 m) c)
  hout c := by
    have h : (Pipeline.ΦA spec4 c : sProp 𝕄) ⊢ iprop((∃ r, prngReg c r) ∗ BI.emp ∗ Pipeline.scopedRest spec4 c) := by
      unfold Pipeline.ΦA
      iintro ⟨Hr, Hp⟩
      isplitl [Hp]; · iexact Hp
      isplitr; · iempintro
      iexact Hr
    rw [Pipeline.ownSems0_none]
    exact (H4.hout (V5 H0 H1 H2 H3 m) c).trans h
  hexit c := by
    have hjoin := Pipeline.unscopedBufs_of_arrays (p := 4) (pcfgs (F := F)) adm (Ix := Unit) (Name := ℕ) (U := UR sig nD τ) (Lvl := ℕ)
      launch4.win launch4.arr_whole c (pdats H0 H1 H2 H3 H4 H5 m) (((pdats H0 H1 H2 H3 H4 H5 m) 4 c).share_full fun w => H4.hq (V5 H0 H1 H2 H3 m) c w)
      ((V5 H0 H1 H2 H3 m) c) (fun b => W6 H0 H1 H2 H3 H4 m c b) (((pdats H0 H1 H2 H3 H4 H5 m) 4 c).arrAt · cfg4.N)
      (fun w => (W6_arr H0 H1 H2 H3 H4 m c w).symm)
      (fun b hb => W6_of_ne H0 H1 H2 H3 H4 m c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show ((pdats H0 H1 H2 H3 H4 H5 m) 4 c).owed (Fin.last _) = 0 from H4.howed (V5 H0 H1 H2 H3 m) c _]
    iexact HO

set_option backward.isDefEq.respectTransparency.types false in
/-- Region 5 as a segment: entered with every unscoped buffer at `W7`, left with them at `W8`. Its arrays are
    split out of the unscoped buffers on entry and put back at their final contents on exit; the generator register goes
    into the region's invariant and comes back; nothing is owed; the kernel has no semaphore of its own. -/
def reg5 : Pipeline.RegionSeg (pcfgs (F := F)) adm (pdats H0 H1 H2 H3 H4 H5 m) () defs₀ 𝒱₀ L lv 5 where
  win := launch5.win.to₀
  block_pos := launch5.block_pos
  stage_whole := launch5.stage_whole
  K := PEmpty
  osem k := k.elim
  ho := Pipeline.OwnSemFacts.none _
  hbody c := (H5.hbody (V7 H0 H1 H2 H3 H4 m) c).loose
  hwaits := Pipeline.hwaits_of_owed_zero _ _ _ _ L lv 5 fun c t => H5.howed (V7 H0 H1 H2 H3 H4 m) c t
  pre c := iprop(StableHlo.held (c : Thread nD τ) (Pipeline.ucRefs τ sig) (W7 H0 H1 H2 H3 H4 m c) ∗ R c)
  post c := iprop(Tₙ H0 H1 H2 H3 H4 H5 m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec5 c ((V7 H0 H1 H2 H3 H4 m) c)
  hentry c := by
    rw [Pipeline.ownSems0_none]
    have hsplit := Pipeline.arrays_of_unscopedBufs (p := 5) (pcfgs (F := F)) adm (pdats H0 H1 H2 H3 H4 H5 m) launch5.win launch5.arr_whole c
      (((pdats H0 H1 H2 H3 H4 H5 m) 5 c).share_full fun w => H5.hq (V7 H0 H1 H2 H3 H4 m) c w) ((V7 H0 H1 H2 H3 H4 m) c) fun w => H5.hA (V7 H0 H1 H2 H3 H4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun x _ => Or.inl (by rw [show ((pdats H0 H1 H2 H3 H4 H5 m) 5 c).recorded 0 = Set.univ from H5.hrec (V7 H0 H1 H2 H3 H4 m) c 0]; exact Set.mem_univ x)
      rw [show ((pdats H0 H1 H2 H3 H4 H5 m) 5 c).owed 0 = 0 from H5.howed (V7 H0 H1 H2 H3 H4 m) c 0]
      iexact HO
    isplitl [Hp]; · iexact Hp
    iexact Hrest
  hin c := by
    have h : (iprop((∃ r, prngReg c r) ∗ Pipeline.prefHeld (pcfgs (F := F) 5).pre c (fun _ => fullShare) (adm (F := F) 5).1
        ∗ Pipeline.scopedRest spec5 c) : sProp 𝕄) ⊢ Pipeline.ΦA spec5 c := by
      unfold Pipeline.ΦA
      iintro ⟨Hp, -, Hr⟩
      isplitl [Hr]; · iexact Hr
      iexact Hp
    exact h.trans (H5.hin (V7 H0 H1 H2 H3 H4 m) c)
  hout c := by
    have h : (Pipeline.ΦA spec5 c : sProp 𝕄) ⊢ iprop((∃ r, prngReg c r) ∗ BI.emp ∗ Pipeline.scopedRest spec5 c) := by
      unfold Pipeline.ΦA
      iintro ⟨Hr, Hp⟩
      isplitl [Hp]; · iexact Hp
      isplitr; · iempintro
      iexact Hr
    rw [Pipeline.ownSems0_none]
    exact (H5.hout (V7 H0 H1 H2 H3 H4 m) c).trans h
  hexit c := by
    have hjoin := Pipeline.unscopedBufs_of_arrays (p := 5) (pcfgs (F := F)) adm (Ix := Unit) (Name := ℕ) (U := UR sig nD τ) (Lvl := ℕ)
      launch5.win launch5.arr_whole c (pdats H0 H1 H2 H3 H4 H5 m) (((pdats H0 H1 H2 H3 H4 H5 m) 5 c).share_full fun w => H5.hq (V7 H0 H1 H2 H3 H4 m) c w)
      ((V7 H0 H1 H2 H3 H4 m) c) (fun b => W8 H0 H1 H2 H3 H4 H5 m c b) (((pdats H0 H1 H2 H3 H4 H5 m) 5 c).arrAt · cfg5.N)
      (fun w => (W8_arr H0 H1 H2 H3 H4 H5 m c w).symm)
      (fun b hb => W8_of_ne H0 H1 H2 H3 H4 H5 m c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W
    rw [show ((pdats H0 H1 H2 H3 H4 H5 m) 5 c).owed (Fin.last _) = 0 from H5.howed (V7 H0 H1 H2 H3 H4 m) c _]
    iexact HO

/-! ## The main function as segments, and the launch -/

abbrev segs : List (Pipeline.Seg (pcfgs (F := F)) adm (pdats H0 H1 H2 H3 H4 H5 m) () defs₀ 𝒱₀ L lv) :=
  [ .host (hseg hostOps0 hostOps0_sub hostOps0_fresh (W0 m)),
    .region (reg0 H0 H1 H2 H3 H4 H5 m),
    .region (reg1 H0 H1 H2 H3 H4 H5 m),
    .region (reg2 H0 H1 H2 H3 H4 H5 m),
    .region (reg3 H0 H1 H2 H3 H4 H5 m),
    .region (reg4 H0 H1 H2 H3 H4 H5 m),
    .host (hseg hostOps5 hostOps5_sub hostOps5_fresh (W6 H0 H1 H2 H3 H4 m)),
    .region (reg5 H0 H1 H2 H3 H4 H5 m) ]

theorem main_run (c : Dev nD) : main (F := F) c = Pipeline.Seg.run (segs H0 H1 H2 H3 H4 H5 m) := (main_chain c).trans (by chain_rfl)

set_option backward.isDefEq.respectTransparency.types false in
/-- THE RUN. From any memory with zero counters every weakly fair execution of the main function terminates, nothing
    faulting, and in every final memory each unscoped buffer of each core holds the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 H0 H1 H2 H3 H4 H5 m c b) :=
  Pipeline.θ_run_regions_kit (pcfgs (F := F)) adm (pdats H0 H1 H2 H3 H4 H5 m) () cellOf_inj emb₁ defs₀ 𝒱₀ L lv m ρ main (segs H0 H1 H2 H3 H4 H5 m)
    (fun c Q => by rw [main_run H0 H1 H2 H3 H4 H5 m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ H0 H1 H2 H3 H4 H5 m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 H0 H1 H2 H3 H4 H5 m c b)
    (hfin := fun c s' => by
      iintro ⟨⟨Hh, -⟩, HSI⟩
      unfold StableHlo.held
      imodintro
      iapply (pointsTo_read_all (Pipeline.ucRefs τ sig) (fun b => (((c : Thread nD τ)).1, b)) (W8 H0 H1 H2 H3 H4 H5 m c) s')
      isplitl [Hh] <;> iassumption)
    (hQ := fun s h c => h c)

end Cert.KernelIdeal.Run

end
-- ==== Proof.KI.Sweep.lean ====
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The reverse sweep over the row blocks: what each point finds and leaves

The sweep visits the 25 row blocks of the adjacency matrix from the last to the first. It keeps two
buffers between points: the product `x · W1` (computed once, at the first point) and the rows of
`relu (adj · (x · W1)) · [W2 | W3]` finished so far (zero elsewhere). At each point it first multiplies its
adjacency rows by the rows finished so far, then finishes its own rows and adds them to the second buffer. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first point of the sweep. -/
def t0 : Fin cfg0.N := ⟨0, by rw [show cfg0.N = 25 from N_0]; decide⟩

/-- The product `x · W1`, as the first point computes it from the whole-array blocks of `x` and `W1`. -/
def xw1 (c : Dev nD) : Vec F S10000x32 .f32 := k0_pay1 (iblk0 V c 1 t0) (iblk0 V c 2 t0)

/-- The rows of the carried buffer that point `t` writes: 400 rows from row `(24 - t) * 400`, all 32 columns. -/
abbrev rowRect (i : grid0.Coords) : Rect S10000x32 :=
  Rect.unit (s := S10000x32) (k0_off1 i) S400x32.size (k0_off1_inb i)

/-- The rows point `t` finishes: `relu (adj rows · (x · W1)) · [W2 | W3]`. -/
def twBlock (c : Dev nD) (t : Fin cfg0.N) : Vec F S400x32 .f32 :=
  k0_pay4 (iblk0 V c 0 t) (xw1 V c) (iblk0 V c 3 t)

/-- The carried buffer of finished rows as point `n` finds it after the first point's zero fill: all zero at the
    first point, and after each point that point's rows written over what it found. -/
def rowsAt (c : Dev nD) : (n : ℕ) → Vec F S10000x32 .f32
  | 0 => k0_pay2
  | n + 1 =>
    if h : n < cfg0.N then
      (rowRect (grid0.coords ⟨n, h⟩)).overlay (rowsAt c n) (k0_pay5 (iblk0 V c 0 ⟨n, h⟩) (xw1 V c) (iblk0 V c 3 ⟨n, h⟩))
    else rowsAt c n

theorem rowsAt_succ (c : Dev nD) (t : Fin cfg0.N) :
    rowsAt V c (t.val + 1) = (rowRect (grid0.coords t)).overlay (rowsAt V c t.val) (k0_pay5 (iblk0 V c 0 t) (xw1 V c) (iblk0 V c 3 t)) := by
  obtain ⟨n, hn⟩ := t
  exact dif_pos hn

/-- The two carried buffers as memrefs. -/
abbrev scM0 : Memref sig .tc .vmem S10000x32 .f32 := Memref.whole cc0_scratch0
abbrev scM1 : Memref sig .tc .vmem S10000x32 .f32 := Memref.whole cc0_scratch1

/-- The region invariant before point `n`: before the first point the plain one (every scoped buffer at anything, the generator register at some state);
    afterwards the first carried buffer at `x · W1`, the second at the finished rows, the other scoped buffers
    at anything, and the generator register at some state. -/
def PhiS (c : Dev nD) : (n : ℕ) → sProp 𝕄
  | 0 => Pipeline.ΦA spec0 c
  | n + 1 => iprop((owns (c : Thread nD τ) scM0 fullShare (xw1 V c) ∗ owns (c : Thread nD τ) scM1 fullShare (rowsAt V c (n + 1)))
      ∗ Pipeline.scopedRestBut (Ix := Unit) (Name := ℕ) (U := UR sig nD τ) (Lvl := ℕ) (Val := Elt F) spec0 c [cc0_scratch0, cc0_scratch1]
      ∗ (∃ r, prngReg c r))

theorem PhiS_zero (c : Dev nD) : PhiS V c 0 = Pipeline.ΦA spec0 c := rfl
theorem PhiS_succ (c : Dev nD) (n : ℕ) :
    PhiS V c (n + 1) = iprop((owns (c : Thread nD τ) scM0 fullShare (xw1 V c) ∗ owns (c : Thread nD τ) scM1 fullShare (rowsAt V c (n + 1)))
      ∗ Pipeline.scopedRestBut (Ix := Unit) (Name := ℕ) (U := UR sig nD τ) (Lvl := ℕ) (Val := Elt F) spec0 c [cc0_scratch0, cc0_scratch1]
      ∗ (∃ r, prngReg c r)) := rfl

/-- The proof data of the sweep on core `c`: the arrays as the region finds them; after the body at point `t`
    each input's buffer at its block, the finished-rows output at the point's rows, the partial-product output at
    the adjacency rows times the rows finished before the point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => twBlock V c t
    | ⟨5, _⟩ => k0_pay3 (iblk0 V c 0 t) (rowsAt V c t.val)
  Φ t := PhiS V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = twBlock V c t := by dsimp only [dat0]
theorem after0_5 (c : Dev nD) (t : Fin cfg0.N) :
    (dat0 V c).after 5 t = k0_pay3 (iblk0 V c 0 t) (rowsAt V c t.val) := by dsimp only [dat0]

theorem Phi_eq0 (c : Dev nD) (t : Fin (cfg0.N + 1)) : (dat0 V c).Φ t = PhiS V c t.val := by dsimp only [dat0]

end Cert.KernelIdeal.Sweep

end
-- ==== Proof.KI.SweepBody.lean ====
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import proofs.«162566_g43224550868076_cont_8to1_b_1602_24_alg».proof.Proof.KI.Sweep
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The sweep's body, run on whole staging memrefs in its two cases -/

/-- The condition of the body's branch: the first grid coordinate is zero. -/
abbrev cond0 (i : grid0.Coords) : Prop :=
  (Scalar.cmpi .ne (Scalar.extui (Scalar.cmpi .eq (BitVec.ofNat 32 (i 0).val) 0#32)) 0#32) = 1#1

/-- It holds at the first point only — decided over the grid. -/
theorem hcond0 : ∀ t : Fin cfg0.N, cond0 (grid0.coords t) ↔ t.val = 0 :=
  (by decide +kernel : ∀ t : Fin grid0.N, cond0 (grid0.coords t) ↔ t.val = 0)

theorem hz2 : (![0, 0] : Fin 2 → ℕ) = fun _ => 0 := by funext a; fin_cases a <;> rfl

section Reads

variable {sg : RefSig} {κ : Kind} {sp : Space} {S : Shape} {e : EltTy} {Val : EltTy → Type} [∀ e, Nonempty (Val e)]

/-- A store through the whole-shape rectangle, LAST, leaves its payload whatever came before. -/
theorem read_writes_cons_whole (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h]

/-- A load through the whole-shape rectangle reads the contents. -/
theorem readAt_whole (v : View sg κ sp S e) (f : v.ty.Contents Val) {off : Fin S.rank → ℕ} (h : off = fun _ => 0)
    (inb : ∀ a, off a + S.size a ≤ S.size a) :
    v.readAt Val (Rect.unit off S.size inb).toLoadRect f = v.read Val f :=
  View.ld_unit_zero h inb _

/-- One store through a rectangle leaves the earlier contents with the rectangle's part replaced by the payload. -/
theorem read_writes_cons_overlay (v : View sg κ sp S e) (f : v.ty.Contents Val) (r : Rect S) (w : r.shape.Idx → Val e)
    (L : List (View.Piece Val S e)) :
    v.read Val (v.writes Val f ((⟨r, w⟩ : View.Piece Val S e) :: L)) = r.overlay (v.read Val (v.writes Val f L)) w := by
  funext y
  by_cases hy : y ∈ r.set
  · obtain ⟨x, rfl⟩ := r.exists_idx_of_mem hy
    rw [show r.idx x = r.emb x from rfl, View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

theorem readAt_S400x10000 (v : View sg κ sp S400x10000 e) (f : v.ty.Contents Val) :
    v.readAt Val (Rect.unit (s := S400x10000) ![0, 0] S400x10000.size inb_S400x10000_S400x10000_0_0).toLoadRect f = v.read Val f :=
  readAt_whole (S := S400x10000) v f hz2 _
theorem read_writes_cons_S400x10000 (v : View sg κ sp S400x10000 e) (f : v.ty.Contents Val) (w : S400x10000.Idx → Val e) (L : List (View.Piece Val S400x10000 e)) :
    v.read Val (v.writes Val f ((⟨Rect.unit (s := S400x10000) ![0, 0] S400x10000.size inb_S400x10000_S400x10000_0_0, w⟩ : View.Piece Val S400x10000 e) :: L)) = w :=
  read_writes_cons_whole (S := S400x10000) v f hz2 _ w L
theorem readAt_S10000x128 (v : View sg κ sp S10000x128 e) (f : v.ty.Contents Val) :
    v.readAt Val (Rect.unit (s := S10000x128) ![0, 0] S10000x128.size inb_S10000x128_S10000x128_0_0).toLoadRect f = v.read Val f :=
  readAt_whole (S := S10000x128) v f hz2 _
theorem read_writes_cons_S10000x128 (v : View sg κ sp S10000x128 e) (f : v.ty.Contents Val) (w : S10000x128.Idx → Val e) (L : List (View.Piece Val S10000x128 e)) :
    v.read Val (v.writes Val f ((⟨Rect.unit (s := S10000x128) ![0, 0] S10000x128.size inb_S10000x128_S10000x128_0_0, w⟩ : View.Piece Val S10000x128 e) :: L)) = w :=
  read_writes_cons_whole (S := S10000x128) v f hz2 _ w L
theorem readAt_S128x32 (v : View sg κ sp S128x32 e) (f : v.ty.Contents Val) :
    v.readAt Val (Rect.unit (s := S128x32) ![0, 0] S128x32.size inb_S128x32_S128x32_0_0).toLoadRect f = v.read Val f :=
  readAt_whole (S := S128x32) v f hz2 _
theorem read_writes_cons_S128x32 (v : View sg κ sp S128x32 e) (f : v.ty.Contents Val) (w : S128x32.Idx → Val e) (L : List (View.Piece Val S128x32 e)) :
    v.read Val (v.writes Val f ((⟨Rect.unit (s := S128x32) ![0, 0] S128x32.size inb_S128x32_S128x32_0_0, w⟩ : View.Piece Val S128x32 e) :: L)) = w :=
  read_writes_cons_whole (S := S128x32) v f hz2 _ w L
theorem readAt_S32x32 (v : View sg κ sp S32x32 e) (f : v.ty.Contents Val) :
    v.readAt Val (Rect.unit (s := S32x32) ![0, 0] S32x32.size inb_S32x32_S32x32_0_0).toLoadRect f = v.read Val f :=
  readAt_whole (S := S32x32) v f hz2 _
theorem read_writes_cons_S32x32 (v : View sg κ sp S32x32 e) (f : v.ty.Contents Val) (w : S32x32.Idx → Val e) (L : List (View.Piece Val S32x32 e)) :
    v.read Val (v.writes Val f ((⟨Rect.unit (s := S32x32) ![0, 0] S32x32.size inb_S32x32_S32x32_0_0, w⟩ : View.Piece Val S32x32 e) :: L)) = w :=
  read_writes_cons_whole (S := S32x32) v f hz2 _ w L
theorem readAt_S400x32 (v : View sg κ sp S400x32 e) (f : v.ty.Contents Val) :
    v.readAt Val (Rect.unit (s := S400x32) ![0, 0] S400x32.size inb_S400x32_S400x32_0_0).toLoadRect f = v.read Val f :=
  readAt_whole (S := S400x32) v f hz2 _
theorem read_writes_cons_S400x32 (v : View sg κ sp S400x32 e) (f : v.ty.Contents Val) (w : S400x32.Idx → Val e) (L : List (View.Piece Val S400x32 e)) :
    v.read Val (v.writes Val f ((⟨Rect.unit (s := S400x32) ![0, 0] S400x32.size inb_S400x32_S400x32_0_0, w⟩ : View.Piece Val S400x32 e) :: L)) = w :=
  read_writes_cons_whole (S := S400x32) v f hz2 _ w L
theorem readAt_S10000x32 (v : View sg κ sp S10000x32 e) (f : v.ty.Contents Val) :
    v.readAt Val (Rect.unit (s := S10000x32) ![0, 0] S10000x32.size inb_S10000x32_S10000x32_0_0).toLoadRect f = v.read Val f :=
  readAt_whole (S := S10000x32) v f hz2 _
theorem read_writes_cons_S10000x32 (v : View sg κ sp S10000x32 e) (f : v.ty.Contents Val) (w : S10000x32.Idx → Val e) (L : List (View.Piece Val S10000x32 e)) :
    v.read Val (v.writes Val f ((⟨Rect.unit (s := S10000x32) ![0, 0] S10000x32.size inb_S10000x32_S10000x32_0_0, w⟩ : View.Piece Val S10000x32 e) :: L)) = w :=
  read_writes_cons_whole (S := S10000x32) v f hz2 _ w L

end Reads

set_option maxHeartbeats 4000000 in
/-- The body at a point after the first, on whole staging memrefs at read contents: the carried buffers come in at
    `xs0` (the product `x · W1`) and `xs1` (the rows finished so far); the partial-product output leaves at the
    adjacency rows times `xs1`, the finished-rows output at the point's rows, and the second carried buffer with
    those rows written over `xs1`. -/
theorem sound_later (c : Dev nD) (E : Set ℕ) (i : grid0.Coords) (hc : ¬ cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S400x32 .f32) (harg6 : arg6.IsWhole)
    (arg7 : Memref sig .tc .vmem S10000x32 .f32) (harg7 : arg7.IsWhole) (arg8 : Memref sig .tc .vmem S10000x32 .f32) (harg8 : arg8.IsWhole)
    (x0 : Vec F S400x10000 .f32) (x1 : Vec F S10000x128 .f32) (x2 : Vec F S128x32 .f32) (x3 : Vec F S32x32 .f32)
    (xs0 : Vec F S10000x32 .f32) (xs1 : Vec F S10000x32 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ owns (c : Thread nD τ) arg7 fullShare xs0 ∗ owns (c : Thread nD τ) arg8 fullShare xs1
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay4 x0 xs0 x3)
            ∗ owns (c : Thread nD τ) arg6 fullShare (k0_pay3 x0 xs1)
            ∗ owns (c : Thread nD τ) arg7 fullShare xs0
            ∗ owns (c : Thread nD τ) arg8 fullShare ((rowRect i).overlay xs1 (k0_pay5 x0 xs0 x3))) -∗ K ⟨⟩))
      ⊢ wp frame (wpE (defs₀ (F := F)) Variants.none c none) E
          (cc0__sweep1_kernel i arg1 harg1 arg2 harg2 arg3 harg3 arg4 harg4 arg5 harg5 arg6 harg6 arg7 harg7 arg8 harg8) K := by
  simp only [cc0__sweep1_kernel_eq_skeleton]; unfold cc0__sweep1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0 hf1 hf2 hf3 hfs0 hfs1
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [read_writes_cons_S400x32, readAt_S400x10000, readAt_S10000x32, readAt_S32x32]
  isplitl [H5]
  · iexists _; isplitr
    swap; · iexact H5
    ipureintro
    rw [read_writes_cons_S400x32, readAt_S400x10000, readAt_S10000x32]
  isplitl [HS0]; · iexists fs0; isplitr; · ipureintro; rfl
                   iexact HS0
  iexists _; isplitr
  swap; · iexact HS1
  ipureintro
  rw [read_writes_cons_overlay, View.writes_nil, readAt_S400x10000, readAt_S10000x32, readAt_S32x32]

set_option maxHeartbeats 4000000 in
/-- The body at the first point: the carried buffers come in at anything; the branch fills the first with `x · W1`
    and the second with zeros, so the partial-product output leaves at the adjacency rows times zeros, the
    finished-rows output at the point's rows, and the second carried buffer with those rows written over zeros. -/
theorem sound_first (c : Dev nD) (E : Set ℕ) (i : grid0.Coords) (hc : cond0 i)
    (arg1 : Memref sig .tc .vmem S400x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S32x32 .f32) (harg4 : arg4.IsWhole)
    (arg5 : Memref sig .tc .vmem S400x32 .f32) (harg5 : arg5.IsWhole) (arg6 : Memref sig .tc .vmem S400x32 .f32) (harg6 : arg6.IsWhole)
    (arg7 : Memref sig .tc .vmem S10000x32 .f32) (harg7 : arg7.IsWhole) (arg8 : Memref sig .tc .vmem S10000x32 .f32) (harg8 : arg8.IsWhole)
    (x0 : Vec F S400x10000 .f32) (x1 : Vec F S10000x128 .f32) (x2 : Vec F S128x32 .f32) (x3 : Vec F S32x32 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (k0_pay4 x0 (k0_pay1 x1 x2) x3)
            ∗ owns (c : Thread nD τ) arg6 fullShare (k0_pay3 x0 k0_pay2)
            ∗ owns (c : Thread nD τ) arg7 fullShare (k0_pay1 x1 x2)
            ∗ owns (c : Thread nD τ) arg8 fullShare ((rowRect i).overlay k0_pay2 (k0_pay5 x0 (k0_pay1 x1 x2) x3))) -∗ K ⟨⟩))
      ⊢ wp frame (wpE (defs₀ (F := F)) Variants.none c none) E
          (cc0__sweep1_kernel i arg1 harg1 arg2 harg2 arg3 harg3 arg4 harg4 arg5 harg5 arg6 harg6 arg7 harg7 arg8 harg8) K := by
  simp only [cc0__sweep1_kernel_eq_skeleton]; unfold cc0__sweep1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
  subst hf0 hf1 hf2 hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_run_names
    rw [read_writes_cons_S400x32, View.readCov_cons_toLoadRect, readAt_S400x10000, readAt_S10000x128, readAt_S128x32, readAt_S32x32]
  isplitl [H5]
  · iexists _; isplitr
    swap; · iexact H5
    ipureintro
    sl_unfold_run_names
    rw [read_writes_cons_S400x32, View.readCov_cons_toLoadRect, readAt_S400x10000]
  isplitl [HS0]
  · iexists _; isplitr
    swap; · iexact HS0
    ipureintro
    sl_unfold_run_names
    rw [read_writes_cons_S10000x32, readAt_S10000x128, readAt_S128x32]
  iexists _; isplitr
  swap; · iexact HS1
  ipureintro
  sl_unfold_run_names
  rw [read_writes_cons_overlay, read_writes_cons_S10000x32, View.readCov_cons_toLoadRect, readAt_S400x10000, readAt_S10000x128, readAt_S128x32, readAt_S32x32]

end Cert.KernelIdeal.Sweep

end
-- ==== Proof.KI.SweepFrame.lean ====
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import proofs.«162566_g43224550868076_cont_8to1_b_1602_24_alg».proof.Proof.KI.SweepBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Sweep

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the input windows' buffers -/

/-- Each input's current staging buffer holds its block at every point, fetched there or not (unfetched, the block
    index has not moved). -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-! ## The invariant, opened at the two carried buffers -/

/-- The plain invariant (every scoped buffer at anything) with the two carried buffers as memrefs owned at some contents. -/
theorem PhiA0_eq (c : Dev nD) :
    (Pipeline.ΦA spec0 c : sProp 𝕄)
      = iprop((((∃ d, owns (c : Thread nD τ) scM0 fullShare d) ∗ (∃ d, owns (c : Thread nD τ) scM1 fullShare d))
          ∗ Pipeline.scopedRestBut (Ix := Unit) (Name := ℕ) (U := UR sig nD τ) (Lvl := ℕ) (Val := Elt F) spec0 c [cc0_scratch0, cc0_scratch1])
          ∗ (∃ r, prngReg c r)) := by
  unfold Pipeline.ΦA; rw [scopedRest0_split]; simp only [scM0, scM1, owns_whole]; try rfl

/-- Before a point that is not the first: the carried buffers at what the points before left. -/
theorem PhiS_pos (c : Dev nD) (n : ℕ) (hn : n ≠ 0) :
    PhiS V c n = iprop((owns (c : Thread nD τ) scM0 fullShare (xw1 V c) ∗ owns (c : Thread nD τ) scM1 fullShare (rowsAt V c n))
      ∗ Pipeline.scopedRestBut (Ix := Unit) (Name := ℕ) (U := UR sig nD τ) (Lvl := ℕ) (Val := Elt F) spec0 c [cc0_scratch0, cc0_scratch1]
      ∗ (∃ r, prngReg c r)) := by
  cases n with
  | zero => exact absurd rfl hn
  | succ n => rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 4000000 in
/-- The body at any point: the inputs' memrefs hold their blocks; at the first point the invariant hands the carried
    buffers over at anything and takes them back at `x · W1` and the first finished rows over zeros; afterwards it
    hands them over at what the points before left and takes the second back with this point's rows written. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    after0_0, after0_1, after0_2, after0_3, after0_4, after0_5, Phi_eq0, Phi_eq0,
    show (t.succ : Fin (cfg0.N + 1)).val = t.val + 1 from rfl, show (t.castSucc : Fin (cfg0.N + 1)).val = t.val from rfl,
    PhiS_succ, rowsAt_succ]
  by_cases hz : t.val = 0
  · have hc : cond0 (grid0.coords t) := (hcond0 t).mpr hz
    obtain rfl : t = t0 := Fin.ext hz
    rw [show (t0 : Fin cfg0.N).val = 0 from rfl, PhiS_zero, PhiA0_eq]
    unfold twBlock
    rw [show rowsAt V c 0 = k0_pay2 from rfl]
    iintro ⟨⟨⟨⟨HS0, HS1⟩, Hr⟩, Hg⟩, Ho, ⟨%d0, H0⟩, ⟨%d1, H1⟩, ⟨%d2, H2⟩, ⟨%d3, H3⟩, ⟨%d4, H4⟩, ⟨%d5, H5⟩⟩
    iapply (sound_first c Set.univ (grid0.coords t0) hc _ _ _ _ _ _ _ _ _ _ _ _ _ _ _ _
      (iblk0 V c 0 t0) (iblk0 V c 1 t0) (iblk0 V c 2 t0) (iblk0 V c 3 t0) _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5
  · have hc : ¬ cond0 (grid0.coords t) := fun h => hz ((hcond0 t).mp h)
    rw [PhiS_pos V c _ hz]
    unfold twBlock
    iintro ⟨⟨⟨HS0, HS1⟩, Hr, Hg⟩, Ho, ⟨%d0, H0⟩, ⟨%d1, H1⟩, ⟨%d2, H2⟩, ⟨%d3, H3⟩, ⟨%d4, H4⟩, ⟨%d5, H5⟩⟩
    iapply (sound_later c Set.univ (grid0.coords t) hc _ _ _ _ _ _ _ _ _ _ _ _ _ _ _ _
      (iblk0 V c 0 t) (iblk0 V c 1 t) (iblk0 V c 2 t) (iblk0 V c 3 t) (xw1 V c) (rowsAt V c t.val) _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [Phi_eq0]
  exact Idealize.SL.BI.Entails.refl _

/-- After the last point the invariant gives the plain one back: the carried buffers' named contents are forgotten. -/
theorem hout0 (c : Dev nD) : (dat0 V c).Φ (Fin.last cfg0.N) ⊢ Pipeline.ΦA spec0 c := by
  rw [Phi_eq0, Fin.val_last, show cfg0.N = 24 + 1 from N_0, PhiS_succ]
  unfold Pipeline.ΦA; rw [scopedRest0_split]
  simp only [scM0, scM1, owns_whole]
  iintro ⟨⟨H0, H1⟩, Hr, Hg⟩
  isplitr [Hg]
  · isplitl [H0 H1]
    · isplitl [H0]
      · iexists _; iexact H0
      · iexists _; iexact H1
    · iexact Hr
  · iexact Hg

end Cert.KernelIdeal.Sweep

end
-- ==== Proof.KI.Class1.lean ====
/-
  Region 1 of the forward pass, the class kernel for row blocks 0 to 5: what its body finds and leaves at every
  grid point, at any float instance. At grid point t the body reads three rectangles — the block of 400 rows of the adjacency matrix
  restricted to its first 2432 columns (row block t + 0), the first 2432 rows of the 32-column matrix tw of
  projected hidden features (the same rectangle at every point), and the block of 400 rows of the partial product
  mv — and stores two 400 x 16 rectangles: the left and the right half of

      mv_block + adj_block · (tw with the rows from (t + 0 + 1) · 400 on replaced by zero).

  The stored value depends on the grid point through that row limit, so the two outputs are functions of the
  grid coordinates as well as of the three blocks read.

  The two prefix rectangles (2432 does not divide 10000) are described by windows that would cut a block
  overhanging the array's end. None of the 6 blocks here overhangs (2432 ≤ 10000 and the row blocks end at row
  2400), which is decided once over the grid (`nocut1_0`, `nocut1_1`); hence a fetch fills the whole
  staging buffer and what the body finds there does not depend on what the buffer held before (`fill_indep`).
-/
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Class1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): the part of the block that
    lies inside the array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- When the part a transfer moves is the whole block, the buffer after a fetch does not depend on what it held. -/
theorem fill_indep {G : Pipeline.Grid} (w : Pipeline.Window sig G) {α : Type} (i : G.Coords)
    (h : ∀ a, w.xsize i a = w.size a) (d d' : w.block.Idx → α) (g : (w.xblock i).Idx → α) :
    w.fill i d g = w.fill i d' g := by
  funext j
  have hm : w.moved i j = true := (w.moved_iff i j).mpr fun a => by rw [h a]; exact (j a).isLt
  unfold Pipeline.Window.fill; rw [dif_pos hm, dif_pos hm]

/-- No block of the adjacency prefix overhangs the array: 400 rows from row (t + 0) · 400 end by row 2400 ≤ 10000,
    and 2432 columns from column 0 end inside 10000. -/
theorem nocut1_0 : ∀ (t : Fin cfg1.N) (a : Fin 2), (cfg1.win 0).xsize (cfg1.grid.coords t) a = (cfg1.win 0).size a :=
  (by decide +kernel : ∀ (t : Fin grid1.N) (a : Fin 2), win1_0.xsize (grid1.coords t) a = S400x2432.size a)
/-- Nor does the one block of the prefix of tw: 2432 rows from row 0, 32 columns from column 0. -/
theorem nocut1_1 : ∀ (t : Fin cfg1.N) (a : Fin 2), (cfg1.win 1).xsize (cfg1.grid.coords t) a = (cfg1.win 1).size a :=
  (by decide +kernel : ∀ (t : Fin grid1.N) (a : Fin 2), win1_1.xsize (grid1.coords t) a = S2432x32.size a)

/-- The adjacency block at point `t` as a full 400 x 2432 buffer (the filler word is never seen: nothing is cut). -/
def ablk1 (c : Dev nD) (t : Fin cfg1.N) : (cfg1.win 0).block.Idx → Elt F (cfg1.win 0).elt :=
  (cfg1.win 0).fill (cfg1.grid.coords t) (fun _ => Scalar.ofBits .f32 0#32) (iblk1 V c 0 t)
/-- The prefix of tw as a full 2432 x 32 buffer. -/
def tblk1 (c : Dev nD) (t : Fin cfg1.N) : (cfg1.win 1).block.Idx → Elt F (cfg1.win 1).elt :=
  (cfg1.win 1).fill (cfg1.grid.coords t) (fun _ => Scalar.ofBits .f32 0#32) (iblk1 V c 1 t)

/-- The adjacency window's staging buffer holds its full block at every point, whatever it held before, for any
    proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = ablk1 V c t) (t : Fin cfg1.N) (d) : dat.before 0 t d = ablk1 V c t :=
  (dat.before_in_eq_fetched 0 rfl (fun _ => rfl)
    (fun t t' h => funext fun a => by
      show Pipeline.Clip.of ((cfg1.win 0).index t a) _ _ = Pipeline.Clip.of ((cfg1.win 0).index t' a) _ _
      rw [h])
    (fun t => by rw [hafter]; unfold ablk1; rw [Pipeline.Window.cut_fill]; unfold Dat.blockOf iblk1; rw [hA]) t d).trans
    (by unfold Dat.fetched Dat.blockOf ablk1 iblk1; rw [hA]; exact fill_indep _ _ (nocut1_0 t) _ _ _)

/-- The same for the prefix of tw, fetched at the first point only: later points find what the first fetch left. -/
theorem before1_1_of {c : Dev nD} (dat : Dat τ (Elt F) Unit ℕ (UR sig nD τ) ℕ cfg1 c) (hA : dat.A 1 = V c (Pipeline.arrRef spec1 1))
    (hafter : ∀ t, dat.after 1 t = tblk1 V c t) (t : Fin cfg1.N) (d) : dat.before 1 t d = tblk1 V c t :=
  (dat.before_in_eq_fetched 1 rfl (fun _ => rfl)
    (fun t t' h => funext fun a => by
      show Pipeline.Clip.of ((cfg1.win 1).index t a) _ _ = Pipeline.Clip.of ((cfg1.win 1).index t' a) _ _
      rw [h])
    (fun t => by rw [hafter]; unfold tblk1; rw [Pipeline.Window.cut_fill]; unfold Dat.blockOf iblk1; rw [hA]) t d).trans
    (by unfold Dat.fetched Dat.blockOf tblk1 iblk1; rw [hA]; exact fill_indep _ _ (nocut1_1 t) _ _ _)

/-- The block of mv (400 x 32 blocks tile its 10000 rows: nothing is cut by construction). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is the whole of its staging buffer -/

abbrev r1_0 : Rect S400x2432 := Rect.unit (s := S400x2432) ![0, 0] S400x2432.size inb_S400x2432_S400x2432_0_0
abbrev r1_1 : Rect S2432x32 := Rect.unit (s := S2432x32) ![0, 0] S2432x32.size inb_S2432x32_S2432x32_0_0
abbrev r1_2 : Rect S400x32 := Rect.unit (s := S400x32) ![0, 0] S400x32.size inb_S400x32_S400x32_0_0
abbrev r1_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` the prefix of tw, `x2` the block of mv): one store of the whole buffer, columns 0 to 15
    of mv + adj · (tw masked below the row limit). -/
def out1_3 (i : grid1.Coords) (x0 : Vec F S400x2432 .f32) (x1 : Vec F S2432x32 .f32) (x2 : Vec F S400x32 .f32) : Vec F S400x16 .f32 :=
  View.canon [⟨r1_3, k1_pay2 i (View.ld x1 r1_1) (View.ld x2 r1_2) (View.ld x0 r1_0)⟩]
/-- The log-variance part's likewise: columns 16 to 31 of the same sum. -/
def out1_4 (i : grid1.Coords) (x0 : Vec F S400x2432 .f32) (x1 : Vec F S2432x32 .f32) (x2 : Vec F S400x32 .f32) : Vec F S400x16 .f32 :=
  View.canon [⟨r1_3, k1_pay3 i (View.ld x1 r1_1) (View.ld x2 r1_2) (View.ld x0 r1_0)⟩]

/-- One store of the whole 400 x 16 rectangle covers the buffer. -/
theorem cover1_3 (p0 : Vec F S400x16 .f32) (y : S400x16.Idx) :
    ∃ pc ∈ ([⟨r1_3, p0⟩] : List (View.Piece (Elt F) S400x16 .f32)), y ∈ pc.1.set :=
  View.cover_of_tiled [⟨r1_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out1_3`, `out1_4` of the inputs'. -/
theorem sound_kernel1 (c : Dev nD) (E : Set ℕ) (i : grid1.Coords)
    (arg1 : Memref sig .tc .vmem S400x2432 .f32) (harg1 : arg1.IsWhole)
    (arg2 : Memref sig .tc .vmem S2432x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x2432 .f32) (x1 : Vec F S2432x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 i x0 x1 x2) ∗ owns (c : Thread nD τ) arg5 fullShare (out1_4 i x0 x1 x2)) -∗ K ⟨⟩))
      ⊢ wp frame (wpE (defs₀ (F := F)) Variants.none c none) E (cc1__class_kernel i arg1 harg1 arg2 harg2 arg3 harg3 arg4 harg4 arg5 harg5) K := by
  simp only [cc1__class_kernel_eq_skeleton]; unfold cc1__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover1_3 _)
  iexists _; isplitr
  swap; · iexact H4
  ipureintro
  exact View.read_writes_eq_canon _ _ _ (cover1_3 _)

/-! ## The pipeline's proof data -/

/-- The proof data of this region on core `c`: the arrays as the region finds them (`V`); after the body at point
    `t` each input's buffer at its full block and each output's at `out1_W` of the input blocks at the point's
    coordinates; the invariant that of a body touching nothing else; nothing owed; full shares. -/
def dat1 (c : Dev nD) : Dat τ (Elt F) Unit ℕ (UR sig nD τ) ℕ cfg1 c where
  A w := V c (Pipeline.arrRef spec1 w)
  after w t := match w with
    | ⟨0, _⟩ => ablk1 V c t
    | ⟨1, _⟩ => tblk1 V c t
    | ⟨2, _⟩ => iblk1 V c 2 t
    | ⟨3, _⟩ => out1_3 (grid1.coords t) (ablk1 V c t) (tblk1 V c t) (iblk1 V c 2 t)
    | ⟨4, _⟩ => out1_4 (grid1.coords t) (ablk1 V c t) (tblk1 V c t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = ablk1 V c t := by dsimp only [dat1]
theorem after1_1 (c : Dev nD) (t : Fin cfg1.N) : (dat1 V c).after 1 t = tblk1 V c t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (grid1.coords t) (ablk1 V c t) (tblk1 V c t) (iblk1 V c 2 t) := by dsimp only [dat1]
theorem after1_4 (c : Dev nD) (t : Fin cfg1.N) :
    (dat1 V c).after 4 t = out1_4 (grid1.coords t) (ablk1 V c t) (tblk1 V c t) (iblk1 V c 2 t) := by dsimp only [dat1]

/-- Each input's current staging buffer holds its full block at every point, fetched there or not. -/
theorem before1_0 (c : Dev nD) (t : Fin cfg1.N) (d) : (dat1 V c).before 0 t d = ablk1 V c t :=
  before1_0_of V (dat1 V c) (A_eq1 V c 0) (after1_0 V c) t d
theorem before1_1 (c : Dev nD) (t : Fin cfg1.N) (d) : (dat1 V c).before 1 t d = tblk1 V c t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies at the
    point's coordinates; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (ablk1 V c t) (tblk1 V c t) (iblk1 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Class1

end
-- ==== Proof.KI.Class2.lean ====
/-
  Region 2 of the forward pass, the class kernel for row blocks 6 to 11: what its body finds and leaves at every
  grid point, at any float instance. At grid point t the body reads three rectangles — the block of 400 rows of the adjacency matrix
  restricted to its first 4864 columns (row block t + 6), the first 4864 rows of the 32-column matrix tw of
  projected hidden features (the same rectangle at every point), and the block of 400 rows of the partial product
  mv — and stores two 400 x 16 rectangles: the left and the right half of

      mv_block + adj_block · (tw with the rows from (t + 6 + 1) · 400 on replaced by zero).

  The stored value depends on the grid point through that row limit, so the two outputs are functions of the
  grid coordinates as well as of the three blocks read.

  The two prefix rectangles (4864 does not divide 10000) are described by windows that would cut a block
  overhanging the array's end. None of the 6 blocks here overhangs (4864 ≤ 10000 and the row blocks end at row
  4800), which is decided once over the grid (`nocut2_0`, `nocut2_1`); hence a fetch fills the whole
  staging buffer and what the body finds there does not depend on what the buffer held before (`fill_indep`).
-/
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Class2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): the part of the block that
    lies inside the array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- When the part a transfer moves is the whole block, the buffer after a fetch does not depend on what it held. -/
theorem fill_indep {G : Pipeline.Grid} (w : Pipeline.Window sig G) {α : Type} (i : G.Coords)
    (h : ∀ a, w.xsize i a = w.size a) (d d' : w.block.Idx → α) (g : (w.xblock i).Idx → α) :
    w.fill i d g = w.fill i d' g := by
  funext j
  have hm : w.moved i j = true := (w.moved_iff i j).mpr fun a => by rw [h a]; exact (j a).isLt
  unfold Pipeline.Window.fill; rw [dif_pos hm, dif_pos hm]

/-- No block of the adjacency prefix overhangs the array: 400 rows from row (t + 6) · 400 end by row 4800 ≤ 10000,
    and 4864 columns from column 0 end inside 10000. -/
theorem nocut2_0 : ∀ (t : Fin cfg2.N) (a : Fin 2), (cfg2.win 0).xsize (cfg2.grid.coords t) a = (cfg2.win 0).size a :=
  (by decide +kernel : ∀ (t : Fin grid2.N) (a : Fin 2), win2_0.xsize (grid2.coords t) a = S400x4864.size a)
/-- Nor does the one block of the prefix of tw: 4864 rows from row 0, 32 columns from column 0. -/
theorem nocut2_1 : ∀ (t : Fin cfg2.N) (a : Fin 2), (cfg2.win 1).xsize (cfg2.grid.coords t) a = (cfg2.win 1).size a :=
  (by decide +kernel : ∀ (t : Fin grid2.N) (a : Fin 2), win2_1.xsize (grid2.coords t) a = S4864x32.size a)

/-- The adjacency block at point `t` as a full 400 x 4864 buffer (the filler word is never seen: nothing is cut). -/
def ablk2 (c : Dev nD) (t : Fin cfg2.N) : (cfg2.win 0).block.Idx → Elt F (cfg2.win 0).elt :=
  (cfg2.win 0).fill (cfg2.grid.coords t) (fun _ => Scalar.ofBits .f32 0#32) (iblk2 V c 0 t)
/-- The prefix of tw as a full 4864 x 32 buffer. -/
def tblk2 (c : Dev nD) (t : Fin cfg2.N) : (cfg2.win 1).block.Idx → Elt F (cfg2.win 1).elt :=
  (cfg2.win 1).fill (cfg2.grid.coords t) (fun _ => Scalar.ofBits .f32 0#32) (iblk2 V c 1 t)

/-- The adjacency window's staging buffer holds its full block at every point, whatever it held before, for any
    proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = ablk2 V c t) (t : Fin cfg2.N) (d) : dat.before 0 t d = ablk2 V c t :=
  (dat.before_in_eq_fetched 0 rfl (fun _ => rfl)
    (fun t t' h => funext fun a => by
      show Pipeline.Clip.of ((cfg2.win 0).index t a) _ _ = Pipeline.Clip.of ((cfg2.win 0).index t' a) _ _
      rw [h])
    (fun t => by rw [hafter]; unfold ablk2; rw [Pipeline.Window.cut_fill]; unfold Dat.blockOf iblk2; rw [hA]) t d).trans
    (by unfold Dat.fetched Dat.blockOf ablk2 iblk2; rw [hA]; exact fill_indep _ _ (nocut2_0 t) _ _ _)

/-- The same for the prefix of tw, fetched at the first point only: later points find what the first fetch left. -/
theorem before2_1_of {c : Dev nD} (dat : Dat τ (Elt F) Unit ℕ (UR sig nD τ) ℕ cfg2 c) (hA : dat.A 1 = V c (Pipeline.arrRef spec2 1))
    (hafter : ∀ t, dat.after 1 t = tblk2 V c t) (t : Fin cfg2.N) (d) : dat.before 1 t d = tblk2 V c t :=
  (dat.before_in_eq_fetched 1 rfl (fun _ => rfl)
    (fun t t' h => funext fun a => by
      show Pipeline.Clip.of ((cfg2.win 1).index t a) _ _ = Pipeline.Clip.of ((cfg2.win 1).index t' a) _ _
      rw [h])
    (fun t => by rw [hafter]; unfold tblk2; rw [Pipeline.Window.cut_fill]; unfold Dat.blockOf iblk2; rw [hA]) t d).trans
    (by unfold Dat.fetched Dat.blockOf tblk2 iblk2; rw [hA]; exact fill_indep _ _ (nocut2_1 t) _ _ _)

/-- The block of mv (400 x 32 blocks tile its 10000 rows: nothing is cut by construction). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its staging buffer -/

abbrev r2_0 : Rect S400x4864 := Rect.unit (s := S400x4864) ![0, 0] S400x4864.size inb_S400x4864_S400x4864_0_0
abbrev r2_1 : Rect S4864x32 := Rect.unit (s := S4864x32) ![0, 0] S4864x32.size inb_S4864x32_S4864x32_0_0
abbrev r2_2 : Rect S400x32 := Rect.unit (s := S400x32) ![0, 0] S400x32.size inb_S400x32_S400x32_0_0
abbrev r2_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` the prefix of tw, `x2` the block of mv): one store of the whole buffer, columns 0 to 15
    of mv + adj · (tw masked below the row limit). -/
def out2_3 (i : grid2.Coords) (x0 : Vec F S400x4864 .f32) (x1 : Vec F S4864x32 .f32) (x2 : Vec F S400x32 .f32) : Vec F S400x16 .f32 :=
  View.canon [⟨r2_3, k2_pay2 i (View.ld x1 r2_1) (View.ld x2 r2_2) (View.ld x0 r2_0)⟩]
/-- The log-variance part's likewise: columns 16 to 31 of the same sum. -/
def out2_4 (i : grid2.Coords) (x0 : Vec F S400x4864 .f32) (x1 : Vec F S4864x32 .f32) (x2 : Vec F S400x32 .f32) : Vec F S400x16 .f32 :=
  View.canon [⟨r2_3, k2_pay3 i (View.ld x1 r2_1) (View.ld x2 r2_2) (View.ld x0 r2_0)⟩]

/-- One store of the whole 400 x 16 rectangle covers the buffer. -/
theorem cover2_3 (p0 : Vec F S400x16 .f32) (y : S400x16.Idx) :
    ∃ pc ∈ ([⟨r2_3, p0⟩] : List (View.Piece (Elt F) S400x16 .f32)), y ∈ pc.1.set :=
  View.cover_of_tiled [⟨r2_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out2_3`, `out2_4` of the inputs'. -/
theorem sound_kernel2 (c : Dev nD) (E : Set ℕ) (i : grid2.Coords)
    (arg1 : Memref sig .tc .vmem S400x4864 .f32) (harg1 : arg1.IsWhole)
    (arg2 : Memref sig .tc .vmem S4864x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x4864 .f32) (x1 : Vec F S4864x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 i x0 x1 x2) ∗ owns (c : Thread nD τ) arg5 fullShare (out2_4 i x0 x1 x2)) -∗ K ⟨⟩))
      ⊢ wp frame (wpE (defs₀ (F := F)) Variants.none c none) E (cc2__class_kernel i arg1 harg1 arg2 harg2 arg3 harg3 arg4 harg4 arg5 harg5) K := by
  simp only [cc2__class_kernel_eq_skeleton]; unfold cc2__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover2_3 _)
  iexists _; isplitr
  swap; · iexact H4
  ipureintro
  exact View.read_writes_eq_canon _ _ _ (cover2_3 _)

/-! ## The pipeline's proof data -/

/-- The proof data of this region on core `c`: the arrays as the region finds them (`V`); after the body at point
    `t` each input's buffer at its full block and each output's at `out2_W` of the input blocks at the point's
    coordinates; the invariant that of a body touching nothing else; nothing owed; full shares. -/
def dat2 (c : Dev nD) : Dat τ (Elt F) Unit ℕ (UR sig nD τ) ℕ cfg2 c where
  A w := V c (Pipeline.arrRef spec2 w)
  after w t := match w with
    | ⟨0, _⟩ => ablk2 V c t
    | ⟨1, _⟩ => tblk2 V c t
    | ⟨2, _⟩ => iblk2 V c 2 t
    | ⟨3, _⟩ => out2_3 (grid2.coords t) (ablk2 V c t) (tblk2 V c t) (iblk2 V c 2 t)
    | ⟨4, _⟩ => out2_4 (grid2.coords t) (ablk2 V c t) (tblk2 V c t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = ablk2 V c t := by dsimp only [dat2]
theorem after2_1 (c : Dev nD) (t : Fin cfg2.N) : (dat2 V c).after 1 t = tblk2 V c t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (grid2.coords t) (ablk2 V c t) (tblk2 V c t) (iblk2 V c 2 t) := by dsimp only [dat2]
theorem after2_4 (c : Dev nD) (t : Fin cfg2.N) :
    (dat2 V c).after 4 t = out2_4 (grid2.coords t) (ablk2 V c t) (tblk2 V c t) (iblk2 V c 2 t) := by dsimp only [dat2]

/-- Each input's current staging buffer holds its full block at every point, fetched there or not. -/
theorem before2_0 (c : Dev nD) (t : Fin cfg2.N) (d) : (dat2 V c).before 0 t d = ablk2 V c t :=
  before2_0_of V (dat2 V c) (A_eq2 V c 0) (after2_0 V c) t d
theorem before2_1 (c : Dev nD) (t : Fin cfg2.N) (d) : (dat2 V c).before 1 t d = tblk2 V c t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks (`before2_W`), so `sound_kernel2` applies at the
    point's coordinates; the invariant and the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (ablk2 V c t) (tblk2 V c t) (iblk2 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Class2

end
-- ==== Proof.KI.Class3.lean ====
/-
  Region 3 of the forward pass, the class kernel for row blocks 12 to 17: what its body finds and leaves at every
  grid point, at any float instance. At grid point t the body reads three rectangles — the block of 400 rows of the adjacency matrix
  restricted to its first 7296 columns (row block t + 12), the first 7296 rows of the 32-column matrix tw of
  projected hidden features (the same rectangle at every point), and the block of 400 rows of the partial product
  mv — and stores two 400 x 16 rectangles: the left and the right half of

      mv_block + adj_block · (tw with the rows from (t + 12 + 1) · 400 on replaced by zero).

  The stored value depends on the grid point through that row limit, so the two outputs are functions of the
  grid coordinates as well as of the three blocks read.

  The two prefix rectangles (7296 does not divide 10000) are described by windows that would cut a block
  overhanging the array's end. None of the 6 blocks here overhangs (7296 ≤ 10000 and the row blocks end at row
  7200), which is decided once over the grid (`nocut3_0`, `nocut3_1`); hence a fetch fills the whole
  staging buffer and what the body finds there does not depend on what the buffer held before (`fill_indep`).
-/
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Class3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`): the part of the block that
    lies inside the array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- When the part a transfer moves is the whole block, the buffer after a fetch does not depend on what it held. -/
theorem fill_indep {G : Pipeline.Grid} (w : Pipeline.Window sig G) {α : Type} (i : G.Coords)
    (h : ∀ a, w.xsize i a = w.size a) (d d' : w.block.Idx → α) (g : (w.xblock i).Idx → α) :
    w.fill i d g = w.fill i d' g := by
  funext j
  have hm : w.moved i j = true := (w.moved_iff i j).mpr fun a => by rw [h a]; exact (j a).isLt
  unfold Pipeline.Window.fill; rw [dif_pos hm, dif_pos hm]

/-- No block of the adjacency prefix overhangs the array: 400 rows from row (t + 12) · 400 end by row 7200 ≤ 10000,
    and 7296 columns from column 0 end inside 10000. -/
theorem nocut3_0 : ∀ (t : Fin cfg3.N) (a : Fin 2), (cfg3.win 0).xsize (cfg3.grid.coords t) a = (cfg3.win 0).size a :=
  (by decide +kernel : ∀ (t : Fin grid3.N) (a : Fin 2), win3_0.xsize (grid3.coords t) a = S400x7296.size a)
/-- Nor does the one block of the prefix of tw: 7296 rows from row 0, 32 columns from column 0. -/
theorem nocut3_1 : ∀ (t : Fin cfg3.N) (a : Fin 2), (cfg3.win 1).xsize (cfg3.grid.coords t) a = (cfg3.win 1).size a :=
  (by decide +kernel : ∀ (t : Fin grid3.N) (a : Fin 2), win3_1.xsize (grid3.coords t) a = S7296x32.size a)

/-- The adjacency block at point `t` as a full 400 x 7296 buffer (the filler word is never seen: nothing is cut). -/
def ablk3 (c : Dev nD) (t : Fin cfg3.N) : (cfg3.win 0).block.Idx → Elt F (cfg3.win 0).elt :=
  (cfg3.win 0).fill (cfg3.grid.coords t) (fun _ => Scalar.ofBits .f32 0#32) (iblk3 V c 0 t)
/-- The prefix of tw as a full 7296 x 32 buffer. -/
def tblk3 (c : Dev nD) (t : Fin cfg3.N) : (cfg3.win 1).block.Idx → Elt F (cfg3.win 1).elt :=
  (cfg3.win 1).fill (cfg3.grid.coords t) (fun _ => Scalar.ofBits .f32 0#32) (iblk3 V c 1 t)

/-- The adjacency window's staging buffer holds its full block at every point, whatever it held before, for any
    proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = ablk3 V c t) (t : Fin cfg3.N) (d) : dat.before 0 t d = ablk3 V c t :=
  (dat.before_in_eq_fetched 0 rfl (fun _ => rfl)
    (fun t t' h => funext fun a => by
      show Pipeline.Clip.of ((cfg3.win 0).index t a) _ _ = Pipeline.Clip.of ((cfg3.win 0).index t' a) _ _
      rw [h])
    (fun t => by rw [hafter]; unfold ablk3; rw [Pipeline.Window.cut_fill]; unfold Dat.blockOf iblk3; rw [hA]) t d).trans
    (by unfold Dat.fetched Dat.blockOf ablk3 iblk3; rw [hA]; exact fill_indep _ _ (nocut3_0 t) _ _ _)

/-- The same for the prefix of tw, fetched at the first point only: later points find what the first fetch left. -/
theorem before3_1_of {c : Dev nD} (dat : Dat τ (Elt F) Unit ℕ (UR sig nD τ) ℕ cfg3 c) (hA : dat.A 1 = V c (Pipeline.arrRef spec3 1))
    (hafter : ∀ t, dat.after 1 t = tblk3 V c t) (t : Fin cfg3.N) (d) : dat.before 1 t d = tblk3 V c t :=
  (dat.before_in_eq_fetched 1 rfl (fun _ => rfl)
    (fun t t' h => funext fun a => by
      show Pipeline.Clip.of ((cfg3.win 1).index t a) _ _ = Pipeline.Clip.of ((cfg3.win 1).index t' a) _ _
      rw [h])
    (fun t => by rw [hafter]; unfold tblk3; rw [Pipeline.Window.cut_fill]; unfold Dat.blockOf iblk3; rw [hA]) t d).trans
    (by unfold Dat.fetched Dat.blockOf tblk3 iblk3; rw [hA]; exact fill_indep _ _ (nocut3_1 t) _ _ _)

/-- The block of mv (400 x 32 blocks tile its 10000 rows: nothing is cut by construction). -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each is the whole of its staging buffer -/

abbrev r3_0 : Rect S400x7296 := Rect.unit (s := S400x7296) ![0, 0] S400x7296.size inb_S400x7296_S400x7296_0_0
abbrev r3_1 : Rect S7296x32 := Rect.unit (s := S7296x32) ![0, 0] S7296x32.size inb_S7296x32_S7296x32_0_0
abbrev r3_2 : Rect S400x32 := Rect.unit (s := S400x32) ![0, 0] S400x32.size inb_S400x32_S400x32_0_0
abbrev r3_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` the prefix of tw, `x2` the block of mv): one store of the whole buffer, columns 0 to 15
    of mv + adj · (tw masked below the row limit). -/
def out3_3 (i : grid3.Coords) (x0 : Vec F S400x7296 .f32) (x1 : Vec F S7296x32 .f32) (x2 : Vec F S400x32 .f32) : Vec F S400x16 .f32 :=
  View.canon [⟨r3_3, k3_pay2 i (View.ld x1 r3_1) (View.ld x2 r3_2) (View.ld x0 r3_0)⟩]
/-- The log-variance part's likewise: columns 16 to 31 of the same sum. -/
def out3_4 (i : grid3.Coords) (x0 : Vec F S400x7296 .f32) (x1 : Vec F S7296x32 .f32) (x2 : Vec F S400x32 .f32) : Vec F S400x16 .f32 :=
  View.canon [⟨r3_3, k3_pay3 i (View.ld x1 r3_1) (View.ld x2 r3_2) (View.ld x0 r3_0)⟩]

/-- One store of the whole 400 x 16 rectangle covers the buffer. -/
theorem cover3_3 (p0 : Vec F S400x16 .f32) (y : S400x16.Idx) :
    ∃ pc ∈ ([⟨r3_3, p0⟩] : List (View.Piece (Elt F) S400x16 .f32)), y ∈ pc.1.set :=
  View.cover_of_tiled [⟨r3_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out3_3`, `out3_4` of the inputs'. -/
theorem sound_kernel3 (c : Dev nD) (E : Set ℕ) (i : grid3.Coords)
    (arg1 : Memref sig .tc .vmem S400x7296 .f32) (harg1 : arg1.IsWhole)
    (arg2 : Memref sig .tc .vmem S7296x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x7296 .f32) (x1 : Vec F S7296x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 i x0 x1 x2) ∗ owns (c : Thread nD τ) arg5 fullShare (out3_4 i x0 x1 x2)) -∗ K ⟨⟩))
      ⊢ wp frame (wpE (defs₀ (F := F)) Variants.none c none) E (cc3__class_kernel i arg1 harg1 arg2 harg2 arg3 harg3 arg4 harg4 arg5 harg5) K := by
  simp only [cc3__class_kernel_eq_skeleton]; unfold cc3__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover3_3 _)
  iexists _; isplitr
  swap; · iexact H4
  ipureintro
  exact View.read_writes_eq_canon _ _ _ (cover3_3 _)

/-! ## The pipeline's proof data -/

/-- The proof data of this region on core `c`: the arrays as the region finds them (`V`); after the body at point
    `t` each input's buffer at its full block and each output's at `out3_W` of the input blocks at the point's
    coordinates; the invariant that of a body touching nothing else; nothing owed; full shares. -/
def dat3 (c : Dev nD) : Dat τ (Elt F) Unit ℕ (UR sig nD τ) ℕ cfg3 c where
  A w := V c (Pipeline.arrRef spec3 w)
  after w t := match w with
    | ⟨0, _⟩ => ablk3 V c t
    | ⟨1, _⟩ => tblk3 V c t
    | ⟨2, _⟩ => iblk3 V c 2 t
    | ⟨3, _⟩ => out3_3 (grid3.coords t) (ablk3 V c t) (tblk3 V c t) (iblk3 V c 2 t)
    | ⟨4, _⟩ => out3_4 (grid3.coords t) (ablk3 V c t) (tblk3 V c t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = ablk3 V c t := by dsimp only [dat3]
theorem after3_1 (c : Dev nD) (t : Fin cfg3.N) : (dat3 V c).after 1 t = tblk3 V c t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (grid3.coords t) (ablk3 V c t) (tblk3 V c t) (iblk3 V c 2 t) := by dsimp only [dat3]
theorem after3_4 (c : Dev nD) (t : Fin cfg3.N) :
    (dat3 V c).after 4 t = out3_4 (grid3.coords t) (ablk3 V c t) (tblk3 V c t) (iblk3 V c 2 t) := by dsimp only [dat3]

/-- Each input's current staging buffer holds its full block at every point, fetched there or not. -/
theorem before3_0 (c : Dev nD) (t : Fin cfg3.N) (d) : (dat3 V c).before 0 t d = ablk3 V c t :=
  before3_0_of V (dat3 V c) (A_eq3 V c 0) (after3_0 V c) t d
theorem before3_1 (c : Dev nD) (t : Fin cfg3.N) (d) : (dat3 V c).before 1 t d = tblk3 V c t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' memrefs hold their blocks (`before3_W`), so `sound_kernel3` applies at the
    point's coordinates; the invariant and the core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (ablk3 V c t) (tblk3 V c t) (iblk3 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Class3

end
-- ==== Proof.KI.Class4.lean ====
/-
  Region 4 of the forward pass, the class kernel for row blocks 18 to 24: what its body finds and leaves at every
  grid point, at any float instance. At grid point t the body reads three rectangles — the block of 400 rows of the adjacency matrix, all
  10000 columns (row block t + 18), the whole 32-column matrix tw of projected hidden features (the same rectangle
  at every point), and the block of 400 rows of the partial product mv — and stores two 400 x 16 rectangles: the
  left and the right half of

      mv_block + adj_block · (tw with the rows from (t + 18 + 1) · 400 on replaced by zero).

  The stored value depends on the grid point through that row limit, so the two outputs are functions of the
  grid coordinates as well as of the three blocks read. Every block here tiles its array, so a staging buffer
  after a fetch is the block itself.
-/
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Class4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The adjacency window's staging buffer holds its block at every point, for any proof data whose array is `V`'s
    and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for tw, fetched at the first point only: later points find what the first fetch left. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- And for the block of mv. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its staging buffer -/

abbrev r4_0 : Rect S400x10000 := Rect.unit (s := S400x10000) ![0, 0] S400x10000.size inb_S400x10000_S400x10000_0_0
abbrev r4_1 : Rect S10000x32 := Rect.unit (s := S10000x32) ![0, 0] S10000x32.size inb_S10000x32_S10000x32_0_0
abbrev r4_2 : Rect S400x32 := Rect.unit (s := S400x32) ![0, 0] S400x32.size inb_S400x32_S400x32_0_0
abbrev r4_3 : Rect S400x16 := Rect.unit (s := S400x16) ![0, 0] S400x16.size inb_S400x16_S400x16_0_0

/-! ## What the body leaves in each output window's buffer -/

/-- The mean part's staging buffer after the body at grid coordinates `i`, from the three blocks read (`x0` the
    adjacency block, `x1` tw, `x2` the block of mv): one store of the whole buffer, columns 0 to 15 of
    mv + adj · (tw masked below the row limit). -/
def out4_3 (i : grid4.Coords) (x0 : Vec F S400x10000 .f32) (x1 : Vec F S10000x32 .f32) (x2 : Vec F S400x32 .f32) : Vec F S400x16 .f32 :=
  View.canon [⟨r4_3, k4_pay2 i (View.ld x1 r4_1) (View.ld x2 r4_2) (View.ld x0 r4_0)⟩]
/-- The log-variance part's likewise: columns 16 to 31 of the same sum. -/
def out4_4 (i : grid4.Coords) (x0 : Vec F S400x10000 .f32) (x1 : Vec F S10000x32 .f32) (x2 : Vec F S400x32 .f32) : Vec F S400x16 .f32 :=
  View.canon [⟨r4_3, k4_pay3 i (View.ld x1 r4_1) (View.ld x2 r4_2) (View.ld x0 r4_0)⟩]

/-- One store of the whole 400 x 16 rectangle covers the buffer. -/
theorem cover4_3 (p0 : Vec F S400x16 .f32) (y : S400x16.Idx) :
    ∃ pc ∈ ([⟨r4_3, p0⟩] : List (View.Piece (Elt F) S400x16 .f32)), y ∈ pc.1.set :=
  View.cover_of_tiled [⟨r4_3, p0⟩] S400x16.size (by rfl) y

/-! ## The body's triple -/

set_option maxHeartbeats 1000000 in
/-- The kernel body at grid coordinates `i` on whole staging memrefs, the three inputs' at contents `x0 x1 x2` and the
    two outputs' at anything (the body loads each output before storing it and drops the value), runs to the
    continuation holding the inputs' as they were and the outputs' at `out4_3`, `out4_4` of the inputs'. -/
theorem sound_kernel4 (c : Dev nD) (E : Set ℕ) (i : grid4.Coords)
    (arg1 : Memref sig .tc .vmem S400x10000 .f32) (harg1 : arg1.IsWhole)
    (arg2 : Memref sig .tc .vmem S10000x32 .f32) (harg2 : arg2.IsWhole)
    (arg3 : Memref sig .tc .vmem S400x32 .f32) (harg3 : arg3.IsWhole)
    (arg4 : Memref sig .tc .vmem S400x16 .f32) (harg4 : arg4.IsWhole)
    (arg5 : Memref sig .tc .vmem S400x16 .f32) (harg5 : arg5.IsWhole)
    (x0 : Vec F S400x10000 .f32) (x1 : Vec F S10000x32 .f32) (x2 : Vec F S400x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out4_3 i x0 x1 x2) ∗ owns (c : Thread nD τ) arg5 fullShare (out4_4 i x0 x1 x2)) -∗ K ⟨⟩))
      ⊢ wp frame (wpE (defs₀ (F := F)) Variants.none c none) E (cc4__class_kernel i arg1 harg1 arg2 harg2 arg3 harg3 arg4 harg4 arg5 harg5) K := by
  simp only [cc4__class_kernel_eq_skeleton]; unfold cc4__class_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover4_3 _)
  iexists _; isplitr
  swap; · iexact H4
  ipureintro
  exact View.read_writes_eq_canon _ _ _ (cover4_3 _)

/-! ## The pipeline's proof data -/

/-- The proof data of this region on core `c`: the arrays as the region finds them (`V`); after the body at point
    `t` each input's buffer at its block and each output's at `out4_W` of the input blocks at the point's
    coordinates; the invariant that of a body touching nothing else; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (grid4.coords t) (iblk4 V c 0 t) (iblk4 V c 1 t) (iblk4 V c 2 t)
    | ⟨4, _⟩ => out4_4 (grid4.coords t) (iblk4 V c 0 t) (iblk4 V c 1 t) (iblk4 V c 2 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) :
    (dat4 V c).after 3 t = out4_3 (grid4.coords t) (iblk4 V c 0 t) (iblk4 V c 1 t) (iblk4 V c 2 t) := by dsimp only [dat4]
theorem after4_4 (c : Dev nD) (t : Fin cfg4.N) :
    (dat4 V c).after 4 t = out4_4 (grid4.coords t) (iblk4 V c 0 t) (iblk4 V c 1 t) (iblk4 V c 2 t) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks (`before4_W`), so `sound_kernel4` applies at the
    point's coordinates; the invariant and the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline's soundness theorem, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Class4

end
-- ==== Proof.KI.Decoder.lean ====
/-
  The decoder region: at grid point `t` the body multiplies the 400 rows of block `t` of the mean (a 400 × 16
  block) by the whole transposed mean (16 × 10000) and stores the 400 × 10000 product into the output's block. It keeps
  nothing between points, so the region's invariant is the scoped rest and the generator register, untouched. What is
  proved here holds at every float instance: after the body each input's buffer still holds its block and the output's
  buffer holds the product of the two input blocks.
-/
import proofs.«162566_g43224550868076_cont_8to1_b_1602_24_alg».proof.Proof.Gen.KernelIdeal.Launch
import proofs.«162566_g43224550868076_cont_8to1_b_1602_24_alg».proof.Proof.Gen.KernelIdeal.Skeleton
import proofs.«162566_g43224550868076_cont_8to1_b_1602_24_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Decoder

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's staging buffer holds its block at every point, whether the point fetched it or the block index did
    not move since the fetch. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- The one rectangle the body stores through: the whole 400 × 10000 buffer. -/
abbrev whole5 : Rect S400x10000 := Rect.unit (s := S400x10000) ![0, 0] S400x10000.size inb_S400x10000_S400x10000_0_0

/-- The rectangles the body loads through: each input buffer whole. -/
abbrev wholeL5 : Rect S400x16 := Rect.unit (s := S400x16) ![0, 0] S400x16.size inb_S400x16_S400x16_0_0
abbrev wholeR5 : Rect S16x10000 := Rect.unit (s := S16x10000) ![0, 0] S16x10000.size inb_S16x10000_S16x10000_0_0

/-- What the body leaves in the output's buffer: the product of the mean's block and the transposed mean, each loaded
    whole. -/
def out5_2 (x0 : Vec F S400x16 .f32) (x1 : Vec F S16x10000 .f32) : Vec F S400x10000 .f32 :=
  View.canon [⟨whole5, k5_pay1 (View.ld x0 wholeL5) (View.ld x1 wholeR5)⟩]

/-- The single store covers the buffer. -/
theorem cover5_2 (p0 : Vec F S400x10000 .f32) (y : S400x10000.Idx) :
    ∃ pc ∈ ([⟨whole5, p0⟩] : List (View.Piece (Elt F) S400x10000 .f32)), y ∈ pc.1.set :=
  View.cover_of_tiled [⟨whole5, p0⟩] S400x10000.size (by rfl) y

set_option maxHeartbeats 1000000 in
/-- The body on whole staging buffers: the inputs are read and left as they were; the output ends at `out5_2`. -/
theorem sound_kernel5 (c : Dev nD) (E : Set ℕ) (i : grid5.Coords) (arg1 : Memref sig .tc .vmem S400x16 .f32) (harg1 : arg1.IsWhole)
    (arg2 : Memref sig .tc .vmem S16x10000 .f32) (harg2 : arg2.IsWhole) (arg3 : Memref sig .tc .vmem S400x10000 .f32) (harg3 : arg3.IsWhole)
    (x0 : Vec F S400x16 .f32) (x1 : Vec F S16x10000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out5_2 x0 x1)) -∗ K ⟨⟩))
      ⊢ wp frame (wpE (defs₀ (F := F)) Variants.none c none) E (cc5__decoder_kernel i arg1 harg1 arg2 harg2 arg3 harg3) K := by
  simp only [cc5__decoder_kernel_eq_skeleton]; unfold cc5__decoder_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover5_2 _)

/-- The region's proof data on core `c`: the arrays as the region finds them; after the body each input's buffer at its
    block and the output's at the product; nothing kept between points; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d

/-- What the body is called with at point `t`, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t))

/-- The body at any point: the inputs' buffers hold their blocks, so the body's triple applies; the invariant and what the
    core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1]
  rw [show (dat5 V c).Φ t.succ = (dat5 V c).Φ t.castSucc from rfl,
    show (dat5 V c).owesAt () t.succ = (dat5 V c).owesAt () t.castSucc from rfl,
    after5_0, after5_1, after5_2]
  iintro ⟨HΦ, Ho, ⟨%d0, H0⟩, ⟨%d1, H1⟩, ⟨%d2, H2⟩⟩
  iapply (sound_kernel5 c Set.univ _ _ _ _ _ _ _ (iblk5 V c 0 t) (iblk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every point. -/
theorem body_obligation5 (c : Dev nD) : BodyObligation (dat5 (F := F) V c) (defs₀ (F := F)) Variants.none () Set.univ := fun t => by
  rw [bigSep_W5, bigSep_W5]
  exact sound_body5 V c t

end Cert.KernelIdeal.Decoder

end
-- ==== Proof.KI.Whole.lean ====
/-
  The six regions' halves of the run, and with them the program's frame: every weakly fair execution of the main function
  terminates without a fault and leaves each argument array as launched. No host operation writes an argument and no
  region has one among its output windows, so reading an argument's buffer at the last boundary walks back through the fold
  to the launch memory: a region keeps the arrays of its input windows and every buffer that is none of its arrays.
-/
import proofs.«162566_g43224550868076_cont_8to1_b_1602_24_alg».proof.Proof.KI.Run
import proofs.«162566_g43224550868076_cont_8to1_b_1602_24_alg».proof.Proof.KI.SweepFrame
import proofs.«162566_g43224550868076_cont_8to1_b_1602_24_alg».proof.Proof.KI.Class1
import proofs.«162566_g43224550868076_cont_8to1_b_1602_24_alg».proof.Proof.KI.Class2
import proofs.«162566_g43224550868076_cont_8to1_b_1602_24_alg».proof.Proof.KI.Class3
import proofs.«162566_g43224550868076_cont_8to1_b_1602_24_alg».proof.Proof.KI.Class4
import proofs.«162566_g43224550868076_cont_8to1_b_1602_24_alg».proof.Proof.KI.Decoder
import proofs.«162566_g43224550868076_cont_8to1_b_1602_24_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The sweep's half: its invariant names the two carried scratch buffers after the first point. -/
def half0 : Run.Half (F := F) cfg0 where
  D := Sweep.dat0
  hA := Sweep.A_eq0
  hq := fun _ _ _ => rfl
  howed := fun _ _ _ => rfl
  hrec := fun _ _ _ => rfl
  hbody := Sweep.body_obligation0
  hin := Sweep.hin0
  hout := Sweep.hout0

/-- Region 1's half: it keeps nothing between points, so its invariant is the scoped rest with the generator register
    throughout. -/
def half1 : Run.Half (F := F) cfg1 where
  D := Class1.dat1
  hA := Class1.A_eq1
  hq := fun _ _ _ => rfl
  howed := fun _ _ _ => rfl
  hrec := fun _ _ _ => rfl
  hbody := Class1.body_obligation1
  hin := fun _ _ => .rfl
  hout := fun _ _ => .rfl

/-- Region 2's half: it keeps nothing between points, so its invariant is the scoped rest with the generator register
    throughout. -/
def half2 : Run.Half (F := F) cfg2 where
  D := Class2.dat2
  hA := Class2.A_eq2
  hq := fun _ _ _ => rfl
  howed := fun _ _ _ => rfl
  hrec := fun _ _ _ => rfl
  hbody := Class2.body_obligation2
  hin := fun _ _ => .rfl
  hout := fun _ _ => .rfl

/-- Region 3's half: it keeps nothing between points, so its invariant is the scoped rest with the generator register
    throughout. -/
def half3 : Run.Half (F := F) cfg3 where
  D := Class3.dat3
  hA := Class3.A_eq3
  hq := fun _ _ _ => rfl
  howed := fun _ _ _ => rfl
  hrec := fun _ _ _ => rfl
  hbody := Class3.body_obligation3
  hin := fun _ _ => .rfl
  hout := fun _ _ => .rfl

/-- Region 4's half: it keeps nothing between points, so its invariant is the scoped rest with the generator register
    throughout. -/
def half4 : Run.Half (F := F) cfg4 where
  D := Class4.dat4
  hA := Class4.A_eq4
  hq := fun _ _ _ => rfl
  howed := fun _ _ _ => rfl
  hrec := fun _ _ _ => rfl
  hbody := Class4.body_obligation4
  hin := fun _ _ => .rfl
  hout := fun _ _ => .rfl

/-- Region 5's half: it keeps nothing between points, so its invariant is the scoped rest with the generator register
    throughout. -/
def half5 : Run.Half (F := F) cfg5 where
  D := Decoder.dat5
  hA := Decoder.A_eq5
  hq := fun _ _ _ => rfl
  howed := fun _ _ _ => rfl
  hrec := fun _ _ _ => rfl
  hbody := Decoder.body_obligation5
  hin := fun _ _ => .rfl
  hout := fun _ _ => .rfl

variable (m : (ℓ : Loc nD τ sig) → Buf (Elt F) ℓ)

/-- The buffers' contents at each boundary, for this program's six regions. -/
abbrev B1 : Dev nD → Valuation τ sig (Elt F) := Run.W1 m
abbrev B2 : Dev nD → Valuation τ sig (Elt F) := Run.W2 half0 m
abbrev B3 : Dev nD → Valuation τ sig (Elt F) := Run.W3 half0 half1 m
abbrev B4 : Dev nD → Valuation τ sig (Elt F) := Run.W4 half0 half1 half2 m
abbrev B5 : Dev nD → Valuation τ sig (Elt F) := Run.W5 half0 half1 half2 half3 m
abbrev B6 : Dev nD → Valuation τ sig (Elt F) := Run.W6 half0 half1 half2 half3 half4 m
abbrev B7 : Dev nD → Valuation τ sig (Elt F) := Run.W7 half0 half1 half2 half3 half4 m
abbrev B8 : Dev nD → Valuation τ sig (Elt F) := Run.W8 half0 half1 half2 half3 half4 half5 m

/-! ## What each region and each host stretch keeps -/
theorem keep0_main_arg0 (c : Dev nD) : B2 m c (Proc.devRef .tc main_arg0) = B1 m c (Proc.devRef .tc main_arg0) :=
  (Run.W2_arr half0 m c 1).trans (((Sweep.dat0 (Run.V1 m) c).arrAt_in 1 rfl _).trans (Sweep.A_eq0 (Run.V1 m) c 1))
theorem keep1_main_arg0 (c : Dev nD) : B3 m c (Proc.devRef .tc main_arg0) = B2 m c (Proc.devRef .tc main_arg0) :=
  Run.W3_of_ne half0 half1 m c main_arg0 (by decide)
theorem keep2_main_arg0 (c : Dev nD) : B4 m c (Proc.devRef .tc main_arg0) = B3 m c (Proc.devRef .tc main_arg0) :=
  Run.W4_of_ne half0 half1 half2 m c main_arg0 (by decide)
theorem keep3_main_arg0 (c : Dev nD) : B5 m c (Proc.devRef .tc main_arg0) = B4 m c (Proc.devRef .tc main_arg0) :=
  Run.W5_of_ne half0 half1 half2 half3 m c main_arg0 (by decide)
theorem keep4_main_arg0 (c : Dev nD) : B6 m c (Proc.devRef .tc main_arg0) = B5 m c (Proc.devRef .tc main_arg0) :=
  Run.W6_of_ne half0 half1 half2 half3 half4 m c main_arg0 (by decide)
theorem keep5_main_arg0 (c : Dev nD) : B8 m c (Proc.devRef .tc main_arg0) = B7 m c (Proc.devRef .tc main_arg0) :=
  Run.W8_of_ne half0 half1 half2 half3 half4 half5 m c main_arg0 (by decide)
theorem keep0_main_arg1 (c : Dev nD) : B2 m c (Proc.devRef .tc main_arg1) = B1 m c (Proc.devRef .tc main_arg1) :=
  (Run.W2_arr half0 m c 0).trans (((Sweep.dat0 (Run.V1 m) c).arrAt_in 0 rfl _).trans (Sweep.A_eq0 (Run.V1 m) c 0))
theorem keep1_main_arg1 (c : Dev nD) : B3 m c (Proc.devRef .tc main_arg1) = B2 m c (Proc.devRef .tc main_arg1) :=
  (Run.W3_arr half0 half1 m c 0).trans (((Class1.dat1 (Run.V2 half0 m) c).arrAt_in 0 rfl _).trans (Class1.A_eq1 (Run.V2 half0 m) c 0))
theorem keep2_main_arg1 (c : Dev nD) : B4 m c (Proc.devRef .tc main_arg1) = B3 m c (Proc.devRef .tc main_arg1) :=
  (Run.W4_arr half0 half1 half2 m c 0).trans (((Class2.dat2 (Run.V3 half0 half1 m) c).arrAt_in 0 rfl _).trans (Class2.A_eq2 (Run.V3 half0 half1 m) c 0))
theorem keep3_main_arg1 (c : Dev nD) : B5 m c (Proc.devRef .tc main_arg1) = B4 m c (Proc.devRef .tc main_arg1) :=
  (Run.W5_arr half0 half1 half2 half3 m c 0).trans (((Class3.dat3 (Run.V4 half0 half1 half2 m) c).arrAt_in 0 rfl _).trans (Class3.A_eq3 (Run.V4 half0 half1 half2 m) c 0))
theorem keep4_main_arg1 (c : Dev nD) : B6 m c (Proc.devRef .tc main_arg1) = B5 m c (Proc.devRef .tc main_arg1) :=
  (Run.W6_arr half0 half1 half2 half3 half4 m c 0).trans (((Class4.dat4 (Run.V5 half0 half1 half2 half3 m) c).arrAt_in 0 rfl _).trans (Class4.A_eq4 (Run.V5 half0 half1 half2 half3 m) c 0))
theorem keep5_main_arg1 (c : Dev nD) : B8 m c (Proc.devRef .tc main_arg1) = B7 m c (Proc.devRef .tc main_arg1) :=
  Run.W8_of_ne half0 half1 half2 half3 half4 half5 m c main_arg1 (by decide)
theorem keep0_main_arg2 (c : Dev nD) : B2 m c (Proc.devRef .tc main_arg2) = B1 m c (Proc.devRef .tc main_arg2) :=
  (Run.W2_arr half0 m c 2).trans (((Sweep.dat0 (Run.V1 m) c).arrAt_in 2 rfl _).trans (Sweep.A_eq0 (Run.V1 m) c 2))
theorem keep1_main_arg2 (c : Dev nD) : B3 m c (Proc.devRef .tc main_arg2) = B2 m c (Proc.devRef .tc main_arg2) :=
  Run.W3_of_ne half0 half1 m c main_arg2 (by decide)
theorem keep2_main_arg2 (c : Dev nD) : B4 m c (Proc.devRef .tc main_arg2) = B3 m c (Proc.devRef .tc main_arg2) :=
  Run.W4_of_ne half0 half1 half2 m c main_arg2 (by decide)
theorem keep3_main_arg2 (c : Dev nD) : B5 m c (Proc.devRef .tc main_arg2) = B4 m c (Proc.devRef .tc main_arg2) :=
  Run.W5_of_ne half0 half1 half2 half3 m c main_arg2 (by decide)
theorem keep4_main_arg2 (c : Dev nD) : B6 m c (Proc.devRef .tc main_arg2) = B5 m c (Proc.devRef .tc main_arg2) :=
  Run.W6_of_ne half0 half1 half2 half3 half4 m c main_arg2 (by decide)
theorem keep5_main_arg2 (c : Dev nD) : B8 m c (Proc.devRef .tc main_arg2) = B7 m c (Proc.devRef .tc main_arg2) :=
  Run.W8_of_ne half0 half1 half2 half3 half4 half5 m c main_arg2 (by decide)
theorem keep0_main_arg3 (c : Dev nD) : B2 m c (Proc.devRef .tc main_arg3) = B1 m c (Proc.devRef .tc main_arg3) :=
  Run.W2_of_ne half0 m c main_arg3 (by decide)
theorem keep1_main_arg3 (c : Dev nD) : B3 m c (Proc.devRef .tc main_arg3) = B2 m c (Proc.devRef .tc main_arg3) :=
  Run.W3_of_ne half0 half1 m c main_arg3 (by decide)
theorem keep2_main_arg3 (c : Dev nD) : B4 m c (Proc.devRef .tc main_arg3) = B3 m c (Proc.devRef .tc main_arg3) :=
  Run.W4_of_ne half0 half1 half2 m c main_arg3 (by decide)
theorem keep3_main_arg3 (c : Dev nD) : B5 m c (Proc.devRef .tc main_arg3) = B4 m c (Proc.devRef .tc main_arg3) :=
  Run.W5_of_ne half0 half1 half2 half3 m c main_arg3 (by decide)
theorem keep4_main_arg3 (c : Dev nD) : B6 m c (Proc.devRef .tc main_arg3) = B5 m c (Proc.devRef .tc main_arg3) :=
  Run.W6_of_ne half0 half1 half2 half3 half4 m c main_arg3 (by decide)
theorem keep5_main_arg3 (c : Dev nD) : B8 m c (Proc.devRef .tc main_arg3) = B7 m c (Proc.devRef .tc main_arg3) :=
  Run.W8_of_ne half0 half1 half2 half3 half4 half5 m c main_arg3 (by decide)
theorem keep0_main_arg4 (c : Dev nD) : B2 m c (Proc.devRef .tc main_arg4) = B1 m c (Proc.devRef .tc main_arg4) :=
  Run.W2_of_ne half0 m c main_arg4 (by decide)
theorem keep1_main_arg4 (c : Dev nD) : B3 m c (Proc.devRef .tc main_arg4) = B2 m c (Proc.devRef .tc main_arg4) :=
  Run.W3_of_ne half0 half1 m c main_arg4 (by decide)
theorem keep2_main_arg4 (c : Dev nD) : B4 m c (Proc.devRef .tc main_arg4) = B3 m c (Proc.devRef .tc main_arg4) :=
  Run.W4_of_ne half0 half1 half2 m c main_arg4 (by decide)
theorem keep3_main_arg4 (c : Dev nD) : B5 m c (Proc.devRef .tc main_arg4) = B4 m c (Proc.devRef .tc main_arg4) :=
  Run.W5_of_ne half0 half1 half2 half3 m c main_arg4 (by decide)
theorem keep4_main_arg4 (c : Dev nD) : B6 m c (Proc.devRef .tc main_arg4) = B5 m c (Proc.devRef .tc main_arg4) :=
  Run.W6_of_ne half0 half1 half2 half3 half4 m c main_arg4 (by decide)
theorem keep5_main_arg4 (c : Dev nD) : B8 m c (Proc.devRef .tc main_arg4) = B7 m c (Proc.devRef .tc main_arg4) :=
  Run.W8_of_ne half0 half1 half2 half3 half4 half5 m c main_arg4 (by decide)
theorem keep1_main_v1_0 (c : Dev nD) : B3 m c (Proc.devRef .tc main_v1_0) = B2 m c (Proc.devRef .tc main_v1_0) :=
  (Run.W3_arr half0 half1 m c 1).trans (((Class1.dat1 (Run.V2 half0 m) c).arrAt_in 1 rfl _).trans (Class1.A_eq1 (Run.V2 half0 m) c 1))
theorem keep1_main_v1_1 (c : Dev nD) : B3 m c (Proc.devRef .tc main_v1_1) = B2 m c (Proc.devRef .tc main_v1_1) :=
  (Run.W3_arr half0 half1 m c 2).trans (((Class1.dat1 (Run.V2 half0 m) c).arrAt_in 2 rfl _).trans (Class1.A_eq1 (Run.V2 half0 m) c 2))
theorem keep2_main_v1_0 (c : Dev nD) : B4 m c (Proc.devRef .tc main_v1_0) = B3 m c (Proc.devRef .tc main_v1_0) :=
  (Run.W4_arr half0 half1 half2 m c 1).trans (((Class2.dat2 (Run.V3 half0 half1 m) c).arrAt_in 1 rfl _).trans (Class2.A_eq2 (Run.V3 half0 half1 m) c 1))
theorem keep2_main_v1_1 (c : Dev nD) : B4 m c (Proc.devRef .tc main_v1_1) = B3 m c (Proc.devRef .tc main_v1_1) :=
  (Run.W4_arr half0 half1 half2 m c 2).trans (((Class2.dat2 (Run.V3 half0 half1 m) c).arrAt_in 2 rfl _).trans (Class2.A_eq2 (Run.V3 half0 half1 m) c 2))
theorem keep3_main_v1_0 (c : Dev nD) : B5 m c (Proc.devRef .tc main_v1_0) = B4 m c (Proc.devRef .tc main_v1_0) :=
  (Run.W5_arr half0 half1 half2 half3 m c 1).trans (((Class3.dat3 (Run.V4 half0 half1 half2 m) c).arrAt_in 1 rfl _).trans (Class3.A_eq3 (Run.V4 half0 half1 half2 m) c 1))
theorem keep3_main_v1_1 (c : Dev nD) : B5 m c (Proc.devRef .tc main_v1_1) = B4 m c (Proc.devRef .tc main_v1_1) :=
  (Run.W5_arr half0 half1 half2 half3 m c 2).trans (((Class3.dat3 (Run.V4 half0 half1 half2 m) c).arrAt_in 2 rfl _).trans (Class3.A_eq3 (Run.V4 half0 half1 half2 m) c 2))
theorem keep4_main_v1_0 (c : Dev nD) : B6 m c (Proc.devRef .tc main_v1_0) = B5 m c (Proc.devRef .tc main_v1_0) :=
  (Run.W6_arr half0 half1 half2 half3 half4 m c 1).trans (((Class4.dat4 (Run.V5 half0 half1 half2 half3 m) c).arrAt_in 1 rfl _).trans (Class4.A_eq4 (Run.V5 half0 half1 half2 half3 m) c 1))
theorem keep4_main_v1_1 (c : Dev nD) : B6 m c (Proc.devRef .tc main_v1_1) = B5 m c (Proc.devRef .tc main_v1_1) :=
  (Run.W6_arr half0 half1 half2 half3 half4 m c 2).trans (((Class4.dat4 (Run.V5 half0 half1 half2 half3 m) c).arrAt_in 2 rfl _).trans (Class4.A_eq4 (Run.V5 half0 half1 half2 half3 m) c 2))
theorem keep2_main_v2_0 (c : Dev nD) : B4 m c (Proc.devRef .tc main_v2_0) = B3 m c (Proc.devRef .tc main_v2_0) :=
  Run.W4_of_ne half0 half1 half2 m c main_v2_0 (by decide)
theorem keep2_main_v2_1 (c : Dev nD) : B4 m c (Proc.devRef .tc main_v2_1) = B3 m c (Proc.devRef .tc main_v2_1) :=
  Run.W4_of_ne half0 half1 half2 m c main_v2_1 (by decide)
theorem keep3_main_v2_0 (c : Dev nD) : B5 m c (Proc.devRef .tc main_v2_0) = B4 m c (Proc.devRef .tc main_v2_0) :=
  Run.W5_of_ne half0 half1 half2 half3 m c main_v2_0 (by decide)
theorem keep3_main_v2_1 (c : Dev nD) : B5 m c (Proc.devRef .tc main_v2_1) = B4 m c (Proc.devRef .tc main_v2_1) :=
  Run.W5_of_ne half0 half1 half2 half3 m c main_v2_1 (by decide)
theorem keep4_main_v2_0 (c : Dev nD) : B6 m c (Proc.devRef .tc main_v2_0) = B5 m c (Proc.devRef .tc main_v2_0) :=
  Run.W6_of_ne half0 half1 half2 half3 half4 m c main_v2_0 (by decide)
theorem keep4_main_v2_1 (c : Dev nD) : B6 m c (Proc.devRef .tc main_v2_1) = B5 m c (Proc.devRef .tc main_v2_1) :=
  Run.W6_of_ne half0 half1 half2 half3 half4 m c main_v2_1 (by decide)
theorem keep3_main_v3_0 (c : Dev nD) : B5 m c (Proc.devRef .tc main_v3_0) = B4 m c (Proc.devRef .tc main_v3_0) :=
  Run.W5_of_ne half0 half1 half2 half3 m c main_v3_0 (by decide)
theorem keep3_main_v3_1 (c : Dev nD) : B5 m c (Proc.devRef .tc main_v3_1) = B4 m c (Proc.devRef .tc main_v3_1) :=
  Run.W5_of_ne half0 half1 half2 half3 m c main_v3_1 (by decide)
theorem keep4_main_v3_0 (c : Dev nD) : B6 m c (Proc.devRef .tc main_v3_0) = B5 m c (Proc.devRef .tc main_v3_0) :=
  Run.W6_of_ne half0 half1 half2 half3 half4 m c main_v3_0 (by decide)
theorem keep4_main_v3_1 (c : Dev nD) : B6 m c (Proc.devRef .tc main_v3_1) = B5 m c (Proc.devRef .tc main_v3_1) :=
  Run.W6_of_ne half0 half1 half2 half3 half4 m c main_v3_1 (by decide)
theorem keep4_main_v4_0 (c : Dev nD) : B6 m c (Proc.devRef .tc main_v4_0) = B5 m c (Proc.devRef .tc main_v4_0) :=
  Run.W6_of_ne half0 half1 half2 half3 half4 m c main_v4_0 (by decide)
theorem keep4_main_v4_1 (c : Dev nD) : B6 m c (Proc.devRef .tc main_v4_1) = B5 m c (Proc.devRef .tc main_v4_1) :=
  Run.W6_of_ne half0 half1 half2 half3 half4 m c main_v4_1 (by decide)
theorem keep5_main_v6 (c : Dev nD) : B8 m c (Proc.devRef .tc main_v6) = B7 m c (Proc.devRef .tc main_v6) :=
  (Run.W8_arr half0 half1 half2 half3 half4 half5 m c 0).trans (((Decoder.dat5 (Run.V7 half0 half1 half2 half3 half4 m) c).arrAt_in 0 rfl _).trans (Decoder.A_eq5 (Run.V7 half0 half1 half2 half3 half4 m) c 0))
theorem keep5_main_v7 (c : Dev nD) : B8 m c (Proc.devRef .tc main_v7) = B7 m c (Proc.devRef .tc main_v7) :=
  Run.W8_of_ne half0 half1 half2 half3 half4 half5 m c main_v7 (by decide)
theorem host1_main_arg0 (c : Dev nD) : B1 m c (Proc.devRef .tc main_arg0) = m ((c : Thread nD τ).loc main_arg0) :=
  StableHlo.after_of_writes_sub hostOps0 _ hostOps0_writes (by decide : main_arg0 ∉ hostOps0_W)
theorem host7_main_arg0 (c : Dev nD) : B7 m c (Proc.devRef .tc main_arg0) = B6 m c (Proc.devRef .tc main_arg0) :=
  StableHlo.after_of_writes_sub hostOps5 _ hostOps5_writes (by decide : main_arg0 ∉ hostOps5_W)
theorem host1_main_arg1 (c : Dev nD) : B1 m c (Proc.devRef .tc main_arg1) = m ((c : Thread nD τ).loc main_arg1) :=
  StableHlo.after_of_writes_sub hostOps0 _ hostOps0_writes (by decide : main_arg1 ∉ hostOps0_W)
theorem host7_main_arg1 (c : Dev nD) : B7 m c (Proc.devRef .tc main_arg1) = B6 m c (Proc.devRef .tc main_arg1) :=
  StableHlo.after_of_writes_sub hostOps5 _ hostOps5_writes (by decide : main_arg1 ∉ hostOps5_W)
theorem host1_main_arg2 (c : Dev nD) : B1 m c (Proc.devRef .tc main_arg2) = m ((c : Thread nD τ).loc main_arg2) :=
  StableHlo.after_of_writes_sub hostOps0 _ hostOps0_writes (by decide : main_arg2 ∉ hostOps0_W)
theorem host7_main_arg2 (c : Dev nD) : B7 m c (Proc.devRef .tc main_arg2) = B6 m c (Proc.devRef .tc main_arg2) :=
  StableHlo.after_of_writes_sub hostOps5 _ hostOps5_writes (by decide : main_arg2 ∉ hostOps5_W)
theorem host1_main_arg3 (c : Dev nD) : B1 m c (Proc.devRef .tc main_arg3) = m ((c : Thread nD τ).loc main_arg3) :=
  StableHlo.after_of_writes_sub hostOps0 _ hostOps0_writes (by decide : main_arg3 ∉ hostOps0_W)
theorem host7_main_arg3 (c : Dev nD) : B7 m c (Proc.devRef .tc main_arg3) = B6 m c (Proc.devRef .tc main_arg3) :=
  StableHlo.after_of_writes_sub hostOps5 _ hostOps5_writes (by decide : main_arg3 ∉ hostOps5_W)
theorem host1_main_arg4 (c : Dev nD) : B1 m c (Proc.devRef .tc main_arg4) = m ((c : Thread nD τ).loc main_arg4) :=
  StableHlo.after_of_writes_sub hostOps0 _ hostOps0_writes (by decide : main_arg4 ∉ hostOps0_W)
theorem host7_main_arg4 (c : Dev nD) : B7 m c (Proc.devRef .tc main_arg4) = B6 m c (Proc.devRef .tc main_arg4) :=
  StableHlo.after_of_writes_sub hostOps5 _ hostOps5_writes (by decide : main_arg4 ∉ hostOps5_W)
theorem host7_main_v2_0 (c : Dev nD) : B7 m c (Proc.devRef .tc main_v2_0) = B6 m c (Proc.devRef .tc main_v2_0) :=
  StableHlo.after_of_writes_sub hostOps5 _ hostOps5_writes (by decide : main_v2_0 ∉ hostOps5_W)
theorem host7_main_v3_0 (c : Dev nD) : B7 m c (Proc.devRef .tc main_v3_0) = B6 m c (Proc.devRef .tc main_v3_0) :=
  StableHlo.after_of_writes_sub hostOps5 _ hostOps5_writes (by decide : main_v3_0 ∉ hostOps5_W)
theorem host7_main_v4_0 (c : Dev nD) : B7 m c (Proc.devRef .tc main_v4_0) = B6 m c (Proc.devRef .tc main_v4_0) :=
  StableHlo.after_of_writes_sub hostOps5 _ hostOps5_writes (by decide : main_v4_0 ∉ hostOps5_W)
theorem host7_main_v5_0 (c : Dev nD) : B7 m c (Proc.devRef .tc main_v5_0) = B6 m c (Proc.devRef .tc main_v5_0) :=
  StableHlo.after_of_writes_sub hostOps5 _ hostOps5_writes (by decide : main_v5_0 ∉ hostOps5_W)
theorem host7_main_v2_1 (c : Dev nD) : B7 m c (Proc.devRef .tc main_v2_1) = B6 m c (Proc.devRef .tc main_v2_1) :=
  StableHlo.after_of_writes_sub hostOps5 _ hostOps5_writes (by decide : main_v2_1 ∉ hostOps5_W)
theorem host7_main_v3_1 (c : Dev nD) : B7 m c (Proc.devRef .tc main_v3_1) = B6 m c (Proc.devRef .tc main_v3_1) :=
  StableHlo.after_of_writes_sub hostOps5 _ hostOps5_writes (by decide : main_v3_1 ∉ hostOps5_W)
theorem host7_main_v4_1 (c : Dev nD) : B7 m c (Proc.devRef .tc main_v4_1) = B6 m c (Proc.devRef .tc main_v4_1) :=
  StableHlo.after_of_writes_sub hostOps5 _ hostOps5_writes (by decide : main_v4_1 ∉ hostOps5_W)
theorem host7_main_v5_1 (c : Dev nD) : B7 m c (Proc.devRef .tc main_v5_1) = B6 m c (Proc.devRef .tc main_v5_1) :=
  StableHlo.after_of_writes_sub hostOps5 _ hostOps5_writes (by decide : main_v5_1 ∉ hostOps5_W)

/-! ## The arguments at the end -/
theorem end_main_arg0 (c : Dev nD) : B8 m c (Proc.devRef .tc main_arg0) = m ((c : Thread nD τ).loc main_arg0) :=
  (keep5_main_arg0 m c).trans <| (host7_main_arg0 m c).trans <| (keep4_main_arg0 m c).trans <| (keep3_main_arg0 m c).trans <| (keep2_main_arg0 m c).trans <|
    (keep1_main_arg0 m c).trans <| (keep0_main_arg0 m c).trans (host1_main_arg0 m c)
theorem end_main_arg1 (c : Dev nD) : B8 m c (Proc.devRef .tc main_arg1) = m ((c : Thread nD τ).loc main_arg1) :=
  (keep5_main_arg1 m c).trans <| (host7_main_arg1 m c).trans <| (keep4_main_arg1 m c).trans <| (keep3_main_arg1 m c).trans <| (keep2_main_arg1 m c).trans <|
    (keep1_main_arg1 m c).trans <| (keep0_main_arg1 m c).trans (host1_main_arg1 m c)
theorem end_main_arg2 (c : Dev nD) : B8 m c (Proc.devRef .tc main_arg2) = m ((c : Thread nD τ).loc main_arg2) :=
  (keep5_main_arg2 m c).trans <| (host7_main_arg2 m c).trans <| (keep4_main_arg2 m c).trans <| (keep3_main_arg2 m c).trans <| (keep2_main_arg2 m c).trans <|
    (keep1_main_arg2 m c).trans <| (keep0_main_arg2 m c).trans (host1_main_arg2 m c)
theorem end_main_arg3 (c : Dev nD) : B8 m c (Proc.devRef .tc main_arg3) = m ((c : Thread nD τ).loc main_arg3) :=
  (keep5_main_arg3 m c).trans <| (host7_main_arg3 m c).trans <| (keep4_main_arg3 m c).trans <| (keep3_main_arg3 m c).trans <| (keep2_main_arg3 m c).trans <|
    (keep1_main_arg3 m c).trans <| (keep0_main_arg3 m c).trans (host1_main_arg3 m c)
theorem end_main_arg4 (c : Dev nD) : B8 m c (Proc.devRef .tc main_arg4) = m ((c : Thread nD τ).loc main_arg4) :=
  (keep5_main_arg4 m c).trans <| (host7_main_arg4 m c).trans <| (keep4_main_arg4 m c).trans <| (keep3_main_arg4 m c).trans <| (keep2_main_arg4 m c).trans <|
    (keep1_main_arg4 m c).trans <| (keep0_main_arg4 m c).trans (host1_main_arg4 m c)

/-- THE RUN of this program: every weakly fair execution terminates without a fault and every unscoped buffer ends at the
    last boundary's contents. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B8 m c b) :=
  Run.run_all half0 half1 half2 half3 half4 half5 m ρ

/-- THE FRAME: the argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (Run.mem_uc main_arg0 (by decide))).trans (end_main_arg0 m c),
     (h c _ (Run.mem_uc main_arg1 (by decide))).trans (end_main_arg1 m c),
     (h c _ (Run.mem_uc main_arg2 (by decide))).trans (end_main_arg2 m c),
     (h c _ (Run.mem_uc main_arg3 (by decide))).trans (end_main_arg3 m c),
     (h c _ (Run.mem_uc main_arg4 (by decide))).trans (end_main_arg4 m c)⟩) (run m ρ)

end Cert.KernelIdeal.Whole

end
-- ==== Proof.KI.Ends.lean ====
/-
  Where each result comes from. At the end the decoded matrix is what the decoder region's write-backs leave; the mean and
  the log-variance are the second host stretch's stackings of the four prefix-panel calls' output arrays; the decoder reads
  the stacked mean and its transpose; the prefix-panel calls read the adjacency matrix as launched and the sweep's two output
  arrays; the sweep reads three arguments as launched and the two weight matrices side by side. All of it holds at every
  float instance: it only follows buffers through the fold of boundaries.
-/
import proofs.«162566_g43224550868076_cont_8to1_b_1602_24_alg».proof.Proof.KI.Whole
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The host stretches' results -/

/-- The sweep finds the two weight matrices side by side. -/
theorem entry_v0 (c : Dev nD) : B1 m c (Proc.devRef .tc main_v0)
    = concatenate S32x32 1 [⟨S32x16, m ((c : Thread nD τ).loc main_arg3)⟩, ⟨S32x16, m ((c : Thread nD τ).loc main_arg4)⟩] concatenates_S32x16_S32x16_S32x32_d1 := by
  show StableHlo.after hostOps0 (fun b => m (c, b)) (Proc.devRef .tc main_v0) = _
  after_results <;> rfl

/-- The stacked mean. -/
theorem stage_v6 (c : Dev nD) : B7 m c (Proc.devRef .tc main_v6)
    = concatenate S10000x16 0 [⟨S2400x16, B6 m c (Proc.devRef .tc main_v2_0)⟩, ⟨S2400x16, B6 m c (Proc.devRef .tc main_v3_0)⟩,
        ⟨S2400x16, B6 m c (Proc.devRef .tc main_v4_0)⟩, ⟨S2800x16, B6 m c (Proc.devRef .tc main_v5_0)⟩] concatenates_S2400x16_S2400x16_S2400x16_S2800x16_S10000x16_d0 := by
  show StableHlo.after hostOps5 (B6 m c) (Proc.devRef .tc main_v6) = _
  after_results <;> rfl

/-- The stacked log-variance. -/
theorem stage_v7 (c : Dev nD) : B7 m c (Proc.devRef .tc main_v7)
    = concatenate S10000x16 0 [⟨S2400x16, B6 m c (Proc.devRef .tc main_v2_1)⟩, ⟨S2400x16, B6 m c (Proc.devRef .tc main_v3_1)⟩,
        ⟨S2400x16, B6 m c (Proc.devRef .tc main_v4_1)⟩, ⟨S2800x16, B6 m c (Proc.devRef .tc main_v5_1)⟩] concatenates_S2400x16_S2400x16_S2400x16_S2800x16_S10000x16_d0 := by
  show StableHlo.after hostOps5 (B6 m c) (Proc.devRef .tc main_v7) = _
  after_results <;> rfl

/-- The transposed mean. -/
theorem stage_v8 (c : Dev nD) : B7 m c (Proc.devRef .tc main_v8)
    = transpose S16x10000 [1, 0] (B7 m c (Proc.devRef .tc main_v6)) transposes_S10000x16_S16x10000_1_0 := by
  show StableHlo.after hostOps5 (B6 m c) (Proc.devRef .tc main_v8) = transpose S16x10000 [1, 0] (StableHlo.after hostOps5 (B6 m c) (Proc.devRef .tc main_v6)) transposes_S10000x16_S16x10000_1_0
  after_results <;> rfl

/-! ## The regions' output arrays -/

theorem sweep_v1_0 (c : Dev nD) : B2 m c (Proc.devRef .tc main_v1_0) = (Sweep.dat0 (Run.V1 m) c).arrAt 4 cfg0.N := Run.W2_arr half0 m c 4
theorem sweep_v1_1 (c : Dev nD) : B2 m c (Proc.devRef .tc main_v1_1) = (Sweep.dat0 (Run.V1 m) c).arrAt 5 cfg0.N := Run.W2_arr half0 m c 5
theorem class1_v2_0 (c : Dev nD) : B3 m c (Proc.devRef .tc main_v2_0) = (Class1.dat1 (Run.V2 half0 m) c).arrAt 3 cfg1.N := Run.W3_arr half0 half1 m c 3
theorem class1_v2_1 (c : Dev nD) : B3 m c (Proc.devRef .tc main_v2_1) = (Class1.dat1 (Run.V2 half0 m) c).arrAt 4 cfg1.N := Run.W3_arr half0 half1 m c 4
theorem class2_v3_0 (c : Dev nD) : B4 m c (Proc.devRef .tc main_v3_0) = (Class2.dat2 (Run.V3 half0 half1 m) c).arrAt 3 cfg2.N := Run.W4_arr half0 half1 half2 m c 3
theorem class2_v3_1 (c : Dev nD) : B4 m c (Proc.devRef .tc main_v3_1) = (Class2.dat2 (Run.V3 half0 half1 m) c).arrAt 4 cfg2.N := Run.W4_arr half0 half1 half2 m c 4
theorem class3_v4_0 (c : Dev nD) : B5 m c (Proc.devRef .tc main_v4_0) = (Class3.dat3 (Run.V4 half0 half1 half2 m) c).arrAt 3 cfg3.N := Run.W5_arr half0 half1 half2 half3 m c 3
theorem class3_v4_1 (c : Dev nD) : B5 m c (Proc.devRef .tc main_v4_1) = (Class3.dat3 (Run.V4 half0 half1 half2 m) c).arrAt 4 cfg3.N := Run.W5_arr half0 half1 half2 half3 m c 4
theorem class4_v5_0 (c : Dev nD) : B6 m c (Proc.devRef .tc main_v5_0) = (Class4.dat4 (Run.V5 half0 half1 half2 half3 m) c).arrAt 3 cfg4.N := Run.W6_arr half0 half1 half2 half3 half4 m c 3
theorem class4_v5_1 (c : Dev nD) : B6 m c (Proc.devRef .tc main_v5_1) = (Class4.dat4 (Run.V5 half0 half1 half2 half3 m) c).arrAt 4 cfg4.N := Run.W6_arr half0 half1 half2 half3 half4 m c 4
theorem decoder_v9 (c : Dev nD) : B8 m c (Proc.devRef .tc main_v9) = (Decoder.dat5 (Run.V7 half0 half1 half2 half3 half4 m) c).arrAt 2 cfg5.N := Run.W8_arr half0 half1 half2 half3 half4 half5 m c 2

end Cert.KernelIdeal.Whole

end
-- ==== Proof.Spec.lean ====
/-
  The specification both programs are compared against, over plain functions of coordinates with extended-real
  values. A matrix is a function of a row and a column; `mm` is the matrix product as the finite sum over the
  contracted coordinate. The graph auto-encoder's forward pass is
    hidden  = max (adj · (x · W1)) 0
    mean    = adj · (hidden · W2)
    logvar  = adj · (hidden · W3)
    decoded = mean · meanᵀ.
  `arr2` reads a rank-2 array as such a function, so that each program's arrays can be compared with these.
-/
import Idealize.ShloMosaic.Lib.ValueIdx

noncomputable section

open scoped BigOperators

namespace Cert.Spec

open Idealize.ShloMosaic Idealize.ShloMosaic.ValueIdx

/-- A rank-2 array read as a function of its row and its column. -/
def arr2 {a b : Nat} (f : (⟨2, ![a, b]⟩ : Shape).Idx → EReal) : Fin a → Fin b → EReal := fun i j => f (ix2 i j)

theorem arr2_apply {a b : Nat} (f : (⟨2, ![a, b]⟩ : Shape).Idx → EReal) (i : Fin a) (j : Fin b) :
    arr2 f i j = f (ix2 i j) := rfl

/-- The matrix product: entry `(i, j)` is the sum over `t` of `L i t * R t j`. -/
def mm {a k b : Nat} (L : Fin a → Fin k → EReal) (R : Fin k → Fin b → EReal) : Fin a → Fin b → EReal :=
  fun i j => ∑ t : Fin k, L i t * R t j

theorem mm_apply {a k b : Nat} (L : Fin a → Fin k → EReal) (R : Fin k → Fin b → EReal) (i : Fin a) (j : Fin b) :
    mm L R i j = ∑ t : Fin k, L i t * R t j := rfl

/-- The hidden layer: the positive part of `adj · (x · W1)`. -/
def hidden (adj : Fin 10000 → Fin 10000 → EReal) (x : Fin 10000 → Fin 128 → EReal) (w1 : Fin 128 → Fin 32 → EReal) :
    Fin 10000 → Fin 32 → EReal :=
  fun i j => max (mm adj (mm x w1) i j) 0

/-- One output head: `adj · (hidden · W)` for a weight matrix `W` of 16 columns (`W2` gives the mean, `W3` the
    log-variance). -/
def head (adj : Fin 10000 → Fin 10000 → EReal) (x : Fin 10000 → Fin 128 → EReal) (w1 : Fin 128 → Fin 32 → EReal)
    (w : Fin 32 → Fin 16 → EReal) : Fin 10000 → Fin 16 → EReal :=
  mm adj (mm (hidden adj x w1) w)

/-- The decoder: the inner products of the rows of the mean. -/
def decoded (adj : Fin 10000 → Fin 10000 → EReal) (x : Fin 10000 → Fin 128 → EReal) (w1 : Fin 128 → Fin 32 → EReal)
    (w2 : Fin 32 → Fin 16 → EReal) : Fin 10000 → Fin 10000 → EReal :=
  fun i j => ∑ t : Fin 16, head adj x w1 w2 i t * head adj x w1 w2 j t

end Cert.Spec

end
-- ==== Proof.KI.DecoderValue.lean ====
/-
  The decoder region's value: the output array, index by index.

  At grid point `t` the body multiplies block `t` of the mean (rows `400 t … 400 t + 399`, all 16 columns) by the
  whole transposed mean and writes the product into rows `400 t … 400 t + 399` of the output. The 25 blocks tile the
  10000 rows, so entry `(r, s)` of the output ends as the sum over the 16 columns `k` of the mean at `(r, k)` times the
  transposed mean at `(k, s)`.
-/
import proofs.«162566_g43224550868076_cont_8to1_b_1602_24_alg».proof.Proof.KI.Decoder
import proofs.«162566_g43224550868076_cont_8to1_b_1602_24_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.DecoderValue

open Cert.KernelIdeal Cert.KernelIdeal.Gen Cert.KernelIdeal.Decoder
open Idealize.ShloMosaic Idealize.ShloMosaic.TcCoe Idealize.ShloMosaic.ValueIdx Idealize.SL.Sem
open Idealize.ShloMosaic.Pipeline (Dat)

/-! ## The body's product at an index -/

/-- The product's left operand is read at (row, contracted coordinate), -/
theorem lhs_row (i : S400x10000.Idx) (q : dot_S400x16_S16x10000_S400x10000_1_0_0_1_n_n.contr.Idx) :
    (dot_S400x16_S16x10000_S400x10000_1_0_0_1_n_n.lhsIdx i q 0).val = (i 0).val := by
  unfold DotDims.lhsIdx
  rw [dif_neg (show ¬(0 : Fin S400x16.rank) ∈ dot_S400x16_S16x10000_S400x10000_1_0_0_1_n_n.lhsBatch by decide),
    dif_pos (show (0 : Fin S400x16.rank) ∈ dot_S400x16_S16x10000_S400x10000_1_0_0_1_n_n.lhsNonContracting by decide)]
  rfl
theorem lhs_col (i : S400x10000.Idx) (q : dot_S400x16_S16x10000_S400x10000_1_0_0_1_n_n.contr.Idx) :
    (dot_S400x16_S16x10000_S400x10000_1_0_0_1_n_n.lhsIdx i q 1).val = (q ⟨0, by decide⟩).val :=
  dot_S400x16_S16x10000_S400x10000_1_0_0_1_n_n.lhsIdx_val_of_single rfl i q
/-- and its right operand at (contracted coordinate, column). -/
theorem rhs_row (i : S400x10000.Idx) (q : dot_S400x16_S16x10000_S400x10000_1_0_0_1_n_n.contr.Idx) :
    (dot_S400x16_S16x10000_S400x10000_1_0_0_1_n_n.rhsIdx i q 0).val = (q ⟨0, by decide⟩).val :=
  dot_S400x16_S16x10000_S400x10000_1_0_0_1_n_n.rhsIdx_val_of_single rfl i q
theorem rhs_col (i : S400x10000.Idx) (q : dot_S400x16_S16x10000_S400x10000_1_0_0_1_n_n.contr.Idx) :
    (dot_S400x16_S16x10000_S400x10000_1_0_0_1_n_n.rhsIdx i q 1).val = (i 1).val := by
  unfold DotDims.rhsIdx
  rw [dif_neg (show ¬(1 : Fin S16x10000.rank) ∈ dot_S400x16_S16x10000_S400x10000_1_0_0_1_n_n.rhsBatch by decide),
    dif_pos (show (1 : Fin S16x10000.rank) ∈ dot_S400x16_S16x10000_S400x10000_1_0_0_1_n_n.rhsNonContracting by decide)]
  rfl

/-- What the body stores, at row `p` and column `q` of the block: the inner product of row `p` of the mean's block with
    column `q` of the transposed mean. -/
theorem product_apply (v0 : Vec Ideal S400x16 .f32) (v2 : Vec Ideal S16x10000 .f32) (p : Fin 400) (q : Fin 10000) :
    k5_pay1 (F := Ideal) v0 v2 (ix2 p q) = ∑ k : Fin 16, v0 (ix2 p k) * v2 (ix2 k q) := by
  unfold k5_pay1
  rw [shapeCast_self, shapeCast_self]
  refine (Ideal.matmul_constant_zero_apply dot_S400x16_S16x10000_S400x10000_1_0_0_1_n_n none _ _ (ix2 p q)).trans ?_
  rw [← Equiv.sum_comp (ValueIdx.contrEquiv1 dot_S400x16_S16x10000_S400x10000_1_0_0_1_n_n 16 rfl rfl).symm]
  refine Finset.sum_congr rfl fun k _ => ?_
  have hk := ValueIdx.contrEquiv1_symm_val dot_S400x16_S16x10000_S400x10000_1_0_0_1_n_n 16 rfl rfl k
  have el : dot_S400x16_S16x10000_S400x10000_1_0_0_1_n_n.lhsIdx (ix2 p q)
      ((ValueIdx.contrEquiv1 dot_S400x16_S16x10000_S400x10000_1_0_0_1_n_n 16 rfl rfl).symm k) = ix2 p k :=
    funext fun a => Fin.ext (by
      match a with
      | ⟨0, _⟩ => exact lhs_row _ _
      | ⟨1, _⟩ => exact (lhs_col _ _).trans hk)
  have er : dot_S400x16_S16x10000_S400x10000_1_0_0_1_n_n.rhsIdx (ix2 p q)
      ((ValueIdx.contrEquiv1 dot_S400x16_S16x10000_S400x10000_1_0_0_1_n_n 16 rfl rfl).symm k) = ix2 k q :=
    funext fun a => Fin.ext (by
      match a with
      | ⟨0, _⟩ => exact (rhs_row _ _).trans hk
      | ⟨1, _⟩ => exact rhs_col _ _)
  rw [el, er]

/-! ## The blocks the body reads and the block it writes -/

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the grid: at point `t` the mean's block and the output's block are row block `t`, the
    transposed mean is taken whole. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The output array: entry `(r, s)` is the sum over `k` of the mean at `(r, k)` times the transposed mean at `(k, s)`. -/
def product (c : Dev nD) : S10000x10000.Idx → EReal :=
  fun i => ∑ k : Fin 16, Cert.Spec.arr2 (V c main_v6 : S10000x16.Idx → EReal) (i 0) k
    * Cert.Spec.arr2 (V c main_v8 : S16x10000.Idx → EReal) k (i 1)

/-- Row `p` of the mean's block at point `t` is row `400 t + p` of the mean. -/
theorem meanBlock_apply (c : Dev nD) (t : Fin cfg5.N) (p : Fin 400) (k : Fin 16) (r : Fin 10000)
    (hr : r.val = t.val * 400 + p.val) :
    (iblk5 V c 0 t : S400x16.Idx → EReal) (ix2 p k) = (V c main_v6 : S10000x16.Idx → EReal) (ix2 r k) := by
  obtain ⟨e0, e1, -, -, -, -⟩ := block_indices t
  unfold iblk5
  rw [View.read_apply]
  show (V c main_v6 : S10000x16.Idx → EReal) (((cfg5.win 0).blk t).view.emb (ix2 p k)) = _
  refine congrArg _ (funext fun a => Fin.ext ?_)
  match a with
  | ⟨0, _⟩ => show win5_0.index t (0 : Fin 2) * 400 + 1 * p.val = r.val; omega
  | ⟨1, _⟩ => show win5_0.index t (1 : Fin 2) * 16 + 1 * k.val = k.val; omega

/-- The transposed mean's block at every point is the whole transposed mean. -/
theorem meanT_apply (c : Dev nD) (t : Fin cfg5.N) (k : Fin 16) (q : Fin 10000) :
    (iblk5 V c 1 t : S16x10000.Idx → EReal) (ix2 k q) = (V c main_v8 : S16x10000.Idx → EReal) (ix2 k q) := by
  obtain ⟨-, -, e2, e3, -, -⟩ := block_indices t
  unfold iblk5
  rw [View.read_apply]
  show (V c main_v8 : S16x10000.Idx → EReal) (((cfg5.win 1).blk t).view.emb (ix2 k q)) = _
  refine congrArg _ (funext fun a => Fin.ext ?_)
  match a with
  | ⟨0, _⟩ => show win5_1.index t (0 : Fin 2) * 16 + 1 * k.val = k.val; omega
  | ⟨1, _⟩ => show win5_1.index t (1 : Fin 2) * 10000 + 1 * q.val = q.val; omega

/-- What point `t` writes back is block `t` of `product`. -/
theorem flushed_eq (c : Dev nD) (t : Fin cfg5.N) :
    (dat5 V c).flushed 2 t = ((cfg5.win 2).blk t).view.read (Elt Ideal) (product V c) := by
  show (cfg5.win 2).cut (grid5.coords t) ((dat5 V c).after 2 t) = _
  rw [after5_2]
  unfold out5_2
  rw [View.canon_unit_zero zero_offsets]
  simp only [View.ld_unit_zero (S := S400x16) zero_offsets, View.ld_unit_zero (S := S16x10000) zero_offsets]
  obtain ⟨-, -, -, -, e4, e5⟩ := block_indices t
  funext j
  obtain ⟨p, q, rfl⟩ : ∃ (p : Fin 400) (q : Fin 10000), j = ix2 p q := ⟨j 0, j 1, eq_ix2 j⟩
  show k5_pay1 (F := Ideal) (iblk5 V c 0 t) (iblk5 V c 1 t) (ix2 p q)
    = product V c (((cfg5.win 2).blk t).view.emb (ix2 p q))
  refine (product_apply _ _ p q).trans ?_
  unfold product
  refine Finset.sum_congr rfl fun k _ => ?_
  have hrow : ((((cfg5.win 2).blk t).view.emb (ix2 p q)) 0).val = t.val * 400 + p.val := by
    show win5_2.index t (0 : Fin 2) * 400 + 1 * p.val = _
    omega
  have hcol : ((((cfg5.win 2).blk t).view.emb (ix2 p q)) 1) = q := Fin.ext (by
    show win5_2.index t (1 : Fin 2) * 10000 + 1 * q.val = q.val
    omega)
  rw [meanBlock_apply V c t p k _ hrow, meanT_apply V c t k q, hcol]
  rfl

/-- Row `r` of the output is in the block of point `r / 400`. -/
theorem covered (i : S10000x10000.Idx) :
    ∃ t : Fin cfg5.N, (cfg5.win 2).flush t = true ∧ i ∈ ((cfg5.win 2).blk t).view.set := by
  have hi0 : (i 0).val < 10000 := (i 0).isLt
  have hi1 : (i 1).val < 10000 := (i 1).isLt
  have hN : cfg5.N = 25 := N_5
  let t : Fin cfg5.N := ⟨(i 0).val / 400, by rw [hN]; omega⟩
  obtain ⟨-, -, -, -, e4, e5⟩ := block_indices t
  refine ⟨t, flush5_2 t, ?_⟩
  show i ∈ ((View.whole main_v9).slice (win5_2.rect t)).set
  rw [View.set_slice_whole, Rect.mem_set_unit]
  intro a
  match a with
  | ⟨0, _⟩ =>
    show win5_2.index t (0 : Fin 2) * 400 ≤ (i 0).val ∧ (i 0).val < win5_2.index t (0 : Fin 2) * 400 + 400
    rw [e4]
    show (i 0).val / 400 * 400 ≤ (i 0).val ∧ (i 0).val < (i 0).val / 400 * 400 + 400
    omega
  | ⟨1, _⟩ =>
    show win5_2.index t (1 : Fin 2) * 10000 ≤ (i 1).val ∧ (i 1).val < win5_2.index t (1 : Fin 2) * 10000 + 10000
    rw [e5]
    omega

/-- The output array after the region: the product of the mean and the transposed mean. -/
theorem decoded_array_eq (c : Dev nD) : (dat5 V c).arrAt 2 cfg5.N = product V c :=
  (dat5 V c).arrAt_eq_of_cover 2 (product V c) (fun t _ => flushed_eq V c t) covered

/-- The output array after the region, at an index. -/
theorem decoded_array (c : Dev nD) (i : S10000x10000.Idx) :
    (dat5 V c).arrAt 2 cfg5.N i = ∑ t : Fin 16, Cert.Spec.arr2 (V c main_v6 : S10000x16.Idx → EReal) (i 0) t
      * Cert.Spec.arr2 (V c main_v8 : S16x10000.Idx → EReal) t (i 1) :=
  congrFun (decoded_array_eq V c) i

end Cert.KernelIdeal.DecoderValue

end
-- ==== Proof.KI.Class1Value.lean ====
/-
  Region 1 of the forward pass at the exact (extended-real) instance: what its two output arrays hold after the
  region, as functions of the arrays the region finds.

  Write adj for the 10000 x 10000 adjacency matrix, tw for the 10000 x 32 matrix of projected hidden features and
  mv for the 10000 x 32 partial product, all as the region finds them. Row r of the region's outputs is row
  R = 0 · 400 + r of the graph. Entry (r, col) of the mean part is

      mv R col + ∑ j < 2432, adj R j · (tw j col if j < (R / 400 + 1) · 400, else 0)

  and entry (r, col) of the log-variance part is the same at column col + 16: the body adds to the partial product
  the contribution of the rows of tw up to the end of R's own row block. Point t of the grid computes rows
  400 t to 400 t + 399; the 6 points' blocks tile the 2400 rows.
-/
import proofs.«162566_g43224550868076_cont_8to1_b_1602_24_alg».proof.Proof.KI.Class1
import proofs.«162566_g43224550868076_cont_8to1_b_1602_24_alg».proof.Proof.Spec
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.Class1Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Class1 Cert.Spec

variable (V : (c : Dev nD) → (b : Ref sig .tc) → Buf (Elt Ideal) ((c : Thread nD τ).loc b))

/-! ## Words: the row limit and the mask -/

/-- Signed comparison of two small natural numbers as 32-bit words is their comparison. -/
theorem slt_ofNat (a b : Nat) (ha : a < 2147483648) (hb : b < 2147483648) :
    (BitVec.ofNat 32 a).slt (BitVec.ofNat 32 b) = decide (a < b) := by
  rw [BitVec.slt_eq_decide]
  refine decide_eq_decide.mpr ?_
  rw [BitVec.toInt_eq_toNat_cond, BitVec.toInt_eq_toNat_cond, BitVec.toNat_ofNat, BitVec.toNat_ofNat]
  have e : (2 : Nat) ^ 32 = 4294967296 := by norm_num
  rw [e]
  split <;> split <;> omega

/-- The row limit as a word: ((n + off) + 1) · 400 does not wrap for a grid coordinate `n`. -/
theorem limit_word (n off : Nat) (hn : n + off < 1000) :
    Scalar.muli (Scalar.addi (Scalar.addi (BitVec.ofNat 32 n) (BitVec.ofNat 32 off)) 1#32) 400#32 = BitVec.ofNat 32 ((n + off + 1) * 400) := by
  show (BitVec.ofNat 32 n + BitVec.ofNat 32 off + 1#32) * 400#32 = _
  apply BitVec.eq_of_toNat_eq
  simp only [BitVec.toNat_mul, BitVec.toNat_add, BitVec.toNat_ofNat]
  have e : (2 : Nat) ^ 32 = 4294967296 := by norm_num
  rw [e]
  omega

/-- The mask at row `j`: the row survives iff it lies below the limit. -/
theorem mask_apply {α : Type} (n off j : Nat) (hn : n + off < 1000) (hj : j < 100000) (A B : α) :
    Scalar.select (IntOp.cmpi .slt (BitVec.ofNat 32 j)
        (Scalar.muli (Scalar.addi (Scalar.addi (BitVec.ofNat 32 n) (BitVec.ofNat 32 off)) 1#32) 400#32)) A B
      = if j < (n + off + 1) * 400 then A else B := by
  rw [limit_word n off hn]
  show (if BitVec.ofBool ((BitVec.ofNat 32 j).slt (BitVec.ofNat 32 ((n + off + 1) * 400))) = 1#1 then A else B) = _
  rw [slt_ofNat j _ (by omega) (by omega)]
  by_cases h : j < (n + off + 1) * 400
  · rw [if_pos h, decide_eq_true h]; rfl
  · rw [if_neg h, decide_eq_false h]; rfl

/-! The operand indices of the product adj_block · masked_tw at output index (p, q) and contraction index k are
    (p, k) and (k, q). -/
theorem lhs_0 (i : S400x32.Idx) (q : dot_S400x2432_S2432x32_S400x32_1_0_0_1_n_n.contr.Idx) : (dot_S400x2432_S2432x32_S400x32_1_0_0_1_n_n.lhsIdx i q 0).val = (i 0).val := by
  unfold DotDims.lhsIdx
  rw [dif_neg (show ¬(0 : Fin S400x2432.rank) ∈ dot_S400x2432_S2432x32_S400x32_1_0_0_1_n_n.lhsBatch by decide), dif_pos (show (0 : Fin S400x2432.rank) ∈ dot_S400x2432_S2432x32_S400x32_1_0_0_1_n_n.lhsNonContracting by decide)]
  rfl
theorem lhs_1 (i : S400x32.Idx) (q : dot_S400x2432_S2432x32_S400x32_1_0_0_1_n_n.contr.Idx) : (dot_S400x2432_S2432x32_S400x32_1_0_0_1_n_n.lhsIdx i q 1).val = (q ⟨0, by decide⟩).val :=
  dot_S400x2432_S2432x32_S400x32_1_0_0_1_n_n.lhsIdx_val_of_single rfl i q
theorem rhs_0 (i : S400x32.Idx) (q : dot_S400x2432_S2432x32_S400x32_1_0_0_1_n_n.contr.Idx) : (dot_S400x2432_S2432x32_S400x32_1_0_0_1_n_n.rhsIdx i q 0).val = (q ⟨0, by decide⟩).val :=
  dot_S400x2432_S2432x32_S400x32_1_0_0_1_n_n.rhsIdx_val_of_single rfl i q
theorem rhs_1 (i : S400x32.Idx) (q : dot_S400x2432_S2432x32_S400x32_1_0_0_1_n_n.contr.Idx) : (dot_S400x2432_S2432x32_S400x32_1_0_0_1_n_n.rhsIdx i q 1).val = (i 1).val := by
  unfold DotDims.rhsIdx
  rw [dif_neg (show ¬(1 : Fin S2432x32.rank) ∈ dot_S400x2432_S2432x32_S400x32_1_0_0_1_n_n.rhsBatch by decide), dif_pos (show (1 : Fin S2432x32.rank) ∈ dot_S400x2432_S2432x32_S400x32_1_0_0_1_n_n.rhsNonContracting by decide)]
  rfl

/-- THE BODY'S SUM AT AN INDEX: entry (p, q) of mv_block + adj_block · masked_tw, the mask keeping the rows of tw
    below ((i 0) + 0 + 1) · 400. -/
theorem pay1_apply (i : grid1.Coords) (x1 : Vec Ideal S2432x32 .f32) (x2 : Vec Ideal S400x32 .f32) (x0 : Vec Ideal S400x2432 .f32)
    (p : Fin 400) (q : Fin 32) :
    k1_pay1 (F := Ideal) i x1 x2 x0 (ix2 p q)
      = x2 (ix2 p q) + ∑ j : Fin 2432, x0 (ix2 p j) * (if j.val < ((i 0).val + 0 + 1) * 400 then x1 (ix2 j q) else 0) := by
  unfold k1_pay1
  rw [addf_apply, shapeCast_self, shapeCast_self]
  refine congrArg (x2 (ix2 p q) + ·) ?_
  refine (Ideal.matmul_constant_zero_apply _ _ _ _ _).trans ?_
  rw [← Equiv.sum_comp (contrEquiv1 dot_S400x2432_S2432x32_S400x32_1_0_0_1_n_n 2432 rfl rfl).symm]
  refine Finset.sum_congr rfl fun k _ => ?_
  have hk := contrEquiv1_symm_val dot_S400x2432_S2432x32_S400x32_1_0_0_1_n_n 2432 rfl rfl k
  have el : dot_S400x2432_S2432x32_S400x32_1_0_0_1_n_n.lhsIdx (ix2 p q) ((contrEquiv1 dot_S400x2432_S2432x32_S400x32_1_0_0_1_n_n 2432 rfl rfl).symm k) = ix2 p k := funext fun a => Fin.ext (by
    match a with
    | ⟨0, _⟩ => exact lhs_0 _ _
    | ⟨1, _⟩ => exact (lhs_1 _ _).trans hk)
  have er : dot_S400x2432_S2432x32_S400x32_1_0_0_1_n_n.rhsIdx (ix2 p q) ((contrEquiv1 dot_S400x2432_S2432x32_S400x32_1_0_0_1_n_n 2432 rfl rfl).symm k) = ix2 k q := funext fun a => Fin.ext (by
    match a with
    | ⟨0, _⟩ => exact (rhs_0 _ _).trans hk
    | ⟨1, _⟩ => exact rhs_1 _ _)
  rw [el, er]
  refine congrArg (x0 (ix2 p k) * ·) ?_
  rw [select_apply]
  show Scalar.select (IntOp.cmpi .slt (iota .tc S2432x32 32 [0] iota_S2432x32_d0_w32 (ix2 k q))
      (Scalar.muli (Scalar.addi (Scalar.addi (BitVec.ofNat 32 (i 0).val) (BitVec.ofNat 32 0)) 1#32) 400#32))
      (x1 (ix2 k q)) (Ideal.ofBits .f32 0x00000000#32) = _
  rw [iota_single_apply, Ideal.ofBits_zero_f32]
  exact mask_apply (i 0).val 0 k.val (by have h : (i 0).val < 6 := (i 0).isLt; omega) (by have := k.isLt; omega) _ _

/-- The two stored halves are columns 0 to 15 and 16 to 31 of that sum. -/
theorem pay2_apply (i : grid1.Coords) (x1 : Vec Ideal S2432x32 .f32) (x2 : Vec Ideal S400x32 .f32) (x0 : Vec Ideal S400x2432 .f32)
    (p : Fin 400) (q : Fin 16) :
    k1_pay2 (F := Ideal) i x1 x2 x0 (ix2 p q) = k1_pay1 (F := Ideal) i x1 x2 x0 (ix2 p ⟨q.val, by omega⟩) := by
  unfold k1_pay2
  refine extractStridedSlice_apply _ _ _ _ _ fun a => ?_
  match a with
  | ⟨0, _⟩ => show p.val = 0 + p.val; omega
  | ⟨1, _⟩ => show q.val = 0 + q.val; omega
theorem pay3_apply (i : grid1.Coords) (x1 : Vec Ideal S2432x32 .f32) (x2 : Vec Ideal S400x32 .f32) (x0 : Vec Ideal S400x2432 .f32)
    (p : Fin 400) (q : Fin 16) :
    k1_pay3 (F := Ideal) i x1 x2 x0 (ix2 p q) = k1_pay1 (F := Ideal) i x1 x2 x0 (ix2 p ⟨q.val + 16, by omega⟩) := by
  unfold k1_pay3
  refine extractStridedSlice_apply _ _ _ _ _ fun a => ?_
  match a with
  | ⟨0, _⟩ => show p.val = 0 + p.val; omega
  | ⟨1, _⟩ => show q.val + 16 = 16 + q.val; omega

/-! ## The blocks read, as entries of the arrays -/

/-- Entry (R, col) of mv + adj[:, :2432] · (tw with the rows from the end of R's row block on replaced by zero). -/
def rowSum (adj : Fin 10000 → Fin 10000 → EReal) (tw mv : Fin 10000 → Fin 32 → EReal) (R : Fin 10000) (col : Fin 32) : EReal :=
  mv R col + ∑ j : Fin 2432, adj R (Fin.castLE (by norm_num) j) * (if j.val < (R.val / 400 + 1) * 400 then tw (Fin.castLE (by norm_num) j) col else 0)

theorem t_lt (t : Fin cfg1.N) : t.val < 6 := lt_of_lt_of_eq t.isLt N_1

/-- The block index maps, decided over the 6 grid points: the grid coordinate is the point; the adjacency
    and mv blocks are row block t + 0; the prefix of tw is at the origin; the outputs' blocks are row block t. -/
theorem idx_facts : ∀ t : Fin cfg1.N,
    (grid1.coords t 0).val = t.val
    ∧ win1_0.index t (0 : Fin 2) = t.val + 0 ∧ win1_0.index t (1 : Fin 2) = 0
    ∧ win1_1.index t (0 : Fin 2) = 0 ∧ win1_1.index t (1 : Fin 2) = 0
    ∧ win1_2.index t (0 : Fin 2) = t.val + 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The adjacency block at point t holds rows (t + 0) · 400 … of adj, columns 0 to 2431. -/
theorem adj_read (c : Dev nD) (t : Fin cfg1.N) (p : Fin 400) (j : Fin 2432) :
    (ablk1 V c t) (ix2 p j) = arr2 (a := 10000) (b := 10000) (V c main_arg1) ⟨(t.val + 0) * 400 + p.val, by have := t_lt t; omega⟩ (Fin.castLE (by norm_num) j) := by
  obtain ⟨e0, e1, e2, -⟩ := idx_facts t
  have hm : (cfg1.win 0).moved (cfg1.grid.coords t) (ix2 p j) = true :=
    ((cfg1.win 0).moved_iff _ _).mpr fun a => by rw [nocut1_0 t a]; exact (ix2 p j a).isLt
  unfold ablk1 Pipeline.Window.fill
  rw [dif_pos hm]
  show V c main_arg1 (((cfg1.win 0).blk t).view.emb _) = V c main_arg1 (ix2 _ _)
  refine congrArg _ (funext fun a => Fin.ext ?_)
  match a with
  | ⟨0, _⟩ => show win1_0.index t (0 : Fin 2) * 400 + 1 * p.val = (t.val + 0) * 400 + p.val; rw [e1]; omega
  | ⟨1, _⟩ => show win1_0.index t (1 : Fin 2) * 2432 + 1 * j.val = j.val; rw [e2]; omega

/-- The block of tw holds its rows 0 to 2431. -/
theorem tw_read (c : Dev nD) (t : Fin cfg1.N) (j : Fin 2432) (q : Fin 32) :
    (tblk1 V c t) (ix2 j q) = arr2 (a := 10000) (b := 32) (V c main_v1_0) (Fin.castLE (by norm_num) j) q := by
  obtain ⟨e0, e1, e2, e3, e4, -⟩ := idx_facts t
  have hm : (cfg1.win 1).moved (cfg1.grid.coords t) (ix2 j q) = true :=
    ((cfg1.win 1).moved_iff _ _).mpr fun a => by rw [nocut1_1 t a]; exact (ix2 j q a).isLt
  unfold tblk1 Pipeline.Window.fill
  rw [dif_pos hm]
  show V c main_v1_0 (((cfg1.win 1).blk t).view.emb _) = V c main_v1_0 (ix2 _ _)
  refine congrArg _ (funext fun a => Fin.ext ?_)
  match a with
  | ⟨0, _⟩ => show win1_1.index t (0 : Fin 2) * 2432 + 1 * j.val = j.val; rw [e3]; omega
  | ⟨1, _⟩ => show win1_1.index t (1 : Fin 2) * 32 + 1 * q.val = q.val; rw [e4]; omega

/-- The block of mv holds its rows (t + 0) · 400 …. -/
theorem mv_read (c : Dev nD) (t : Fin cfg1.N) (p : Fin 400) (q : Fin 32) :
    (iblk1 V c 2 t) (ix2 p q) = arr2 (a := 10000) (b := 32) (V c main_v1_1) ⟨(t.val + 0) * 400 + p.val, by have := t_lt t; omega⟩ q := by
  obtain ⟨e0, e1, e2, e3, e4, e5, e6, -⟩ := idx_facts t
  show V c main_v1_1 (((cfg1.win 2).blk t).view.emb _) = V c main_v1_1 (ix2 _ _)
  refine congrArg _ (funext fun a => Fin.ext ?_)
  match a with
  | ⟨0, _⟩ => show win1_2.index t (0 : Fin 2) * 400 + 1 * p.val = (t.val + 0) * 400 + p.val; rw [e5]; omega
  | ⟨1, _⟩ => show win1_2.index t (1 : Fin 2) * 32 + 1 * q.val = q.val; rw [e6]; omega

/-- WHAT POINT t COMPUTES at (p, q): entry ((t + 0) · 400 + p, q) of the masked sum over the arrays. -/
theorem block_entry (c : Dev nD) (t : Fin cfg1.N) (p : Fin 400) (q : Fin 32) :
    k1_pay1 (F := Ideal) (grid1.coords t) (tblk1 V c t) (iblk1 V c 2 t) (ablk1 V c t) (ix2 p q)
      = rowSum (arr2 (a := 10000) (b := 10000) (V c main_arg1)) (arr2 (a := 10000) (b := 32) (V c main_v1_0)) (arr2 (a := 10000) (b := 32) (V c main_v1_1))
          ⟨(t.val + 0) * 400 + p.val, by have := t_lt t; omega⟩ q := by
  refine (pay1_apply (grid1.coords t) (tblk1 V c t) (iblk1 V c 2 t) (ablk1 V c t) p q).trans ?_
  obtain ⟨e0, -⟩ := idx_facts t
  unfold rowSum
  rw [mv_read V c t p q]
  refine congrArg (_ + ·) (Finset.sum_congr rfl fun j _ => ?_)
  rw [adj_read V c t p j, tw_read V c t j q, e0]
  have hdiv : ((t.val + 0) * 400 + p.val) / 400 = t.val + 0 := by have := p.isLt; omega
  dsimp only
  rw [hdiv]

/-! ## From blocks to the arrays -/

theorem hz : (![0, 0] : Fin 2 → Nat) = fun _ => 0 := funext fun a => by fin_cases a <;> rfl

/-- The mean part after the region: row r is graph row 0 · 400 + r, columns 0 to 15 of the masked sum. -/
def meanPart (c : Dev nD) : S2400x16.Idx → EReal := fun i =>
  rowSum (arr2 (a := 10000) (b := 10000) (V c main_arg1)) (arr2 (a := 10000) (b := 32) (V c main_v1_0)) (arr2 (a := 10000) (b := 32) (V c main_v1_1))
    ⟨0 * 400 + (i 0).val, by have := (i 0).isLt; have e : S2400x16.size 0 = 2400 := rfl; omega⟩ ⟨(i 1).val, by have := (i 1).isLt; have e : S2400x16.size 1 = 16 := rfl; omega⟩
/-- The log-variance part: columns 16 to 31. -/
def logvarPart (c : Dev nD) : S2400x16.Idx → EReal := fun i =>
  rowSum (arr2 (a := 10000) (b := 10000) (V c main_arg1)) (arr2 (a := 10000) (b := 32) (V c main_v1_0)) (arr2 (a := 10000) (b := 32) (V c main_v1_1))
    ⟨0 * 400 + (i 0).val, by have := (i 0).isLt; have e : S2400x16.size 0 = 2400 := rfl; omega⟩ ⟨(i 1).val + 16, by have := (i 1).isLt; have e : S2400x16.size 1 = 16 := rfl; omega⟩

/-- `meanPart` at an index whose graph row and column are named. -/
theorem meanPart_apply (c : Dev nD) (i : S2400x16.Idx) (R : Fin 10000) (col : Fin 32) (hR : R.val = 0 * 400 + (i 0).val) (hc : col.val = (i 1).val) :
    meanPart V c i = rowSum (arr2 (a := 10000) (b := 10000) (V c main_arg1)) (arr2 (a := 10000) (b := 32) (V c main_v1_0)) (arr2 (a := 10000) (b := 32) (V c main_v1_1)) R col := by
  unfold meanPart
  rw [show R = ⟨0 * 400 + (i 0).val, hR ▸ R.isLt⟩ from Fin.ext hR, show col = ⟨(i 1).val, hc ▸ col.isLt⟩ from Fin.ext hc]
/-- `logvarPart` likewise. -/
theorem logvarPart_apply (c : Dev nD) (i : S2400x16.Idx) (R : Fin 10000) (col : Fin 32) (hR : R.val = 0 * 400 + (i 0).val) (hc : col.val = (i 1).val + 16) :
    logvarPart V c i = rowSum (arr2 (a := 10000) (b := 10000) (V c main_arg1)) (arr2 (a := 10000) (b := 32) (V c main_v1_0)) (arr2 (a := 10000) (b := 32) (V c main_v1_1)) R col := by
  unfold logvarPart
  rw [show R = ⟨0 * 400 + (i 0).val, hR ▸ R.isLt⟩ from Fin.ext hR, show col = ⟨(i 1).val + 16, hc ▸ col.isLt⟩ from Fin.ext hc]

/-- WHAT POINT t WRITES BACK to the mean part is block t of `meanPart`. -/
theorem flushed3_eq (c : Dev nD) (t : Fin cfg1.N) :
    (dat1 V c).flushed 3 t = ((cfg1.win 3).blk t).view.read (Elt Ideal) (meanPart V c) := by
  show (cfg1.win 3).cut (grid1.coords t) ((dat1 V c).after 3 t) = _
  rw [after1_3]
  unfold out1_3
  rw [View.canon_unit_zero hz]
  simp only [View.ld_unit_zero (S := S400x2432) hz, View.ld_unit_zero (S := S2432x32) hz, View.ld_unit_zero (S := S400x32) hz]
  obtain ⟨e0, e1, e2, e3, e4, e5, e6, e7, e8, -⟩ := idx_facts t
  funext y
  obtain ⟨p, q, rfl⟩ : ∃ (p : Fin 400) (q : Fin 16), y = ix2 p q := ⟨y 0, y 1, eq_ix2 y⟩
  show k1_pay2 (F := Ideal) (grid1.coords t) (tblk1 V c t) (iblk1 V c 2 t) (ablk1 V c t) (ix2 p q)
    = meanPart V c (((cfg1.win 3).blk t).view.emb (ix2 p q))
  refine (pay2_apply (grid1.coords t) (tblk1 V c t) (iblk1 V c 2 t) (ablk1 V c t) p q).trans ?_
  refine (block_entry V c t p ⟨q.val, by omega⟩).trans ?_
  refine (meanPart_apply V c _ _ _ ?_ ?_).symm
  · show (t.val + 0) * 400 + p.val = 0 * 400 + (win1_3.index t (0 : Fin 2) * 400 + 1 * p.val)
    rw [e7]; omega
  · show q.val = win1_3.index t (1 : Fin 2) * 16 + 1 * q.val
    rw [e8]; omega

/-- WHAT POINT t WRITES BACK to the log-variance part is block t of `logvarPart`. -/
theorem flushed4_eq (c : Dev nD) (t : Fin cfg1.N) :
    (dat1 V c).flushed 4 t = ((cfg1.win 4).blk t).view.read (Elt Ideal) (logvarPart V c) := by
  show (cfg1.win 4).cut (grid1.coords t) ((dat1 V c).after 4 t) = _
  rw [after1_4]
  unfold out1_4
  rw [View.canon_unit_zero hz]
  simp only [View.ld_unit_zero (S := S400x2432) hz, View.ld_unit_zero (S := S2432x32) hz, View.ld_unit_zero (S := S400x32) hz]
  obtain ⟨e0, e1, e2, e3, e4, e5, e6, e7, e8, e9, e10⟩ := idx_facts t
  funext y
  obtain ⟨p, q, rfl⟩ : ∃ (p : Fin 400) (q : Fin 16), y = ix2 p q := ⟨y 0, y 1, eq_ix2 y⟩
  show k1_pay3 (F := Ideal) (grid1.coords t) (tblk1 V c t) (iblk1 V c 2 t) (ablk1 V c t) (ix2 p q)
    = logvarPart V c (((cfg1.win 4).blk t).view.emb (ix2 p q))
  refine (pay3_apply (grid1.coords t) (tblk1 V c t) (iblk1 V c 2 t) (ablk1 V c t) p q).trans ?_
  refine (block_entry V c t p ⟨q.val + 16, by omega⟩).trans ?_
  refine (logvarPart_apply V c _ _ _ ?_ ?_).symm
  · show (t.val + 0) * 400 + p.val = 0 * 400 + (win1_4.index t (0 : Fin 2) * 400 + 1 * p.val)
    rw [e9]; omega
  · show q.val + 16 = win1_4.index t (1 : Fin 2) * 16 + 1 * q.val + 16
    rw [e10]; omega

/-- An index of an output array is in point t's block iff each coordinate is in the block's range on its axis. -/
theorem mem_blk3 (t : Fin cfg1.N) (i : S2400x16.Idx) :
    i ∈ ((cfg1.win 3).blk t).view.set ↔ ∀ a : Fin 2, win1_3.index t a * S400x16.size a ≤ (i a).val ∧ (i a).val < win1_3.index t a * S400x16.size a + S400x16.size a := by
  show i ∈ ((View.whole main_v2_0).slice (win1_3.rect t)).set ↔ _
  rw [View.set_slice_whole, Rect.mem_set_unit]
  exact Iff.rfl
theorem mem_blk4 (t : Fin cfg1.N) (i : S2400x16.Idx) :
    i ∈ ((cfg1.win 4).blk t).view.set ↔ ∀ a : Fin 2, win1_4.index t a * S400x16.size a ≤ (i a).val ∧ (i a).val < win1_4.index t a * S400x16.size a + S400x16.size a := by
  show i ∈ ((View.whole main_v2_1).slice (win1_4.rect t)).set ↔ _
  rw [View.set_slice_whole, Rect.mem_set_unit]
  exact Iff.rfl

/-- Row r lies in the block of point r / 400: the 6 blocks of 400 rows tile the 2400 rows. -/
theorem cover3 (i : S2400x16.Idx) : ∃ t : Fin cfg1.N, (cfg1.win 3).flush t = true ∧ i ∈ ((cfg1.win 3).blk t).view.set := by
  have hi0 : (i 0).val < 2400 := (i 0).isLt
  have hi1 : (i 1).val < 16 := (i 1).isLt
  have hN : (i 0).val / 400 < cfg1.N := by rw [show cfg1.N = 6 from N_1]; omega
  refine ⟨⟨(i 0).val / 400, hN⟩, flush1_3 _, ?_⟩
  rw [mem_blk3]
  obtain ⟨e0, e1, e2, e3, e4, e5, e6, e7, e8, -⟩ := idx_facts ⟨(i 0).val / 400, hN⟩
  intro a
  match a with
  | ⟨0, _⟩ =>
    show win1_3.index ⟨(i 0).val / 400, hN⟩ (0 : Fin 2) * 400 ≤ (i 0).val ∧ (i 0).val < win1_3.index ⟨(i 0).val / 400, hN⟩ (0 : Fin 2) * 400 + 400
    rw [e7]; show (i 0).val / 400 * 400 ≤ (i 0).val ∧ (i 0).val < (i 0).val / 400 * 400 + 400; omega
  | ⟨1, _⟩ =>
    show win1_3.index ⟨(i 0).val / 400, hN⟩ (1 : Fin 2) * 16 ≤ (i 1).val ∧ (i 1).val < win1_3.index ⟨(i 0).val / 400, hN⟩ (1 : Fin 2) * 16 + 16
    rw [e8]; omega
theorem cover4 (i : S2400x16.Idx) : ∃ t : Fin cfg1.N, (cfg1.win 4).flush t = true ∧ i ∈ ((cfg1.win 4).blk t).view.set := by
  have hi0 : (i 0).val < 2400 := (i 0).isLt
  have hi1 : (i 1).val < 16 := (i 1).isLt
  have hN : (i 0).val / 400 < cfg1.N := by rw [show cfg1.N = 6 from N_1]; omega
  refine ⟨⟨(i 0).val / 400, hN⟩, flush1_4 _, ?_⟩
  rw [mem_blk4]
  obtain ⟨e0, e1, e2, e3, e4, e5, e6, e7, e8, e9, e10⟩ := idx_facts ⟨(i 0).val / 400, hN⟩
  intro a
  match a with
  | ⟨0, _⟩ =>
    show win1_4.index ⟨(i 0).val / 400, hN⟩ (0 : Fin 2) * 400 ≤ (i 0).val ∧ (i 0).val < win1_4.index ⟨(i 0).val / 400, hN⟩ (0 : Fin 2) * 400 + 400
    rw [e9]; show (i 0).val / 400 * 400 ≤ (i 0).val ∧ (i 0).val < (i 0).val / 400 * 400 + 400; omega
  | ⟨1, _⟩ =>
    show win1_4.index ⟨(i 0).val / 400, hN⟩ (1 : Fin 2) * 16 ≤ (i 1).val ∧ (i 1).val < win1_4.index ⟨(i 0).val / 400, hN⟩ (1 : Fin 2) * 16 + 16
    rw [e10]; omega

/-- THE MEAN PART after the region. -/
theorem final3 (c : Dev nD) : (dat1 V c).arrAt 3 cfg1.N = meanPart V c :=
  (dat1 V c).arrAt_eq_of_cover 3 (meanPart V c) (fun t _ => flushed3_eq V c t) cover3
/-- THE LOG-VARIANCE PART after the region. -/
theorem final4 (c : Dev nD) : (dat1 V c).arrAt 4 cfg1.N = logvarPart V c :=
  (dat1 V c).arrAt_eq_of_cover 4 (logvarPart V c) (fun t _ => flushed4_eq V c t) cover4

/-- Entry by entry, with R = 0 · 400 + (i 0) the graph row. -/
theorem mean_part1 (c : Dev nD) (i : S2400x16.Idx) (hR : 0 * 400 + (i 0).val < 10000) (hc : (i 1).val < 32) :
    (dat1 V c).arrAt 3 cfg1.N i
      = arr2 (a := 10000) (b := 32) (V c main_v1_1) ⟨0 * 400 + (i 0).val, hR⟩ ⟨(i 1).val, hc⟩
        + ∑ j : Fin 2432, arr2 (a := 10000) (b := 10000) (V c main_arg1) ⟨0 * 400 + (i 0).val, hR⟩ (Fin.castLE (by norm_num) j)
            * (if j.val < ((0 * 400 + (i 0).val) / 400 + 1) * 400 then arr2 (a := 10000) (b := 32) (V c main_v1_0) (Fin.castLE (by norm_num) j) ⟨(i 1).val, hc⟩ else 0) := by
  rw [final3]; rfl
theorem logvar_part1 (c : Dev nD) (i : S2400x16.Idx) (hR : 0 * 400 + (i 0).val < 10000) (hc : (i 1).val + 16 < 32) :
    (dat1 V c).arrAt 4 cfg1.N i
      = arr2 (a := 10000) (b := 32) (V c main_v1_1) ⟨0 * 400 + (i 0).val, hR⟩ ⟨(i 1).val + 16, hc⟩
        + ∑ j : Fin 2432, arr2 (a := 10000) (b := 10000) (V c main_arg1) ⟨0 * 400 + (i 0).val, hR⟩ (Fin.castLE (by norm_num) j)
            * (if j.val < ((0 * 400 + (i 0).val) / 400 + 1) * 400 then arr2 (a := 10000) (b := 32) (V c main_v1_0) (Fin.castLE (by norm_num) j) ⟨(i 1).val + 16, hc⟩ else 0) := by
  rw [final4]; rfl

end Cert.KernelIdeal.Class1Value

end
-- ==== Proof.KI.Class2Value.lean ====
/-
  Region 2 of the forward pass at the exact (extended-real) instance: what its two output arrays hold after the
  region, as functions of the arrays the region finds.

  Write adj for the 10000 x 10000 adjacency matrix, tw for the 10000 x 32 matrix of projected hidden features and
  mv for the 10000 x 32 partial product, all as the region finds them. Row r of the region's outputs is row
  R = 6 · 400 + r of the graph. Entry (r, col) of the mean part is

      mv R col + ∑ j < 4864, adj R j · (tw j col if j < (R / 400 + 1) · 400, else 0)

  and entry (r, col) of the log-variance part is the same at column col + 16: the body adds to the partial product
  the contribution of the rows of tw up to the end of R's own row block. Point t of the grid computes rows
  400 t to 400 t + 399; the 6 points' blocks tile the 2400 rows.
-/
import proofs.«162566_g43224550868076_cont_8to1_b_1602_24_alg».proof.Proof.KI.Class2
import proofs.«162566_g43224550868076_cont_8to1_b_1602_24_alg».proof.Proof.Spec
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.Class2Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Class2 Cert.Spec

variable (V : (c : Dev nD) → (b : Ref sig .tc) → Buf (Elt Ideal) ((c : Thread nD τ).loc b))

/-! ## Words: the row limit and the mask -/

/-- Signed comparison of two small natural numbers as 32-bit words is their comparison. -/
theorem slt_ofNat (a b : Nat) (ha : a < 2147483648) (hb : b < 2147483648) :
    (BitVec.ofNat 32 a).slt (BitVec.ofNat 32 b) = decide (a < b) := by
  rw [BitVec.slt_eq_decide]
  refine decide_eq_decide.mpr ?_
  rw [BitVec.toInt_eq_toNat_cond, BitVec.toInt_eq_toNat_cond, BitVec.toNat_ofNat, BitVec.toNat_ofNat]
  have e : (2 : Nat) ^ 32 = 4294967296 := by norm_num
  rw [e]
  split <;> split <;> omega

/-- The row limit as a word: ((n + off) + 1) · 400 does not wrap for a grid coordinate `n`. -/
theorem limit_word (n off : Nat) (hn : n + off < 1000) :
    Scalar.muli (Scalar.addi (Scalar.addi (BitVec.ofNat 32 n) (BitVec.ofNat 32 off)) 1#32) 400#32 = BitVec.ofNat 32 ((n + off + 1) * 400) := by
  show (BitVec.ofNat 32 n + BitVec.ofNat 32 off + 1#32) * 400#32 = _
  apply BitVec.eq_of_toNat_eq
  simp only [BitVec.toNat_mul, BitVec.toNat_add, BitVec.toNat_ofNat]
  have e : (2 : Nat) ^ 32 = 4294967296 := by norm_num
  rw [e]
  omega

/-- The mask at row `j`: the row survives iff it lies below the limit. -/
theorem mask_apply {α : Type} (n off j : Nat) (hn : n + off < 1000) (hj : j < 100000) (A B : α) :
    Scalar.select (IntOp.cmpi .slt (BitVec.ofNat 32 j)
        (Scalar.muli (Scalar.addi (Scalar.addi (BitVec.ofNat 32 n) (BitVec.ofNat 32 off)) 1#32) 400#32)) A B
      = if j < (n + off + 1) * 400 then A else B := by
  rw [limit_word n off hn]
  show (if BitVec.ofBool ((BitVec.ofNat 32 j).slt (BitVec.ofNat 32 ((n + off + 1) * 400))) = 1#1 then A else B) = _
  rw [slt_ofNat j _ (by omega) (by omega)]
  by_cases h : j < (n + off + 1) * 400
  · rw [if_pos h, decide_eq_true h]; rfl
  · rw [if_neg h, decide_eq_false h]; rfl

/-! The operand indices of the product adj_block · masked_tw at output index (p, q) and contraction index k are
    (p, k) and (k, q). -/
theorem lhs_0 (i : S400x32.Idx) (q : dot_S400x4864_S4864x32_S400x32_1_0_0_1_n_n.contr.Idx) : (dot_S400x4864_S4864x32_S400x32_1_0_0_1_n_n.lhsIdx i q 0).val = (i 0).val := by
  unfold DotDims.lhsIdx
  rw [dif_neg (show ¬(0 : Fin S400x4864.rank) ∈ dot_S400x4864_S4864x32_S400x32_1_0_0_1_n_n.lhsBatch by decide), dif_pos (show (0 : Fin S400x4864.rank) ∈ dot_S400x4864_S4864x32_S400x32_1_0_0_1_n_n.lhsNonContracting by decide)]
  rfl
theorem lhs_1 (i : S400x32.Idx) (q : dot_S400x4864_S4864x32_S400x32_1_0_0_1_n_n.contr.Idx) : (dot_S400x4864_S4864x32_S400x32_1_0_0_1_n_n.lhsIdx i q 1).val = (q ⟨0, by decide⟩).val :=
  dot_S400x4864_S4864x32_S400x32_1_0_0_1_n_n.lhsIdx_val_of_single rfl i q
theorem rhs_0 (i : S400x32.Idx) (q : dot_S400x4864_S4864x32_S400x32_1_0_0_1_n_n.contr.Idx) : (dot_S400x4864_S4864x32_S400x32_1_0_0_1_n_n.rhsIdx i q 0).val = (q ⟨0, by decide⟩).val :=
  dot_S400x4864_S4864x32_S400x32_1_0_0_1_n_n.rhsIdx_val_of_single rfl i q
theorem rhs_1 (i : S400x32.Idx) (q : dot_S400x4864_S4864x32_S400x32_1_0_0_1_n_n.contr.Idx) : (dot_S400x4864_S4864x32_S400x32_1_0_0_1_n_n.rhsIdx i q 1).val = (i 1).val := by
  unfold DotDims.rhsIdx
  rw [dif_neg (show ¬(1 : Fin S4864x32.rank) ∈ dot_S400x4864_S4864x32_S400x32_1_0_0_1_n_n.rhsBatch by decide), dif_pos (show (1 : Fin S4864x32.rank) ∈ dot_S400x4864_S4864x32_S400x32_1_0_0_1_n_n.rhsNonContracting by decide)]
  rfl

/-- THE BODY'S SUM AT AN INDEX: entry (p, q) of mv_block + adj_block · masked_tw, the mask keeping the rows of tw
    below ((i 0) + 6 + 1) · 400. -/
theorem pay1_apply (i : grid2.Coords) (x1 : Vec Ideal S4864x32 .f32) (x2 : Vec Ideal S400x32 .f32) (x0 : Vec Ideal S400x4864 .f32)
    (p : Fin 400) (q : Fin 32) :
    k2_pay1 (F := Ideal) i x1 x2 x0 (ix2 p q)
      = x2 (ix2 p q) + ∑ j : Fin 4864, x0 (ix2 p j) * (if j.val < ((i 0).val + 6 + 1) * 400 then x1 (ix2 j q) else 0) := by
  unfold k2_pay1
  rw [addf_apply, shapeCast_self, shapeCast_self]
  refine congrArg (x2 (ix2 p q) + ·) ?_
  refine (Ideal.matmul_constant_zero_apply _ _ _ _ _).trans ?_
  rw [← Equiv.sum_comp (contrEquiv1 dot_S400x4864_S4864x32_S400x32_1_0_0_1_n_n 4864 rfl rfl).symm]
  refine Finset.sum_congr rfl fun k _ => ?_
  have hk := contrEquiv1_symm_val dot_S400x4864_S4864x32_S400x32_1_0_0_1_n_n 4864 rfl rfl k
  have el : dot_S400x4864_S4864x32_S400x32_1_0_0_1_n_n.lhsIdx (ix2 p q) ((contrEquiv1 dot_S400x4864_S4864x32_S400x32_1_0_0_1_n_n 4864 rfl rfl).symm k) = ix2 p k := funext fun a => Fin.ext (by
    match a with
    | ⟨0, _⟩ => exact lhs_0 _ _
    | ⟨1, _⟩ => exact (lhs_1 _ _).trans hk)
  have er : dot_S400x4864_S4864x32_S400x32_1_0_0_1_n_n.rhsIdx (ix2 p q) ((contrEquiv1 dot_S400x4864_S4864x32_S400x32_1_0_0_1_n_n 4864 rfl rfl).symm k) = ix2 k q := funext fun a => Fin.ext (by
    match a with
    | ⟨0, _⟩ => exact (rhs_0 _ _).trans hk
    | ⟨1, _⟩ => exact rhs_1 _ _)
  rw [el, er]
  refine congrArg (x0 (ix2 p k) * ·) ?_
  rw [select_apply]
  show Scalar.select (IntOp.cmpi .slt (iota .tc S4864x32 32 [0] iota_S4864x32_d0_w32 (ix2 k q))
      (Scalar.muli (Scalar.addi (Scalar.addi (BitVec.ofNat 32 (i 0).val) (BitVec.ofNat 32 6)) 1#32) 400#32))
      (x1 (ix2 k q)) (Ideal.ofBits .f32 0x00000000#32) = _
  rw [iota_single_apply, Ideal.ofBits_zero_f32]
  exact mask_apply (i 0).val 6 k.val (by have h : (i 0).val < 6 := (i 0).isLt; omega) (by have := k.isLt; omega) _ _

/-- The two stored halves are columns 0 to 15 and 16 to 31 of that sum. -/
theorem pay2_apply (i : grid2.Coords) (x1 : Vec Ideal S4864x32 .f32) (x2 : Vec Ideal S400x32 .f32) (x0 : Vec Ideal S400x4864 .f32)
    (p : Fin 400) (q : Fin 16) :
    k2_pay2 (F := Ideal) i x1 x2 x0 (ix2 p q) = k2_pay1 (F := Ideal) i x1 x2 x0 (ix2 p ⟨q.val, by omega⟩) := by
  unfold k2_pay2
  refine extractStridedSlice_apply _ _ _ _ _ fun a => ?_
  match a with
  | ⟨0, _⟩ => show p.val = 0 + p.val; omega
  | ⟨1, _⟩ => show q.val = 0 + q.val; omega
theorem pay3_apply (i : grid2.Coords) (x1 : Vec Ideal S4864x32 .f32) (x2 : Vec Ideal S400x32 .f32) (x0 : Vec Ideal S400x4864 .f32)
    (p : Fin 400) (q : Fin 16) :
    k2_pay3 (F := Ideal) i x1 x2 x0 (ix2 p q) = k2_pay1 (F := Ideal) i x1 x2 x0 (ix2 p ⟨q.val + 16, by omega⟩) := by
  unfold k2_pay3
  refine extractStridedSlice_apply _ _ _ _ _ fun a => ?_
  match a with
  | ⟨0, _⟩ => show p.val = 0 + p.val; omega
  | ⟨1, _⟩ => show q.val + 16 = 16 + q.val; omega

/-! ## The blocks read, as entries of the arrays -/

/-- Entry (R, col) of mv + adj[:, :4864] · (tw with the rows from the end of R's row block on replaced by zero). -/
def rowSum (adj : Fin 10000 → Fin 10000 → EReal) (tw mv : Fin 10000 → Fin 32 → EReal) (R : Fin 10000) (col : Fin 32) : EReal :=
  mv R col + ∑ j : Fin 4864, adj R (Fin.castLE (by norm_num) j) * (if j.val < (R.val / 400 + 1) * 400 then tw (Fin.castLE (by norm_num) j) col else 0)

theorem t_lt (t : Fin cfg2.N) : t.val < 6 := lt_of_lt_of_eq t.isLt N_2

/-- The block index maps, decided over the 6 grid points: the grid coordinate is the point; the adjacency
    and mv blocks are row block t + 6; the prefix of tw is at the origin; the outputs' blocks are row block t. -/
theorem idx_facts : ∀ t : Fin cfg2.N,
    (grid2.coords t 0).val = t.val
    ∧ win2_0.index t (0 : Fin 2) = t.val + 6 ∧ win2_0.index t (1 : Fin 2) = 0
    ∧ win2_1.index t (0 : Fin 2) = 0 ∧ win2_1.index t (1 : Fin 2) = 0
    ∧ win2_2.index t (0 : Fin 2) = t.val + 6 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The adjacency block at point t holds rows (t + 6) · 400 … of adj, columns 0 to 4863. -/
theorem adj_read (c : Dev nD) (t : Fin cfg2.N) (p : Fin 400) (j : Fin 4864) :
    (ablk2 V c t) (ix2 p j) = arr2 (a := 10000) (b := 10000) (V c main_arg1) ⟨(t.val + 6) * 400 + p.val, by have := t_lt t; omega⟩ (Fin.castLE (by norm_num) j) := by
  obtain ⟨e0, e1, e2, -⟩ := idx_facts t
  have hm : (cfg2.win 0).moved (cfg2.grid.coords t) (ix2 p j) = true :=
    ((cfg2.win 0).moved_iff _ _).mpr fun a => by rw [nocut2_0 t a]; exact (ix2 p j a).isLt
  unfold ablk2 Pipeline.Window.fill
  rw [dif_pos hm]
  show V c main_arg1 (((cfg2.win 0).blk t).view.emb _) = V c main_arg1 (ix2 _ _)
  refine congrArg _ (funext fun a => Fin.ext ?_)
  match a with
  | ⟨0, _⟩ => show win2_0.index t (0 : Fin 2) * 400 + 1 * p.val = (t.val + 6) * 400 + p.val; rw [e1]; omega
  | ⟨1, _⟩ => show win2_0.index t (1 : Fin 2) * 4864 + 1 * j.val = j.val; rw [e2]; omega

/-- The block of tw holds its rows 0 to 4863. -/
theorem tw_read (c : Dev nD) (t : Fin cfg2.N) (j : Fin 4864) (q : Fin 32) :
    (tblk2 V c t) (ix2 j q) = arr2 (a := 10000) (b := 32) (V c main_v1_0) (Fin.castLE (by norm_num) j) q := by
  obtain ⟨e0, e1, e2, e3, e4, -⟩ := idx_facts t
  have hm : (cfg2.win 1).moved (cfg2.grid.coords t) (ix2 j q) = true :=
    ((cfg2.win 1).moved_iff _ _).mpr fun a => by rw [nocut2_1 t a]; exact (ix2 j q a).isLt
  unfold tblk2 Pipeline.Window.fill
  rw [dif_pos hm]
  show V c main_v1_0 (((cfg2.win 1).blk t).view.emb _) = V c main_v1_0 (ix2 _ _)
  refine congrArg _ (funext fun a => Fin.ext ?_)
  match a with
  | ⟨0, _⟩ => show win2_1.index t (0 : Fin 2) * 4864 + 1 * j.val = j.val; rw [e3]; omega
  | ⟨1, _⟩ => show win2_1.index t (1 : Fin 2) * 32 + 1 * q.val = q.val; rw [e4]; omega

/-- The block of mv holds its rows (t + 6) · 400 …. -/
theorem mv_read (c : Dev nD) (t : Fin cfg2.N) (p : Fin 400) (q : Fin 32) :
    (iblk2 V c 2 t) (ix2 p q) = arr2 (a := 10000) (b := 32) (V c main_v1_1) ⟨(t.val + 6) * 400 + p.val, by have := t_lt t; omega⟩ q := by
  obtain ⟨e0, e1, e2, e3, e4, e5, e6, -⟩ := idx_facts t
  show V c main_v1_1 (((cfg2.win 2).blk t).view.emb _) = V c main_v1_1 (ix2 _ _)
  refine congrArg _ (funext fun a => Fin.ext ?_)
  match a with
  | ⟨0, _⟩ => show win2_2.index t (0 : Fin 2) * 400 + 1 * p.val = (t.val + 6) * 400 + p.val; rw [e5]; omega
  | ⟨1, _⟩ => show win2_2.index t (1 : Fin 2) * 32 + 1 * q.val = q.val; rw [e6]; omega

/-- WHAT POINT t COMPUTES at (p, q): entry ((t + 6) · 400 + p, q) of the masked sum over the arrays. -/
theorem block_entry (c : Dev nD) (t : Fin cfg2.N) (p : Fin 400) (q : Fin 32) :
    k2_pay1 (F := Ideal) (grid2.coords t) (tblk2 V c t) (iblk2 V c 2 t) (ablk2 V c t) (ix2 p q)
      = rowSum (arr2 (a := 10000) (b := 10000) (V c main_arg1)) (arr2 (a := 10000) (b := 32) (V c main_v1_0)) (arr2 (a := 10000) (b := 32) (V c main_v1_1))
          ⟨(t.val + 6) * 400 + p.val, by have := t_lt t; omega⟩ q := by
  refine (pay1_apply (grid2.coords t) (tblk2 V c t) (iblk2 V c 2 t) (ablk2 V c t) p q).trans ?_
  obtain ⟨e0, -⟩ := idx_facts t
  unfold rowSum
  rw [mv_read V c t p q]
  refine congrArg (_ + ·) (Finset.sum_congr rfl fun j _ => ?_)
  rw [adj_read V c t p j, tw_read V c t j q, e0]
  have hdiv : ((t.val + 6) * 400 + p.val) / 400 = t.val + 6 := by have := p.isLt; omega
  dsimp only
  rw [hdiv]

/-! ## From blocks to the arrays -/

theorem hz : (![0, 0] : Fin 2 → Nat) = fun _ => 0 := funext fun a => by fin_cases a <;> rfl

/-- The mean part after the region: row r is graph row 6 · 400 + r, columns 0 to 15 of the masked sum. -/
def meanPart (c : Dev nD) : S2400x16.Idx → EReal := fun i =>
  rowSum (arr2 (a := 10000) (b := 10000) (V c main_arg1)) (arr2 (a := 10000) (b := 32) (V c main_v1_0)) (arr2 (a := 10000) (b := 32) (V c main_v1_1))
    ⟨6 * 400 + (i 0).val, by have := (i 0).isLt; have e : S2400x16.size 0 = 2400 := rfl; omega⟩ ⟨(i 1).val, by have := (i 1).isLt; have e : S2400x16.size 1 = 16 := rfl; omega⟩
/-- The log-variance part: columns 16 to 31. -/
def logvarPart (c : Dev nD) : S2400x16.Idx → EReal := fun i =>
  rowSum (arr2 (a := 10000) (b := 10000) (V c main_arg1)) (arr2 (a := 10000) (b := 32) (V c main_v1_0)) (arr2 (a := 10000) (b := 32) (V c main_v1_1))
    ⟨6 * 400 + (i 0).val, by have := (i 0).isLt; have e : S2400x16.size 0 = 2400 := rfl; omega⟩ ⟨(i 1).val + 16, by have := (i 1).isLt; have e : S2400x16.size 1 = 16 := rfl; omega⟩

/-- `meanPart` at an index whose graph row and column are named. -/
theorem meanPart_apply (c : Dev nD) (i : S2400x16.Idx) (R : Fin 10000) (col : Fin 32) (hR : R.val = 6 * 400 + (i 0).val) (hc : col.val = (i 1).val) :
    meanPart V c i = rowSum (arr2 (a := 10000) (b := 10000) (V c main_arg1)) (arr2 (a := 10000) (b := 32) (V c main_v1_0)) (arr2 (a := 10000) (b := 32) (V c main_v1_1)) R col := by
  unfold meanPart
  rw [show R = ⟨6 * 400 + (i 0).val, hR ▸ R.isLt⟩ from Fin.ext hR, show col = ⟨(i 1).val, hc ▸ col.isLt⟩ from Fin.ext hc]
/-- `logvarPart` likewise. -/
theorem logvarPart_apply (c : Dev nD) (i : S2400x16.Idx) (R : Fin 10000) (col : Fin 32) (hR : R.val = 6 * 400 + (i 0).val) (hc : col.val = (i 1).val + 16) :
    logvarPart V c i = rowSum (arr2 (a := 10000) (b := 10000) (V c main_arg1)) (arr2 (a := 10000) (b := 32) (V c main_v1_0)) (arr2 (a := 10000) (b := 32) (V c main_v1_1)) R col := by
  unfold logvarPart
  rw [show R = ⟨6 * 400 + (i 0).val, hR ▸ R.isLt⟩ from Fin.ext hR, show col = ⟨(i 1).val + 16, hc ▸ col.isLt⟩ from Fin.ext hc]

/-- WHAT POINT t WRITES BACK to the mean part is block t of `meanPart`. -/
theorem flushed3_eq (c : Dev nD) (t : Fin cfg2.N) :
    (dat2 V c).flushed 3 t = ((cfg2.win 3).blk t).view.read (Elt Ideal) (meanPart V c) := by
  show (cfg2.win 3).cut (grid2.coords t) ((dat2 V c).after 3 t) = _
  rw [after2_3]
  unfold out2_3
  rw [View.canon_unit_zero hz]
  simp only [View.ld_unit_zero (S := S400x4864) hz, View.ld_unit_zero (S := S4864x32) hz, View.ld_unit_zero (S := S400x32) hz]
  obtain ⟨e0, e1, e2, e3, e4, e5, e6, e7, e8, -⟩ := idx_facts t
  funext y
  obtain ⟨p, q, rfl⟩ : ∃ (p : Fin 400) (q : Fin 16), y = ix2 p q := ⟨y 0, y 1, eq_ix2 y⟩
  show k2_pay2 (F := Ideal) (grid2.coords t) (tblk2 V c t) (iblk2 V c 2 t) (ablk2 V c t) (ix2 p q)
    = meanPart V c (((cfg2.win 3).blk t).view.emb (ix2 p q))
  refine (pay2_apply (grid2.coords t) (tblk2 V c t) (iblk2 V c 2 t) (ablk2 V c t) p q).trans ?_
  refine (block_entry V c t p ⟨q.val, by omega⟩).trans ?_
  refine (meanPart_apply V c _ _ _ ?_ ?_).symm
  · show (t.val + 6) * 400 + p.val = 6 * 400 + (win2_3.index t (0 : Fin 2) * 400 + 1 * p.val)
    rw [e7]; omega
  · show q.val = win2_3.index t (1 : Fin 2) * 16 + 1 * q.val
    rw [e8]; omega

/-- WHAT POINT t WRITES BACK to the log-variance part is block t of `logvarPart`. -/
theorem flushed4_eq (c : Dev nD) (t : Fin cfg2.N) :
    (dat2 V c).flushed 4 t = ((cfg2.win 4).blk t).view.read (Elt Ideal) (logvarPart V c) := by
  show (cfg2.win 4).cut (grid2.coords t) ((dat2 V c).after 4 t) = _
  rw [after2_4]
  unfold out2_4
  rw [View.canon_unit_zero hz]
  simp only [View.ld_unit_zero (S := S400x4864) hz, View.ld_unit_zero (S := S4864x32) hz, View.ld_unit_zero (S := S400x32) hz]
  obtain ⟨e0, e1, e2, e3, e4, e5, e6, e7, e8, e9, e10⟩ := idx_facts t
  funext y
  obtain ⟨p, q, rfl⟩ : ∃ (p : Fin 400) (q : Fin 16), y = ix2 p q := ⟨y 0, y 1, eq_ix2 y⟩
  show k2_pay3 (F := Ideal) (grid2.coords t) (tblk2 V c t) (iblk2 V c 2 t) (ablk2 V c t) (ix2 p q)
    = logvarPart V c (((cfg2.win 4).blk t).view.emb (ix2 p q))
  refine (pay3_apply (grid2.coords t) (tblk2 V c t) (iblk2 V c 2 t) (ablk2 V c t) p q).trans ?_
  refine (block_entry V c t p ⟨q.val + 16, by omega⟩).trans ?_
  refine (logvarPart_apply V c _ _ _ ?_ ?_).symm
  · show (t.val + 6) * 400 + p.val = 6 * 400 + (win2_4.index t (0 : Fin 2) * 400 + 1 * p.val)
    rw [e9]; omega
  · show q.val + 16 = win2_4.index t (1 : Fin 2) * 16 + 1 * q.val + 16
    rw [e10]; omega

/-- An index of an output array is in point t's block iff each coordinate is in the block's range on its axis. -/
theorem mem_blk3 (t : Fin cfg2.N) (i : S2400x16.Idx) :
    i ∈ ((cfg2.win 3).blk t).view.set ↔ ∀ a : Fin 2, win2_3.index t a * S400x16.size a ≤ (i a).val ∧ (i a).val < win2_3.index t a * S400x16.size a + S400x16.size a := by
  show i ∈ ((View.whole main_v3_0).slice (win2_3.rect t)).set ↔ _
  rw [View.set_slice_whole, Rect.mem_set_unit]
  exact Iff.rfl
theorem mem_blk4 (t : Fin cfg2.N) (i : S2400x16.Idx) :
    i ∈ ((cfg2.win 4).blk t).view.set ↔ ∀ a : Fin 2, win2_4.index t a * S400x16.size a ≤ (i a).val ∧ (i a).val < win2_4.index t a * S400x16.size a + S400x16.size a := by
  show i ∈ ((View.whole main_v3_1).slice (win2_4.rect t)).set ↔ _
  rw [View.set_slice_whole, Rect.mem_set_unit]
  exact Iff.rfl

/-- Row r lies in the block of point r / 400: the 6 blocks of 400 rows tile the 2400 rows. -/
theorem cover3 (i : S2400x16.Idx) : ∃ t : Fin cfg2.N, (cfg2.win 3).flush t = true ∧ i ∈ ((cfg2.win 3).blk t).view.set := by
  have hi0 : (i 0).val < 2400 := (i 0).isLt
  have hi1 : (i 1).val < 16 := (i 1).isLt
  have hN : (i 0).val / 400 < cfg2.N := by rw [show cfg2.N = 6 from N_2]; omega
  refine ⟨⟨(i 0).val / 400, hN⟩, flush2_3 _, ?_⟩
  rw [mem_blk3]
  obtain ⟨e0, e1, e2, e3, e4, e5, e6, e7, e8, -⟩ := idx_facts ⟨(i 0).val / 400, hN⟩
  intro a
  match a with
  | ⟨0, _⟩ =>
    show win2_3.index ⟨(i 0).val / 400, hN⟩ (0 : Fin 2) * 400 ≤ (i 0).val ∧ (i 0).val < win2_3.index ⟨(i 0).val / 400, hN⟩ (0 : Fin 2) * 400 + 400
    rw [e7]; show (i 0).val / 400 * 400 ≤ (i 0).val ∧ (i 0).val < (i 0).val / 400 * 400 + 400; omega
  | ⟨1, _⟩ =>
    show win2_3.index ⟨(i 0).val / 400, hN⟩ (1 : Fin 2) * 16 ≤ (i 1).val ∧ (i 1).val < win2_3.index ⟨(i 0).val / 400, hN⟩ (1 : Fin 2) * 16 + 16
    rw [e8]; omega
theorem cover4 (i : S2400x16.Idx) : ∃ t : Fin cfg2.N, (cfg2.win 4).flush t = true ∧ i ∈ ((cfg2.win 4).blk t).view.set := by
  have hi0 : (i 0).val < 2400 := (i 0).isLt
  have hi1 : (i 1).val < 16 := (i 1).isLt
  have hN : (i 0).val / 400 < cfg2.N := by rw [show cfg2.N = 6 from N_2]; omega
  refine ⟨⟨(i 0).val / 400, hN⟩, flush2_4 _, ?_⟩
  rw [mem_blk4]
  obtain ⟨e0, e1, e2, e3, e4, e5, e6, e7, e8, e9, e10⟩ := idx_facts ⟨(i 0).val / 400, hN⟩
  intro a
  match a with
  | ⟨0, _⟩ =>
    show win2_4.index ⟨(i 0).val / 400, hN⟩ (0 : Fin 2) * 400 ≤ (i 0).val ∧ (i 0).val < win2_4.index ⟨(i 0).val / 400, hN⟩ (0 : Fin 2) * 400 + 400
    rw [e9]; show (i 0).val / 400 * 400 ≤ (i 0).val ∧ (i 0).val < (i 0).val / 400 * 400 + 400; omega
  | ⟨1, _⟩ =>
    show win2_4.index ⟨(i 0).val / 400, hN⟩ (1 : Fin 2) * 16 ≤ (i 1).val ∧ (i 1).val < win2_4.index ⟨(i 0).val / 400, hN⟩ (1 : Fin 2) * 16 + 16
    rw [e10]; omega

/-- THE MEAN PART after the region. -/
theorem final3 (c : Dev nD) : (dat2 V c).arrAt 3 cfg2.N = meanPart V c :=
  (dat2 V c).arrAt_eq_of_cover 3 (meanPart V c) (fun t _ => flushed3_eq V c t) cover3
/-- THE LOG-VARIANCE PART after the region. -/
theorem final4 (c : Dev nD) : (dat2 V c).arrAt 4 cfg2.N = logvarPart V c :=
  (dat2 V c).arrAt_eq_of_cover 4 (logvarPart V c) (fun t _ => flushed4_eq V c t) cover4

/-- Entry by entry, with R = 6 · 400 + (i 0) the graph row. -/
theorem mean_part2 (c : Dev nD) (i : S2400x16.Idx) (hR : 6 * 400 + (i 0).val < 10000) (hc : (i 1).val < 32) :
    (dat2 V c).arrAt 3 cfg2.N i
      = arr2 (a := 10000) (b := 32) (V c main_v1_1) ⟨6 * 400 + (i 0).val, hR⟩ ⟨(i 1).val, hc⟩
        + ∑ j : Fin 4864, arr2 (a := 10000) (b := 10000) (V c main_arg1) ⟨6 * 400 + (i 0).val, hR⟩ (Fin.castLE (by norm_num) j)
            * (if j.val < ((6 * 400 + (i 0).val) / 400 + 1) * 400 then arr2 (a := 10000) (b := 32) (V c main_v1_0) (Fin.castLE (by norm_num) j) ⟨(i 1).val, hc⟩ else 0) := by
  rw [final3]; rfl
theorem logvar_part2 (c : Dev nD) (i : S2400x16.Idx) (hR : 6 * 400 + (i 0).val < 10000) (hc : (i 1).val + 16 < 32) :
    (dat2 V c).arrAt 4 cfg2.N i
      = arr2 (a := 10000) (b := 32) (V c main_v1_1) ⟨6 * 400 + (i 0).val, hR⟩ ⟨(i 1).val + 16, hc⟩
        + ∑ j : Fin 4864, arr2 (a := 10000) (b := 10000) (V c main_arg1) ⟨6 * 400 + (i 0).val, hR⟩ (Fin.castLE (by norm_num) j)
            * (if j.val < ((6 * 400 + (i 0).val) / 400 + 1) * 400 then arr2 (a := 10000) (b := 32) (V c main_v1_0) (Fin.castLE (by norm_num) j) ⟨(i 1).val + 16, hc⟩ else 0) := by
  rw [final4]; rfl

end Cert.KernelIdeal.Class2Value

end
-- ==== Proof.KI.Class3Value.lean ====
/-
  Region 3 of the forward pass at the exact (extended-real) instance: what its two output arrays hold after the
  region, as functions of the arrays the region finds.

  Write adj for the 10000 x 10000 adjacency matrix, tw for the 10000 x 32 matrix of projected hidden features and
  mv for the 10000 x 32 partial product, all as the region finds them. Row r of the region's outputs is row
  R = 12 · 400 + r of the graph. Entry (r, col) of the mean part is

      mv R col + ∑ j < 7296, adj R j · (tw j col if j < (R / 400 + 1) · 400, else 0)

  and entry (r, col) of the log-variance part is the same at column col + 16: the body adds to the partial product
  the contribution of the rows of tw up to the end of R's own row block. Point t of the grid computes rows
  400 t to 400 t + 399; the 6 points' blocks tile the 2400 rows.
-/
import proofs.«162566_g43224550868076_cont_8to1_b_1602_24_alg».proof.Proof.KI.Class3
import proofs.«162566_g43224550868076_cont_8to1_b_1602_24_alg».proof.Proof.Spec
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.Class3Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Class3 Cert.Spec

variable (V : (c : Dev nD) → (b : Ref sig .tc) → Buf (Elt Ideal) ((c : Thread nD τ).loc b))

/-! ## Words: the row limit and the mask -/

/-- Signed comparison of two small natural numbers as 32-bit words is their comparison. -/
theorem slt_ofNat (a b : Nat) (ha : a < 2147483648) (hb : b < 2147483648) :
    (BitVec.ofNat 32 a).slt (BitVec.ofNat 32 b) = decide (a < b) := by
  rw [BitVec.slt_eq_decide]
  refine decide_eq_decide.mpr ?_
  rw [BitVec.toInt_eq_toNat_cond, BitVec.toInt_eq_toNat_cond, BitVec.toNat_ofNat, BitVec.toNat_ofNat]
  have e : (2 : Nat) ^ 32 = 4294967296 := by norm_num
  rw [e]
  split <;> split <;> omega

/-- The row limit as a word: ((n + off) + 1) · 400 does not wrap for a grid coordinate `n`. -/
theorem limit_word (n off : Nat) (hn : n + off < 1000) :
    Scalar.muli (Scalar.addi (Scalar.addi (BitVec.ofNat 32 n) (BitVec.ofNat 32 off)) 1#32) 400#32 = BitVec.ofNat 32 ((n + off + 1) * 400) := by
  show (BitVec.ofNat 32 n + BitVec.ofNat 32 off + 1#32) * 400#32 = _
  apply BitVec.eq_of_toNat_eq
  simp only [BitVec.toNat_mul, BitVec.toNat_add, BitVec.toNat_ofNat]
  have e : (2 : Nat) ^ 32 = 4294967296 := by norm_num
  rw [e]
  omega

/-- The mask at row `j`: the row survives iff it lies below the limit. -/
theorem mask_apply {α : Type} (n off j : Nat) (hn : n + off < 1000) (hj : j < 100000) (A B : α) :
    Scalar.select (IntOp.cmpi .slt (BitVec.ofNat 32 j)
        (Scalar.muli (Scalar.addi (Scalar.addi (BitVec.ofNat 32 n) (BitVec.ofNat 32 off)) 1#32) 400#32)) A B
      = if j < (n + off + 1) * 400 then A else B := by
  rw [limit_word n off hn]
  show (if BitVec.ofBool ((BitVec.ofNat 32 j).slt (BitVec.ofNat 32 ((n + off + 1) * 400))) = 1#1 then A else B) = _
  rw [slt_ofNat j _ (by omega) (by omega)]
  by_cases h : j < (n + off + 1) * 400
  · rw [if_pos h, decide_eq_true h]; rfl
  · rw [if_neg h, decide_eq_false h]; rfl

/-! The operand indices of the product adj_block · masked_tw at output index (p, q) and contraction index k are
    (p, k) and (k, q). -/
theorem lhs_0 (i : S400x32.Idx) (q : dot_S400x7296_S7296x32_S400x32_1_0_0_1_n_n.contr.Idx) : (dot_S400x7296_S7296x32_S400x32_1_0_0_1_n_n.lhsIdx i q 0).val = (i 0).val := by
  unfold DotDims.lhsIdx
  rw [dif_neg (show ¬(0 : Fin S400x7296.rank) ∈ dot_S400x7296_S7296x32_S400x32_1_0_0_1_n_n.lhsBatch by decide), dif_pos (show (0 : Fin S400x7296.rank) ∈ dot_S400x7296_S7296x32_S400x32_1_0_0_1_n_n.lhsNonContracting by decide)]
  rfl
theorem lhs_1 (i : S400x32.Idx) (q : dot_S400x7296_S7296x32_S400x32_1_0_0_1_n_n.contr.Idx) : (dot_S400x7296_S7296x32_S400x32_1_0_0_1_n_n.lhsIdx i q 1).val = (q ⟨0, by decide⟩).val :=
  dot_S400x7296_S7296x32_S400x32_1_0_0_1_n_n.lhsIdx_val_of_single rfl i q
theorem rhs_0 (i : S400x32.Idx) (q : dot_S400x7296_S7296x32_S400x32_1_0_0_1_n_n.contr.Idx) : (dot_S400x7296_S7296x32_S400x32_1_0_0_1_n_n.rhsIdx i q 0).val = (q ⟨0, by decide⟩).val :=
  dot_S400x7296_S7296x32_S400x32_1_0_0_1_n_n.rhsIdx_val_of_single rfl i q
theorem rhs_1 (i : S400x32.Idx) (q : dot_S400x7296_S7296x32_S400x32_1_0_0_1_n_n.contr.Idx) : (dot_S400x7296_S7296x32_S400x32_1_0_0_1_n_n.rhsIdx i q 1).val = (i 1).val := by
  unfold DotDims.rhsIdx
  rw [dif_neg (show ¬(1 : Fin S7296x32.rank) ∈ dot_S400x7296_S7296x32_S400x32_1_0_0_1_n_n.rhsBatch by decide), dif_pos (show (1 : Fin S7296x32.rank) ∈ dot_S400x7296_S7296x32_S400x32_1_0_0_1_n_n.rhsNonContracting by decide)]
  rfl

/-- THE BODY'S SUM AT AN INDEX: entry (p, q) of mv_block + adj_block · masked_tw, the mask keeping the rows of tw
    below ((i 0) + 12 + 1) · 400. -/
theorem pay1_apply (i : grid3.Coords) (x1 : Vec Ideal S7296x32 .f32) (x2 : Vec Ideal S400x32 .f32) (x0 : Vec Ideal S400x7296 .f32)
    (p : Fin 400) (q : Fin 32) :
    k3_pay1 (F := Ideal) i x1 x2 x0 (ix2 p q)
      = x2 (ix2 p q) + ∑ j : Fin 7296, x0 (ix2 p j) * (if j.val < ((i 0).val + 12 + 1) * 400 then x1 (ix2 j q) else 0) := by
  unfold k3_pay1
  rw [addf_apply, shapeCast_self, shapeCast_self]
  refine congrArg (x2 (ix2 p q) + ·) ?_
  refine (Ideal.matmul_constant_zero_apply _ _ _ _ _).trans ?_
  rw [← Equiv.sum_comp (contrEquiv1 dot_S400x7296_S7296x32_S400x32_1_0_0_1_n_n 7296 rfl rfl).symm]
  refine Finset.sum_congr rfl fun k _ => ?_
  have hk := contrEquiv1_symm_val dot_S400x7296_S7296x32_S400x32_1_0_0_1_n_n 7296 rfl rfl k
  have el : dot_S400x7296_S7296x32_S400x32_1_0_0_1_n_n.lhsIdx (ix2 p q) ((contrEquiv1 dot_S400x7296_S7296x32_S400x32_1_0_0_1_n_n 7296 rfl rfl).symm k) = ix2 p k := funext fun a => Fin.ext (by
    match a with
    | ⟨0, _⟩ => exact lhs_0 _ _
    | ⟨1, _⟩ => exact (lhs_1 _ _).trans hk)
  have er : dot_S400x7296_S7296x32_S400x32_1_0_0_1_n_n.rhsIdx (ix2 p q) ((contrEquiv1 dot_S400x7296_S7296x32_S400x32_1_0_0_1_n_n 7296 rfl rfl).symm k) = ix2 k q := funext fun a => Fin.ext (by
    match a with
    | ⟨0, _⟩ => exact (rhs_0 _ _).trans hk
    | ⟨1, _⟩ => exact rhs_1 _ _)
  rw [el, er]
  refine congrArg (x0 (ix2 p k) * ·) ?_
  rw [select_apply]
  show Scalar.select (IntOp.cmpi .slt (iota .tc S7296x32 32 [0] iota_S7296x32_d0_w32 (ix2 k q))
      (Scalar.muli (Scalar.addi (Scalar.addi (BitVec.ofNat 32 (i 0).val) (BitVec.ofNat 32 12)) 1#32) 400#32))
      (x1 (ix2 k q)) (Ideal.ofBits .f32 0x00000000#32) = _
  rw [iota_single_apply, Ideal.ofBits_zero_f32]
  exact mask_apply (i 0).val 12 k.val (by have h : (i 0).val < 6 := (i 0).isLt; omega) (by have := k.isLt; omega) _ _

/-- The two stored halves are columns 0 to 15 and 16 to 31 of that sum. -/
theorem pay2_apply (i : grid3.Coords) (x1 : Vec Ideal S7296x32 .f32) (x2 : Vec Ideal S400x32 .f32) (x0 : Vec Ideal S400x7296 .f32)
    (p : Fin 400) (q : Fin 16) :
    k3_pay2 (F := Ideal) i x1 x2 x0 (ix2 p q) = k3_pay1 (F := Ideal) i x1 x2 x0 (ix2 p ⟨q.val, by omega⟩) := by
  unfold k3_pay2
  refine extractStridedSlice_apply _ _ _ _ _ fun a => ?_
  match a with
  | ⟨0, _⟩ => show p.val = 0 + p.val; omega
  | ⟨1, _⟩ => show q.val = 0 + q.val; omega
theorem pay3_apply (i : grid3.Coords) (x1 : Vec Ideal S7296x32 .f32) (x2 : Vec Ideal S400x32 .f32) (x0 : Vec Ideal S400x7296 .f32)
    (p : Fin 400) (q : Fin 16) :
    k3_pay3 (F := Ideal) i x1 x2 x0 (ix2 p q) = k3_pay1 (F := Ideal) i x1 x2 x0 (ix2 p ⟨q.val + 16, by omega⟩) := by
  unfold k3_pay3
  refine extractStridedSlice_apply _ _ _ _ _ fun a => ?_
  match a with
  | ⟨0, _⟩ => show p.val = 0 + p.val; omega
  | ⟨1, _⟩ => show q.val + 16 = 16 + q.val; omega

/-! ## The blocks read, as entries of the arrays -/

/-- Entry (R, col) of mv + adj[:, :7296] · (tw with the rows from the end of R's row block on replaced by zero). -/
def rowSum (adj : Fin 10000 → Fin 10000 → EReal) (tw mv : Fin 10000 → Fin 32 → EReal) (R : Fin 10000) (col : Fin 32) : EReal :=
  mv R col + ∑ j : Fin 7296, adj R (Fin.castLE (by norm_num) j) * (if j.val < (R.val / 400 + 1) * 400 then tw (Fin.castLE (by norm_num) j) col else 0)

theorem t_lt (t : Fin cfg3.N) : t.val < 6 := lt_of_lt_of_eq t.isLt N_3

/-- The block index maps, decided over the 6 grid points: the grid coordinate is the point; the adjacency
    and mv blocks are row block t + 12; the prefix of tw is at the origin; the outputs' blocks are row block t. -/
theorem idx_facts : ∀ t : Fin cfg3.N,
    (grid3.coords t 0).val = t.val
    ∧ win3_0.index t (0 : Fin 2) = t.val + 12 ∧ win3_0.index t (1 : Fin 2) = 0
    ∧ win3_1.index t (0 : Fin 2) = 0 ∧ win3_1.index t (1 : Fin 2) = 0
    ∧ win3_2.index t (0 : Fin 2) = t.val + 12 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

/-- The adjacency block at point t holds rows (t + 12) · 400 … of adj, columns 0 to 7295. -/
theorem adj_read (c : Dev nD) (t : Fin cfg3.N) (p : Fin 400) (j : Fin 7296) :
    (ablk3 V c t) (ix2 p j) = arr2 (a := 10000) (b := 10000) (V c main_arg1) ⟨(t.val + 12) * 400 + p.val, by have := t_lt t; omega⟩ (Fin.castLE (by norm_num) j) := by
  obtain ⟨e0, e1, e2, -⟩ := idx_facts t
  have hm : (cfg3.win 0).moved (cfg3.grid.coords t) (ix2 p j) = true :=
    ((cfg3.win 0).moved_iff _ _).mpr fun a => by rw [nocut3_0 t a]; exact (ix2 p j a).isLt
  unfold ablk3 Pipeline.Window.fill
  rw [dif_pos hm]
  show V c main_arg1 (((cfg3.win 0).blk t).view.emb _) = V c main_arg1 (ix2 _ _)
  refine congrArg _ (funext fun a => Fin.ext ?_)
  match a with
  | ⟨0, _⟩ => show win3_0.index t (0 : Fin 2) * 400 + 1 * p.val = (t.val + 12) * 400 + p.val; rw [e1]; omega
  | ⟨1, _⟩ => show win3_0.index t (1 : Fin 2) * 7296 + 1 * j.val = j.val; rw [e2]; omega

/-- The block of tw holds its rows 0 to 7295. -/
theorem tw_read (c : Dev nD) (t : Fin cfg3.N) (j : Fin 7296) (q : Fin 32) :
    (tblk3 V c t) (ix2 j q) = arr2 (a := 10000) (b := 32) (V c main_v1_0) (Fin.castLE (by norm_num) j) q := by
  obtain ⟨e0, e1, e2, e3, e4, -⟩ := idx_facts t
  have hm : (cfg3.win 1).moved (cfg3.grid.coords t) (ix2 j q) = true :=
    ((cfg3.win 1).moved_iff _ _).mpr fun a => by rw [nocut3_1 t a]; exact (ix2 j q a).isLt
  unfold tblk3 Pipeline.Window.fill
  rw [dif_pos hm]
  show V c main_v1_0 (((cfg3.win 1).blk t).view.emb _) = V c main_v1_0 (ix2 _ _)
  refine congrArg _ (funext fun a => Fin.ext ?_)
  match a with
  | ⟨0, _⟩ => show win3_1.index t (0 : Fin 2) * 7296 + 1 * j.val = j.val; rw [e3]; omega
  | ⟨1, _⟩ => show win3_1.index t (1 : Fin 2) * 32 + 1 * q.val = q.val; rw [e4]; omega

/-- The block of mv holds its rows (t + 12) · 400 …. -/
theorem mv_read (c : Dev nD) (t : Fin cfg3.N) (p : Fin 400) (q : Fin 32) :
    (iblk3 V c 2 t) (ix2 p q) = arr2 (a := 10000) (b := 32) (V c main_v1_1) ⟨(t.val + 12) * 400 + p.val, by have := t_lt t; omega⟩ q := by
  obtain ⟨e0, e1, e2, e3, e4, e5, e6, -⟩ := idx_facts t
  show V c main_v1_1 (((cfg3.win 2).blk t).view.emb _) = V c main_v1_1 (ix2 _ _)
  refine congrArg _ (funext fun a => Fin.ext ?_)
  match a with
  | ⟨0, _⟩ => show win3_2.index t (0 : Fin 2) * 400 + 1 * p.val = (t.val + 12) * 400 + p.val; rw [e5]; omega
  | ⟨1, _⟩ => show win3_2.index t (1 : Fin 2) * 32 + 1 * q.val = q.val; rw [e6]; omega

/-- WHAT POINT t COMPUTES at (p, q): entry ((t + 12) · 400 + p, q) of the masked sum over the arrays. -/
theorem block_entry (c : Dev nD) (t : Fin cfg3.N) (p : Fin 400) (q : Fin 32) :
    k3_pay1 (F := Ideal) (grid3.coords t) (tblk3 V c t) (iblk3 V c 2 t) (ablk3 V c t) (ix2 p q)
      = rowSum (arr2 (a := 10000) (b := 10000) (V c main_arg1)) (arr2 (a := 10000) (b := 32) (V c main_v1_0)) (arr2 (a := 10000) (b := 32) (V c main_v1_1))
          ⟨(t.val + 12) * 400 + p.val, by have := t_lt t; omega⟩ q := by
  refine (pay1_apply (grid3.coords t) (tblk3 V c t) (iblk3 V c 2 t) (ablk3 V c t) p q).trans ?_
  obtain ⟨e0, -⟩ := idx_facts t
  unfold rowSum
  rw [mv_read V c t p q]
  refine congrArg (_ + ·) (Finset.sum_congr rfl fun j _ => ?_)
  rw [adj_read V c t p j, tw_read V c t j q, e0]
  have hdiv : ((t.val + 12) * 400 + p.val) / 400 = t.val + 12 := by have := p.isLt; omega
  dsimp only
  rw [hdiv]

/-! ## From blocks to the arrays -/

theorem hz : (![0, 0] : Fin 2 → Nat) = fun _ => 0 := funext fun a => by fin_cases a <;> rfl

/-- The mean part after the region: row r is graph row 12 · 400 + r, columns 0 to 15 of the masked sum. -/
def meanPart (c : Dev nD) : S2400x16.Idx → EReal := fun i =>
  rowSum (arr2 (a := 10000) (b := 10000) (V c main_arg1)) (arr2 (a := 10000) (b := 32) (V c main_v1_0)) (arr2 (a := 10000) (b := 32) (V c main_v1_1))
    ⟨12 * 400 + (i 0).val, by have := (i 0).isLt; have e : S2400x16.size 0 = 2400 := rfl; omega⟩ ⟨(i 1).val, by have := (i 1).isLt; have e : S2400x16.size 1 = 16 := rfl; omega⟩
/-- The log-variance part: columns 16 to 31. -/
def logvarPart (c : Dev nD) : S2400x16.Idx → EReal := fun i =>
  rowSum (arr2 (a := 10000) (b := 10000) (V c main_arg1)) (arr2 (a := 10000) (b := 32) (V c main_v1_0)) (arr2 (a := 10000) (b := 32) (V c main_v1_1))
    ⟨12 * 400 + (i 0).val, by have := (i 0).isLt; have e : S2400x16.size 0 = 2400 := rfl; omega⟩ ⟨(i 1).val + 16, by have := (i 1).isLt; have e : S2400x16.size 1 = 16 := rfl; omega⟩

/-- `meanPart` at an index whose graph row and column are named. -/
theorem meanPart_apply (c : Dev nD) (i : S2400x16.Idx) (R : Fin 10000) (col : Fin 32) (hR : R.val = 12 * 400 + (i 0).val) (hc : col.val = (i 1).val) :
    meanPart V c i = rowSum (arr2 (a := 10000) (b := 10000) (V c main_arg1)) (arr2 (a := 10000) (b := 32) (V c main_v1_0)) (arr2 (a := 10000) (b := 32) (V c main_v1_1)) R col := by
  unfold meanPart
  rw [show R = ⟨12 * 400 + (i 0).val, hR ▸ R.isLt⟩ from Fin.ext hR, show col = ⟨(i 1).val, hc ▸ col.isLt⟩ from Fin.ext hc]
/-- `logvarPart` likewise. -/
theorem logvarPart_apply (c : Dev nD) (i : S2400x16.Idx) (R : Fin 10000) (col : Fin 32) (hR : R.val = 12 * 400 + (i 0).val) (hc : col.val = (i 1).val + 16) :
    logvarPart V c i = rowSum (arr2 (a := 10000) (b := 10000) (V c main_arg1)) (arr2 (a := 10000) (b := 32) (V c main_v1_0)) (arr2 (a := 10000) (b := 32) (V c main_v1_1)) R col := by
  unfold logvarPart
  rw [show R = ⟨12 * 400 + (i 0).val, hR ▸ R.isLt⟩ from Fin.ext hR, show col = ⟨(i 1).val + 16, hc ▸ col.isLt⟩ from Fin.ext hc]

/-- WHAT POINT t WRITES BACK to the mean part is block t of `meanPart`. -/
theorem flushed3_eq (c : Dev nD) (t : Fin cfg3.N) :
    (dat3 V c).flushed 3 t = ((cfg3.win 3).blk t).view.read (Elt Ideal) (meanPart V c) := by
  show (cfg3.win 3).cut (grid3.coords t) ((dat3 V c).after 3 t) = _
  rw [after3_3]
  unfold out3_3
  rw [View.canon_unit_zero hz]
  simp only [View.ld_unit_zero (S := S400x7296) hz, View.ld_unit_zero (S := S7296x32) hz, View.ld_unit_zero (S := S400x32) hz]
  obtain ⟨e0, e1, e2, e3, e4, e5, e6, e7, e8, -⟩ := idx_facts t
  funext y
  obtain ⟨p, q, rfl⟩ : ∃ (p : Fin 400) (q : Fin 16), y = ix2 p q := ⟨y 0, y 1, eq_ix2 y⟩
  show k3_pay2 (F := Ideal) (grid3.coords t) (tblk3 V c t) (iblk3 V c 2 t) (ablk3 V c t) (ix2 p q)
    = meanPart V c (((cfg3.win 3).blk t).view.emb (ix2 p q))
  refine (pay2_apply (grid3.coords t) (tblk3 V c t) (iblk3 V c 2 t) (ablk3 V c t) p q).trans ?_
  refine (block_entry V c t p ⟨q.val, by omega⟩).trans ?_
  refine (meanPart_apply V c _ _ _ ?_ ?_).symm
  · show (t.val + 12) * 400 + p.val = 12 * 400 + (win3_3.index t (0 : Fin 2) * 400 + 1 * p.val)
    rw [e7]; omega
  · show q.val = win3_3.index t (1 : Fin 2) * 16 + 1 * q.val
    rw [e8]; omega

/-- WHAT POINT t WRITES BACK to the log-variance part is block t of `logvarPart`. -/
theorem flushed4_eq (c : Dev nD) (t : Fin cfg3.N) :
    (dat3 V c).flushed 4 t = ((cfg3.win 4).blk t).view.read (Elt Ideal) (logvarPart V c) := by
  show (cfg3.win 4).cut (grid3.coords t) ((dat3 V c).after 4 t) = _
  rw [after3_4]
  unfold out3_4
  rw [View.canon_unit_zero hz]
  simp only [View.ld_unit_zero (S := S400x7296) hz, View.ld_unit_zero (S := S7296x32) hz, View.ld_unit_zero (S := S400x32) hz]
  obtain ⟨e0, e1, e2, e3, e4, e5, e6, e7, e8, e9, e10⟩ := idx_facts t
  funext y
  obtain ⟨p, q, rfl⟩ : ∃ (p : Fin 400) (q : Fin 16), y = ix2 p q := ⟨y 0, y 1, eq_ix2 y⟩
  show k3_pay3 (F := Ideal) (grid3.coords t) (tblk3 V c t) (iblk3 V c 2 t) (ablk3 V c t) (ix2 p q)
    = logvarPart V c (((cfg3.win 4).blk t).view.emb (ix2 p q))
  refine (pay3_apply (grid3.coords t) (tblk3 V c t) (iblk3 V c 2 t) (ablk3 V c t) p q).trans ?_
  refine (block_entry V c t p ⟨q.val + 16, by omega⟩).trans ?_
  refine (logvarPart_apply V c _ _ _ ?_ ?_).symm
  · show (t.val + 12) * 400 + p.val = 12 * 400 + (win3_4.index t (0 : Fin 2) * 400 + 1 * p.val)
    rw [e9]; omega
  · show q.val + 16 = win3_4.index t (1 : Fin 2) * 16 + 1 * q.val + 16
    rw [e10]; omega

/-- An index of an output array is in point t's block iff each coordinate is in the block's range on its axis. -/
theorem mem_blk3 (t : Fin cfg3.N) (i : S2400x16.Idx) :
    i ∈ ((cfg3.win 3).blk t).view.set ↔ ∀ a : Fin 2, win3_3.index t a * S400x16.size a ≤ (i a).val ∧ (i a).val < win3_3.index t a * S400x16.size a + S400x16.size a := by
  show i ∈ ((View.whole main_v4_0).slice (win3_3.rect t)).set ↔ _
  rw [View.set_slice_whole, Rect.mem_set_unit]
  exact Iff.rfl
theorem mem_blk4 (t : Fin cfg3.N) (i : S2400x16.Idx) :
    i ∈ ((cfg3.win 4).blk t).view.set ↔ ∀ a : Fin 2, win3_4.index t a * S400x16.size a ≤ (i a).val ∧ (i a).val < win3_4.index t a * S400x16.size a + S400x16.size a := by
  show i ∈ ((View.whole main_v4_1).slice (win3_4.rect t)).set ↔ _
  rw [View.set_slice_whole, Rect.mem_set_unit]
  exact Iff.rfl

/-- Row r lies in the block of point r / 400: the 6 blocks of 400 rows tile the 2400 rows. -/
theorem cover3 (i : S2400x16.Idx) : ∃ t : Fin cfg3.N, (cfg3.win 3).flush t = true ∧ i ∈ ((cfg3.win 3).blk t).view.set := by
  have hi0 : (i 0).val < 2400 := (i 0).isLt
  have hi1 : (i 1).val < 16 := (i 1).isLt
  have hN : (i 0).val / 400 < cfg3.N := by rw [show cfg3.N = 6 from N_3]; omega
  refine ⟨⟨(i 0).val / 400, hN⟩, flush3_3 _, ?_⟩
  rw [mem_blk3]
  obtain ⟨e0, e1, e2, e3, e4, e5, e6, e7, e8, -⟩ := idx_facts ⟨(i 0).val / 400, hN⟩
  intro a
  match a with
  | ⟨0, _⟩ =>
    show win3_3.index ⟨(i 0).val / 400, hN⟩ (0 : Fin 2) * 400 ≤ (i 0).val ∧ (i 0).val < win3_3.index ⟨(i 0).val / 400, hN⟩ (0 : Fin 2) * 400 + 400
    rw [e7]; show (i 0).val / 400 * 400 ≤ (i 0).val ∧ (i 0).val < (i 0).val / 400 * 400 + 400; omega
  | ⟨1, _⟩ =>
    show win3_3.index ⟨(i 0).val / 400, hN⟩ (1 : Fin 2) * 16 ≤ (i 1).val ∧ (i 1).val < win3_3.index ⟨(i 0).val / 400, hN⟩ (1 : Fin 2) * 16 + 16
    rw [e8]; omega
theorem cover4 (i : S2400x16.Idx) : ∃ t : Fin cfg3.N, (cfg3.win 4).flush t = true ∧ i ∈ ((cfg3.win 4).blk t).view.set := by
  have hi0 : (i 0).val < 2400 := (i 0).isLt
  have hi1 : (i 1).val < 16 := (i 1).isLt
  have hN : (i 0).val / 400 < cfg3.N := by rw [show cfg3.N = 6 from N_3]; omega
  refine ⟨⟨(i 0).val / 400, hN⟩, flush3_4 _, ?_⟩
  rw [mem_blk4]
  obtain ⟨e0, e1, e2, e3, e4, e5, e6, e7, e8, e9, e10⟩ := idx_facts ⟨(i 0).val / 400, hN⟩
  intro a
  match a with
  | ⟨0, _⟩ =>
    show win3_4.index ⟨(i 0).val / 400, hN⟩ (0 : Fin 2) * 400 ≤ (i 0).val ∧ (i 0).val < win3_4.index ⟨(i 0).val / 400, hN⟩ (0 : Fin 2) * 400 + 400
    rw [e9]; show (i 0).val / 400 * 400 ≤ (i 0).val ∧ (i 0).val < (i 0).val / 400 * 400 + 400; omega
  | ⟨1, _⟩ =>
    show win3_4.index ⟨(i 0).val / 400, hN⟩ (1 : Fin 2) * 16 ≤ (i 1).val ∧ (i 1).val < win3_4.index ⟨(i 0).val / 400, hN⟩ (1 : Fin 2) * 16 + 16
    rw [e10]; omega

/-- THE MEAN PART after the region. -/
theorem final3 (c : Dev nD) : (dat3 V c).arrAt 3 cfg3.N = meanPart V c :=
  (dat3 V c).arrAt_eq_of_cover 3 (meanPart V c) (fun t _ => flushed3_eq V c t) cover3
/-- THE LOG-VARIANCE PART after the region. -/
theorem final4 (c : Dev nD) : (dat3 V c).arrAt 4 cfg3.N = logvarPart V c :=
  (dat3 V c).arrAt_eq_of_cover 4 (logvarPart V c) (fun t _ => flushed4_eq V c t) cover4

/-- Entry by entry, with R = 12 · 400 + (i 0) the graph row. -/
theorem mean_part3 (c : Dev nD) (i : S2400x16.Idx) (hR : 12 * 400 + (i 0).val < 10000) (hc : (i 1).val < 32) :
    (dat3 V c).arrAt 3 cfg3.N i
      = arr2 (a := 10000) (b := 32) (V c main_v1_1) ⟨12 * 400 + (i 0).val, hR⟩ ⟨(i 1).val, hc⟩
        + ∑ j : Fin 7296, arr2 (a := 10000) (b := 10000) (V c main_arg1) ⟨12 * 400 + (i 0).val, hR⟩ (Fin.castLE (by norm_num) j)
            * (if j.val < ((12 * 400 + (i 0).val) / 400 + 1) * 400 then arr2 (a := 10000) (b := 32) (V c main_v1_0) (Fin.castLE (by norm_num) j) ⟨(i 1).val, hc⟩ else 0) := by
  rw [final3]; rfl
theorem logvar_part3 (c : Dev nD) (i : S2400x16.Idx) (hR : 12 * 400 + (i 0).val < 10000) (hc : (i 1).val + 16 < 32) :
    (dat3 V c).arrAt 4 cfg3.N i
      = arr2 (a := 10000) (b := 32) (V c main_v1_1) ⟨12 * 400 + (i 0).val, hR⟩ ⟨(i 1).val + 16, hc⟩
        + ∑ j : Fin 7296, arr2 (a := 10000) (b := 10000) (V c main_arg1) ⟨12 * 400 + (i 0).val, hR⟩ (Fin.castLE (by norm_num) j)
            * (if j.val < ((12 * 400 + (i 0).val) / 400 + 1) * 400 then arr2 (a := 10000) (b := 32) (V c main_v1_0) (Fin.castLE (by norm_num) j) ⟨(i 1).val + 16, hc⟩ else 0) := by
  rw [final4]; rfl

end Cert.KernelIdeal.Class3Value

end
-- ==== Proof.KI.Class4Value.lean ====
/-
  Region 4 of the forward pass at the exact (extended-real) instance: what its two output arrays hold after the
  region, as functions of the arrays the region finds.

  Write adj for the 10000 x 10000 adjacency matrix, tw for the 10000 x 32 matrix of projected hidden features and
  mv for the 10000 x 32 partial product, all as the region finds them. Row r of the region's outputs is row
  R = 18 · 400 + r of the graph. Entry (r, col) of the mean part is

      mv R col + ∑ j < 10000, adj R j · (tw j col if j < (R / 400 + 1) · 400, else 0)

  and entry (r, col) of the log-variance part is the same at column col + 16: the body adds to the partial product
  the contribution of the rows of tw up to the end of R's own row block. Point t of the grid computes rows
  400 t to 400 t + 399; the 7 points' blocks tile the 2800 rows.
-/
import proofs.«162566_g43224550868076_cont_8to1_b_1602_24_alg».proof.Proof.KI.Class4
import proofs.«162566_g43224550868076_cont_8to1_b_1602_24_alg».proof.Proof.Spec
import Idealize.ShloMosaic.Lib.ValueIdx
import Idealize.ShloMosaic.Lib.Pipeline.Value
import Idealize.ShloMosaic.PureOps.Ideal.Laws
set_option maxRecDepth 16384

noncomputable section

open scoped BigOperators

namespace Cert.KernelIdeal.Class4Value

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.KernelIdeal.Class4 Cert.Spec

variable (V : (c : Dev nD) → (b : Ref sig .tc) → Buf (Elt Ideal) ((c : Thread nD τ).loc b))

/-! ## Words: the row limit and the mask -/

/-- Signed comparison of two small natural numbers as 32-bit words is their comparison. -/
theorem slt_ofNat (a b : Nat) (ha : a < 2147483648) (hb : b < 2147483648) :
    (BitVec.ofNat 32 a).slt (BitVec.ofNat 32 b) = decide (a < b) := by
  rw [BitVec.slt_eq_decide]
  refine decide_eq_decide.mpr ?_
  rw [BitVec.toInt_eq_toNat_cond, BitVec.toInt_eq_toNat_cond, BitVec.toNat_ofNat, BitVec.toNat_ofNat]
  have e : (2 : Nat) ^ 32 = 4294967296 := by norm_num
  rw [e]
  split <;> split <;> omega

/-- The row limit as a word: ((n + off) + 1) · 400 does not wrap for a grid coordinate `n`. -/
theorem limit_word (n off : Nat) (hn : n + off < 1000) :
    Scalar.muli (Scalar.addi (Scalar.addi (BitVec.ofNat 32 n) (BitVec.ofNat 32 off)) 1#32) 400#32 = BitVec.ofNat 32 ((n + off + 1) * 400) := by
  show (BitVec.ofNat 32 n + BitVec.ofNat 32 off + 1#32) * 400#32 = _
  apply BitVec.eq_of_toNat_eq
  simp only [BitVec.toNat_mul, BitVec.toNat_add, BitVec.toNat_ofNat]
  have e : (2 : Nat) ^ 32 = 4294967296 := by norm_num
  rw [e]
  omega

/-- The mask at row `j`: the row survives iff it lies below the limit. -/
theorem mask_apply {α : Type} (n off j : Nat) (hn : n + off < 1000) (hj : j < 100000) (A B : α) :
    Scalar.select (IntOp.cmpi .slt (BitVec.ofNat 32 j)
        (Scalar.muli (Scalar.addi (Scalar.addi (BitVec.ofNat 32 n) (BitVec.ofNat 32 off)) 1#32) 400#32)) A B
      = if j < (n + off + 1) * 400 then A else B := by
  rw [limit_word n off hn]
  show (if BitVec.ofBool ((BitVec.ofNat 32 j).slt (BitVec.ofNat 32 ((n + off + 1) * 400))) = 1#1 then A else B) = _
  rw [slt_ofNat j _ (by omega) (by omega)]
  by_cases h : j < (n + off + 1) * 400
  · rw [if_pos h, decide_eq_true h]; rfl
  · rw [if_neg h, decide_eq_false h]; rfl

/-! The operand indices of the product adj_block · masked_tw at output index (p, q) and contraction index k are
    (p, k) and (k, q). -/
theorem lhs_0 (i : S400x32.Idx) (q : dot_S400x10000_S10000x32_S400x32_1_0_0_1_n_n.contr.Idx) : (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_1 (i : S400x32.Idx) (q : dot_S400x10000_S10000x32_S400x32_1_0_0_1_n_n.contr.Idx) : (dot_S400x10000_S10000x32_S400x32_1_0_0_1_n_n.lhsIdx i q 1).val = (q ⟨0, by decide⟩).val :=
  dot_S400x10000_S10000x32_S400x32_1_0_0_1_n_n.lhsIdx_val_of_single rfl i q
theorem rhs_0 (i : S400x32.Idx) (q : dot_S400x10000_S10000x32_S400x32_1_0_0_1_n_n.contr.Idx) : (dot_S400x10000_S10000x32_S400x32_1_0_0_1_n_n.rhsIdx i q 0).val = (q ⟨0, by decide⟩).val :=
  dot_S400x10000_S10000x32_S400x32_1_0_0_1_n_n.rhsIdx_val_of_single rfl i q
theorem rhs_1 (i : S400x32.Idx) (q : dot_S400x10000_S10000x32_S400x32_1_0_0_1_n_n.contr.Idx) : (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl

/-- THE BODY'S SUM AT AN INDEX: entry (p, q) of mv_block + adj_block · masked_tw, the mask keeping the rows of tw
    below ((i 0) + 18 + 1) · 400. -/
theorem pay1_apply (i : grid4.Coords) (x1 : Vec Ideal S10000x32 .f32) (x2 : Vec Ideal S400x32 .f32) (x0 : Vec Ideal S400x10000 .f32)
    (p : Fin 400) (q : Fin 32) :
    k4_pay1 (F := Ideal) i x1 x2 x0 (ix2 p q)
      = x2 (ix2 p q) + ∑ j : Fin 10000, x0 (ix2 p j) * (if j.val < ((i 0).val + 18 + 1) * 400 then x1 (ix2 j q) else 0) := by
  unfold k4_pay1
  rw [addf_apply, shapeCast_self, shapeCast_self]
  refine congrArg (x2 (ix2 p q) + ·) ?_
  refine (Ideal.matmul_constant_zero_apply _ _ _ _ _).trans ?_
  rw [← Equiv.sum_comp (contrEquiv1 dot_S400x10000_S10000x32_S400x32_1_0_0_1_n_n 10000 rfl rfl).symm]
  refine Finset.sum_congr rfl fun k _ => ?_
  have hk := contrEquiv1_symm_val dot_S400x10000_S10000x32_S400x32_1_0_0_1_n_n 10000 rfl rfl k
  have el : dot_S400x10000_S10000x32_S400x32_1_0_0_1_n_n.lhsIdx (ix2 p q) ((contrEquiv1 dot_S400x10000_S10000x32_S400x32_1_0_0_1_n_n 10000 rfl rfl).symm k) = ix2 p k := funext fun a => Fin.ext (by
    match a with
    | ⟨0, _⟩ => exact lhs_0 _ _
    | ⟨1, _⟩ => exact (lhs_1 _ _).trans hk)
  have er : dot_S400x10000_S10000x32_S400x32_1_0_0_1_n_n.rhsIdx (ix2 p q) ((contrEquiv1 dot_S400x10000_S10000x32_S400x32_1_0_0_1_n_n 10000 rfl rfl).symm k) = ix2 k q := funext fun a => Fin.ext (by
    match a with
    | ⟨0, _⟩ => exact (rhs_0 _ _).trans hk
    | ⟨1, _⟩ => exact rhs_1 _ _)
  rw [el, er]
  refine congrArg (x0 (ix2 p k) * ·) ?_
  rw [select_apply]
  show Scalar.select (IntOp.cmpi .slt (iota .tc S10000x32 32 [0] iota_S10000x32_d0_w32 (ix2 k q))
      (Scalar.muli (Scalar.addi (Scalar.addi (BitVec.ofNat 32 (i 0).val) (BitVec.ofNat 32 18)) 1#32) 400#32))
      (x1 (ix2 k q)) (Ideal.ofBits .f32 0x00000000#32) = _
  rw [iota_single_apply, Ideal.ofBits_zero_f32]
  exact mask_apply (i 0).val 18 k.val (by have h : (i 0).val < 7 := (i 0).isLt; omega) (by have := k.isLt; omega) _ _

/-- The two stored halves are columns 0 to 15 and 16 to 31 of that sum. -/
theorem pay2_apply (i : grid4.Coords) (x1 : Vec Ideal S10000x32 .f32) (x2 : Vec Ideal S400x32 .f32) (x0 : Vec Ideal S400x10000 .f32)
    (p : Fin 400) (q : Fin 16) :
    k4_pay2 (F := Ideal) i x1 x2 x0 (ix2 p q) = k4_pay1 (F := Ideal) i x1 x2 x0 (ix2 p ⟨q.val, by omega⟩) := by
  unfold k4_pay2
  refine extractStridedSlice_apply _ _ _ _ _ fun a => ?_
  match a with
  | ⟨0, _⟩ => show p.val = 0 + p.val; omega
  | ⟨1, _⟩ => show q.val = 0 + q.val; omega
theorem pay3_apply (i : grid4.Coords) (x1 : Vec Ideal S10000x32 .f32) (x2 : Vec Ideal S400x32 .f32) (x0 : Vec Ideal S400x10000 .f32)
    (p : Fin 400) (q : Fin 16) :
    k4_pay3 (F := Ideal) i x1 x2 x0 (ix2 p q) = k4_pay1 (F := Ideal) i x1 x2 x0 (ix2 p ⟨q.val + 16, by omega⟩) := by
  unfold k4_pay3
  refine extractStridedSlice_apply _ _ _ _ _ fun a => ?_
  match a with
  | ⟨0, _⟩ => show p.val = 0 + p.val; omega
  | ⟨1, _⟩ => show q.val + 16 = 16 + q.val; omega

/-! ## The blocks read, as entries of the arrays -/

/-- Entry (R, col) of mv + adj[:, :10000] · (tw with the rows from the end of R's row block on replaced by zero). -/
def rowSum (adj : Fin 10000 → Fin 10000 → EReal) (tw mv : Fin 10000 → Fin 32 → EReal) (R : Fin 10000) (col : Fin 32) : EReal :=
  mv R col + ∑ j : Fin 10000, adj R (Fin.castLE (le_refl _) j) * (if j.val < (R.val / 400 + 1) * 400 then tw (Fin.castLE (le_refl _) j) col else 0)

theorem t_lt (t : Fin cfg4.N) : t.val < 7 := lt_of_lt_of_eq t.isLt N_4

/-- The block index maps, decided over the 7 grid points: the grid coordinate is the point; the adjacency
    and mv blocks are row block t + 18; the prefix of tw is at the origin; the outputs' blocks are row block t. -/
theorem idx_facts : ∀ t : Fin cfg4.N,
    (grid4.coords t 0).val = t.val
    ∧ win4_0.index t (0 : Fin 2) = t.val + 18 ∧ win4_0.index t (1 : Fin 2) = 0
    ∧ win4_1.index t (0 : Fin 2) = 0 ∧ win4_1.index t (1 : Fin 2) = 0
    ∧ win4_2.index t (0 : Fin 2) = t.val + 18 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The adjacency block at point t holds rows (t + 18) · 400 … of adj, columns 0 to 9999. -/
theorem adj_read (c : Dev nD) (t : Fin cfg4.N) (p : Fin 400) (j : Fin 10000) :
    (iblk4 V c 0 t) (ix2 p j) = arr2 (a := 10000) (b := 10000) (V c main_arg1) ⟨(t.val + 18) * 400 + p.val, by have := t_lt t; omega⟩ (Fin.castLE (le_refl _) j) := by
  obtain ⟨e0, e1, e2, -⟩ := idx_facts t
  show V c main_arg1 (((cfg4.win 0).blk t).view.emb _) = V c main_arg1 (ix2 _ _)
  refine congrArg _ (funext fun a => Fin.ext ?_)
  match a with
  | ⟨0, _⟩ => show win4_0.index t (0 : Fin 2) * 400 + 1 * p.val = (t.val + 18) * 400 + p.val; rw [e1]; omega
  | ⟨1, _⟩ => show win4_0.index t (1 : Fin 2) * 10000 + 1 * j.val = j.val; rw [e2]; omega

/-- The block of tw holds its rows 0 to 9999. -/
theorem tw_read (c : Dev nD) (t : Fin cfg4.N) (j : Fin 10000) (q : Fin 32) :
    (iblk4 V c 1 t) (ix2 j q) = arr2 (a := 10000) (b := 32) (V c main_v1_0) (Fin.castLE (le_refl _) j) q := by
  obtain ⟨e0, e1, e2, e3, e4, -⟩ := idx_facts t
  show V c main_v1_0 (((cfg4.win 1).blk t).view.emb _) = V c main_v1_0 (ix2 _ _)
  refine congrArg _ (funext fun a => Fin.ext ?_)
  match a with
  | ⟨0, _⟩ => show win4_1.index t (0 : Fin 2) * 10000 + 1 * j.val = j.val; rw [e3]; omega
  | ⟨1, _⟩ => show win4_1.index t (1 : Fin 2) * 32 + 1 * q.val = q.val; rw [e4]; omega

/-- The block of mv holds its rows (t + 18) · 400 …. -/
theorem mv_read (c : Dev nD) (t : Fin cfg4.N) (p : Fin 400) (q : Fin 32) :
    (iblk4 V c 2 t) (ix2 p q) = arr2 (a := 10000) (b := 32) (V c main_v1_1) ⟨(t.val + 18) * 400 + p.val, by have := t_lt t; omega⟩ q := by
  obtain ⟨e0, e1, e2, e3, e4, e5, e6, -⟩ := idx_facts t
  show V c main_v1_1 (((cfg4.win 2).blk t).view.emb _) = V c main_v1_1 (ix2 _ _)
  refine congrArg _ (funext fun a => Fin.ext ?_)
  match a with
  | ⟨0, _⟩ => show win4_2.index t (0 : Fin 2) * 400 + 1 * p.val = (t.val + 18) * 400 + p.val; rw [e5]; omega
  | ⟨1, _⟩ => show win4_2.index t (1 : Fin 2) * 32 + 1 * q.val = q.val; rw [e6]; omega

/-- WHAT POINT t COMPUTES at (p, q): entry ((t + 18) · 400 + p, q) of the masked sum over the arrays. -/
theorem block_entry (c : Dev nD) (t : Fin cfg4.N) (p : Fin 400) (q : Fin 32) :
    k4_pay1 (F := Ideal) (grid4.coords t) (iblk4 V c 1 t) (iblk4 V c 2 t) (iblk4 V c 0 t) (ix2 p q)
      = rowSum (arr2 (a := 10000) (b := 10000) (V c main_arg1)) (arr2 (a := 10000) (b := 32) (V c main_v1_0)) (arr2 (a := 10000) (b := 32) (V c main_v1_1))
          ⟨(t.val + 18) * 400 + p.val, by have := t_lt t; omega⟩ q := by
  refine (pay1_apply (grid4.coords t) (iblk4 V c 1 t) (iblk4 V c 2 t) (iblk4 V c 0 t) p q).trans ?_
  obtain ⟨e0, -⟩ := idx_facts t
  unfold rowSum
  rw [mv_read V c t p q]
  refine congrArg (_ + ·) (Finset.sum_congr rfl fun j _ => ?_)
  rw [adj_read V c t p j, tw_read V c t j q, e0]
  have hdiv : ((t.val + 18) * 400 + p.val) / 400 = t.val + 18 := by have := p.isLt; omega
  dsimp only
  rw [hdiv]

/-! ## From blocks to the arrays -/

theorem hz : (![0, 0] : Fin 2 → Nat) = fun _ => 0 := funext fun a => by fin_cases a <;> rfl

/-- The mean part after the region: row r is graph row 18 · 400 + r, columns 0 to 15 of the masked sum. -/
def meanPart (c : Dev nD) : S2800x16.Idx → EReal := fun i =>
  rowSum (arr2 (a := 10000) (b := 10000) (V c main_arg1)) (arr2 (a := 10000) (b := 32) (V c main_v1_0)) (arr2 (a := 10000) (b := 32) (V c main_v1_1))
    ⟨18 * 400 + (i 0).val, by have := (i 0).isLt; have e : S2800x16.size 0 = 2800 := rfl; omega⟩ ⟨(i 1).val, by have := (i 1).isLt; have e : S2800x16.size 1 = 16 := rfl; omega⟩
/-- The log-variance part: columns 16 to 31. -/
def logvarPart (c : Dev nD) : S2800x16.Idx → EReal := fun i =>
  rowSum (arr2 (a := 10000) (b := 10000) (V c main_arg1)) (arr2 (a := 10000) (b := 32) (V c main_v1_0)) (arr2 (a := 10000) (b := 32) (V c main_v1_1))
    ⟨18 * 400 + (i 0).val, by have := (i 0).isLt; have e : S2800x16.size 0 = 2800 := rfl; omega⟩ ⟨(i 1).val + 16, by have := (i 1).isLt; have e : S2800x16.size 1 = 16 := rfl; omega⟩

/-- `meanPart` at an index whose graph row and column are named. -/
theorem meanPart_apply (c : Dev nD) (i : S2800x16.Idx) (R : Fin 10000) (col : Fin 32) (hR : R.val = 18 * 400 + (i 0).val) (hc : col.val = (i 1).val) :
    meanPart V c i = rowSum (arr2 (a := 10000) (b := 10000) (V c main_arg1)) (arr2 (a := 10000) (b := 32) (V c main_v1_0)) (arr2 (a := 10000) (b := 32) (V c main_v1_1)) R col := by
  unfold meanPart
  rw [show R = ⟨18 * 400 + (i 0).val, hR ▸ R.isLt⟩ from Fin.ext hR, show col = ⟨(i 1).val, hc ▸ col.isLt⟩ from Fin.ext hc]
/-- `logvarPart` likewise. -/
theorem logvarPart_apply (c : Dev nD) (i : S2800x16.Idx) (R : Fin 10000) (col : Fin 32) (hR : R.val = 18 * 400 + (i 0).val) (hc : col.val = (i 1).val + 16) :
    logvarPart V c i = rowSum (arr2 (a := 10000) (b := 10000) (V c main_arg1)) (arr2 (a := 10000) (b := 32) (V c main_v1_0)) (arr2 (a := 10000) (b := 32) (V c main_v1_1)) R col := by
  unfold logvarPart
  rw [show R = ⟨18 * 400 + (i 0).val, hR ▸ R.isLt⟩ from Fin.ext hR, show col = ⟨(i 1).val + 16, hc ▸ col.isLt⟩ from Fin.ext hc]

/-- WHAT POINT t WRITES BACK to the mean part is block t of `meanPart`. -/
theorem flushed3_eq (c : Dev nD) (t : Fin cfg4.N) :
    (dat4 V c).flushed 3 t = ((cfg4.win 3).blk t).view.read (Elt Ideal) (meanPart V c) := by
  show (cfg4.win 3).cut (grid4.coords t) ((dat4 V c).after 3 t) = _
  rw [after4_3]
  unfold out4_3
  rw [View.canon_unit_zero hz]
  simp only [View.ld_unit_zero (S := S400x10000) hz, View.ld_unit_zero (S := S10000x32) hz, View.ld_unit_zero (S := S400x32) hz]
  obtain ⟨e0, e1, e2, e3, e4, e5, e6, e7, e8, -⟩ := idx_facts t
  funext y
  obtain ⟨p, q, rfl⟩ : ∃ (p : Fin 400) (q : Fin 16), y = ix2 p q := ⟨y 0, y 1, eq_ix2 y⟩
  show k4_pay2 (F := Ideal) (grid4.coords t) (iblk4 V c 1 t) (iblk4 V c 2 t) (iblk4 V c 0 t) (ix2 p q)
    = meanPart V c (((cfg4.win 3).blk t).view.emb (ix2 p q))
  refine (pay2_apply (grid4.coords t) (iblk4 V c 1 t) (iblk4 V c 2 t) (iblk4 V c 0 t) p q).trans ?_
  refine (block_entry V c t p ⟨q.val, by omega⟩).trans ?_
  refine (meanPart_apply V c _ _ _ ?_ ?_).symm
  · show (t.val + 18) * 400 + p.val = 18 * 400 + (win4_3.index t (0 : Fin 2) * 400 + 1 * p.val)
    rw [e7]; omega
  · show q.val = win4_3.index t (1 : Fin 2) * 16 + 1 * q.val
    rw [e8]; omega

/-- WHAT POINT t WRITES BACK to the log-variance part is block t of `logvarPart`. -/
theorem flushed4_eq (c : Dev nD) (t : Fin cfg4.N) :
    (dat4 V c).flushed 4 t = ((cfg4.win 4).blk t).view.read (Elt Ideal) (logvarPart V c) := by
  show (cfg4.win 4).cut (grid4.coords t) ((dat4 V c).after 4 t) = _
  rw [after4_4]
  unfold out4_4
  rw [View.canon_unit_zero hz]
  simp only [View.ld_unit_zero (S := S400x10000) hz, View.ld_unit_zero (S := S10000x32) hz, View.ld_unit_zero (S := S400x32) hz]
  obtain ⟨e0, e1, e2, e3, e4, e5, e6, e7, e8, e9, e10⟩ := idx_facts t
  funext y
  obtain ⟨p, q, rfl⟩ : ∃ (p : Fin 400) (q : Fin 16), y = ix2 p q := ⟨y 0, y 1, eq_ix2 y⟩
  show k4_pay3 (F := Ideal) (grid4.coords t) (iblk4 V c 1 t) (iblk4 V c 2 t) (iblk4 V c 0 t) (ix2 p q)
    = logvarPart V c (((cfg4.win 4).blk t).view.emb (ix2 p q))
  refine (pay3_apply (grid4.coords t) (iblk4 V c 1 t) (iblk4 V c 2 t) (iblk4 V c 0 t) p q).trans ?_
  refine (block_entry V c t p ⟨q.val + 16, by omega⟩).trans ?_
  refine (logvarPart_apply V c _ _ _ ?_ ?_).symm
  · show (t.val + 18) * 400 + p.val = 18 * 400 + (win4_4.index t (0 : Fin 2) * 400 + 1 * p.val)
    rw [e9]; omega
  · show q.val + 16 = win4_4.index t (1 : Fin 2) * 16 + 1 * q.val + 16
    rw [e10]; omega

/-- An index of an output array is in point t's block iff each coordinate is in the block's range on its axis. -/
theorem mem_blk3 (t : Fin cfg4.N) (i : S2800x16.Idx) :
    i ∈ ((cfg4.win 3).blk t).view.set ↔ ∀ a : Fin 2, win4_3.index t a * S400x16.size a ≤ (i a).val ∧ (i a).val < win4_3.index t a * S400x16.size a + S400x16.size a := by
  show i ∈ ((View.whole main_v5_0).slice (win4_3.rect t)).set ↔ _
  rw [View.set_slice_whole, Rect.mem_set_unit]
  exact Iff.rfl
theorem mem_blk4 (t : Fin cfg4.N) (i : S2800x16.Idx) :
    i ∈ ((cfg4.win 4).blk t).view.set ↔ ∀ a : Fin 2, win4_4.index t a * S400x16.size a ≤ (i a).val ∧ (i a).val < win4_4.index t a * S400x16.size a + S400x16.size a := by
  show i ∈ ((View.whole main_v5_1).slice (win4_4.rect t)).set ↔ _
  rw [View.set_slice_whole, Rect.mem_set_unit]
  exact Iff.rfl

/-- Row r lies in the block of point r / 400: the 7 blocks of 400 rows tile the 2800 rows. -/
theorem cover3 (i : S2800x16.Idx) : ∃ t : Fin cfg4.N, (cfg4.win 3).flush t = true ∧ i ∈ ((cfg4.win 3).blk t).view.set := by
  have hi0 : (i 0).val < 2800 := (i 0).isLt
  have hi1 : (i 1).val < 16 := (i 1).isLt
  have hN : (i 0).val / 400 < cfg4.N := by rw [show cfg4.N = 7 from N_4]; omega
  refine ⟨⟨(i 0).val / 400, hN⟩, flush4_3 _, ?_⟩
  rw [mem_blk3]
  obtain ⟨e0, e1, e2, e3, e4, e5, e6, e7, e8, -⟩ := idx_facts ⟨(i 0).val / 400, hN⟩
  intro a
  match a with
  | ⟨0, _⟩ =>
    show win4_3.index ⟨(i 0).val / 400, hN⟩ (0 : Fin 2) * 400 ≤ (i 0).val ∧ (i 0).val < win4_3.index ⟨(i 0).val / 400, hN⟩ (0 : Fin 2) * 400 + 400
    rw [e7]; show (i 0).val / 400 * 400 ≤ (i 0).val ∧ (i 0).val < (i 0).val / 400 * 400 + 400; omega
  | ⟨1, _⟩ =>
    show win4_3.index ⟨(i 0).val / 400, hN⟩ (1 : Fin 2) * 16 ≤ (i 1).val ∧ (i 1).val < win4_3.index ⟨(i 0).val / 400, hN⟩ (1 : Fin 2) * 16 + 16
    rw [e8]; omega
theorem cover4 (i : S2800x16.Idx) : ∃ t : Fin cfg4.N, (cfg4.win 4).flush t = true ∧ i ∈ ((cfg4.win 4).blk t).view.set := by
  have hi0 : (i 0).val < 2800 := (i 0).isLt
  have hi1 : (i 1).val < 16 := (i 1).isLt
  have hN : (i 0).val / 400 < cfg4.N := by rw [show cfg4.N = 7 from N_4]; omega
  refine ⟨⟨(i 0).val / 400, hN⟩, flush4_4 _, ?_⟩
  rw [mem_blk4]
  obtain ⟨e0, e1, e2, e3, e4, e5, e6, e7, e8, e9, e10⟩ := idx_facts ⟨(i 0).val / 400, hN⟩
  intro a
  match a with
  | ⟨0, _⟩ =>
    show win4_4.index ⟨(i 0).val / 400, hN⟩ (0 : Fin 2) * 400 ≤ (i 0).val ∧ (i 0).val < win4_4.index ⟨(i 0).val / 400, hN⟩ (0 : Fin 2) * 400 + 400
    rw [e9]; show (i 0).val / 400 * 400 ≤ (i 0).val ∧ (i 0).val < (i 0).val / 400 * 400 + 400; omega
  | ⟨1, _⟩ =>
    show win4_4.index ⟨(i 0).val / 400, hN⟩ (1 : Fin 2) * 16 ≤ (i 1).val ∧ (i 1).val < win4_4.index ⟨(i 0).val / 400, hN⟩ (1 : Fin 2) * 16 + 16
    rw [e10]; omega

/-- THE MEAN PART after the region. -/
theorem final3 (c : Dev nD) : (dat4 V c).arrAt 3 cfg4.N = meanPart V c :=
  (dat4 V c).arrAt_eq_of_cover 3 (meanPart V c) (fun t _ => flushed3_eq V c t) cover3
/-- THE LOG-VARIANCE PART after the region. -/
theorem final4 (c : Dev nD) : (dat4 V c).arrAt 4 cfg4.N = logvarPart V c :=
  (dat4 V c).arrAt_eq_of_cover 4 (logvarPart V c) (fun t _ => flushed4_eq V c t) cover4

/-- Entry by entry, with R = 18 · 400 + (i 0) the graph row. -/
theorem mean_part4 (c : Dev nD) (i : S2800x16.Idx) (hR : 18 * 400 + (i 0).val < 10000) (hc : (i 1).val < 32) :
    (dat4 V c).arrAt 3 cfg4.N i
      = arr2 (a := 10000) (b := 32) (V c main_v1_1) ⟨18 * 400 + (i 0).val, hR⟩ ⟨(i 1).val, hc⟩
        + ∑ j : Fin 10000, arr2 (a := 10000) (b := 10000) (V c main_arg1) ⟨18 * 400 + (i 0).val, hR⟩ (Fin.castLE (le_refl _) j)
            * (if j.val < ((18 * 400 + (i 0).val) / 400 + 1) * 400 then arr2 (a := 10000) (b := 32) (V c main_v1_0) (Fin.castLE (le_refl _) j) ⟨(i 1).val, hc⟩ else 0) := by
  rw [final3]; rfl
theorem logvar_part4 (c : Dev nD) (i : S2800x16.Idx) (hR : 18 * 400 + (i 0).val < 10000) (hc : (i 1).val + 16 < 32) :
    (dat4 V c).arrAt 4 cfg4.N i
      = arr2 (a := 10000) (b := 32) (V c main_v1_1) ⟨18 * 400 + (i 0).val, hR⟩ ⟨(i 1).val + 16, hc⟩
        + ∑ j : Fin 10000, arr2 (a := 10000) (b := 10000) (V c main_arg1) ⟨18 * 400 + (i 0).val, hR⟩ (Fin.castLE (le_refl _) j)
            * (if j.val < ((18 * 400 + (i 0).val) / 400 + 1) * 400 then arr2 (a := 10000) (b := 32) (V c main_v1_0) (Fin.castLE (le_refl _) j) ⟨(i 1).val + 16, hc⟩ else 0) := by
  rw [final4]; rfl

end Cert.KernelIdeal.Class4Value

end
-- ==== Proof.KI.SweepPay.lean ====
import proofs.«162566_g43224550868076_cont_8to1_b_1602_24_alg».proof.Proof.Gen.KernelIdeal.Skeleton
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.SweepValue

open Cert.KernelIdeal Cert.KernelIdeal.Gen
open Idealize.ShloMosaic Idealize.ShloMosaic.ValueIdx

/-! # The sweep's arithmetic at the extended reals, entry by entry

Each store's value of the sweep's body read at a row and a column: a matrix product into a zero accumulator is the
finite sum over the contracted index, the positive part is `max · 0`, a cast to the same shape changes nothing. -/

theorem lhs_xW_0 (i : S10000x32.Idx) (q : dot_S10000x128_S128x32_S10000x32_1_0_0_1_n_n.contr.Idx) : (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_xW_1 (i : S10000x32.Idx) (q : dot_S10000x128_S128x32_S10000x32_1_0_0_1_n_n.contr.Idx) : (dot_S10000x128_S128x32_S10000x32_1_0_0_1_n_n.lhsIdx i q 1).val = (q ⟨0, by decide⟩).val :=
  dot_S10000x128_S128x32_S10000x32_1_0_0_1_n_n.lhsIdx_val_of_single rfl i q
theorem rhs_xW_0 (i : S10000x32.Idx) (q : dot_S10000x128_S128x32_S10000x32_1_0_0_1_n_n.contr.Idx) : (dot_S10000x128_S128x32_S10000x32_1_0_0_1_n_n.rhsIdx i q 0).val = (q ⟨0, by decide⟩).val :=
  dot_S10000x128_S128x32_S10000x32_1_0_0_1_n_n.rhsIdx_val_of_single rfl i q
theorem rhs_xW_1 (i : S10000x32.Idx) (q : dot_S10000x128_S128x32_S10000x32_1_0_0_1_n_n.contr.Idx) : (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl
/-- The product of a 10000×128 and a 128×32 matrix into a zero accumulator, at an entry: the sum over the contracted index. -/
theorem matmul_xW_apply (l : FVec Ideal S10000x128 .f32) (r : FVec Ideal S128x32 .f32) (p : Fin 10000) (q : Fin 32) :
    matmul (F := Ideal) dot_S10000x128_S128x32_S10000x32_1_0_0_1_n_n none l r (constant (F := Ideal) S10000x32 .f32 0x00000000#32) (ix2 p q)
      = ∑ k : Fin 128, l (ix2 p k) * r (ix2 k q) := by
  rw [show matmul (F := Ideal) dot_S10000x128_S128x32_S10000x32_1_0_0_1_n_n none l r (constant (F := Ideal) S10000x32 .f32 0x00000000#32) (ix2 p q)
      = ∑ k : dot_S10000x128_S128x32_S10000x32_1_0_0_1_n_n.contr.Idx, l (dot_S10000x128_S128x32_S10000x32_1_0_0_1_n_n.lhsIdx (ix2 p q) k) * r (dot_S10000x128_S128x32_S10000x32_1_0_0_1_n_n.rhsIdx (ix2 p q) k) from
    Ideal.matmul_constant_zero_apply dot_S10000x128_S128x32_S10000x32_1_0_0_1_n_n none l r (ix2 p q),
    ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ix2 p q) ((ValueIdx.contrEquiv1 dot_S10000x128_S128x32_S10000x32_1_0_0_1_n_n 128 rfl rfl).symm k) = ix2 p k := funext fun a => Fin.ext (by
    match a with
    | ⟨0, _⟩ => exact lhs_xW_0 _ _
    | ⟨1, _⟩ => exact (lhs_xW_1 _ _).trans hk)
  have er : dot_S10000x128_S128x32_S10000x32_1_0_0_1_n_n.rhsIdx (ix2 p q) ((ValueIdx.contrEquiv1 dot_S10000x128_S128x32_S10000x32_1_0_0_1_n_n 128 rfl rfl).symm k) = ix2 k q := funext fun a => Fin.ext (by
    match a with
    | ⟨0, _⟩ => exact (rhs_xW_0 _ _).trans hk
    | ⟨1, _⟩ => exact rhs_xW_1 _ _)
  rw [el, er]

theorem lhs_adjT_0 (i : S400x32.Idx) (q : dot_S400x10000_S10000x32_S400x32_1_0_0_1_n_n.contr.Idx) : (dot_S400x10000_S10000x32_S400x32_1_0_0_1_n_n.lhsIdx i q 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem lhs_adjT_1 (i : S400x32.Idx) (q : dot_S400x10000_S10000x32_S400x32_1_0_0_1_n_n.contr.Idx) : (dot_S400x10000_S10000x32_S400x32_1_0_0_1_n_n.lhsIdx i q 1).val = (q ⟨0, by decide⟩).val :=
  dot_S400x10000_S10000x32_S400x32_1_0_0_1_n_n.lhsIdx_val_of_single rfl i q
theorem rhs_adjT_0 (i : S400x32.Idx) (q : dot_S400x10000_S10000x32_S400x32_1_0_0_1_n_n.contr.Idx) : (dot_S400x10000_S10000x32_S400x32_1_0_0_1_n_n.rhsIdx i q 0).val = (q ⟨0, by decide⟩).val :=
  dot_S400x10000_S10000x32_S400x32_1_0_0_1_n_n.rhsIdx_val_of_single rfl i q
theorem rhs_adjT_1 (i : S400x32.Idx) (q : dot_S400x10000_S10000x32_S400x32_1_0_0_1_n_n.contr.Idx) : (dot_S400x10000_S10000x32_S400x32_1_0_0_1_n_n.rhsIdx i q 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl
/-- The product of a 400×10000 and a 10000×32 matrix into a zero accumulator, at an entry: the sum over the contracted index. -/
theorem matmul_adjT_apply (l : FVec Ideal S400x10000 .f32) (r : FVec Ideal S10000x32 .f32) (p : Fin 400) (q : Fin 32) :
    matmul (F := Ideal) dot_S400x10000_S10000x32_S400x32_1_0_0_1_n_n none l r (constant (F := Ideal) S400x32 .f32 0x00000000#32) (ix2 p q)
      = ∑ k : Fin 10000, l (ix2 p k) * r (ix2 k q) := by
  rw [show matmul (F := Ideal) dot_S400x10000_S10000x32_S400x32_1_0_0_1_n_n none l r (constant (F := Ideal) S400x32 .f32 0x00000000#32) (ix2 p q)
      = ∑ k : dot_S400x10000_S10000x32_S400x32_1_0_0_1_n_n.contr.Idx, l (dot_S400x10000_S10000x32_S400x32_1_0_0_1_n_n.lhsIdx (ix2 p q) k) * r (dot_S400x10000_S10000x32_S400x32_1_0_0_1_n_n.rhsIdx (ix2 p q) k) from
    Ideal.matmul_constant_zero_apply dot_S400x10000_S10000x32_S400x32_1_0_0_1_n_n none l r (ix2 p q),
    ← Equiv.sum_comp (ValueIdx.contrEquiv1 dot_S400x10000_S10000x32_S400x32_1_0_0_1_n_n 10000 rfl rfl).symm]
  refine Finset.sum_congr rfl fun k _ => ?_
  have hk := ValueIdx.contrEquiv1_symm_val dot_S400x10000_S10000x32_S400x32_1_0_0_1_n_n 10000 rfl rfl k
  have el : dot_S400x10000_S10000x32_S400x32_1_0_0_1_n_n.lhsIdx (ix2 p q) ((ValueIdx.contrEquiv1 dot_S400x10000_S10000x32_S400x32_1_0_0_1_n_n 10000 rfl rfl).symm k) = ix2 p k := funext fun a => Fin.ext (by
    match a with
    | ⟨0, _⟩ => exact lhs_adjT_0 _ _
    | ⟨1, _⟩ => exact (lhs_adjT_1 _ _).trans hk)
  have er : dot_S400x10000_S10000x32_S400x32_1_0_0_1_n_n.rhsIdx (ix2 p q) ((ValueIdx.contrEquiv1 dot_S400x10000_S10000x32_S400x32_1_0_0_1_n_n 10000 rfl rfl).symm k) = ix2 k q := funext fun a => Fin.ext (by
    match a with
    | ⟨0, _⟩ => exact (rhs_adjT_0 _ _).trans hk
    | ⟨1, _⟩ => exact rhs_adjT_1 _ _)
  rw [el, er]

theorem lhs_hW_0 (i : S400x32.Idx) (q : dot_S400x32_S32x32_S400x32_1_0_0_1_n_n.contr.Idx) : (dot_S400x32_S32x32_S400x32_1_0_0_1_n_n.lhsIdx i q 0).val = (i 0).val := by
  unfold DotDims.lhsIdx
  rw [dif_neg (show ¬(0 : Fin S400x32.rank) ∈ dot_S400x32_S32x32_S400x32_1_0_0_1_n_n.lhsBatch by decide), dif_pos (show (0 : Fin S400x32.rank) ∈ dot_S400x32_S32x32_S400x32_1_0_0_1_n_n.lhsNonContracting by decide)]
  rfl
theorem lhs_hW_1 (i : S400x32.Idx) (q : dot_S400x32_S32x32_S400x32_1_0_0_1_n_n.contr.Idx) : (dot_S400x32_S32x32_S400x32_1_0_0_1_n_n.lhsIdx i q 1).val = (q ⟨0, by decide⟩).val :=
  dot_S400x32_S32x32_S400x32_1_0_0_1_n_n.lhsIdx_val_of_single rfl i q
theorem rhs_hW_0 (i : S400x32.Idx) (q : dot_S400x32_S32x32_S400x32_1_0_0_1_n_n.contr.Idx) : (dot_S400x32_S32x32_S400x32_1_0_0_1_n_n.rhsIdx i q 0).val = (q ⟨0, by decide⟩).val :=
  dot_S400x32_S32x32_S400x32_1_0_0_1_n_n.rhsIdx_val_of_single rfl i q
theorem rhs_hW_1 (i : S400x32.Idx) (q : dot_S400x32_S32x32_S400x32_1_0_0_1_n_n.contr.Idx) : (dot_S400x32_S32x32_S400x32_1_0_0_1_n_n.rhsIdx i q 1).val = (i 1).val := by
  unfold DotDims.rhsIdx
  rw [dif_neg (show ¬(1 : Fin S32x32.rank) ∈ dot_S400x32_S32x32_S400x32_1_0_0_1_n_n.rhsBatch by decide), dif_pos (show (1 : Fin S32x32.rank) ∈ dot_S400x32_S32x32_S400x32_1_0_0_1_n_n.rhsNonContracting by decide)]
  rfl
/-- The product of a 400×32 and a 32×32 matrix into a zero accumulator, at an entry: the sum over the contracted index. -/
theorem matmul_hW_apply (l : FVec Ideal S400x32 .f32) (r : FVec Ideal S32x32 .f32) (p : Fin 400) (q : Fin 32) :
    matmul (F := Ideal) dot_S400x32_S32x32_S400x32_1_0_0_1_n_n none l r (constant (F := Ideal) S400x32 .f32 0x00000000#32) (ix2 p q)
      = ∑ k : Fin 32, l (ix2 p k) * r (ix2 k q) := by
  rw [show matmul (F := Ideal) dot_S400x32_S32x32_S400x32_1_0_0_1_n_n none l r (constant (F := Ideal) S400x32 .f32 0x00000000#32) (ix2 p q)
      = ∑ k : dot_S400x32_S32x32_S400x32_1_0_0_1_n_n.contr.Idx, l (dot_S400x32_S32x32_S400x32_1_0_0_1_n_n.lhsIdx (ix2 p q) k) * r (dot_S400x32_S32x32_S400x32_1_0_0_1_n_n.rhsIdx (ix2 p q) k) from
    Ideal.matmul_constant_zero_apply dot_S400x32_S32x32_S400x32_1_0_0_1_n_n none l r (ix2 p q),
    ← Equiv.sum_comp (ValueIdx.contrEquiv1 dot_S400x32_S32x32_S400x32_1_0_0_1_n_n 32 rfl rfl).symm]
  refine Finset.sum_congr rfl fun k _ => ?_
  have hk := ValueIdx.contrEquiv1_symm_val dot_S400x32_S32x32_S400x32_1_0_0_1_n_n 32 rfl rfl k
  have el : dot_S400x32_S32x32_S400x32_1_0_0_1_n_n.lhsIdx (ix2 p q) ((ValueIdx.contrEquiv1 dot_S400x32_S32x32_S400x32_1_0_0_1_n_n 32 rfl rfl).symm k) = ix2 p k := funext fun a => Fin.ext (by
    match a with
    | ⟨0, _⟩ => exact lhs_hW_0 _ _
    | ⟨1, _⟩ => exact (lhs_hW_1 _ _).trans hk)
  have er : dot_S400x32_S32x32_S400x32_1_0_0_1_n_n.rhsIdx (ix2 p q) ((ValueIdx.contrEquiv1 dot_S400x32_S32x32_S400x32_1_0_0_1_n_n 32 rfl rfl).symm k) = ix2 k q := funext fun a => Fin.ext (by
    match a with
    | ⟨0, _⟩ => exact (rhs_hW_0 _ _).trans hk
    | ⟨1, _⟩ => exact rhs_hW_1 _ _)
  rw [el, er]

/-- `x · W1` at an entry. -/
theorem pay1_apply (v22 : Vec Ideal S10000x128 .f32) (v23 : Vec Ideal S128x32 .f32) (p : Fin 10000) (q : Fin 32) :
    k0_pay1 (F := Ideal) v22 v23 (ix2 p q) = ∑ k : Fin 128, v22 (ix2 p k) * v23 (ix2 k q) := by
  unfold k0_pay1
  refine (congrFun (shapeCast_self _ _) (ix2 p q)).trans ?_
  exact matmul_xW_apply v22 v23 p q

/-- The zero fill at an entry. -/
theorem pay2_apply (p : Fin 10000) (q : Fin 32) : k0_pay2 (F := Ideal) (ix2 p q) = 0 := by
  unfold k0_pay2
  refine (congrFun (shapeCast_self _ _) (ix2 p q)).trans ?_
  exact Ideal.ofBits_zero_f32

/-- The adjacency rows times the finished rows, at an entry. -/
theorem pay3_apply (v4 : Vec Ideal S400x10000 .f32) (v5 : Vec Ideal S10000x32 .f32) (p : Fin 400) (q : Fin 32) :
    k0_pay3 (F := Ideal) v4 v5 (ix2 p q) = ∑ k : Fin 10000, v4 (ix2 p k) * v5 (ix2 k q) := by
  unfold k0_pay3
  exact matmul_adjT_apply v4 v5 p q

/-- The finished rows at an entry: the positive part of the adjacency rows times `x · W1`, times the weights. -/
theorem pay4_apply (v8 : Vec Ideal S400x10000 .f32) (v9 : Vec Ideal S10000x32 .f32) (v13 : Vec Ideal S32x32 .f32)
    (p : Fin 400) (q : Fin 32) :
    k0_pay4 (F := Ideal) v8 v9 v13 (ix2 p q)
      = ∑ k : Fin 32, max (∑ l : Fin 10000, v8 (ix2 p l) * v9 (ix2 l k)) 0 * v13 (ix2 k q) := by
  unfold k0_pay4
  refine (matmul_hW_apply _ _ p q).trans ?_
  refine Finset.sum_congr rfl fun k _ => ?_
  refine congrArg₂ (· * ·) ?_ (congrFun (shapeCast_self v13 _) (ix2 k q))
  refine (maximumf_apply _ _ (ix2 p k)).trans ?_
  refine congrArg₂ max (matmul_adjT_apply v8 v9 p k) ?_
  exact Ideal.ofBits_zero_f32

/-- The same rows as written to the carried buffer. -/
theorem pay5_eq (v8 : Vec Ideal S400x10000 .f32) (v9 : Vec Ideal S10000x32 .f32) (v13 : Vec Ideal S32x32 .f32) :
    k0_pay5 (F := Ideal) v8 v9 v13 = k0_pay4 (F := Ideal) v8 v9 v13 := by
  unfold k0_pay5
  exact shapeCast_self _ _

end Cert.KernelIdeal.SweepValue

end
-- ==== Proof.KI.SweepValue.lean ====
import proofs.«162566_g43224550868076_cont_8to1_b_1602_24_alg».proof.Proof.KI.SweepFrame
import proofs.«162566_g43224550868076_cont_8to1_b_1602_24_alg».proof.Proof.KI.SweepPay
import proofs.«162566_g43224550868076_cont_8to1_b_1602_24_alg».proof.Proof.Spec

set_option maxRecDepth 16384

noncomputable section

open scoped BigOperators

namespace Cert.KernelIdeal.SweepValue

open Cert.KernelIdeal Cert.KernelIdeal.Gen Cert.KernelIdeal.Sweep Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! # What the sweep leaves in its two output arrays, as functions of the arrays it finds -/

/-- The block indices over the grid: the adjacency rows and both outputs are visited last block first, the
    other inputs are whole arrays; and the first grid coordinate is the point's number. -/
theorem idx_facts : ∀ t : Fin cfg0.N, win0_0.index t (0 : Fin 2) = 24 - t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 24 - t.val ∧ win0_4.index t (1 : Fin 2) = 0
    ∧ win0_5.index t (0 : Fin 2) = 24 - t.val ∧ win0_5.index t (1 : Fin 2) = 0
    ∧ ((grid0.coords t) 0).val = t.val :=
  (by decide +kernel : ∀ t : Fin grid0.N, _)

theorem lt25 (t : Fin cfg0.N) : t.val < 25 := lt_of_lt_of_eq t.isLt N_0

/-- The arrays the region finds, as matrices. -/
abbrev adjM (c : Dev nD) : Fin 10000 → Fin 10000 → EReal := arr2 (a := 10000) (b := 10000) (V c main_arg1)
abbrev xM (c : Dev nD) : Fin 10000 → Fin 128 → EReal := arr2 (a := 10000) (b := 128) (V c main_arg0)
abbrev w1M (c : Dev nD) : Fin 128 → Fin 32 → EReal := arr2 (a := 128) (b := 32) (V c main_arg2)
abbrev w23M (c : Dev nD) : Fin 32 → Fin 32 → EReal := arr2 (a := 32) (b := 32) (V c main_v0)

/-- The adjacency block of point `t` is rows `(24 - t) * 400 ..` of the adjacency matrix. -/
theorem adjBlock_apply (c : Dev nD) (t : Fin cfg0.N) (r : Fin 400) (k : Fin 10000) :
    iblk0 V c 0 t (ix2 r k) = adjM V c ⟨(24 - t.val) * 400 + r.val, by have := lt25 t; omega⟩ k := by
  obtain ⟨e0, e1, -⟩ := idx_facts t
  show V c main_arg1 (((cfg0.win 0).blk t).view.emb (ix2 r k)) = V c main_arg1 (ix2 _ k)
  refine congrArg (V c main_arg1) (funext fun a => Fin.ext ?_)
  match a with
  | ⟨0, _⟩ => show win0_0.index t (0 : Fin 2) * 400 + 1 * r.val = (24 - t.val) * 400 + r.val; rw [e0]; omega
  | ⟨1, _⟩ => show win0_0.index t (1 : Fin 2) * 10000 + 1 * k.val = k.val; rw [e1]; omega

/-- The other inputs' blocks are the whole arrays. -/
theorem xBlock_apply (c : Dev nD) (t : Fin cfg0.N) (r : Fin 10000) (k : Fin 128) :
    iblk0 V c 1 t (ix2 r k) = xM V c r k := by
  obtain ⟨-, -, e0, e1, -⟩ := idx_facts t
  show V c main_arg0 (((cfg0.win 1).blk t).view.emb (ix2 r k)) = V c main_arg0 (ix2 r k)
  refine congrArg (V c main_arg0) (funext fun a => Fin.ext ?_)
  match a with
  | ⟨0, _⟩ => show win0_1.index t (0 : Fin 2) * 10000 + 1 * r.val = r.val; rw [e0]; omega
  | ⟨1, _⟩ => show win0_1.index t (1 : Fin 2) * 128 + 1 * k.val = k.val; rw [e1]; omega

theorem w1Block_apply (c : Dev nD) (t : Fin cfg0.N) (r : Fin 128) (k : Fin 32) :
    iblk0 V c 2 t (ix2 r k) = w1M V c r k := by
  obtain ⟨-, -, -, -, e0, e1, -⟩ := idx_facts t
  show V c main_arg2 (((cfg0.win 2).blk t).view.emb (ix2 r k)) = V c main_arg2 (ix2 r k)
  refine congrArg (V c main_arg2) (funext fun a => Fin.ext ?_)
  match a with
  | ⟨0, _⟩ => show win0_2.index t (0 : Fin 2) * 128 + 1 * r.val = r.val; rw [e0]; omega
  | ⟨1, _⟩ => show win0_2.index t (1 : Fin 2) * 32 + 1 * k.val = k.val; rw [e1]; omega

theorem w23Block_apply (c : Dev nD) (t : Fin cfg0.N) (r : Fin 32) (k : Fin 32) :
    iblk0 V c 3 t (ix2 r k) = w23M V c r k := by
  obtain ⟨-, -, -, -, -, -, e0, e1, -⟩ := idx_facts t
  show V c main_v0 (((cfg0.win 3).blk t).view.emb (ix2 r k)) = V c main_v0 (ix2 r k)
  refine congrArg (V c main_v0) (funext fun a => Fin.ext ?_)
  match a with
  | ⟨0, _⟩ => show win0_3.index t (0 : Fin 2) * 32 + 1 * r.val = r.val; rw [e0]; omega
  | ⟨1, _⟩ => show win0_3.index t (1 : Fin 2) * 32 + 1 * k.val = k.val; rw [e1]; omega

/-! ## The carried rows, by induction over the points -/

/-- Writing 400 whole rows from row `o` over a 10000 × 32 matrix: the new rows where written, the old elsewhere. -/
theorem overlay_rows_apply {α : Type} (off : Fin 2 → ℕ) (inb : ∀ a, off a + S400x32.size a ≤ S10000x32.size a) (o : ℕ)
    (hoff : off = ![o, 0]) (X : S10000x32.Idx → α) (G : S400x32.Idx → α) (p : Fin 10000) (q : Fin 32) :
    (Rect.unit (s := S10000x32) off S400x32.size inb).overlay X G (ix2 p q)
      = if h : o ≤ p.val ∧ p.val < o + 400 then G (ix2 ⟨p.val - o, by omega⟩ q) else X (ix2 p q) := by
  subst hoff
  by_cases h : o ≤ p.val ∧ p.val < o + 400
  · rw [dif_pos h]
    have he : (Rect.unit (s := S10000x32) ![o, 0] S400x32.size inb).emb (ix2 ⟨p.val - o, by omega⟩ q) = ix2 p q :=
      funext fun a => Fin.ext (by
        match a with
        | ⟨0, _⟩ => show o + 1 * (p.val - o) = p.val; omega
        | ⟨1, _⟩ => show 0 + 1 * q.val = q.val; omega)
    rw [← he, Rect.overlay_emb]
  · rw [dif_neg h]
    refine Rect.overlay_of_not_mem _ _ _ ?_
    rw [Rect.mem_set_unit]
    intro hall
    have h0 : o ≤ p.val ∧ p.val < o + 400 := hall (0 : Fin 2)
    exact h h0

/-- The rows of `relu (adj · (x · W1)) · [W2 | W3]`: what the sweep finishes block by block. -/
def TW (c : Dev nD) : Fin 10000 → Fin 32 → EReal := mm (hidden (adjM V c) (xM V c) (w1M V c)) (w23M V c)

/-- The first carried buffer is `x · W1`. -/
theorem xw1_apply (c : Dev nD) (l : Fin 10000) (k : Fin 32) : xw1 V c (ix2 l k) = mm (xM V c) (w1M V c) l k := by
  unfold xw1
  refine (pay1_apply (iblk0 V c 1 t0) (iblk0 V c 2 t0) l k).trans ?_
  rw [mm_apply]
  exact Finset.sum_congr rfl fun m _ => by rw [xBlock_apply V c t0 l m, w1Block_apply V c t0 m k]

/-- The rows a point finishes are its block of `TW`. -/
theorem pay4_block (c : Dev nD) (t : Fin cfg0.N) (r : Fin 400) (q : Fin 32) :
    k0_pay4 (F := Ideal) (iblk0 V c 0 t) (xw1 V c) (iblk0 V c 3 t) (ix2 r q)
      = TW V c ⟨(24 - t.val) * 400 + r.val, by have := lt25 t; omega⟩ q := by
  refine (pay4_apply (iblk0 V c 0 t) (xw1 V c) (iblk0 V c 3 t) r q).trans ?_
  unfold TW; rw [mm_apply]
  refine Finset.sum_congr rfl fun k _ => ?_
  rw [w23Block_apply V c t k q]
  refine congrArg (· * w23M V c k q) ?_
  show max _ 0 = max (mm (adjM V c) (mm (xM V c) (w1M V c)) _ k) 0
  refine congrArg (max · 0) ?_
  rw [mm_apply]
  exact Finset.sum_congr rfl fun l _ => by rw [adjBlock_apply V c t r l, xw1_apply V c l k]

/-- Before point `n` the carried buffer holds the finished rows — those of the blocks after block `24 - n` —
    and zeros elsewhere. -/
theorem rowsAt_apply (c : Dev nD) : ∀ (n : ℕ), n ≤ 25 → ∀ (p : Fin 10000) (q : Fin 32),
    rowsAt V c n (ix2 p q) = if (25 - n) * 400 ≤ p.val then TW V c p q else 0
  | 0, _, p, q => by
    rw [show rowsAt V c 0 = k0_pay2 (F := Ideal) from rfl, pay2_apply, if_neg (by have := p.isLt; omega)]
  | n + 1, hn, p, q => by
    have hN : n < cfg0.N := by rw [show cfg0.N = 25 from N_0]; omega
    have ih := rowsAt_apply c n (by omega) p q
    obtain ⟨-, -, -, -, -, -, -, -, -, -, -, -, ec⟩ := idx_facts ⟨n, hN⟩
    have hoff : k0_off1 (grid0.coords ⟨n, hN⟩) = ![9600 - 400 * n, 0] := by rw [k0_off1_eq, ec]
    rw [show n + 1 = (⟨n, hN⟩ : Fin cfg0.N).val + 1 from rfl, rowsAt_succ V c ⟨n, hN⟩,
      overlay_rows_apply _ _ (9600 - 400 * n) hoff]
    by_cases h : 9600 - 400 * n ≤ p.val ∧ p.val < 9600 - 400 * n + 400
    · rw [dif_pos h, pay5_eq, pay4_block V c ⟨n, hN⟩, if_pos (by show (25 - (n + 1)) * 400 ≤ p.val; omega)]
      exact congrArg (TW V c · q) (Fin.ext (by show (24 - n) * 400 + (p.val - (9600 - 400 * n)) = p.val; omega))
    · rw [dif_neg h, ih]
      by_cases h2 : (25 - n) * 400 ≤ p.val
      · rw [if_pos h2, if_pos (by show (25 - (n + 1)) * 400 ≤ p.val; omega)]
      · rw [if_neg h2, if_neg (by show ¬ (25 - (n + 1)) * 400 ≤ p.val; omega)]

/-! ## The two output arrays after the region -/

/-- What the finished-rows array ends holding: `TW`, entry by entry. -/
def twArr (c : Dev nD) : Buf (Elt Ideal) ((c : Thread nD τ).loc main_v1_0) :=
  fun i => TW V c ⟨(i 0).val, (i 0).isLt⟩ ⟨(i 1).val, (i 1).isLt⟩

/-- What the partial-product array ends holding: row `R` of the adjacency matrix times the rows of `TW` past the
    end of `R`'s block. -/
def mvFun (c : Dev nD) : S10000x32.Idx → EReal :=
  fun i => ∑ j : Fin 10000, adjM V c ⟨(i 0).val, (i 0).isLt⟩ j
    * (if ((i 0).val / 400 + 1) * 400 ≤ j.val then TW V c j ⟨(i 1).val, (i 1).isLt⟩ else 0)
def mvArr (c : Dev nD) : Buf (Elt Ideal) ((c : Thread nD τ).loc main_v1_1) := mvFun V c

/-- What point `t` writes back to the finished-rows array is block `24 - t` of `twArr`. -/
theorem flushed4_eq (c : Dev nD) (t : Fin cfg0.N) :
    (dat0 V c).flushed 4 t = ((cfg0.win 4).blk t).view.read (Elt Ideal) (twArr V c) := by
  show (cfg0.win 4).cut (grid0.coords t) ((dat0 V c).after 4 t) = _
  rw [after0_4]
  obtain ⟨-, -, -, -, -, -, -, -, e0, e1, -⟩ := idx_facts t
  have ht := lt25 t
  funext j
  obtain ⟨p, q, rfl⟩ : ∃ (p : Fin 400) (q : Fin 32), j = ix2 p q := ⟨j 0, j 1, eq_ix2 j⟩
  show twBlock V c t (ix2 p q) = twArr V c (((cfg0.win 4).blk t).view.emb (ix2 p q))
  unfold twBlock twArr
  rw [pay4_block V c t p q]
  refine congrArg₂ (TW V c) (Fin.ext ?_) (Fin.ext ?_)
  · show (24 - t.val) * 400 + p.val = win0_4.index t (0 : Fin 2) * 400 + 1 * p.val
    rw [e0]; omega
  · show q.val = win0_4.index t (1 : Fin 2) * 32 + 1 * q.val
    rw [e1]; omega

/-- What point `t` writes back to the partial-product array is block `24 - t` of `mvArr`. -/
theorem flushed5_eq (c : Dev nD) (t : Fin cfg0.N) :
    (dat0 V c).flushed 5 t = ((cfg0.win 5).blk t).view.read (Elt Ideal) (mvArr V c) := by
  show (cfg0.win 5).cut (grid0.coords t) ((dat0 V c).after 5 t) = _
  rw [after0_5]
  obtain ⟨-, -, -, -, -, -, -, -, -, -, e0, e1, -⟩ := idx_facts t
  have ht := lt25 t
  funext j
  obtain ⟨p, q, rfl⟩ : ∃ (p : Fin 400) (q : Fin 32), j = ix2 p q := ⟨j 0, j 1, eq_ix2 j⟩
  show k0_pay3 (F := Ideal) (iblk0 V c 0 t) (rowsAt V c t.val) (ix2 p q) = mvArr V c (((cfg0.win 5).blk t).view.emb (ix2 p q))
  refine (pay3_apply (iblk0 V c 0 t) (rowsAt V c t.val) p q).trans ?_
  unfold mvArr mvFun
  have hr : ((((cfg0.win 5).blk t).view.emb (ix2 p q)) 0).val = (24 - t.val) * 400 + p.val := by
    show win0_5.index t (0 : Fin 2) * 400 + 1 * p.val = _
    rw [e0]; omega
  have hq : ((((cfg0.win 5).blk t).view.emb (ix2 p q)) 1).val = q.val := by
    show win0_5.index t (1 : Fin 2) * 32 + 1 * q.val = _
    rw [e1]; omega
  refine Finset.sum_congr rfl fun k _ => ?_
  rw [adjBlock_apply V c t p k, rowsAt_apply V c t.val (by omega) k q]
  refine congrArg₂ (· * ·) (congrArg (adjM V c · k) (Fin.ext hr.symm)) ?_
  have hcol : (⟨q.val, q.isLt⟩ : Fin 32) = ⟨((((cfg0.win 5).blk t).view.emb (ix2 p q)) 1).val, ((((cfg0.win 5).blk t).view.emb (ix2 p q)) 1).isLt⟩ :=
    Fin.ext hq.symm
  by_cases h : (25 - t.val) * 400 ≤ k.val
  · rw [if_pos h, if_pos (by rw [hr]; omega)]
    exact congrArg (TW V c k) hcol
  · rw [if_neg h, if_neg (by rw [hr]; omega)]

/-- An index of a 10000 × 32 output array is in point `t`'s block iff its row is in the block's rows. -/
theorem mem_blk4 (t : Fin cfg0.N) (i : S10000x32.Idx) :
    i ∈ ((cfg0.win 4).blk t).view.set ↔ ∀ a : Fin 2, win0_4.index t a * S400x32.size a ≤ (i a).val ∧ (i a).val < win0_4.index t a * S400x32.size a + S400x32.size a := by
  show i ∈ ((View.whole main_v1_0).slice (win0_4.rect t)).set ↔ _
  rw [View.set_slice_whole, Rect.mem_set_unit]
  exact Iff.rfl
theorem mem_blk5 (t : Fin cfg0.N) (i : S10000x32.Idx) :
    i ∈ ((cfg0.win 5).blk t).view.set ↔ ∀ a : Fin 2, win0_5.index t a * S400x32.size a ≤ (i a).val ∧ (i a).val < win0_5.index t a * S400x32.size a + S400x32.size a := by
  show i ∈ ((View.whole main_v1_1).slice (win0_5.rect t)).set ↔ _
  rw [View.set_slice_whole, Rect.mem_set_unit]
  exact Iff.rfl

/-- The point that writes row `r`: the one visiting block `r / 400`. -/
def pointOf (r : ℕ) (hr : r < 10000) : Fin cfg0.N := ⟨24 - r / 400, by rw [show cfg0.N = 25 from N_0]; omega⟩

theorem cover4 (i : S10000x32.Idx) : ∃ t : Fin cfg0.N, (cfg0.win 4).flush t = true ∧ i ∈ ((cfg0.win 4).blk t).view.set := by
  have hi0 : (i 0).val < 10000 := (i 0).isLt
  have hi1 : (i 1).val < 32 := (i 1).isLt
  refine ⟨pointOf (i 0).val hi0, flush0_4 _, ?_⟩
  obtain ⟨-, -, -, -, -, -, -, -, e0, e1, -⟩ := idx_facts (pointOf (i 0).val hi0)
  have hv : (pointOf (i 0).val hi0).val = 24 - (i 0).val / 400 := rfl
  rw [mem_blk4]
  intro a
  match a with
  | ⟨0, _⟩ =>
    show win0_4.index (pointOf (i 0).val hi0) (0 : Fin 2) * 400 ≤ (i 0).val ∧ (i 0).val < win0_4.index (pointOf (i 0).val hi0) (0 : Fin 2) * 400 + 400
    rw [e0, hv]; omega
  | ⟨1, _⟩ =>
    show win0_4.index (pointOf (i 0).val hi0) (1 : Fin 2) * 32 ≤ (i 1).val ∧ (i 1).val < win0_4.index (pointOf (i 0).val hi0) (1 : Fin 2) * 32 + 32
    rw [e1]; omega

theorem cover5 (i : S10000x32.Idx) : ∃ t : Fin cfg0.N, (cfg0.win 5).flush t = true ∧ i ∈ ((cfg0.win 5).blk t).view.set := by
  have hi0 : (i 0).val < 10000 := (i 0).isLt
  have hi1 : (i 1).val < 32 := (i 1).isLt
  refine ⟨pointOf (i 0).val hi0, flush0_5 _, ?_⟩
  obtain ⟨-, -, -, -, -, -, -, -, -, -, e0, e1, -⟩ := idx_facts (pointOf (i 0).val hi0)
  have hv : (pointOf (i 0).val hi0).val = 24 - (i 0).val / 400 := rfl
  rw [mem_blk5]
  intro a
  match a with
  | ⟨0, _⟩ =>
    show win0_5.index (pointOf (i 0).val hi0) (0 : Fin 2) * 400 ≤ (i 0).val ∧ (i 0).val < win0_5.index (pointOf (i 0).val hi0) (0 : Fin 2) * 400 + 400
    rw [e0, hv]; omega
  | ⟨1, _⟩ =>
    show win0_5.index (pointOf (i 0).val hi0) (1 : Fin 2) * 32 ≤ (i 1).val ∧ (i 1).val < win0_5.index (pointOf (i 0).val hi0) (1 : Fin 2) * 32 + 32
    rw [e1]; omega

/-- THE FINISHED-ROWS ARRAY after the region: `relu (adj · (x · W1)) · [W2 | W3]`, entry by entry. -/
theorem tw_array (c : Dev nD) (i : S10000x32.Idx) :
    (dat0 V c).arrAt 4 cfg0.N i
      = mm (hidden (adjM V c) (xM V c) (w1M V c)) (w23M V c) ⟨(i 0).val, (i 0).isLt⟩ ⟨(i 1).val, (i 1).isLt⟩ :=
  congrFun ((dat0 V c).arrAt_eq_of_cover 4 (twArr V c) (fun t _ => flushed4_eq V c t) (cover4)) i

/-- THE PARTIAL-PRODUCT ARRAY after the region: row `R` of the adjacency matrix times the rows of the finished
    product past the end of `R`'s block of 400 rows. -/
theorem mv_array (c : Dev nD) (i : S10000x32.Idx) :
    (dat0 V c).arrAt 5 cfg0.N i
      = ∑ j : Fin 10000, adjM V c ⟨(i 0).val, (i 0).isLt⟩ j
          * (if ((i 0).val / 400 + 1) * 400 ≤ j.val then
              mm (hidden (adjM V c) (xM V c) (w1M V c)) (w23M V c) j ⟨(i 1).val, (i 1).isLt⟩ else 0) :=
  congrFun ((dat0 V c).arrAt_eq_of_cover 5 (mvArr V c) (fun t _ => flushed5_eq V c t) (cover5)) i

end Cert.KernelIdeal.SweepValue

end
-- ==== Proof.SpecLaws.lean ====
/-
  The kernel's arrangement of the specification's sums.

  Two facts. First, multiplying the hidden layer by the two weight matrices placed side by side gives the two
  products side by side. Second, a row of the product `adj · t` is a sum over all rows `j` of `t`; for a row `i`
  in the row block `i / 400`, that sum is the part over the rows `j` above the block's end `(i / 400 + 1) * 400`
  plus the part over the rows below that end, and the second part may be taken over any prefix of the rows that
  reaches the block's end. Nothing but commutativity and associativity of the sum and `a * 0 = 0` is used, so no
  finiteness of the entries is needed.
-/
import proofs.«162566_g43224550868076_cont_8to1_b_1602_24_alg».proof.Proof.Spec
import Mathlib.Algebra.BigOperators.Fin
import Mathlib.Data.Fin.Embedding
import Mathlib.Data.EReal.Operations

noncomputable section

open scoped BigOperators

namespace Cert.Spec

/-! ## A sum over a prefix of the index set -/

/-- A sum over `Fin m` of a function that vanishes from `n` on is the sum over the first `n` indices. -/
theorem sum_prefix {M : Type} [AddCommMonoid M] {n m : Nat} (h : n ≤ m) (f : Fin m → M)
    (hz : ∀ j : Fin m, n ≤ j.val → f j = 0) : ∑ j : Fin n, f (Fin.castLE h j) = ∑ j : Fin m, f j := by
  rw [← Finset.sum_subset (Finset.subset_univ (Finset.univ.map (Fin.castLEEmb h)))]
  · rw [Finset.sum_map]
    rfl
  · intro j _ hj
    refine hz j (Nat.le_of_not_lt fun hlt => hj ?_)
    rw [Finset.mem_map]
    exact ⟨⟨j.val, hlt⟩, Finset.mem_univ _, Fin.ext rfl⟩

/-! ## The two weight matrices side by side -/

/-- `[w2 | w3]`: column `c` is `w2`'s column `c` for `c < 16`, else `w3`'s column `c - 16`. -/
def sideBySide (w2 w3 : Fin 32 → Fin 16 → EReal) : Fin 32 → Fin 32 → EReal :=
  fun k c => if h : c.val < 16 then w2 k ⟨c.val, h⟩ else w3 k ⟨c.val - 16, by have := c.isLt; omega⟩

theorem sideBySide_of_lt (w2 w3 : Fin 32 → Fin 16 → EReal) (k c : Fin 32) (h : c.val < 16) :
    sideBySide w2 w3 k c = w2 k ⟨c.val, h⟩ := dif_pos h

theorem sideBySide_of_le (w2 w3 : Fin 32 → Fin 16 → EReal) (k c : Fin 32) (h : 16 ≤ c.val) :
    sideBySide w2 w3 k c = w3 k ⟨c.val - 16, by have := c.isLt; omega⟩ := dif_neg (Nat.not_lt.2 h)

/-- The hidden layer times `[w2 | w3]`: both heads' inner products at once. -/
def both (adj : Fin 10000 → Fin 10000 → EReal) (x : Fin 10000 → Fin 128 → EReal) (w1 : Fin 128 → Fin 32 → EReal)
    (w2 w3 : Fin 32 → Fin 16 → EReal) : Fin 10000 → Fin 32 → EReal :=
  mm (hidden adj x w1) (sideBySide w2 w3)

/-- A column of `both` in the left half is the column of `hidden · w2`. -/
theorem both_of_lt (adj : Fin 10000 → Fin 10000 → EReal) (x : Fin 10000 → Fin 128 → EReal) (w1 : Fin 128 → Fin 32 → EReal)
    (w2 w3 : Fin 32 → Fin 16 → EReal) (i : Fin 10000) (c : Fin 32) (h : c.val < 16) :
    both adj x w1 w2 w3 i c = mm (hidden adj x w1) w2 i ⟨c.val, h⟩ := by
  unfold both
  rw [mm_apply, mm_apply]
  exact Finset.sum_congr rfl fun k _ => by rw [sideBySide_of_lt w2 w3 k c h]

/-- A column of `both` in the right half is the column of `hidden · w3`. -/
theorem both_of_le (adj : Fin 10000 → Fin 10000 → EReal) (x : Fin 10000 → Fin 128 → EReal) (w1 : Fin 128 → Fin 32 → EReal)
    (w2 w3 : Fin 32 → Fin 16 → EReal) (i : Fin 10000) (c : Fin 32) (h : 16 ≤ c.val) :
    both adj x w1 w2 w3 i c = mm (hidden adj x w1) w3 i ⟨c.val - 16, by have := c.isLt; omega⟩ := by
  unfold both
  rw [mm_apply, mm_apply]
  exact Finset.sum_congr rfl fun k _ => by rw [sideBySide_of_le w2 w3 k c h]

theorem both_left (adj : Fin 10000 → Fin 10000 → EReal) (x : Fin 10000 → Fin 128 → EReal) (w1 : Fin 128 → Fin 32 → EReal)
    (w2 w3 : Fin 32 → Fin 16 → EReal) (i : Fin 10000) (c : Fin 16) :
    both adj x w1 w2 w3 i ⟨c.val, Nat.lt_of_lt_of_le c.isLt (by decide)⟩ = mm (hidden adj x w1) w2 i c :=
  both_of_lt adj x w1 w2 w3 i _ c.isLt

theorem both_right (adj : Fin 10000 → Fin 10000 → EReal) (x : Fin 10000 → Fin 128 → EReal) (w1 : Fin 128 → Fin 32 → EReal)
    (w2 w3 : Fin 32 → Fin 16 → EReal) (i : Fin 10000) (c : Fin 16) :
    both adj x w1 w2 w3 i ⟨c.val + 16, Nat.add_lt_add_right c.isLt 16⟩ = mm (hidden adj x w1) w3 i c := by
  rw [both_of_le adj x w1 w2 w3 i _ (Nat.le_add_left 16 c.val)]
  exact congrArg (mm (hidden adj x w1) w3 i) (Fin.ext (Nat.add_sub_cancel (n := c.val) (m := 16)))

/-! ## A row of `adj · t`, split at the end of the row's block -/

/-- The part of row `i` of `adj · t` over the rows `j` of `t` at or past the end `(i / 400 + 1) * 400` of the
    block of 400 rows that holds `i`. -/
def above (adj : Fin 10000 → Fin 10000 → EReal) (t : Fin 10000 → Fin 32 → EReal) : Fin 10000 → Fin 32 → EReal :=
  fun i c => ∑ j : Fin 10000, adj i j * (if (i.val / 400 + 1) * 400 ≤ j.val then t j c else 0)

theorem above_apply (adj : Fin 10000 → Fin 10000 → EReal) (t : Fin 10000 → Fin 32 → EReal) (i : Fin 10000) (c : Fin 32) :
    above adj t i c = ∑ j : Fin 10000, adj i j * (if (i.val / 400 + 1) * 400 ≤ j.val then t j c else 0) := rfl

/-- The split over the whole index set: the rows at or past the block's end, plus the rows before it. -/
theorem split_full (adj : Fin 10000 → Fin 10000 → EReal) (t : Fin 10000 → Fin 32 → EReal) (i : Fin 10000) (c : Fin 32) :
    above adj t i c + ∑ j : Fin 10000, adj i j * (if j.val < (i.val / 400 + 1) * 400 then t j c else 0) = mm adj t i c := by
  rw [above_apply, mm_apply, ← Finset.sum_add_distrib]
  refine Finset.sum_congr rfl fun j _ => ?_
  by_cases h : (i.val / 400 + 1) * 400 ≤ j.val
  · rw [if_pos h, if_neg (Nat.not_lt.2 h), mul_zero, add_zero]
  · rw [if_neg h, if_pos (Nat.lt_of_not_le h), mul_zero, zero_add]

/-- The split with the second part over a prefix of `width` rows that reaches the block's end. -/
theorem split (adj : Fin 10000 → Fin 10000 → EReal) (t : Fin 10000 → Fin 32 → EReal) (i : Fin 10000) (c : Fin 32)
    (width : Nat) (hlo : (i.val / 400 + 1) * 400 ≤ width) (hhi : width ≤ 10000) :
    above adj t i c
      + ∑ j : Fin width, adj i (Fin.castLE hhi j) * (if j.val < (i.val / 400 + 1) * 400 then t (Fin.castLE hhi j) c else 0)
      = mm adj t i c := by
  rw [← split_full adj t i c]
  congr 1
  refine sum_prefix hhi (fun j : Fin 10000 => adj i j * (if j.val < (i.val / 400 + 1) * 400 then t j c else 0)) fun j hj => ?_
  show adj i j * (if j.val < (i.val / 400 + 1) * 400 then t j c else 0) = 0
  rw [if_neg (Nat.not_lt.2 (Nat.le_trans hlo hj)), mul_zero]

/-- The split for the mean: the left half of `both`. -/
theorem split_mean (adj : Fin 10000 → Fin 10000 → EReal) (x : Fin 10000 → Fin 128 → EReal) (w1 : Fin 128 → Fin 32 → EReal)
    (w2 w3 : Fin 32 → Fin 16 → EReal) (i : Fin 10000) (c : Fin 16)
    (width : Nat) (hlo : (i.val / 400 + 1) * 400 ≤ width) (hhi : width ≤ 10000) :
    above adj (both adj x w1 w2 w3) i ⟨c.val, Nat.lt_of_lt_of_le c.isLt (by decide)⟩
      + ∑ j : Fin width, adj i (Fin.castLE hhi j)
          * (if j.val < (i.val / 400 + 1) * 400 then
              both adj x w1 w2 w3 (Fin.castLE hhi j) ⟨c.val, Nat.lt_of_lt_of_le c.isLt (by decide)⟩ else 0)
      = head adj x w1 w2 i c := by
  rw [split adj (both adj x w1 w2 w3) i _ width hlo hhi]
  unfold head
  rw [mm_apply, mm_apply]
  exact Finset.sum_congr rfl fun j _ => by rw [both_left]

/-- The split for the log-variance: the right half of `both`. -/
theorem split_logvar (adj : Fin 10000 → Fin 10000 → EReal) (x : Fin 10000 → Fin 128 → EReal) (w1 : Fin 128 → Fin 32 → EReal)
    (w2 w3 : Fin 32 → Fin 16 → EReal) (i : Fin 10000) (c : Fin 16)
    (width : Nat) (hlo : (i.val / 400 + 1) * 400 ≤ width) (hhi : width ≤ 10000) :
    above adj (both adj x w1 w2 w3) i ⟨c.val + 16, Nat.add_lt_add_right c.isLt 16⟩
      + ∑ j : Fin width, adj i (Fin.castLE hhi j)
          * (if j.val < (i.val / 400 + 1) * 400 then
              both adj x w1 w2 w3 (Fin.castLE hhi j) ⟨c.val + 16, Nat.add_lt_add_right c.isLt 16⟩ else 0)
      = head adj x w1 w3 i c := by
  rw [split adj (both adj x w1 w2 w3) i _ width hlo hhi]
  unfold head
  rw [mm_apply, mm_apply]
  exact Finset.sum_congr rfl fun j _ => by rw [both_right]

end Cert.Spec

end
-- ==== Proof.HostLayout.lean ====
/-
  The kernel program's host operations, read at an index.

  The two weight matrices are placed side by side along the columns; four row bands
  (2400, 2400, 2400 and 2800 rows) are stacked along the rows into the 10000-row result; the mean
  is transposed for the decoder. Each is read at the coordinates of an index: which piece holds the coordinate
  along the joined axis, and where in that piece.
-/
import proofs.«162566_g43224550868076_cont_8to1_b_1602_24_alg».proof.KernelIdeal
import proofs.«162566_g43224550868076_cont_8to1_b_1602_24_alg».proof.Proof.Spec
import proofs.«162566_g43224550868076_cont_8to1_b_1602_24_alg».proof.Proof.SpecLaws
import Idealize.ShloMosaic.Lib.Pipeline.Value
import Idealize.ShloMosaic.Lib.ValueIdx

noncomputable section

namespace Cert.Layout

open Cert.KernelIdeal
open Idealize.ShloMosaic Idealize.ShloMosaic.ValueIdx

variable {α : Type}

/-! ## Two matrices of 16 columns side by side -/

/-- A column in the left half reads the first matrix. -/
theorem sideBySide_left (a b : S32x16.Idx → α) (h : Shape.Concatenates [S32x16, S32x16] S32x32 1)
    (k c : Fin 32) (hc : c.val < 16) :
    concatenate S32x32 1 [⟨S32x16, a⟩, ⟨S32x16, b⟩] h (ix2 k c) = a (ix2 k ⟨c.val, hc⟩) := by
  refine concatenate_pair_apply_left (1 : Fin S32x32.rank) a b h (ix2 k c) rfl (ix2 k ⟨c.val, hc⟩) fun d => ?_
  match d with
  | ⟨0, _⟩ => rfl
  | ⟨1, _⟩ => rfl

/-- A column in the right half reads the second matrix, sixteen columns to the left. -/
theorem sideBySide_right (a b : S32x16.Idx → α) (h : Shape.Concatenates [S32x16, S32x16] S32x32 1)
    (k c : Fin 32) (hc : 16 ≤ c.val) :
    concatenate S32x32 1 [⟨S32x16, a⟩, ⟨S32x16, b⟩] h (ix2 k c)
      = b (ix2 k ⟨c.val - 16, by have := c.isLt; omega⟩) := by
  refine concatenate_pair_apply_right (1 : Fin S32x32.rank) a b h (ix2 k c) rfl rfl
    (ix2 k ⟨c.val - 16, by have := c.isLt; omega⟩) (fun d hd => ?_) ?_
  · match d, hd with
    | ⟨0, _⟩, _ => rfl
    | ⟨1, _⟩, hd => exact absurd rfl hd
  · show c.val - 16 + 16 = c.val
    omega

/-- Read as functions of row and column, the joined matrix is the specification's `sideBySide`. -/
theorem arr2_sideBySide (a b : S32x16.Idx → EReal) (h : Shape.Concatenates [S32x16, S32x16] S32x32 1) :
    Cert.Spec.arr2 (concatenate S32x32 1 [⟨S32x16, a⟩, ⟨S32x16, b⟩] h)
      = Cert.Spec.sideBySide (Cert.Spec.arr2 a) (Cert.Spec.arr2 b) := by
  funext k c
  rw [Cert.Spec.arr2_apply]
  by_cases hc : c.val < 16
  · rw [sideBySide_left a b h k c hc, Cert.Spec.sideBySide_of_lt _ _ k c hc]
    rfl
  · rw [sideBySide_right a b h k c (Nat.le_of_not_lt hc), Cert.Spec.sideBySide_of_le _ _ k c (Nat.le_of_not_lt hc)]
    rfl

/-! ## Four row bands stacked -/

/-- Rows below 2400 read the first band. -/
theorem stacked_band0 (u0 u1 u2 : S2400x16.Idx → α) (u3 : S2800x16.Idx → α)
    (h : Shape.Concatenates [S2400x16, S2400x16, S2400x16, S2800x16] S10000x16 0)
    (r : Fin 10000) (c : Fin 16) (hr : r.val < 2400) :
    concatenate S10000x16 0 [⟨S2400x16, u0⟩, ⟨S2400x16, u1⟩, ⟨S2400x16, u2⟩, ⟨S2800x16, u3⟩] h (ix2 r c)
      = u0 (ix2 ⟨r.val, hr⟩ c) := by
  refine concatenate_apply_piece (0 : Fin S10000x16.rank) [⟨S2400x16, u0⟩, ⟨S2400x16, u1⟩, ⟨S2400x16, u2⟩, ⟨S2800x16, u3⟩] h (ix2 r c) 0
    (show 0 < 4 by decide) S2400x16 u0 rfl rfl 0 rfl
    (ix2 ⟨r.val, hr⟩ c) (fun d hd => ?_) ?_
  · match d, hd with
    | ⟨0, _⟩, hd => exact absurd rfl hd
    | ⟨1, _⟩, _ => rfl
  · show 0 + r.val = r.val
    omega

/-- Rows from 2400 to below 4800 read the second band. -/
theorem stacked_band1 (u0 u1 u2 : S2400x16.Idx → α) (u3 : S2800x16.Idx → α)
    (h : Shape.Concatenates [S2400x16, S2400x16, S2400x16, S2800x16] S10000x16 0)
    (r : Fin 10000) (c : Fin 16) (hlo : 2400 ≤ r.val) (hhi : r.val < 4800) :
    concatenate S10000x16 0 [⟨S2400x16, u0⟩, ⟨S2400x16, u1⟩, ⟨S2400x16, u2⟩, ⟨S2800x16, u3⟩] h (ix2 r c)
      = u1 (ix2 ⟨r.val - 2400, by omega⟩ c) := by
  refine concatenate_apply_piece (0 : Fin S10000x16.rank) [⟨S2400x16, u0⟩, ⟨S2400x16, u1⟩, ⟨S2400x16, u2⟩, ⟨S2800x16, u3⟩] h (ix2 r c) 1
    (show 1 < 4 by decide) S2400x16 u1 rfl rfl 2400 rfl
    (ix2 ⟨r.val - 2400, by omega⟩ c) (fun d hd => ?_) ?_
  · match d, hd with
    | ⟨0, _⟩, hd => exact absurd rfl hd
    | ⟨1, _⟩, _ => rfl
  · show 2400 + (r.val - 2400) = r.val
    omega

/-- Rows from 4800 to below 7200 read the third band. -/
theorem stacked_band2 (u0 u1 u2 : S2400x16.Idx → α) (u3 : S2800x16.Idx → α)
    (h : Shape.Concatenates [S2400x16, S2400x16, S2400x16, S2800x16] S10000x16 0)
    (r : Fin 10000) (c : Fin 16) (hlo : 4800 ≤ r.val) (hhi : r.val < 7200) :
    concatenate S10000x16 0 [⟨S2400x16, u0⟩, ⟨S2400x16, u1⟩, ⟨S2400x16, u2⟩, ⟨S2800x16, u3⟩] h (ix2 r c)
      = u2 (ix2 ⟨r.val - 4800, by omega⟩ c) := by
  refine concatenate_apply_piece (0 : Fin S10000x16.rank) [⟨S2400x16, u0⟩, ⟨S2400x16, u1⟩, ⟨S2400x16, u2⟩, ⟨S2800x16, u3⟩] h (ix2 r c) 2
    (show 2 < 4 by decide) S2400x16 u2 rfl rfl 4800 rfl
    (ix2 ⟨r.val - 4800, by omega⟩ c) (fun d hd => ?_) ?_
  · match d, hd with
    | ⟨0, _⟩, hd => exact absurd rfl hd
    | ⟨1, _⟩, _ => rfl
  · show 4800 + (r.val - 4800) = r.val
    omega

/-- Rows from 7200 on read the fourth band. -/
theorem stacked_band3 (u0 u1 u2 : S2400x16.Idx → α) (u3 : S2800x16.Idx → α)
    (h : Shape.Concatenates [S2400x16, S2400x16, S2400x16, S2800x16] S10000x16 0)
    (r : Fin 10000) (c : Fin 16) (hlo : 7200 ≤ r.val) :
    concatenate S10000x16 0 [⟨S2400x16, u0⟩, ⟨S2400x16, u1⟩, ⟨S2400x16, u2⟩, ⟨S2800x16, u3⟩] h (ix2 r c)
      = u3 (ix2 ⟨r.val - 7200, by have := r.isLt; omega⟩ c) := by
  refine concatenate_apply_piece (0 : Fin S10000x16.rank) [⟨S2400x16, u0⟩, ⟨S2400x16, u1⟩, ⟨S2400x16, u2⟩, ⟨S2800x16, u3⟩] h (ix2 r c) 3
    (show 3 < 4 by decide) S2800x16 u3 rfl rfl 7200 rfl
    (ix2 ⟨r.val - 7200, by have := r.isLt; omega⟩ c) (fun d hd => ?_) ?_
  · match d, hd with
    | ⟨0, _⟩, hd => exact absurd rfl hd
    | ⟨1, _⟩, _ => rfl
  · show 7200 + (r.val - 7200) = r.val
    omega

/-- The stacked array at a row and a column, by the band that holds the row. -/
theorem stacked_apply (u0 u1 u2 : S2400x16.Idx → α) (u3 : S2800x16.Idx → α)
    (h : Shape.Concatenates [S2400x16, S2400x16, S2400x16, S2800x16] S10000x16 0)
    (r : Fin 10000) (c : Fin 16) :
    concatenate S10000x16 0 [⟨S2400x16, u0⟩, ⟨S2400x16, u1⟩, ⟨S2400x16, u2⟩, ⟨S2800x16, u3⟩] h (ix2 r c)
      = if h0 : r.val < 2400 then u0 (ix2 ⟨r.val, h0⟩ c)
        else if h1 : r.val < 4800 then u1 (ix2 ⟨r.val - 2400, by omega⟩ c)
        else if h2 : r.val < 7200 then u2 (ix2 ⟨r.val - 4800, by omega⟩ c)
        else u3 (ix2 ⟨r.val - 7200, by have := r.isLt; omega⟩ c) := by
  by_cases h0 : r.val < 2400
  · rw [dif_pos h0]; exact stacked_band0 u0 u1 u2 u3 h r c h0
  · rw [dif_neg h0]
    by_cases h1 : r.val < 4800
    · rw [dif_pos h1]; exact stacked_band1 u0 u1 u2 u3 h r c (Nat.le_of_not_lt h0) h1
    · rw [dif_neg h1]
      by_cases h2 : r.val < 7200
      · rw [dif_pos h2]; exact stacked_band2 u0 u1 u2 u3 h r c (Nat.le_of_not_lt h1) h2
      · rw [dif_neg h2]; exact stacked_band3 u0 u1 u2 u3 h r c (Nat.le_of_not_lt h2)

/-! ## The transpose -/

/-- The transposed array at `(a, b)` is the array at `(b, a)`. -/
theorem transposed_apply (v : S10000x16.Idx → α) (h : S10000x16.Transposes [1, 0] S16x10000) (a : Fin 16) (b : Fin 10000) :
    transpose S16x10000 [1, 0] v h (ix2 a b) = v (ix2 b a) :=
  transpose_apply [1, 0] v h (ix2 a b) (ix2 b a) fun d => match d with
    | ⟨0, _⟩ => rfl
    | ⟨1, _⟩ => rfl

end Cert.Layout

end
-- ==== Proof.KI.EndValues.lean ====
/-
  The three results of the kernel program at the end of the run, as the specification's functions of the launch arrays.

  The buffers are followed backwards through the boundaries of the run. The decoded matrix is what the decoder leaves: the
  products of the rows of the stacked mean. The stacked mean (and log-variance) is four row bands, one per prefix-panel
  call; an entry of a band in graph row `R` is the sweep's partial product for the rows past the end of `R`'s block of 400
  plus the call's own product over a prefix of the rows that reaches that end, and the two parts together are the whole
  row of `adj · (hidden · W)`. The sweep's two arrays are the products of the hidden layer with the two weight matrices
  side by side, and the part of `adj` times them over the rows past a block's end.
-/
import proofs.«162566_g43224550868076_cont_8to1_b_1602_24_alg».proof.Proof.KI.Ends
import proofs.«162566_g43224550868076_cont_8to1_b_1602_24_alg».proof.Proof.KI.DecoderValue
import proofs.«162566_g43224550868076_cont_8to1_b_1602_24_alg».proof.Proof.KI.Class1Value
import proofs.«162566_g43224550868076_cont_8to1_b_1602_24_alg».proof.Proof.KI.Class2Value
import proofs.«162566_g43224550868076_cont_8to1_b_1602_24_alg».proof.Proof.KI.Class3Value
import proofs.«162566_g43224550868076_cont_8to1_b_1602_24_alg».proof.Proof.KI.Class4Value
import proofs.«162566_g43224550868076_cont_8to1_b_1602_24_alg».proof.Proof.KI.SweepValue
import proofs.«162566_g43224550868076_cont_8to1_b_1602_24_alg».proof.Proof.Spec
import proofs.«162566_g43224550868076_cont_8to1_b_1602_24_alg».proof.Proof.SpecLaws
import proofs.«162566_g43224550868076_cont_8to1_b_1602_24_alg».proof.Proof.HostLayout

set_option maxRecDepth 16384

noncomputable section

open scoped BigOperators

namespace Cert.KernelIdeal.EndValues

open Cert.KernelIdeal Cert.KernelIdeal.Gen Cert.KernelIdeal.Whole Cert.Spec
open Idealize.ShloMosaic Idealize.ShloMosaic.TcCoe Idealize.ShloMosaic.ValueIdx Idealize.SL.Sem

/-! ## The algebra, over plain functions of coordinates -/

/-- An entry of a mean band: the part of the row past the block's end plus the part over a prefix that reaches the
    end is the whole row, whatever names the three arrays arrive under. -/
theorem row_mean (A : Fin 10000 → Fin 10000 → EReal) (X : Fin 10000 → Fin 128 → EReal) (U1 : Fin 128 → Fin 32 → EReal)
    (U2 U3 : Fin 32 → Fin 16 → EReal) {adjV : Fin 10000 → Fin 10000 → EReal} {twV mvV : Fin 10000 → Fin 32 → EReal}
    (hadj : adjV = A) (htw : twV = both A X U1 U2 U3) (hmv : mvV = above A (both A X U1 U2 U3))
    (R : Fin 10000) (q : Fin 16) (col : Fin 32) (hcol : col.val = q.val)
    (width : Nat) (hhi : width ≤ 10000) (hlo : (R.val / 400 + 1) * 400 ≤ width) :
    mvV R col + ∑ j : Fin width, adjV R (Fin.castLE hhi j)
        * (if j.val < (R.val / 400 + 1) * 400 then twV (Fin.castLE hhi j) col else 0)
      = head A X U1 U2 R q := by
  subst hadj htw hmv
  obtain rfl : col = ⟨q.val, Nat.lt_of_lt_of_le q.isLt (by decide)⟩ := Fin.ext hcol
  exact split_mean adjV X U1 U2 U3 R q width hlo hhi

/-- The same for the log-variance: the columns of the right half. -/
theorem row_logvar (A : Fin 10000 → Fin 10000 → EReal) (X : Fin 10000 → Fin 128 → EReal) (U1 : Fin 128 → Fin 32 → EReal)
    (U2 U3 : Fin 32 → Fin 16 → EReal) {adjV : Fin 10000 → Fin 10000 → EReal} {twV mvV : Fin 10000 → Fin 32 → EReal}
    (hadj : adjV = A) (htw : twV = both A X U1 U2 U3) (hmv : mvV = above A (both A X U1 U2 U3))
    (R : Fin 10000) (q : Fin 16) (col : Fin 32) (hcol : col.val = q.val + 16)
    (width : Nat) (hhi : width ≤ 10000) (hlo : (R.val / 400 + 1) * 400 ≤ width) :
    mvV R col + ∑ j : Fin width, adjV R (Fin.castLE hhi j)
        * (if j.val < (R.val / 400 + 1) * 400 then twV (Fin.castLE hhi j) col else 0)
      = head A X U1 U3 R q := by
  subst hadj htw hmv
  obtain rfl : col = ⟨q.val + 16, Nat.add_lt_add_right q.isLt 16⟩ := Fin.ext hcol
  exact split_logvar adjV X U1 U2 U3 R q width hlo hhi

/-- Four row bands that are rows 0–2399, 2400–4799, 4800–7199 and 7200–9999 of one function, stacked, are that
    function. -/
theorem stacked_eq {α : Type} (f : Fin 10000 → Fin 16 → α) (u0 u1 u2 : S2400x16.Idx → α) (u3 : S2800x16.Idx → α)
    (h0 : ∀ (p : Fin 2400) (q : Fin 16), u0 (ix2 p q) = f ⟨p.val, by have := p.isLt; omega⟩ q)
    (h1 : ∀ (p : Fin 2400) (q : Fin 16), u1 (ix2 p q) = f ⟨2400 + p.val, by have := p.isLt; omega⟩ q)
    (h2 : ∀ (p : Fin 2400) (q : Fin 16), u2 (ix2 p q) = f ⟨4800 + p.val, by have := p.isLt; omega⟩ q)
    (h3 : ∀ (p : Fin 2800) (q : Fin 16), u3 (ix2 p q) = f ⟨7200 + p.val, by have := p.isLt; omega⟩ q)
    (h : Shape.Concatenates [S2400x16, S2400x16, S2400x16, S2800x16] S10000x16 0) :
    concatenate S10000x16 0 [⟨S2400x16, u0⟩, ⟨S2400x16, u1⟩, ⟨S2400x16, u2⟩, ⟨S2800x16, u3⟩] h
      = fun i => f (i 0) (i 1) := by
  funext i
  obtain ⟨r, q, rfl⟩ : ∃ (r : Fin 10000) (q : Fin 16), i = ix2 r q := ⟨i 0, i 1, eq_ix2 i⟩
  show _ = f r q
  by_cases b0 : r.val < 2400
  · rw [Cert.Layout.stacked_band0 u0 u1 u2 u3 h r q b0, h0]
  · by_cases b1 : r.val < 4800
    · rw [Cert.Layout.stacked_band1 u0 u1 u2 u3 h r q (Nat.le_of_not_lt b0) b1, h1]
      exact congrArg (fun z => f z q) (Fin.ext (by show 2400 + (r.val - 2400) = r.val; omega))
    · by_cases b2 : r.val < 7200
      · rw [Cert.Layout.stacked_band2 u0 u1 u2 u3 h r q (Nat.le_of_not_lt b1) b2, h2]
        exact congrArg (fun z => f z q) (Fin.ext (by show 4800 + (r.val - 4800) = r.val; omega))
      · rw [Cert.Layout.stacked_band3 u0 u1 u2 u3 h r q (Nat.le_of_not_lt b2), h3]
        exact congrArg (fun z => f z q) (Fin.ext (by show 7200 + (r.val - 7200) = r.val; omega))

/-- The decoder's sum, once the transposed array is the transpose of the mean and the mean is `f`: the inner product
    of two rows of `f`. -/
theorem inner_eq (mean : S10000x16.Idx → EReal) (meanT : S16x10000.Idx → EReal) (f : Fin 10000 → Fin 16 → EReal)
    (hmean : ∀ (r : Fin 10000) (k : Fin 16), mean (ix2 r k) = f r k)
    (hT : ∀ (k : Fin 16) (r : Fin 10000), meanT (ix2 k r) = mean (ix2 r k)) (r s : Fin 10000) :
    ∑ k : Fin 16, arr2 mean r k * arr2 meanT k s = ∑ k : Fin 16, f r k * f s k :=
  Finset.sum_congr rfl fun k _ => by rw [arr2_apply, arr2_apply, hT, hmean, hmean]

/-! ## The launch arrays as functions of coordinates -/

variable (m : (ℓ : Loc nD τ sig) → Buf (Elt Ideal) ℓ)

abbrev xs (c : Dev nD) : Fin 10000 → Fin 128 → EReal := arr2 (a := 10000) (b := 128) (m ((c : Thread nD τ).loc main_arg0))
abbrev adj (c : Dev nD) : Fin 10000 → Fin 10000 → EReal := arr2 (a := 10000) (b := 10000) (m ((c : Thread nD τ).loc main_arg1))
abbrev w1 (c : Dev nD) : Fin 128 → Fin 32 → EReal := arr2 (a := 128) (b := 32) (m ((c : Thread nD τ).loc main_arg2))
abbrev w2 (c : Dev nD) : Fin 32 → Fin 16 → EReal := arr2 (a := 32) (b := 16) (m ((c : Thread nD τ).loc main_arg3))
abbrev w3 (c : Dev nD) : Fin 32 → Fin 16 → EReal := arr2 (a := 32) (b := 16) (m ((c : Thread nD τ).loc main_arg4))

/-! ## What the sweep is entered with and what it leaves -/

theorem xs_at1 (c : Dev nD) : arr2 (a := 10000) (b := 128) (Run.V1 m c main_arg0) = xs m c :=
  congrArg (arr2 (a := 10000) (b := 128)) (host1_main_arg0 m c)
theorem adj_at1 (c : Dev nD) : arr2 (a := 10000) (b := 10000) (Run.V1 m c main_arg1) = adj m c :=
  congrArg (arr2 (a := 10000) (b := 10000)) (host1_main_arg1 m c)
theorem w1_at1 (c : Dev nD) : arr2 (a := 128) (b := 32) (Run.V1 m c main_arg2) = w1 m c :=
  congrArg (arr2 (a := 128) (b := 32)) (host1_main_arg2 m c)
/-- The sweep finds the two weight matrices side by side. -/
theorem w23_at1 (c : Dev nD) : arr2 (a := 32) (b := 32) (Run.V1 m c main_v0) = sideBySide (w2 m c) (w3 m c) :=
  (congrArg (arr2 (a := 32) (b := 32)) (entry_v0 m c)).trans (Cert.Layout.arr2_sideBySide _ _ _)

/-- What the sweep leaves in its two output arrays, over the contents it is entered with: the hidden layer times the
    two weight matrices side by side, and for each row the part of `adj` times that product over the rows past the end
    of the row's block. -/
def SweepLeaves : Prop := ∀ c : Dev nD,
  (∀ i : S10000x32.Idx, (Sweep.dat0 (Run.V1 m) c).arrAt 4 cfg0.N i
      = mm (hidden (arr2 (a := 10000) (b := 10000) (Run.V1 m c main_arg1)) (arr2 (a := 10000) (b := 128) (Run.V1 m c main_arg0)) (arr2 (a := 128) (b := 32) (Run.V1 m c main_arg2))) (arr2 (a := 32) (b := 32) (Run.V1 m c main_v0)) (i 0) (i 1))
  ∧ (∀ i : S10000x32.Idx, (Sweep.dat0 (Run.V1 m) c).arrAt 5 cfg0.N i
      = above (arr2 (a := 10000) (b := 10000) (Run.V1 m c main_arg1)) (mm (hidden (arr2 (a := 10000) (b := 10000) (Run.V1 m c main_arg1)) (arr2 (a := 10000) (b := 128) (Run.V1 m c main_arg0)) (arr2 (a := 128) (b := 32) (Run.V1 m c main_arg2))) (arr2 (a := 32) (b := 32) (Run.V1 m c main_v0))) (i 0) (i 1))

/-- The sweep's first output array: the hidden layer times the two weight matrices side by side. -/
theorem tw_B2 (hs : SweepLeaves m) (c : Dev nD) (r : Fin 10000) (q : Fin 32) :
    (B2 m c (Proc.devRef .tc main_v1_0) : S10000x32.Idx → EReal) (ix2 r q)
      = both (adj m c) (xs m c) (w1 m c) (w2 m c) (w3 m c) r q := by
  rw [sweep_v1_0, (hs c).1 (ix2 r q), adj_at1, xs_at1, w1_at1, w23_at1]
  rfl

/-- The sweep's second output array: for each row, the part of `adj` times the first array over the rows past the end
    of the row's block. -/
theorem mv_B2 (hs : SweepLeaves m) (c : Dev nD) (r : Fin 10000) (q : Fin 32) :
    (B2 m c (Proc.devRef .tc main_v1_1) : S10000x32.Idx → EReal) (ix2 r q)
      = above (adj m c) (both (adj m c) (xs m c) (w1 m c) (w2 m c) (w3 m c)) r q := by
  rw [sweep_v1_1, (hs c).2 (ix2 r q), adj_at1, xs_at1, w1_at1, w23_at1]
  rfl

/-! ## What each prefix-panel call is entered with -/

theorem adj_at2 (c : Dev nD) : arr2 (a := 10000) (b := 10000) (Run.V2 half0 m c main_arg1) = adj m c :=
  congrArg (arr2 (a := 10000) (b := 10000)) ((keep0_main_arg1 m c).trans <| host1_main_arg1 m c)
theorem tw_at2 (hs : SweepLeaves m) (c : Dev nD) : arr2 (a := 10000) (b := 32) (Run.V2 half0 m c main_v1_0) = both (adj m c) (xs m c) (w1 m c) (w2 m c) (w3 m c) :=
  funext fun r => funext fun q => tw_B2 m hs c r q
theorem mv_at2 (hs : SweepLeaves m) (c : Dev nD) : arr2 (a := 10000) (b := 32) (Run.V2 half0 m c main_v1_1)
    = above (adj m c) (both (adj m c) (xs m c) (w1 m c) (w2 m c) (w3 m c)) :=
  funext fun r => funext fun q => mv_B2 m hs c r q

theorem adj_at3 (c : Dev nD) : arr2 (a := 10000) (b := 10000) (Run.V3 half0 half1 m c main_arg1) = adj m c :=
  congrArg (arr2 (a := 10000) (b := 10000)) ((keep1_main_arg1 m c).trans <| (keep0_main_arg1 m c).trans <| host1_main_arg1 m c)
theorem tw_at3 (hs : SweepLeaves m) (c : Dev nD) : arr2 (a := 10000) (b := 32) (Run.V3 half0 half1 m c main_v1_0) = both (adj m c) (xs m c) (w1 m c) (w2 m c) (w3 m c) :=
  (congrArg (arr2 (a := 10000) (b := 32)) (keep1_main_v1_0 m c)).trans (tw_at2 m hs c)
theorem mv_at3 (hs : SweepLeaves m) (c : Dev nD) : arr2 (a := 10000) (b := 32) (Run.V3 half0 half1 m c main_v1_1)
    = above (adj m c) (both (adj m c) (xs m c) (w1 m c) (w2 m c) (w3 m c)) :=
  (congrArg (arr2 (a := 10000) (b := 32)) (keep1_main_v1_1 m c)).trans (mv_at2 m hs c)

theorem adj_at4 (c : Dev nD) : arr2 (a := 10000) (b := 10000) (Run.V4 half0 half1 half2 m c main_arg1) = adj m c :=
  congrArg (arr2 (a := 10000) (b := 10000)) ((keep2_main_arg1 m c).trans <| (keep1_main_arg1 m c).trans <| (keep0_main_arg1 m c).trans <| host1_main_arg1 m c)
theorem tw_at4 (hs : SweepLeaves m) (c : Dev nD) : arr2 (a := 10000) (b := 32) (Run.V4 half0 half1 half2 m c main_v1_0) = both (adj m c) (xs m c) (w1 m c) (w2 m c) (w3 m c) :=
  (congrArg (arr2 (a := 10000) (b := 32)) (keep2_main_v1_0 m c)).trans (tw_at3 m hs c)
theorem mv_at4 (hs : SweepLeaves m) (c : Dev nD) : arr2 (a := 10000) (b := 32) (Run.V4 half0 half1 half2 m c main_v1_1)
    = above (adj m c) (both (adj m c) (xs m c) (w1 m c) (w2 m c) (w3 m c)) :=
  (congrArg (arr2 (a := 10000) (b := 32)) (keep2_main_v1_1 m c)).trans (mv_at3 m hs c)

theorem adj_at5 (c : Dev nD) : arr2 (a := 10000) (b := 10000) (Run.V5 half0 half1 half2 half3 m c main_arg1) = adj m c :=
  congrArg (arr2 (a := 10000) (b := 10000)) ((keep3_main_arg1 m c).trans <| (keep2_main_arg1 m c).trans <| (keep1_main_arg1 m c).trans <| (keep0_main_arg1 m c).trans <| host1_main_arg1 m c)
theorem tw_at5 (hs : SweepLeaves m) (c : Dev nD) : arr2 (a := 10000) (b := 32) (Run.V5 half0 half1 half2 half3 m c main_v1_0) = both (adj m c) (xs m c) (w1 m c) (w2 m c) (w3 m c) :=
  (congrArg (arr2 (a := 10000) (b := 32)) (keep3_main_v1_0 m c)).trans (tw_at4 m hs c)
theorem mv_at5 (hs : SweepLeaves m) (c : Dev nD) : arr2 (a := 10000) (b := 32) (Run.V5 half0 half1 half2 half3 m c main_v1_1)
    = above (adj m c) (both (adj m c) (xs m c) (w1 m c) (w2 m c) (w3 m c)) :=
  (congrArg (arr2 (a := 10000) (b := 32)) (keep3_main_v1_1 m c)).trans (mv_at4 m hs c)

/-! ## The four row bands of the mean and of the log-variance -/

/-- Rows 0 to 2399 of the mean, as the first prefix-panel call leaves them. -/
theorem class1_mean (hs : SweepLeaves m) (c : Dev nD) (p : Fin 2400) (q : Fin 16) :
    (B3 m c (Proc.devRef .tc main_v2_0) : S2400x16.Idx → EReal) (ix2 p q)
      = head (adj m c) (xs m c) (w1 m c) (w2 m c) ⟨p.val, by have := p.isLt; omega⟩ q := by
  rw [class1_v2_0, Class1Value.final3,
    Class1Value.meanPart_apply (Run.V2 half0 m) c (ix2 p q) ⟨p.val, by have := p.isLt; omega⟩ ⟨q.val, by have := q.isLt; omega⟩
      (by show p.val = 0 * 400 + p.val; omega) rfl]
  exact row_mean (adj m c) (xs m c) (w1 m c) (w2 m c) (w3 m c) (adj_at2 m c) (tw_at2 m hs c) (mv_at2 m hs c) _ q _ rfl 2432 (by norm_num)
    (by show ((p.val) / 400 + 1) * 400 ≤ 2432; have := p.isLt; omega)
theorem rows1_mean (hs : SweepLeaves m) (c : Dev nD) (p : Fin 2400) (q : Fin 16) :
    (B6 m c (Proc.devRef .tc main_v2_0) : S2400x16.Idx → EReal) (ix2 p q)
      = head (adj m c) (xs m c) (w1 m c) (w2 m c) ⟨p.val, by have := p.isLt; omega⟩ q :=
  (congrFun (keep4_main_v2_0 m c) (ix2 p q)).trans <| (congrFun (keep3_main_v2_0 m c) (ix2 p q)).trans <| (congrFun (keep2_main_v2_0 m c) (ix2 p q)).trans <| class1_mean m hs c p q

/-- Rows 0 to 2399 of the log-variance, as the first prefix-panel call leaves them. -/
theorem class1_logvar (hs : SweepLeaves m) (c : Dev nD) (p : Fin 2400) (q : Fin 16) :
    (B3 m c (Proc.devRef .tc main_v2_1) : S2400x16.Idx → EReal) (ix2 p q)
      = head (adj m c) (xs m c) (w1 m c) (w3 m c) ⟨p.val, by have := p.isLt; omega⟩ q := by
  rw [class1_v2_1, Class1Value.final4,
    Class1Value.logvarPart_apply (Run.V2 half0 m) c (ix2 p q) ⟨p.val, by have := p.isLt; omega⟩ ⟨q.val + 16, by have := q.isLt; omega⟩
      (by show p.val = 0 * 400 + p.val; omega) rfl]
  exact row_logvar (adj m c) (xs m c) (w1 m c) (w2 m c) (w3 m c) (adj_at2 m c) (tw_at2 m hs c) (mv_at2 m hs c) _ q _ rfl 2432 (by norm_num)
    (by show ((p.val) / 400 + 1) * 400 ≤ 2432; have := p.isLt; omega)
theorem rows1_logvar (hs : SweepLeaves m) (c : Dev nD) (p : Fin 2400) (q : Fin 16) :
    (B6 m c (Proc.devRef .tc main_v2_1) : S2400x16.Idx → EReal) (ix2 p q)
      = head (adj m c) (xs m c) (w1 m c) (w3 m c) ⟨p.val, by have := p.isLt; omega⟩ q :=
  (congrFun (keep4_main_v2_1 m c) (ix2 p q)).trans <| (congrFun (keep3_main_v2_1 m c) (ix2 p q)).trans <| (congrFun (keep2_main_v2_1 m c) (ix2 p q)).trans <| class1_logvar m hs c p q

/-- Rows 2400 to 4799 of the mean, as the second prefix-panel call leaves them. -/
theorem class2_mean (hs : SweepLeaves m) (c : Dev nD) (p : Fin 2400) (q : Fin 16) :
    (B4 m c (Proc.devRef .tc main_v3_0) : S2400x16.Idx → EReal) (ix2 p q)
      = head (adj m c) (xs m c) (w1 m c) (w2 m c) ⟨2400 + p.val, by have := p.isLt; omega⟩ q := by
  rw [class2_v3_0, Class2Value.final3,
    Class2Value.meanPart_apply (Run.V3 half0 half1 m) c (ix2 p q) ⟨2400 + p.val, by have := p.isLt; omega⟩ ⟨q.val, by have := q.isLt; omega⟩
      (by show 2400 + p.val = 6 * 400 + p.val; omega) rfl]
  exact row_mean (adj m c) (xs m c) (w1 m c) (w2 m c) (w3 m c) (adj_at3 m c) (tw_at3 m hs c) (mv_at3 m hs c) _ q _ rfl 4864 (by norm_num)
    (by show ((2400 + p.val) / 400 + 1) * 400 ≤ 4864; have := p.isLt; omega)
theorem rows2_mean (hs : SweepLeaves m) (c : Dev nD) (p : Fin 2400) (q : Fin 16) :
    (B6 m c (Proc.devRef .tc main_v3_0) : S2400x16.Idx → EReal) (ix2 p q)
      = head (adj m c) (xs m c) (w1 m c) (w2 m c) ⟨2400 + p.val, by have := p.isLt; omega⟩ q :=
  (congrFun (keep4_main_v3_0 m c) (ix2 p q)).trans <| (congrFun (keep3_main_v3_0 m c) (ix2 p q)).trans <| class2_mean m hs c p q

/-- Rows 2400 to 4799 of the log-variance, as the second prefix-panel call leaves them. -/
theorem class2_logvar (hs : SweepLeaves m) (c : Dev nD) (p : Fin 2400) (q : Fin 16) :
    (B4 m c (Proc.devRef .tc main_v3_1) : S2400x16.Idx → EReal) (ix2 p q)
      = head (adj m c) (xs m c) (w1 m c) (w3 m c) ⟨2400 + p.val, by have := p.isLt; omega⟩ q := by
  rw [class2_v3_1, Class2Value.final4,
    Class2Value.logvarPart_apply (Run.V3 half0 half1 m) c (ix2 p q) ⟨2400 + p.val, by have := p.isLt; omega⟩ ⟨q.val + 16, by have := q.isLt; omega⟩
      (by show 2400 + p.val = 6 * 400 + p.val; omega) rfl]
  exact row_logvar (adj m c) (xs m c) (w1 m c) (w2 m c) (w3 m c) (adj_at3 m c) (tw_at3 m hs c) (mv_at3 m hs c) _ q _ rfl 4864 (by norm_num)
    (by show ((2400 + p.val) / 400 + 1) * 400 ≤ 4864; have := p.isLt; omega)
theorem rows2_logvar (hs : SweepLeaves m) (c : Dev nD) (p : Fin 2400) (q : Fin 16) :
    (B6 m c (Proc.devRef .tc main_v3_1) : S2400x16.Idx → EReal) (ix2 p q)
      = head (adj m c) (xs m c) (w1 m c) (w3 m c) ⟨2400 + p.val, by have := p.isLt; omega⟩ q :=
  (congrFun (keep4_main_v3_1 m c) (ix2 p q)).trans <| (congrFun (keep3_main_v3_1 m c) (ix2 p q)).trans <| class2_logvar m hs c p q

/-- Rows 4800 to 7199 of the mean, as the third prefix-panel call leaves them. -/
theorem class3_mean (hs : SweepLeaves m) (c : Dev nD) (p : Fin 2400) (q : Fin 16) :
    (B5 m c (Proc.devRef .tc main_v4_0) : S2400x16.Idx → EReal) (ix2 p q)
      = head (adj m c) (xs m c) (w1 m c) (w2 m c) ⟨4800 + p.val, by have := p.isLt; omega⟩ q := by
  rw [class3_v4_0, Class3Value.final3,
    Class3Value.meanPart_apply (Run.V4 half0 half1 half2 m) c (ix2 p q) ⟨4800 + p.val, by have := p.isLt; omega⟩ ⟨q.val, by have := q.isLt; omega⟩
      (by show 4800 + p.val = 12 * 400 + p.val; omega) rfl]
  exact row_mean (adj m c) (xs m c) (w1 m c) (w2 m c) (w3 m c) (adj_at4 m c) (tw_at4 m hs c) (mv_at4 m hs c) _ q _ rfl 7296 (by norm_num)
    (by show ((4800 + p.val) / 400 + 1) * 400 ≤ 7296; have := p.isLt; omega)
theorem rows3_mean (hs : SweepLeaves m) (c : Dev nD) (p : Fin 2400) (q : Fin 16) :
    (B6 m c (Proc.devRef .tc main_v4_0) : S2400x16.Idx → EReal) (ix2 p q)
      = head (adj m c) (xs m c) (w1 m c) (w2 m c) ⟨4800 + p.val, by have := p.isLt; omega⟩ q :=
  (congrFun (keep4_main_v4_0 m c) (ix2 p q)).trans <| class3_mean m hs c p q

/-- Rows 4800 to 7199 of the log-variance, as the third prefix-panel call leaves them. -/
theorem class3_logvar (hs : SweepLeaves m) (c : Dev nD) (p : Fin 2400) (q : Fin 16) :
    (B5 m c (Proc.devRef .tc main_v4_1) : S2400x16.Idx → EReal) (ix2 p q)
      = head (adj m c) (xs m c) (w1 m c) (w3 m c) ⟨4800 + p.val, by have := p.isLt; omega⟩ q := by
  rw [class3_v4_1, Class3Value.final4,
    Class3Value.logvarPart_apply (Run.V4 half0 half1 half2 m) c (ix2 p q) ⟨4800 + p.val, by have := p.isLt; omega⟩ ⟨q.val + 16, by have := q.isLt; omega⟩
      (by show 4800 + p.val = 12 * 400 + p.val; omega) rfl]
  exact row_logvar (adj m c) (xs m c) (w1 m c) (w2 m c) (w3 m c) (adj_at4 m c) (tw_at4 m hs c) (mv_at4 m hs c) _ q _ rfl 7296 (by norm_num)
    (by show ((4800 + p.val) / 400 + 1) * 400 ≤ 7296; have := p.isLt; omega)
theorem rows3_logvar (hs : SweepLeaves m) (c : Dev nD) (p : Fin 2400) (q : Fin 16) :
    (B6 m c (Proc.devRef .tc main_v4_1) : S2400x16.Idx → EReal) (ix2 p q)
      = head (adj m c) (xs m c) (w1 m c) (w3 m c) ⟨4800 + p.val, by have := p.isLt; omega⟩ q :=
  (congrFun (keep4_main_v4_1 m c) (ix2 p q)).trans <| class3_logvar m hs c p q

/-- Rows 7200 to 9999 of the mean, as the fourth prefix-panel call leaves them. -/
theorem class4_mean (hs : SweepLeaves m) (c : Dev nD) (p : Fin 2800) (q : Fin 16) :
    (B6 m c (Proc.devRef .tc main_v5_0) : S2800x16.Idx → EReal) (ix2 p q)
      = head (adj m c) (xs m c) (w1 m c) (w2 m c) ⟨7200 + p.val, by have := p.isLt; omega⟩ q := by
  rw [class4_v5_0, Class4Value.final3,
    Class4Value.meanPart_apply (Run.V5 half0 half1 half2 half3 m) c (ix2 p q) ⟨7200 + p.val, by have := p.isLt; omega⟩ ⟨q.val, by have := q.isLt; omega⟩
      (by show 7200 + p.val = 18 * 400 + p.val; omega) rfl]
  exact row_mean (adj m c) (xs m c) (w1 m c) (w2 m c) (w3 m c) (adj_at5 m c) (tw_at5 m hs c) (mv_at5 m hs c) _ q _ rfl 10000 (le_refl _)
    (by show ((7200 + p.val) / 400 + 1) * 400 ≤ 10000; have := p.isLt; omega)

/-- Rows 7200 to 9999 of the log-variance, as the fourth prefix-panel call leaves them. -/
theorem class4_logvar (hs : SweepLeaves m) (c : Dev nD) (p : Fin 2800) (q : Fin 16) :
    (B6 m c (Proc.devRef .tc main_v5_1) : S2800x16.Idx → EReal) (ix2 p q)
      = head (adj m c) (xs m c) (w1 m c) (w3 m c) ⟨7200 + p.val, by have := p.isLt; omega⟩ q := by
  rw [class4_v5_1, Class4Value.final4,
    Class4Value.logvarPart_apply (Run.V5 half0 half1 half2 half3 m) c (ix2 p q) ⟨7200 + p.val, by have := p.isLt; omega⟩ ⟨q.val + 16, by have := q.isLt; omega⟩
      (by show 7200 + p.val = 18 * 400 + p.val; omega) rfl]
  exact row_logvar (adj m c) (xs m c) (w1 m c) (w2 m c) (w3 m c) (adj_at5 m c) (tw_at5 m hs c) (mv_at5 m hs c) _ q _ rfl 10000 (le_refl _)
    (by show ((7200 + p.val) / 400 + 1) * 400 ≤ 10000; have := p.isLt; omega)

/-! ## The stacked mean and log-variance, and the three results -/

/-- The stacked mean, at the decoder's entry. -/
theorem mean_B7 (hs : SweepLeaves m) (c : Dev nD) : (B7 m c (Proc.devRef .tc main_v6) : S10000x16.Idx → EReal)
    = fun i => head (adj m c) (xs m c) (w1 m c) (w2 m c) (i 0) (i 1) := by
  rw [stage_v6]
  exact stacked_eq (head (adj m c) (xs m c) (w1 m c) (w2 m c)) _ _ _ _ (rows1_mean m hs c) (rows2_mean m hs c) (rows3_mean m hs c)
    (class4_mean m hs c) _

/-- The stacked log-variance. -/
theorem logvar_B7 (hs : SweepLeaves m) (c : Dev nD) : (B7 m c (Proc.devRef .tc main_v7) : S10000x16.Idx → EReal)
    = fun i => head (adj m c) (xs m c) (w1 m c) (w3 m c) (i 0) (i 1) := by
  rw [stage_v7]
  exact stacked_eq (head (adj m c) (xs m c) (w1 m c) (w3 m c)) _ _ _ _ (rows1_logvar m hs c) (rows2_logvar m hs c) (rows3_logvar m hs c)
    (class4_logvar m hs c) _

/-- The mean at the end of the run. -/
theorem mean_end_of (hs : SweepLeaves m) (c : Dev nD) : (B8 m c (Proc.devRef .tc main_v6) : S10000x16.Idx → EReal)
    = fun i => head (adj m c) (xs m c) (w1 m c) (w2 m c) (i 0) (i 1) :=
  (keep5_main_v6 m c).trans (mean_B7 m hs c)

/-- The log-variance at the end of the run. -/
theorem logvar_end_of (hs : SweepLeaves m) (c : Dev nD) : (B8 m c (Proc.devRef .tc main_v7) : S10000x16.Idx → EReal)
    = fun i => head (adj m c) (xs m c) (w1 m c) (w3 m c) (i 0) (i 1) :=
  (keep5_main_v7 m c).trans (logvar_B7 m hs c)

/-- The decoded matrix at the end of the run. -/
theorem decoded_end_of (hs : SweepLeaves m) (c : Dev nD) : (B8 m c (Proc.devRef .tc main_v9) : S10000x10000.Idx → EReal)
    = fun i => decoded (adj m c) (xs m c) (w1 m c) (w2 m c) (i 0) (i 1) := by
  rw [decoder_v9, DecoderValue.decoded_array_eq]
  funext i
  show ∑ k : Fin 16, arr2 (a := 10000) (b := 16) (B7 m c (Proc.devRef .tc main_v6)) (i 0) k
      * arr2 (a := 16) (b := 10000) (B7 m c (Proc.devRef .tc main_v8)) k (i 1) = _
  exact inner_eq _ _ (head (adj m c) (xs m c) (w1 m c) (w2 m c)) (fun r k => congrFun (mean_B7 m hs c) (ix2 r k))
    (fun k r => by rw [stage_v8]; exact Cert.Layout.transposed_apply _ _ k r) (i 0) (i 1)

/-! ## The sweep's arrays, and the results without hypothesis -/

/-- The sweep leaves what `SweepLeaves` says. -/
theorem sweepLeaves : SweepLeaves m := fun c =>
  ⟨fun i => SweepValue.tw_array (Run.V1 m) c i, fun i => SweepValue.mv_array (Run.V1 m) c i⟩

/-- The mean at the end of the run is the specification's head with `W2`. -/
theorem mean_end (c : Dev nD) : (B8 m c (Proc.devRef .tc main_v6) : S10000x16.Idx → EReal)
    = fun i => head (arr2 (m ((c : Thread nD τ).loc main_arg1))) (arr2 (m ((c : Thread nD τ).loc main_arg0))) (arr2 (m ((c : Thread nD τ).loc main_arg2)))
        (arr2 (m ((c : Thread nD τ).loc main_arg3))) (i 0) (i 1) :=
  mean_end_of m (sweepLeaves m) c

/-- The log-variance at the end of the run is the specification's head with `W3`. -/
theorem logvar_end (c : Dev nD) : (B8 m c (Proc.devRef .tc main_v7) : S10000x16.Idx → EReal)
    = fun i => head (arr2 (m ((c : Thread nD τ).loc main_arg1))) (arr2 (m ((c : Thread nD τ).loc main_arg0))) (arr2 (m ((c : Thread nD τ).loc main_arg2)))
        (arr2 (m ((c : Thread nD τ).loc main_arg4))) (i 0) (i 1) :=
  logvar_end_of m (sweepLeaves m) c

/-- The decoded matrix at the end of the run is the specification's table of inner products of the rows of the mean. -/
theorem decoded_end (c : Dev nD) : (B8 m c (Proc.devRef .tc main_v9) : S10000x10000.Idx → EReal)
    = fun i => decoded (arr2 (m ((c : Thread nD τ).loc main_arg1))) (arr2 (m ((c : Thread nD τ).loc main_arg0))) (arr2 (m ((c : Thread nD τ).loc main_arg2)))
        (arr2 (m ((c : Thread nD τ).loc main_arg3))) (i 0) (i 1) :=
  decoded_end_of m (sweepLeaves m) c

end Cert.KernelIdeal.EndValues

end
-- ==== Proof.RefValue.lean ====
/-
  The reference's three results, read index by index, are the specification's functions of the argument arrays.

  Each stage of the reference is read at an index: a matrix product is the finite sum over the contracted
  coordinate, the positive part is the maximum with the zero constant, and the transpose swaps the two
  coordinates. Chaining the stages gives the hidden layer, the two heads and the decoder of the specification.
-/
import proofs.«162566_g43224550868076_cont_8to1_b_1602_24_alg».proof.Proof.Gen.ReferenceIdeal.Read
import proofs.«162566_g43224550868076_cont_8to1_b_1602_24_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Cert.Spec
open Idealize.ShloMosaic Idealize.ShloMosaic.ValueIdx Idealize.ShloMosaic.StableHlo

/-! ## The index maps of the products, at coordinates

The left operand of a product is read at (row of the result, contracted coordinate), the right operand at
(contracted coordinate, column of the result). -/

theorem lidx0 (a : Fin 10000) (b : Fin 32) (k : Fin 128) : lidx_main_v0 (ix2 a b) k = ix2 a k :=
  funext fun d => Fin.ext (by match d with | ⟨0, _⟩ => rfl | ⟨1, _⟩ => rfl)
theorem ridx0 (a : Fin 10000) (b : Fin 32) (k : Fin 128) : ridx_main_v0 (ix2 a b) k = ix2 k b :=
  funext fun d => Fin.ext (by match d with | ⟨0, _⟩ => rfl | ⟨1, _⟩ => rfl)
theorem lidx1 (a : Fin 10000) (b : Fin 32) (k : Fin 10000) : lidx_main_v1 (ix2 a b) k = ix2 a k :=
  funext fun d => Fin.ext (by match d with | ⟨0, _⟩ => rfl | ⟨1, _⟩ => rfl)
theorem ridx1 (a : Fin 10000) (b : Fin 32) (k : Fin 10000) : ridx_main_v1 (ix2 a b) k = ix2 k b :=
  funext fun d => Fin.ext (by match d with | ⟨0, _⟩ => rfl | ⟨1, _⟩ => rfl)
theorem lidx3 (a : Fin 10000) (b : Fin 16) (k : Fin 32) : lidx_main_v3 (ix2 a b) k = ix2 a k :=
  funext fun d => Fin.ext (by match d with | ⟨0, _⟩ => rfl | ⟨1, _⟩ => rfl)
theorem ridx3 (a : Fin 10000) (b : Fin 16) (k : Fin 32) : ridx_main_v3 (ix2 a b) k = ix2 k b :=
  funext fun d => Fin.ext (by match d with | ⟨0, _⟩ => rfl | ⟨1, _⟩ => rfl)
theorem lidx4 (a : Fin 10000) (b : Fin 16) (k : Fin 10000) : lidx_main_v4 (ix2 a b) k = ix2 a k :=
  funext fun d => Fin.ext (by match d with | ⟨0, _⟩ => rfl | ⟨1, _⟩ => rfl)
theorem ridx4 (a : Fin 10000) (b : Fin 16) (k : Fin 10000) : ridx_main_v4 (ix2 a b) k = ix2 k b :=
  funext fun d => Fin.ext (by match d with | ⟨0, _⟩ => rfl | ⟨1, _⟩ => rfl)
theorem lidx5 (a : Fin 10000) (b : Fin 16) (k : Fin 32) : lidx_main_v5 (ix2 a b) k = ix2 a k :=
  funext fun d => Fin.ext (by match d with | ⟨0, _⟩ => rfl | ⟨1, _⟩ => rfl)
theorem ridx5 (a : Fin 10000) (b : Fin 16) (k : Fin 32) : ridx_main_v5 (ix2 a b) k = ix2 k b :=
  funext fun d => Fin.ext (by match d with | ⟨0, _⟩ => rfl | ⟨1, _⟩ => rfl)
theorem lidx6 (a : Fin 10000) (b : Fin 16) (k : Fin 10000) : lidx_main_v6 (ix2 a b) k = ix2 a k :=
  funext fun d => Fin.ext (by match d with | ⟨0, _⟩ => rfl | ⟨1, _⟩ => rfl)
theorem ridx6 (a : Fin 10000) (b : Fin 16) (k : Fin 10000) : ridx_main_v6 (ix2 a b) k = ix2 k b :=
  funext fun d => Fin.ext (by match d with | ⟨0, _⟩ => rfl | ⟨1, _⟩ => rfl)
theorem lidx8 (a : Fin 10000) (b : Fin 10000) (k : Fin 16) : lidx_main_v8 (ix2 a b) k = ix2 a k :=
  funext fun d => Fin.ext (by match d with | ⟨0, _⟩ => rfl | ⟨1, _⟩ => rfl)
theorem ridx8 (a : Fin 10000) (b : Fin 10000) (k : Fin 16) : ridx_main_v8 (ix2 a b) k = ix2 k b :=
  funext fun d => Fin.ext (by match d with | ⟨0, _⟩ => rfl | ⟨1, _⟩ => rfl)
theorem idx7 (a : Fin 16) (b : Fin 10000) : idx_main_v7 (ix2 a b) = ix2 b a :=
  funext fun d => Fin.ext (by match d with | ⟨0, _⟩ => rfl | ⟨1, _⟩ => rfl)

/-! ## The stages at coordinates -/

/-- The first product, `x · W1`. -/
theorem xw1_apply (x0 : (⟨S10000x128, .f32⟩ : BufTy).Contents (Elt Ideal)) (x2 : (⟨S128x32, .f32⟩ : BufTy).Contents (Elt Ideal)) (a : Fin 10000) (b : Fin 32) :
    val_main_v0 (F := Ideal) x0 x2 (ix2 a b) = mm (arr2 x0) (arr2 x2) a b := by
  rw [val_main_v0_apply, mm_apply]
  refine Finset.sum_congr rfl fun k _ => ?_
  rw [lidx0, ridx0]
  rfl

/-- The second product, `adj · (x · W1)`. -/
theorem axw1_apply (x0 : (⟨S10000x128, .f32⟩ : BufTy).Contents (Elt Ideal)) (x1 : (⟨S10000x10000, .f32⟩ : BufTy).Contents (Elt Ideal)) (x2 : (⟨S128x32, .f32⟩ : BufTy).Contents (Elt Ideal)) (a : Fin 10000) (b : Fin 32) :
    val_main_v1 (F := Ideal) x0 x1 x2 (ix2 a b) = mm (arr2 x1) (mm (arr2 x0) (arr2 x2)) a b := by
  rw [val_main_v1_apply, mm_apply]
  refine Finset.sum_congr rfl fun k _ => ?_
  rw [lidx1, ridx1, xw1_apply]
  rfl

/-- The broadcast zero constant is zero at every index. -/
theorem zero_apply (j : S10000x32.Idx) : val_main_call0_v0 (F := Ideal) j = (0 : EReal) := by
  rw [val_main_call0_v0_apply, val_main_call0_cst_apply, Ideal.ofBits_def, Ideal.ofBits_zero_f32]

/-- The hidden layer: the maximum of the second product and zero. -/
theorem hidden_apply (x0 : (⟨S10000x128, .f32⟩ : BufTy).Contents (Elt Ideal)) (x1 : (⟨S10000x10000, .f32⟩ : BufTy).Contents (Elt Ideal)) (x2 : (⟨S128x32, .f32⟩ : BufTy).Contents (Elt Ideal)) (a : Fin 10000) (b : Fin 32) :
    val_main_v2 (F := Ideal) x0 x1 x2 (ix2 a b) = hidden (arr2 x1) (arr2 x0) (arr2 x2) a b := by
  rw [val_main_v2_apply, axw1_apply, zero_apply, Ideal.maximumf_def]
  rfl

/-- `hidden · W2`. -/
theorem hw2_apply (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (a : Fin 10000) (b : Fin 16) :
    val_main_v3 (F := Ideal) x0 x1 x2 x3 (ix2 a b) = mm (hidden (arr2 x1) (arr2 x0) (arr2 x2)) (arr2 x3) a b := by
  rw [val_main_v3_apply, mm_apply]
  refine Finset.sum_congr rfl fun k _ => ?_
  rw [lidx3, ridx3, hidden_apply]
  rfl

/-- `hidden · W3`. -/
theorem hw3_apply (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x4 : (⟨S32x16, .f32⟩ : BufTy).Contents (Elt Ideal)) (a : Fin 10000) (b : Fin 16) :
    val_main_v5 (F := Ideal) x0 x1 x2 x4 (ix2 a b) = mm (hidden (arr2 x1) (arr2 x0) (arr2 x2)) (arr2 x4) a b := by
  rw [val_main_v5_apply, mm_apply]
  refine Finset.sum_congr rfl fun k _ => ?_
  rw [lidx5, ridx5, hidden_apply]
  rfl

/-- The mean, `adj · (hidden · W2)`. -/
theorem mean_apply (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (a : Fin 10000) (b : Fin 16) :
    val_main_v4 (F := Ideal) x0 x1 x2 x3 (ix2 a b) = head (arr2 x1) (arr2 x0) (arr2 x2) (arr2 x3) a b := by
  unfold head
  rw [val_main_v4_apply, mm_apply]
  refine Finset.sum_congr rfl fun k _ => ?_
  rw [lidx4, ridx4, hw2_apply]
  rfl

/-- The log-variance, `adj · (hidden · W3)`. -/
theorem logvar_apply (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x4 : (⟨S32x16, .f32⟩ : BufTy).Contents (Elt Ideal)) (a : Fin 10000) (b : Fin 16) :
    val_main_v6 (F := Ideal) x0 x1 x2 x4 (ix2 a b) = head (arr2 x1) (arr2 x0) (arr2 x2) (arr2 x4) a b := by
  unfold head
  rw [val_main_v6_apply, mm_apply]
  refine Finset.sum_congr rfl fun k _ => ?_
  rw [lidx6, ridx6, hw3_apply]
  rfl

/-- The decoder: entry `(a, b)` is the inner product of rows `a` and `b` of the mean. -/
theorem decoded_apply (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) (a b : Fin 10000) :
    val_main_v8 (F := Ideal) x0 x1 x2 x3 (ix2 a b) = decoded (arr2 x1) (arr2 x0) (arr2 x2) (arr2 x3) a b := by
  unfold decoded
  rw [val_main_v8_apply]
  refine Finset.sum_congr rfl fun k _ => ?_
  rw [lidx8, ridx8, val_main_v7_apply, idx7, mean_apply, mean_apply]

/-! ## The three results as functions of the index -/

/-- The reference's mean is the specification's head with `W2`. -/
theorem mean_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) :
    val_main_v4 (F := Ideal) x0 x1 x2 x3 = fun i => head (arr2 x1) (arr2 x0) (arr2 x2) (arr2 x3) (i 0) (i 1) := by
  funext i
  obtain ⟨a, b, rfl⟩ : ∃ (a : Fin 10000) (b : Fin 16), i = ix2 a b := ⟨i 0, i 1, eq_ix2 i⟩
  exact mean_apply x0 x1 x2 x3 a b

/-- The reference's log-variance is the specification's head with `W3`. -/
theorem logvar_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x4 : (⟨S32x16, .f32⟩ : BufTy).Contents (Elt Ideal)) :
    val_main_v6 (F := Ideal) x0 x1 x2 x4 = fun i => head (arr2 x1) (arr2 x0) (arr2 x2) (arr2 x4) (i 0) (i 1) := by
  funext i
  obtain ⟨a, b, rfl⟩ : ∃ (a : Fin 10000) (b : Fin 16), i = ix2 a b := ⟨i 0, i 1, eq_ix2 i⟩
  exact logvar_apply x0 x1 x2 x4 a b

/-- The reference's decoder output is the specification's table of inner products of the rows of the mean. -/
theorem decoded_eq (x0 : (⟨S10000x128, .f32⟩ : BufTy).Contents (Elt Ideal)) (x1 : (⟨S10000x10000, .f32⟩ : BufTy).Contents (Elt Ideal)) (x2 : (⟨S128x32, .f32⟩ : BufTy).Contents (Elt Ideal)) (x3 : (⟨S32x16, .f32⟩ : BufTy).Contents (Elt Ideal)) :
    val_main_v8 (F := Ideal) x0 x1 x2 x3 = fun i => decoded (arr2 x1) (arr2 x0) (arr2 x2) (arr2 x3) (i 0) (i 1) := by
  funext i
  obtain ⟨a, b, rfl⟩ : ∃ (a : Fin 10000) (b : Fin 10000), i = ix2 a b := ⟨i 0, i 1, eq_ix2 i⟩
  exact decoded_apply x0 x1 x2 x3 a b

end Cert.ReferenceIdeal.RefValue

end
-- ==== Proof.lean ====
/-
  The certificate's claim. The word-level program and its idealization each run to the end without a fault and leave the
  five argument arrays as launched: each is the same run of a host stretch, five kernel regions, a second host stretch and the
  decoder region, read at its own float instance. The reference is a straight line of host operations. The idealization
  rewrote nothing, so there is nothing to preserve. At the ideal instance the kernel program's three results are the
  reference's: the mean and the log-variance are, row by row, the sum over all columns j of adj[i, j] times a row of
  max(adj · (x · W1), 0) · [W2 | W3], which the kernel computes as the part over the row blocks above the diagonal block
  (accumulated during the sweep, the rows not yet computed standing at zero) plus the part over the columns up to the
  diagonal block's end (the prefix-panel calls, the rows beyond masked to zero); the two parts are one sum because
  addition of extended reals is commutative and associative and a product with zero is zero. The decoded matrix is the
  inner products of the rows of the mean on both sides.
-/
import proofs.«162566_g43224550868076_cont_8to1_b_1602_24_alg».proof.Defs
import proofs.«162566_g43224550868076_cont_8to1_b_1602_24_alg».proof.Proof.Gen.Kernel
import proofs.«162566_g43224550868076_cont_8to1_b_1602_24_alg».proof.Proof.Gen.KernelIdeal
import proofs.«162566_g43224550868076_cont_8to1_b_1602_24_alg».proof.Proof.Gen.ReferenceIdeal
import proofs.«162566_g43224550868076_cont_8to1_b_1602_24_alg».proof.Proof.Gen.Pre_finite_inputs
import proofs.«162566_g43224550868076_cont_8to1_b_1602_24_alg».proof.Proof.K.Whole
import proofs.«162566_g43224550868076_cont_8to1_b_1602_24_alg».proof.Proof.KI.Whole
import proofs.«162566_g43224550868076_cont_8to1_b_1602_24_alg».proof.Proof.KI.EndValues
import proofs.«162566_g43224550868076_cont_8to1_b_1602_24_alg».proof.Proof.RefValue
import Idealize.ShloMosaic.Adequacy
import Idealize.ShloMosaic.Init

noncomputable section

namespace Cert.Proof

open Idealize.ShloMosaic Idealize.ShloMosaic.TcCoe Idealize.SL.Sem

theorem frame_word : @Cert.frame_Kernel Cert.Kernel.Gen.facts Cert.Pre_finite_inputs.Gen.facts :=
  fun m ρ _ => Cert.Kernel.Whole.frame (F := Bits) m ρ

theorem frame_ideal : @Cert.frame_KernelIdeal Cert.KernelIdeal.Gen.facts Cert.Pre_finite_inputs.Gen.facts :=
  fun m ρ _ => Cert.KernelIdeal.Whole.frame (F := Ideal) m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Value.run (F := Ideal) m ρ)

theorem preserves : Cert.preserves_Kernel_KernelIdeal := trivial

/-- At the ideal instance both programs run to the end, and from memories agreeing on the arguments the kernel program's
    decoded matrix, mean and log-variance are the reference's: each side's result is the specification's function of the
    argument arrays (for the kernel program: what the last boundary of its run holds; for the reference: its generated run
    read index by index). -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Whole.B8 (F := Ideal) m c (Proc.devRef .tc Cert.KernelIdeal.main_v9),
    fun c => Cert.KernelIdeal.Whole.B8 (F := Ideal) m c (Proc.devRef .tc Cert.KernelIdeal.main_v6),
    fun c => Cert.KernelIdeal.Whole.B8 (F := Ideal) m c (Proc.devRef .tc Cert.KernelIdeal.main_v7), ?_, ?_⟩
  · exact (θ_run Cert.KernelIdeal.defs _ _).mono (fun r h c =>
      ⟨h c _ (Cert.KernelIdeal.Run.mem_uc Cert.KernelIdeal.main_v9 (by decide)),
       h c _ (Cert.KernelIdeal.Run.mem_uc Cert.KernelIdeal.main_v6 (by decide)),
       h c _ (Cert.KernelIdeal.Run.mem_uc Cert.KernelIdeal.main_v7 (by decide)),
       (h c _ (Cert.KernelIdeal.Run.mem_uc Cert.KernelIdeal.main_arg0 (by decide))).trans (Cert.KernelIdeal.Whole.end_main_arg0 m c),
       (h c _ (Cert.KernelIdeal.Run.mem_uc Cert.KernelIdeal.main_arg1 (by decide))).trans (Cert.KernelIdeal.Whole.end_main_arg1 m c),
       (h c _ (Cert.KernelIdeal.Run.mem_uc Cert.KernelIdeal.main_arg2 (by decide))).trans (Cert.KernelIdeal.Whole.end_main_arg2 m c),
       (h c _ (Cert.KernelIdeal.Run.mem_uc Cert.KernelIdeal.main_arg3 (by decide))).trans (Cert.KernelIdeal.Whole.end_main_arg3 m c),
       (h c _ (Cert.KernelIdeal.Run.mem_uc Cert.KernelIdeal.main_arg4 (by decide))).trans (Cert.KernelIdeal.Whole.end_main_arg4 m c)⟩)
      (Cert.KernelIdeal.Whole.run (F := Ideal) m ρ)
  · refine (θ_run Cert.ReferenceIdeal.defs _ _).mono (fun r h c => ⟨?_, ?_, ?_, (h c).2.2.2⟩)
      (Cert.ReferenceIdeal.Value.run (F := Ideal) m' ρ')
    · refine (h c).1.trans ?_
      rw [Cert.ReferenceIdeal.Read.val_main_v8_eq, Cert.ReferenceIdeal.RefValue.decoded_eq,
        (hagree c).1, (hagree c).2.1, (hagree c).2.2.1, (hagree c).2.2.2.1]
      exact (Cert.KernelIdeal.EndValues.decoded_end m c).symm
    · refine (h c).2.1.trans ?_
      rw [Cert.ReferenceIdeal.Read.val_main_v4_eq, Cert.ReferenceIdeal.RefValue.mean_eq,
        (hagree c).1, (hagree c).2.1, (hagree c).2.2.1, (hagree c).2.2.2.1]
      exact (Cert.KernelIdeal.EndValues.mean_end m c).symm
    · refine (h c).2.2.1.trans ?_
      rw [Cert.ReferenceIdeal.Read.val_main_v6_eq, Cert.ReferenceIdeal.RefValue.logvar_eq,
        (hagree c).1, (hagree c).2.1, (hagree c).2.2.1, (hagree c).2.2.2.2]
      exact (Cert.KernelIdeal.EndValues.logvar_end m c).symm

theorem claim : Cert.Claim :=
  ⟨Cert.Kernel.Gen.facts, Cert.KernelIdeal.Gen.facts, Cert.ReferenceIdeal.Gen.facts, Cert.Pre_finite_inputs.Gen.facts,
    frame_word, frame_ideal, frame_reference, preserves, algebraic⟩

end Cert.Proof

end
